-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x6 : Shape := ⟨2, ![128, 6]⟩
abbrev S6 : Shape := ⟨1, ![6]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part2 {F : FTy → Type} [FloatOps F] (main_arg9 : FVec F S128x6 .f32) (main_arg10 : FVec F S6 .f32) (main_v33 : IVec S_ 1) : IVec S_ 1 :=
  let main_v34 : FVec F S128x6 .f32 := Host.absf main_arg9
  let main_cst_12 : FVec F S_ .f32 := constant S_ .f32 0x7F800000#32
  let main_v35 : FVec F S128x6 .f32 := broadcastInDim S128x6 ![] bcast_S_S128x6 main_cst_12
  let main_v36 : IVec S128x6 1 := cmpf .olt main_v34 main_v35
  let main_c_13 : IVec S_ 1 := constantI S_ 1 1#1
  let main_v37 : IVec S_ 1 := (fun x v => Host.reduce IntOp.andi x v reducesTo_S128x6_S_d0_1 h_S_) main_v36 main_c_13
  let main_v38 : IVec S_ 1 := andi main_v33 main_v37
  let main_v39 : FVec F S6 .f32 := Host.absf main_arg10
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  main_v43

def fn_part1 {F : FTy → Type} [FloatOps F] (main_arg6 : FVec F S3x128 .f32) (main_arg7 : FVec F S128x128 .f32) (main_arg8 : FVec F S128 .f32) (main_arg9 : FVec F S128x6 .f32) (main_arg10 : FVec F S6 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128 .f32) (main_arg6 : FVec F S3x128 .f32) (main_arg7 : FVec F S128x128 .f32) (main_arg8 : FVec F S128 .f32) (main_arg9 : FVec F S128x6 .f32) (main_arg10 : FVec F S6 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128x128 : Shape := ⟨3, ![1, 128, 128]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S1000x128 : Shape := ⟨2, ![1000, 128]⟩
abbrev S1000 : Shape := ⟨1, ![1000]⟩
abbrev S1000x1 : Shape := ⟨2, ![1000, 1]⟩
abbrev S1x6 : Shape := ⟨2, ![1, 6]⟩
abbrev S1000x6 : Shape := ⟨2, ![1000, 6]⟩

abbrev nBuf : Space → Nat
  | .hbm => 151
  | .vmem => 91
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S128x128, .f32⟩
  | 8 => ⟨S128, .f32⟩
  | 9 => ⟨S128x6, .f32⟩
  | 10 => ⟨S6, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S50000x1, .f32⟩
  | 26 => ⟨S1x128x128, .f32⟩
  | 27 => ⟨S128x128, .f32⟩
  | 28 => ⟨S50000x128, .f32⟩
  | 29 => ⟨S50000x128, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S1x128, .f32⟩
  | 56 => ⟨S128, .f32⟩
  | 57 => ⟨S1x128, .f32⟩
  | 58 => ⟨S1x128, .f32⟩
  | 59 => ⟨S128, .f32⟩
  | 60 => ⟨S1x128, .f32⟩
  | 61 => ⟨S1x128x128, .f32⟩
  | 62 => ⟨S128x128, .f32⟩
  | 63 => ⟨S50000x128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S1x128, .f32⟩
  | 91 => ⟨S128, .f32⟩
  | 92 => ⟨S1x128, .f32⟩
  | 93 => ⟨S1x128, .f32⟩
  | 94 => ⟨S128, .f32⟩
  | 95 => ⟨S1x128, .f32⟩
  | 96 => ⟨S1x128x128, .f32⟩
  | 97 => ⟨S128x128, .f32⟩
  | 98 => ⟨S50000x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S1x128, .f32⟩
  | 118 => ⟨S_, .f32⟩
  | 119 => ⟨S1x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S_, .f32⟩
  | 5 => ⟨S1000x128, .f32⟩
  | 6 => ⟨S50000x1, .i32⟩
  | 7 => ⟨S1000x128, .f32⟩
  | 8 => ⟨S_, .f32⟩
  | 9 => ⟨S50000, .f32⟩
  | 10 => ⟨S_, .f32⟩
  | 11 => ⟨S1000, .f32⟩
  | 12 => ⟨S50000x1, .i32⟩
  | 13 => ⟨S1000, .f32⟩
  | 14 => ⟨S_, .f32⟩
  | 15 => ⟨S1000, .f32⟩
  | 16 => ⟨S1000, .f32⟩
  | 17 => ⟨S1000x1, .f32⟩
  | 18 => ⟨S1000x128, .f32⟩
  | 19 => ⟨S1000x128, .f32⟩
  | 20 => ⟨S1x128, .f32⟩
  | 21 => ⟨S1x6, .f32⟩
  | 22 => ⟨S1000x6, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S128x128, .f32⟩
  | .local _ .vmem, ⟨30, _⟩ => ⟨S5000x1, .f32⟩
  | .local _ .vmem, ⟨31, _⟩ => ⟨S5000x1, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .f32⟩
  | .local _ .vmem, ⟨41, _⟩ => ⟨S5000x1, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S128x128, .f32⟩
  | .local _ .vmem, ⟨57, _⟩ => ⟨S5000x1, .f32⟩
  | .local _ .vmem, ⟨58, _⟩ => ⟨S5000x1, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x1, .f32⟩
  | .local _ .vmem, ⟨68, _⟩ => ⟨S5000x1, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S1x128, .f32⟩
  | .local _ .vmem, ⟨73, _⟩ => ⟨S5000x128, .f32⟩
  | .local _ .vmem, ⟨74, _⟩ => ⟨S5000x128, .f32⟩
  | .local _ .vmem, ⟨75, _⟩ => ⟨S1x128, .f32⟩
  | .local _ .vmem, ⟨76, _⟩ => ⟨S1x128, .f32⟩
  | .local _ .vmem, ⟨77, _⟩ => ⟨S5000x128, .f32⟩
  | .local _ .vmem, ⟨78, _⟩ => ⟨S5000x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S1x128, .f32⟩
  | .local _ .vmem, ⟨83, _⟩ => ⟨S5000x128, .f32⟩
  | .local _ .vmem, ⟨84, _⟩ => ⟨S5000x128, .f32⟩
  | .local _ .vmem, ⟨85, _⟩ => ⟨S1000x128, .f32⟩
  | .local _ .vmem, ⟨86, _⟩ => ⟨S128x128, .f32⟩
  | .local _ .vmem, ⟨87, _⟩ => ⟨S1x128, .f32⟩
  | .local _ .vmem, ⟨88, _⟩ => ⟨S128x6, .f32⟩
  | .local _ .vmem, ⟨89, _⟩ => ⟨S1x6, .f32⟩
  | .local _ .vmem, ⟨90, _⟩ => ⟨S1000x6, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42_0 : Ref sig .tc := ⟨.hbm, 63, rfl⟩
abbrev main_v42_1 : Ref sig .tc := ⟨.hbm, 64, rfl⟩
abbrev main_c_6 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56_0 : Ref sig .tc := ⟨.hbm, 81, rfl⟩
abbrev main_v56_1 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70_0 : Ref sig .tc := ⟨.hbm, 98, rfl⟩
abbrev main_v70_1 : Ref sig .tc := ⟨.hbm, 99, rfl⟩
abbrev main_c_11 : Ref sig .tc := ⟨.hbm, 100, rfl⟩
abbrev main_v71 : Ref sig .tc := ⟨.hbm, 101, rfl⟩
abbrev main_v72 : Ref sig .tc := ⟨.hbm, 102, rfl⟩
abbrev main_c_12 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_13 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84_0 : Ref sig .tc := ⟨.hbm, 116, rfl⟩
abbrev main_v84_1 : Ref sig .tc := ⟨.hbm, 117, rfl⟩
abbrev main_cst_14 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_15 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_16 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_17 : Ref sig .tc := ⟨.hbm, 136, rfl⟩
abbrev main_v100 : Ref sig .tc := ⟨.hbm, 137, rfl⟩
abbrev main_cst_18 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_19 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc3_stg7_0 : Ref sig .tc := ⟨.vmem, 32, rfl⟩
abbrev cc3_stg7_1 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg4_1 : Ref sig .tc := ⟨.vmem, 44, rfl⟩
abbrev cc4_stg5_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg6_0 : Ref sig .tc := ⟨.vmem, 57, rfl⟩
abbrev cc6_stg6_1 : Ref sig .tc := ⟨.vmem, 58, rfl⟩
abbrev cc6_stg7_0 : Ref sig .tc := ⟨.vmem, 59, rfl⟩
abbrev cc6_stg7_1 : Ref sig .tc := ⟨.vmem, 60, rfl⟩
abbrev cc6_stg8_0 : Ref sig .tc := ⟨.vmem, 61, rfl⟩
abbrev cc6_stg8_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg2_1 : Ref sig .tc := ⟨.vmem, 68, rfl⟩
abbrev cc7_stg3_0 : Ref sig .tc := ⟨.vmem, 69, rfl⟩
abbrev cc7_stg4_0 : Ref sig .tc := ⟨.vmem, 70, rfl⟩
abbrev cc7_stg4_1 : Ref sig .tc := ⟨.vmem, 71, rfl⟩
abbrev cc7_stg5_0 : Ref sig .tc := ⟨.vmem, 72, rfl⟩
abbrev cc8_stg0_0 : Ref sig .tc := ⟨.vmem, 73, rfl⟩
abbrev cc8_stg0_1 : Ref sig .tc := ⟨.vmem, 74, rfl⟩
abbrev cc8_stg1_0 : Ref sig .tc := ⟨.vmem, 75, rfl⟩
abbrev cc8_stg2_0 : Ref sig .tc := ⟨.vmem, 76, rfl⟩
abbrev cc9_stg0_0 : Ref sig .tc := ⟨.vmem, 77, rfl⟩
abbrev cc9_stg0_1 : Ref sig .tc := ⟨.vmem, 78, rfl⟩
abbrev cc9_stg1_0 : Ref sig .tc := ⟨.vmem, 79, rfl⟩
abbrev cc9_stg2_0 : Ref sig .tc := ⟨.vmem, 80, rfl⟩
abbrev cc9_stg3_0 : Ref sig .tc := ⟨.vmem, 81, rfl⟩
abbrev cc9_stg4_0 : Ref sig .tc := ⟨.vmem, 82, rfl⟩
abbrev cc9_stg5_0 : Ref sig .tc := ⟨.vmem, 83, rfl⟩
abbrev cc9_stg5_1 : Ref sig .tc := ⟨.vmem, 84, rfl⟩
abbrev cc10_stg0_0 : Ref sig .tc := ⟨.vmem, 85, rfl⟩
abbrev cc10_stg1_0 : Ref sig .tc := ⟨.vmem, 86, rfl⟩
abbrev cc10_stg2_0 : Ref sig .tc := ⟨.vmem, 87, rfl⟩
abbrev cc10_stg3_0 : Ref sig .tc := ⟨.vmem, 88, rfl⟩
abbrev cc10_stg4_0 : Ref sig .tc := ⟨.vmem, 89, rfl⟩
abbrev cc10_stg5_0 : Ref sig .tc := ⟨.vmem, 90, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc3_sem7_0 : DmaSem sig := 32
abbrev cc3_sem7_1 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem4_0 : DmaSem sig := 43
abbrev cc4_sem4_1 : DmaSem sig := 44
abbrev cc4_sem5_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem5_0 : DmaSem sig := 56
abbrev cc6_sem6_0 : DmaSem sig := 57
abbrev cc6_sem6_1 : DmaSem sig := 58
abbrev cc6_sem7_0 : DmaSem sig := 59
abbrev cc6_sem7_1 : DmaSem sig := 60
abbrev cc6_sem8_0 : DmaSem sig := 61
abbrev cc6_sem8_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem2_1 : DmaSem sig := 68
abbrev cc7_sem3_0 : DmaSem sig := 69
abbrev cc7_sem4_0 : DmaSem sig := 70
abbrev cc7_sem4_1 : DmaSem sig := 71
abbrev cc7_sem5_0 : DmaSem sig := 72
abbrev cc8_sem0_0 : DmaSem sig := 73
abbrev cc8_sem0_1 : DmaSem sig := 74
abbrev cc8_sem1_0 : DmaSem sig := 75
abbrev cc8_sem2_0 : DmaSem sig := 76
abbrev cc9_sem0_0 : DmaSem sig := 77
abbrev cc9_sem0_1 : DmaSem sig := 78
abbrev cc9_sem1_0 : DmaSem sig := 79
abbrev cc9_sem2_0 : DmaSem sig := 80
abbrev cc9_sem3_0 : DmaSem sig := 81
abbrev cc9_sem4_0 : DmaSem sig := 82
abbrev cc9_sem5_0 : DmaSem sig := 83
abbrev cc9_sem5_1 : DmaSem sig := 84
abbrev cc10_sem0_0 : DmaSem sig := 85
abbrev cc10_sem1_0 : DmaSem sig := 86
abbrev cc10_sem2_0 : DmaSem sig := 87
abbrev cc10_sem3_0 : DmaSem sig := 88
abbrev cc10_sem4_0 : DmaSem sig := 89
abbrev cc10_sem5_0 : DmaSem sig := 90

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x1 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S5000x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S1000x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x6 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x6 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1000x6 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1000x128 : S_.BroadcastsInDim S1000x128 (![] : Fin 0 → Fin S1000x128.rank)
  bcast_S50000_S50000x1_0 : S50000.BroadcastsInDim S50000x1 (![0] : Fin 1 → Fin S50000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  shapeCasts_S6_S1x6 : S6.ShapeCasts S1x6
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  inb_S128x6_S128x6_0_0 : ∀ a, (![0, 0] : Fin 2 → Nat) a + S128x6.size a ≤ S128x6.size a
  h_S128x6 : 0 < S128x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S1000x6 : S1x6.Broadcasts S1000x6
  inb_S1000x6_S1000x6_0_0 : ∀ a, (![0, 0] : Fin 2 → Nat) a + S1000x6.size a ≤ S1000x6.size a
  h_S1000x6 : 0 < S1000x6.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S1000x128_S50000x1_S50000x128_1_0_0_1_wf : ScatterDims.WF S1000x128 S50000x1 S50000x128 [1] [0] [0] 1
  scatter_S1000_S50000x1_S50000_n_0_0_1_wf : ScatterDims.WF S1000 S50000x1 S50000 [] [0] [0] 1
  dot_S1000x128_S128x128_S1000x128_1_0_0_1_n_n_wf : DotDims.WF S1000x128 S128x128 S1000x128 [1] [0] [0] [1] [] []
  dot_S1000x128_S128x6_S1000x6_1_0_0_1_n_n_wf : DotDims.WF S1000x128 S128x6 S1000x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x1.size a ≤ S50000x1.size a
  hwx3_6 : ∀ i : grid3.Coords, EltTy.bits .f32 = 32 ∨ (Rect.block (s := S50000x1) S5000x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S50000x128.size a
  hwx3_8 : ∀ i : grid3.Coords, EltTy.bits .f32 = 32 ∨ (Rect.block (s := S50000x128) S5000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x1.size a ≤ S50000x1.size a
  hwx6_6 : ∀ i : grid6.Coords, EltTy.bits .f32 = 32 ∨ (Rect.block (s := S50000x1) S5000x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S50000x128.size a
  hwx6_7 : ∀ i : grid6.Coords, EltTy.bits .f32 = 32 ∨ (Rect.block (s := S50000x128) S5000x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S5000x128.size a ≤ S50000x128.size a
  hwx6_8 : ∀ i : grid6.Coords, EltTy.bits .f32 = 32 ∨ (Rect.block (s := S50000x128) S5000x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S1000x128.size a ≤ S1000x128.size a
  hwx10_0 : ∀ i : grid10.Coords, EltTy.bits .f32 = 32 ∨ (Rect.block (s := S1000x128) S1000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x6.size a ≤ S128x6.size a
  hwx10_3 : ∀ i : grid10.Coords, EltTy.bits .f32 = 32 ∨ (Rect.block (s := S128x6) S128x6.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x6.size a ≤ S1x6.size a
  hwx10_4 : ∀ i : grid10.Coords, EltTy.bits .f32 = 32 ∨ (Rect.block (s := S1x6) S1x6.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1000x6.size a ≤ S1000x6.size a
  hwx10_5 : ∀ i : grid10.Coords, EltTy.bits .f32 = 32 ∨ (Rect.block (s := S1000x6) S1000x6.size (cc10_transform_5 i) (hinb10_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x6_S1000x6_1_0_0_1_n_n : DotDims S1000x128 S128x6 S1000x6 where
  lhsContracting := [1]
  rhsContracting := [0]
  lhsNonContracting := [0]
  rhsNonContracting := [1]
  lhsBatch := []
  rhsBatch := []
  wf := dot_S1000x128_S128x6_S1000x6_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28_1) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v28_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v11) S5000x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v42_0) S5000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v42_1) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v52) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42_0) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v55) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v56_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v56_1) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v56_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S1x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v56_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v58) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v61) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v64) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v67) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v69) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v11) S5000x1.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v70_0) S5000x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v70_1) S5000x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v80) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v70_0) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v11) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v83) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v84_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v84_1) S1x128.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v84_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v86) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v87) S1x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v84_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v86) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v89) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v92) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v95) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v96) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v108) S1000x128.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg7) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v109) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg9) S128x6.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v110) S1x6.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v111) S1000x6.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128x128 : Shape := ⟨3, ![1, 128, 128]⟩
abbrev S800000x128 : Shape := ⟨2, ![800000, 128]⟩
abbrev S1x128 : Shape := ⟨2, ![1, 128]⟩
abbrev S1000x128 : Shape := ⟨2, ![1000, 128]⟩
abbrev S1000 : Shape := ⟨1, ![1000]⟩
abbrev S1000x1 : Shape := ⟨2, ![1000, 1]⟩
abbrev S1000x6 : Shape := ⟨2, ![1000, 6]⟩
abbrev S1x6 : Shape := ⟨2, ![1, 6]⟩

abbrev nBuf : Space → Nat
  | .hbm => 305
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S128x128, .f32⟩
  | 8 => ⟨S128, .f32⟩
  | 9 => ⟨S128x6, .f32⟩
  | 10 => ⟨S6, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S800000x1, .f32⟩
  | 45 => ⟨S50000, .f32⟩
  | 46 => ⟨S50000x1, .f32⟩
  | 47 => ⟨S1x128x128, .f32⟩
  | 48 => ⟨S128x128, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000x128, .f32⟩
  | 66 => ⟨S50000x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S_, .f32⟩
  | 76 => ⟨S128, .f32⟩
  | 77 => ⟨S128, .f32⟩
  | 78 => ⟨S_, .i32⟩
  | 79 => ⟨S_, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S50000x128, .f32⟩
  | 86 => ⟨S50000x128, .f32⟩
  | 87 => ⟨S50000x128, .f32⟩
  | 88 => ⟨S_, .f32⟩
  | 89 => ⟨S_, .f32⟩
  | 90 => ⟨S_, .f32⟩
  | 91 => ⟨S_, .f32⟩
  | 92 => ⟨S128, .f32⟩
  | 93 => ⟨S128, .f32⟩
  | 94 => ⟨S128, .f32⟩
  | 95 => ⟨S_, .f32⟩
  | 96 => ⟨S_, .i1⟩
  | 97 => ⟨S_, .f32⟩
  | 98 => ⟨S_, .f32⟩
  | 99 => ⟨S128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S128, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S1x128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S800000x128, .f32⟩
  | 9 => ⟨S800000x128, .f32⟩
  | 10 => ⟨S_, .f32⟩
  | 11 => ⟨S50000x128, .f32⟩
  | 12 => ⟨S800000x1, .i32⟩
  | 13 => ⟨S50000x128, .f32⟩
  | 14 => ⟨S50000x128, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S50000x128, .f32⟩
  | 35 => ⟨S50000x128, .f32⟩
  | 36 => ⟨S50000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S1x128x128, .f32⟩
  | 74 => ⟨S128x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S50000x128, .f32⟩
  | 92 => ⟨S50000x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S128, .f32⟩
  | 101 => ⟨S_, .f32⟩
  | 102 => ⟨S128, .f32⟩
  | 103 => ⟨S128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S50000x128, .f32⟩
  | 112 => ⟨S50000x128, .f32⟩
  | 113 => ⟨S50000x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S50000x128, .f32⟩

abbrev hbmTy0_2 (i : Nat) : BufTy := match i % 128 with
  | 0 => ⟨S50000x128, .f32⟩
  | 1 => ⟨S50000x128, .f32⟩
  | 2 => ⟨S_, .f32⟩
  | 3 => ⟨S128, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S1x128, .f32⟩
  | 10 => ⟨S128, .f32⟩
  | 11 => ⟨S1x128, .f32⟩
  | 12 => ⟨S50000x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S_, .f32⟩
  | 23 => ⟨S1000x128, .f32⟩
  | 24 => ⟨S50000x1, .i32⟩
  | 25 => ⟨S1000x128, .f32⟩
  | 26 => ⟨S_, .f32⟩
  | 27 => ⟨S50000, .f32⟩
  | 28 => ⟨S_, .f32⟩
  | 29 => ⟨S1000, .f32⟩
  | 30 => ⟨S50000x1, .i32⟩
  | 31 => ⟨S1000, .f32⟩
  | 32 => ⟨S_, .f32⟩
  | 33 => ⟨S1000, .f32⟩
  | 34 => ⟨S1000, .f32⟩
  | 35 => ⟨S1000x1, .f32⟩
  | 36 => ⟨S1000x128, .f32⟩
  | 37 => ⟨S1000x128, .f32⟩
  | 38 => ⟨S1000x128, .f32⟩
  | 39 => ⟨S1x128, .f32⟩
  | 40 => ⟨S1000x128, .f32⟩
  | 41 => ⟨S1000x128, .f32⟩
  | 42 => ⟨S_, .f32⟩
  | 43 => ⟨S1000x128, .f32⟩
  | 44 => ⟨S1000x128, .f32⟩
  | 45 => ⟨S1000x6, .f32⟩
  | 46 => ⟨S1x6, .f32⟩
  | 47 => ⟨S1000x6, .f32⟩
  | 48 => ⟨S1000x6, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_cst_0 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_cst_1 : Ref sig .tc := ⟨.hbm, 89, rfl⟩
abbrev main_call0_v8 : Ref sig .tc := ⟨.hbm, 90, rfl⟩
abbrev main_call0_cst_2 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_cst_3 : Ref sig .tc := ⟨.hbm, 95, rfl⟩
abbrev main_call0_v12 : Ref sig .tc := ⟨.hbm, 96, rfl⟩
abbrev main_call0_cst_4 : Ref sig .tc := ⟨.hbm, 97, rfl⟩
abbrev main_call0_call0_v0 : Ref sig .tc := ⟨.hbm, 98, rfl⟩
abbrev main_call0_call0_v1 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_11 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_call1_cst : Ref sig .tc := ⟨.hbm, 121, rfl⟩
abbrev main_call1_v0 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_c_12 : Ref sig .tc := ⟨.hbm, 127, rfl⟩
abbrev main_v79 : Ref sig .tc := ⟨.hbm, 128, rfl⟩
abbrev main_v80 : Ref sig .tc := ⟨.hbm, 129, rfl⟩
abbrev main_c_13 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_14 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_15 : Ref sig .tc := ⟨.hbm, 150, rfl⟩
abbrev main_v99 : Ref sig .tc := ⟨.hbm, 151, rfl⟩
abbrev main_cst_16 : Ref sig .tc := ⟨.hbm, 152, rfl⟩
abbrev main_v100 : Ref sig .tc := ⟨.hbm, 153, rfl⟩
abbrev main_v101 : Ref sig .tc := ⟨.hbm, 154, rfl⟩
abbrev main_c_17 : Ref sig .tc := ⟨.hbm, 155, rfl⟩
abbrev main_call2_cst : Ref sig .tc := ⟨.hbm, 156, rfl⟩
abbrev main_call2_v0 : Ref sig .tc := ⟨.hbm, 157, rfl⟩
abbrev main_call2_v1 : Ref sig .tc := ⟨.hbm, 158, rfl⟩
abbrev main_call2_cst_0 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_cst_1 : Ref sig .tc := ⟨.hbm, 166, rfl⟩
abbrev main_call2_v8 : Ref sig .tc := ⟨.hbm, 167, rfl⟩
abbrev main_call2_cst_2 : Ref sig .tc := ⟨.hbm, 168, rfl⟩
abbrev main_call2_v9 : Ref sig .tc := ⟨.hbm, 169, rfl⟩
abbrev main_call2_v10 : Ref sig .tc := ⟨.hbm, 170, rfl⟩
abbrev main_call2_v11 : Ref sig .tc := ⟨.hbm, 171, rfl⟩
abbrev main_call2_cst_3 : Ref sig .tc := ⟨.hbm, 172, rfl⟩
abbrev main_call2_v12 : Ref sig .tc := ⟨.hbm, 173, rfl⟩
abbrev main_call2_cst_4 : Ref sig .tc := ⟨.hbm, 174, rfl⟩
abbrev main_call2_call0_v0 : Ref sig .tc := ⟨.hbm, 175, rfl⟩
abbrev main_call2_call0_v1 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_cst_18 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_call3_cst : Ref sig .tc := ⟨.hbm, 198, rfl⟩
abbrev main_call3_v0 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_c_19 : Ref sig .tc := ⟨.hbm, 204, rfl⟩
abbrev main_v126 : Ref sig .tc := ⟨.hbm, 205, rfl⟩
abbrev main_v127 : Ref sig .tc := ⟨.hbm, 206, rfl⟩
abbrev main_c_20 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_cst_21 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_cst_22 : Ref sig .tc := ⟨.hbm, 227, rfl⟩
abbrev main_v146 : Ref sig .tc := ⟨.hbm, 228, rfl⟩
abbrev main_cst_23 : Ref sig .tc := ⟨.hbm, 229, rfl⟩
abbrev main_v147 : Ref sig .tc := ⟨.hbm, 230, rfl⟩
abbrev main_v148 : Ref sig .tc := ⟨.hbm, 231, rfl⟩
abbrev main_c_24 : Ref sig .tc := ⟨.hbm, 232, rfl⟩
abbrev main_call4_cst : Ref sig .tc := ⟨.hbm, 233, rfl⟩
abbrev main_call4_v0 : Ref sig .tc := ⟨.hbm, 234, rfl⟩
abbrev main_call4_v1 : Ref sig .tc := ⟨.hbm, 235, rfl⟩
abbrev main_call4_cst_0 : Ref sig .tc := ⟨.hbm, 236, rfl⟩
abbrev main_call4_v2 : Ref sig .tc := ⟨.hbm, 237, rfl⟩
abbrev main_call4_v3 : Ref sig .tc := ⟨.hbm, 238, rfl⟩
abbrev main_call4_v4 : Ref sig .tc := ⟨.hbm, 239, rfl⟩
abbrev main_call4_v5 : Ref sig .tc := ⟨.hbm, 240, rfl⟩
abbrev main_call4_v6 : Ref sig .tc := ⟨.hbm, 241, rfl⟩
abbrev main_call4_v7 : Ref sig .tc := ⟨.hbm, 242, rfl⟩
abbrev main_call4_cst_1 : Ref sig .tc := ⟨.hbm, 243, rfl⟩
abbrev main_call4_v8 : Ref sig .tc := ⟨.hbm, 244, rfl⟩
abbrev main_call4_cst_2 : Ref sig .tc := ⟨.hbm, 245, rfl⟩
abbrev main_call4_v9 : Ref sig .tc := ⟨.hbm, 246, rfl⟩
abbrev main_call4_v10 : Ref sig .tc := ⟨.hbm, 247, rfl⟩
abbrev main_call4_v11 : Ref sig .tc := ⟨.hbm, 248, rfl⟩
abbrev main_call4_cst_3 : Ref sig .tc := ⟨.hbm, 249, rfl⟩
abbrev main_call4_v12 : Ref sig .tc := ⟨.hbm, 250, rfl⟩
abbrev main_call4_cst_4 : Ref sig .tc := ⟨.hbm, 251, rfl⟩
abbrev main_call4_call0_v0 : Ref sig .tc := ⟨.hbm, 252, rfl⟩
abbrev main_call4_call0_v1 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_cst_25 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_call5_cst : Ref sig .tc := ⟨.hbm, 275, rfl⟩
abbrev main_call5_v0 : Ref sig .tc := ⟨.hbm, 276, rfl⟩
abbrev main_v169 : Ref sig .tc := ⟨.hbm, 277, rfl⟩
abbrev main_cst_26 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_27 : Ref sig .tc := ⟨.hbm, 282, rfl⟩
abbrev main_v173 : Ref sig .tc := ⟨.hbm, 283, rfl⟩
abbrev main_cst_28 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_cst_29 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_call6_cst : Ref sig .tc := ⟨.hbm, 298, rfl⟩
abbrev main_call6_v0 : Ref sig .tc := ⟨.hbm, 299, rfl⟩
abbrev main_v186 : Ref sig .tc := ⟨.hbm, 300, rfl⟩
abbrev main_v187 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S1000x128 : S_.BroadcastsInDim S1000x128 (![] : Fin 0 → Fin S1000x128.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S1x128_S1000x128_0_1 : S1x128.BroadcastsInDim S1000x128 (![0, 1] : Fin 2 → Fin S1000x128.rank)
  bcast_S6_S1x6_1 : S6.BroadcastsInDim S1x6 (![1] : Fin 1 → Fin S1x6.rank)
  bcast_S1x6_S1000x6_0_1 : S1x6.BroadcastsInDim S1000x6 (![0, 1] : Fin 2 → Fin S1000x6.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S1000x128_S50000x1_S50000x128_1_0_0_1_wf : ScatterDims.WF S1000x128 S50000x1 S50000x128 [1] [0] [0] 1
  scatter_S1000_S50000x1_S50000_n_0_0_1_wf : ScatterDims.WF S1000 S50000x1 S50000 [] [0] [0] 1
  dot_S1000x128_S128x128_S1000x128_1_0_0_1_n_n_wf : DotDims.WF S1000x128 S128x128 S1000x128 [1] [0] [0] [1] [] []
  dot_S1000x128_S128x6_S1000x6_1_0_0_1_n_n_wf : DotDims.WF S1000x128 S128x6 S1000x6 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S1000x128_S50000x1_S50000x128_1_0_0_1 : ScatterDims S1000x128 S50000x1 S50000x128 where
  updateWindowDims := [1]
  insertedWindowDims := [0]
  scatterDimsToOperandDims := [0]
  indexVectorDim := 1
  wf := scatter_S1000x128_S50000x1_S50000x128_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x6_S1000x6_1_0_0_1_n_n : DotDims S1000x128 S128x6 S1000x6 where
  lhsContracting := [1]
  rhsContracting := [0]
  lhsNonContracting := [0]
  rhsNonContracting := [1]
  lhsBatch := []
  rhsBatch := []
  wf := dot_S1000x128_S128x6_S1000x6_1_0_0_1_n_n_wf

class Facts : Prop extends Facts₀ where

variable [Facts]
-- ==== Proof.KernelRun.lean ====
/-
  The run of the idealized kernel program with its result named.

  Every weakly fair execution of the program terminates, nothing faulting, with the argument arrays unchanged and
  the result array at the contents `W22` the fold through the program's 22 segments leaves there: the launch over
  the segments, the last thread state read against the final state.
-/
import proofs.«168746_j56882546868465_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v111) = W22 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v111 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c)⟩)

end Cert.KernelIdeal.RunValue

end
-- ==== Proof.Spec.lean ====
/-
  The graph network both programs compute, written once as functions on extended reals.

  Nodes carry 128 features.  With `dis n = (1 + #{edges into n})^(-1/2)` a layer takes features `x` to
  `h = x · W`, aggregates `h` along the edges with the symmetric weights `dis (src e) · dis (dst e)` plus the
  self loop `dis n · dis n`, adds a bias, normalises every column by its mean and (biased) variance over the
  50000 nodes, scales, shifts and clips at zero.  The functions below are the pieces of that layer, each a
  plain index-by-index formula; no program is mentioned here.
-/
import Idealize.ShloMosaic.PureOps.Ideal
import Idealize.ShloMosaic.Lib.ValueIdx

noncomputable section

open scoped BigOperators

namespace Cert.GCN

open Idealize.ShloMosaic Idealize.ShloMosaic.ValueIdx

/-- The row coordinate of an index of an `[a, b]` array, as a number below `a`. -/
abbrev rowOf {a b : Nat} (i : (⟨2, ![a, b]⟩ : Shape).Idx) : Fin a := ⟨(i 0).val, idx2_lt0 i⟩
/-- The column coordinate of an index of an `[a, b]` array, as a number below `b`. -/
abbrev colOf {a b : Nat} (i : (⟨2, ![a, b]⟩ : Shape).Idx) : Fin b := ⟨(i 1).val, idx2_lt1 i⟩

theorem rowOf_ix2 {a b : Nat} (r : Fin a) (c : Fin b) : rowOf (ix2 r c) = r := rfl
theorem colOf_ix2 {a b : Nat} (r : Fin a) (c : Fin b) : colOf (ix2 r c) = c := rfl

/-- The matrix product `x · w` of an `[n, k]` by a `[k, m]` array: entry `(r, c)` is `∑ j, x (r, j) · w (j, c)`. -/
def mm {n k m : Nat} (x : (⟨2, ![n, k]⟩ : Shape).Idx → EReal) (w : (⟨2, ![k, m]⟩ : Shape).Idx → EReal) :
    (⟨2, ![n, m]⟩ : Shape).Idx → EReal :=
  fun i => ∑ j : Fin k, x (ix2 (rowOf i) j) * w (ix2 j (colOf i))

/-- Every row `r` of `h` multiplied by the `r`-th entry of the column `d`. -/
def scaleRows {n m : Nat} (h : (⟨2, ![n, m]⟩ : Shape).Idx → EReal) (d : (⟨2, ![n, 1]⟩ : Shape).Idx → EReal) :
    (⟨2, ![n, m]⟩ : Shape).Idx → EReal :=
  fun i => h i * d (ix2 (rowOf i) 0)

/-- The aggregation step in the factored form: `d r · (agg (r, c) + d r · h (r, c)) + cb c`. -/
def combine {n m : Nat} (agg h : (⟨2, ![n, m]⟩ : Shape).Idx → EReal) (d : (⟨2, ![n, 1]⟩ : Shape).Idx → EReal)
    (cb : (⟨2, ![1, m]⟩ : Shape).Idx → EReal) : (⟨2, ![n, m]⟩ : Shape).Idx → EReal :=
  fun i => d (ix2 (rowOf i) 0) * (agg i + d (ix2 (rowOf i) 0) * h i) + cb (ix2 0 (colOf i))

/-- The sum of every column of `y`, as a row. -/
def colSum {n m : Nat} (y : (⟨2, ![n, m]⟩ : Shape).Idx → EReal) : (⟨2, ![1, m]⟩ : Shape).Idx → EReal :=
  fun j => ∑ r : Fin n, y (ix2 r (colOf j))

/-- The squared deviation of every entry from its column's entry in the row `mu`. -/
def sqDev {n m : Nat} (y : (⟨2, ![n, m]⟩ : Shape).Idx → EReal) (mu : (⟨2, ![1, m]⟩ : Shape).Idx → EReal) :
    (⟨2, ![n, m]⟩ : Shape).Idx → EReal :=
  fun i => (y i - mu (ix2 0 (colOf i))) * (y i - mu (ix2 0 (colOf i)))

/-- The f32 word of the normalisation's epsilon, as the value it denotes. -/
def eps : EReal := Ideal.ofBits .f32 0x3727C5AC#32

/-- Normalise, scale, shift, clip at zero: `max (((y − mu) · rsqrt (var + eps)) · g + b) 0`, column by column. -/
def normRelu {n m : Nat} (y : (⟨2, ![n, m]⟩ : Shape).Idx → EReal) (mu var g b : (⟨2, ![1, m]⟩ : Shape).Idx → EReal) :
    (⟨2, ![n, m]⟩ : Shape).Idx → EReal :=
  fun i => max (((y i - mu (ix2 0 (colOf i))) * Ideal.rsqrt (var (ix2 0 (colOf i)) + eps)) * g (ix2 0 (colOf i))
    + b (ix2 0 (colOf i))) 0

/-- A row added to every row of `y`. -/
def addRow {n m : Nat} (y : (⟨2, ![n, m]⟩ : Shape).Idx → EReal) (b : (⟨2, ![1, m]⟩ : Shape).Idx → EReal) :
    (⟨2, ![n, m]⟩ : Shape).Idx → EReal :=
  fun i => y i + b (ix2 0 (colOf i))

/-- Clip at zero. -/
def relu {s : Shape} (y : s.Idx → EReal) : s.Idx → EReal := fun i => max (y i) 0

/-- The two-layer head on the pooled features: `relu (p · w1 + b1) · w2 + b2`. -/
def head (p : (⟨2, ![1000, 128]⟩ : Shape).Idx → EReal) (w1 : (⟨2, ![128, 128]⟩ : Shape).Idx → EReal)
    (b1 : (⟨2, ![1, 128]⟩ : Shape).Idx → EReal) (w2 : (⟨2, ![128, 6]⟩ : Shape).Idx → EReal)
    (b2 : (⟨2, ![1, 6]⟩ : Shape).Idx → EReal) : (⟨2, ![1000, 6]⟩ : Shape).Idx → EReal :=
  addRow (mm (relu (addRow (mm p w1) b1)) w2) b2

end Cert.GCN

end
-- ==== Proof.LibRowIndex.lean ====
/-
  ROWS READ AT AN INDEX: `stablehlo.gather` and the accumulating `stablehlo.scatter` along axis 0 of a
  rank-2 operand (and the scatter of a rank-1 operand), read at one element.

  * `x[idx]` of a table `x : [N, W]` at a column of start indices `idx : [E, 1]` gathers whole rows
    (offset axis 1, collapsed axis 0, start index map `[0]`, slice sizes `[1, W]`, index vector on axis 1):
    result element `(e, f)` is `x` at row `idx[e, 0]` — read as a signed integer and clamped into
    `[0, N − 1]` — and column `f` (`rowGather_apply`).
  * `x.at[idx].add(upd)` with `upd : [E, W]` adds whole rows (update window axis 1, inserted window
    axis 0, scatter-dims-to-operand-dims `[0]`, index vector on axis 1): update element `(e, f)` lands at
    `(idx[e, 0], f)` when the start index, read signed and NOT clamped, is a row of the operand, and is
    dropped otherwise. So element `(n, g)` of the result is `x (n, g)` plus the sum of `upd (e, g)` over
    the rows `e` whose start index is `n` (`rowScatterAdd_apply`); for a rank-1 operand `[N]` and
    updates `[E]` (no window axis) element `n` is `x n` plus the sum of `upd e` over those `e`
    (`vecScatterAdd_apply`).

  Every statement takes the dimension numbers as a variable record whose fields are given by
  hypotheses; the extents `N`, `E`, `W` stay variables.
-/
import Idealize.ShloMosaic.PureOps.Ideal
import Idealize.ShloMosaic.Lib.ValueIdx

noncomputable section

open scoped BigOperators

namespace Cert.Proof.LibRowIndex

open Idealize.ShloMosaic Idealize.ShloMosaic.ValueIdx

/-- On two axes, axis `1` is not axis `0`. -/
private theorem fin2_one_ne_zero : (1 : Fin 2) ≠ 0 := by decide

/-- An axis of the operand is kept by a scatter exactly when it is not an inserted window axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

/-- A sum over `f` of terms that vanish unless `Q` holds and `f = g` is the one term at `g` when `Q`
    holds, and `0` otherwise. -/
theorem sum_ite_and_eq {M : Type*} [AddCommMonoid M] {n : Nat} (Q : Prop) [Decidable Q] (g : Fin n) (F : Fin n → M) :
    (∑ f, if Q ∧ f = g then F f else 0) = if Q then F g else 0 := by
  by_cases hq : Q
  · simp [hq]
  · simp [hq]

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row gather -/

/-- The dimension numbers of a row gather as a literal record: operand `[N, W]`, start indices `[E, 1]`,
    result `[E, W]`. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The operand row a row-gather reads for result row `e`: the start index read signed and clamped into
    `[0, N − 1]`. -/
def gatherRow {E w : Nat} (N : Nat) (hN : 0 < N) (idx : IVec (⟨2, ![E, 1]⟩ : Shape) w) (e : Fin E) : Fin N :=
  ⟨min (idx (ix2 e ⟨0, Nat.one_pos⟩)).toInt.toNat (N - 1), by omega⟩

/-- The row gather of the literal record at `(e, f)`: row `gatherRow … e`, column `f`. -/
theorem rowGatherDims_apply {α : Type} {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec (⟨2, ![E, 1]⟩ : Shape) w) (e : Fin E) (f : Fin W) :
    Host.gather (rowGatherDims N E W wf) x idx (ix2 e f) = x (ix2 (gatherRow N hN idx e) f) := by
  unfold Host.gather
  congr 1
  funext a
  refine Fin.ext ?_
  match a with
  | ⟨0, _⟩ =>
    show (rowGatherDims N E W wf).start (ix2 e f) idx 0 + (rowGatherDims N E W wf).batchCoord (ix2 e f) 0
      + (rowGatherDims N E W wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E W wf).startIndexMap from List.mem_singleton.mpr rfl)]
    have hsi : (rowGatherDims N E W wf).siIdx (ix2 e f) ⟨List.idxOf (0 : Fin 2) (rowGatherDims N E W wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E W wf).start (ix2 e f) idx 1 + (rowGatherDims N E W wf).batchCoord (ix2 e f) 1
      + (rowGatherDims N E W wf).offCoord (ix2 e f) 1 = f.val
    rw [GatherDims.batchCoord_eq_zero _ _ _ List.not_mem_nil]
    have hs : (rowGatherDims N E W wf).start (ix2 e f) idx 1 = 0 := by
      unfold GatherDims.start
      rw [dif_neg (fun h => absurd (List.mem_singleton.mp h) fin2_one_ne_zero)]
    rw [hs]
    simp only [Nat.add_zero, Nat.zero_add]
    unfold GatherDims.offCoord
    rw [dif_pos ((GatherDims.mem_sKept _ _).mpr
      ⟨fun h => absurd (List.mem_singleton.mp h) fin2_one_ne_zero, List.not_mem_nil⟩)]
    rfl

/-- THE ROW GATHER READ AT `(e, f)`, for any record with these dimension numbers. -/
theorem rowGather_apply {α : Type} {N E W w : Nat} (hN : 0 < N)
    (d : GatherDims (⟨2, ![N, W]⟩ : Shape) (⟨2, ![E, 1]⟩ : Shape) (⟨2, ![E, W]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, W])
    (x : (⟨2, ![N, W]⟩ : Shape).Idx → α) (idx : IVec (⟨2, ![E, 1]⟩ : Shape) w) (e : Fin E) (f : Fin W) :
    Host.gather d x idx (ix2 e f) = x (ix2 (gatherRow N hN idx e) f) := by
  obtain ⟨od, cd, ob, sb, sm, iv, ss, wf⟩ := d
  simp only at h1 h2 h3 h4 h5 h6 h7
  subst h1 h2 h3 h4 h5 h6 h7
  exact rowGatherDims_apply hN wf x idx e f

/-! ## The row scatter-add -/

/-- The dimension numbers of a row scatter as a literal record: operand `[N, W]`, scatter indices `[E, 1]`,
    updates `[E, W]`. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section RowScatter
variable {N E W w : Nat} (wf : ScatterDims.WF ⟨2, ![N, W]⟩ ⟨2, ![E, 1]⟩ ⟨2, ![E, W]⟩ [1] [0] [0] 1)
  (idx : IVec (⟨2, ![E, 1]⟩ : Shape) w) (e : Fin E) (f : Fin W)

/-- On axis 0 the window of update `(e, f)` starts at the start index `idx[e, 0]`, read signed. -/
theorem rowScatter_start0 :
    (rowScatterDims N E W wf).start (ix2 e f) idx 0 = (idx (ix2 e ⟨0, Nat.one_pos⟩)).toInt := by
  unfold ScatterDims.start
  rw [dif_pos (show (0 : Fin 2) ∈ (rowScatterDims N E W wf).scatterDimsToOperandDims from List.mem_singleton.mpr rfl)]
  have hsi : (rowScatterDims N E W wf).siIdx (ix2 e f)
      ⟨List.idxOf (0 : Fin 2) (rowScatterDims N E W wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On axis 1, which the map does not name, it starts at `0`. -/
theorem rowScatter_start1 : (rowScatterDims N E W wf).start (ix2 e f) idx 1 = 0 := by
  unfold ScatterDims.start
  rw [dif_neg (fun h => absurd (List.mem_singleton.mp h) fin2_one_ne_zero)]

/-- Axis 0 is inserted: window coordinate `0`. -/
theorem rowScatter_window0 : (rowScatterDims N E W wf).window (ix2 e f) 0 = 0 := by
  unfold ScatterDims.window
  rw [dif_neg (fun h => (scatter_mem_sKept _ _).mp h (List.mem_singleton.mpr rfl))]

/-- Axis 1 takes the update's window coordinate `f`. -/
theorem rowScatter_window1 : (rowScatterDims N E W wf).window (ix2 e f) 1 = f.val := by
  unfold ScatterDims.window
  rw [dif_pos ((scatter_mem_sKept _ _).mpr (fun h => absurd (List.mem_singleton.mp h) fin2_one_ne_zero))]
  rfl

/-- WHERE AN UPDATE LANDS: update `(e, f)` lands on element `(n, g)` exactly when its start index, read
    signed, is `n` and `f = g`. -/
theorem rowScatter_resultIdx_iff (n : Fin N) (g : Fin W) :
    (rowScatterDims N E W wf).resultIdx? (ix2 e f) idx = some (ix2 n g)
      ↔ (idx (ix2 e ⟨0, Nat.one_pos⟩)).toInt = (n.val : Int) ∧ f = g := by
  have s0 := rowScatter_start0 wf idx e f
  have s1 := rowScatter_start1 wf idx e f
  have w0 := rowScatter_window0 wf e f
  have w1 := rowScatter_window1 wf e f
  unfold ScatterDims.resultIdx?
  constructor
  · intro h
    split at h
    · rename_i hc
      have h' := Option.some.inj h
      have e0 : ((rowScatterDims N E W wf).start (ix2 e f) idx 0
          + ((rowScatterDims N E W wf).window (ix2 e f) 0 : Nat)).toNat = n.val :=
        congrArg (fun F : (⟨2, ![N, W]⟩ : Shape).Idx => (F 0).val) h'
      have e1 : ((rowScatterDims N E W wf).start (ix2 e f) idx 1
          + ((rowScatterDims N E W wf).window (ix2 e f) 1 : Nat)).toNat = g.val :=
        congrArg (fun F : (⟨2, ![N, W]⟩ : Shape).Idx => (F 1).val) h'
      have c0 := (hc 0).1
      rw [s0, w0] at e0 c0
      rw [s1, w1] at e1
      exact ⟨by omega, Fin.ext (by omega)⟩
    · exact absurd h (by simp)
  · rintro ⟨hz, rfl⟩
    have hc : ∀ a, 0 ≤ (rowScatterDims N E W wf).start (ix2 e f) idx a + ((rowScatterDims N E W wf).window (ix2 e f) a : Nat)
        ∧ (rowScatterDims N E W wf).start (ix2 e f) idx a + ((rowScatterDims N E W wf).window (ix2 e f) a : Nat)
          < ((⟨2, ![N, W]⟩ : Shape).size a : Nat) := by
      intro a
      match a with
      | ⟨0, _⟩ =>
        show 0 ≤ (rowScatterDims N E W wf).start (ix2 e f) idx 0 + ((rowScatterDims N E W wf).window (ix2 e f) 0 : Nat)
          ∧ (rowScatterDims N E W wf).start (ix2 e f) idx 0 + ((rowScatterDims N E W wf).window (ix2 e f) 0 : Nat) < (N : Int)
        rw [s0, w0, hz]
        have := n.isLt
        omega
      | ⟨1, _⟩ =>
        show 0 ≤ (rowScatterDims N E W wf).start (ix2 e f) idx 1 + ((rowScatterDims N E W wf).window (ix2 e f) 1 : Nat)
          ∧ (rowScatterDims N E W wf).start (ix2 e f) idx 1 + ((rowScatterDims N E W wf).window (ix2 e f) 1 : Nat) < (W : Int)
        rw [s1, w1]
        have := f.isLt
        omega
    rw [dif_pos hc]
    congr 1
    funext a
    refine Fin.ext ?_
    match a with
    | ⟨0, _⟩ =>
      show ((rowScatterDims N E W wf).start (ix2 e f) idx 0 + ((rowScatterDims N E W wf).window (ix2 e f) 0 : Nat)).toNat = n.val
      rw [s0, w0, hz]; omega
    | ⟨1, _⟩ =>
      show ((rowScatterDims N E W wf).start (ix2 e f) idx 1 + ((rowScatterDims N E W wf).window (ix2 e f) 1 : Nat)).toNat = f.val
      rw [s1, w1]; omega

end RowScatter

/-- The row scatter-add of the literal record at `(n, g)`: the operand's element plus the updates of
    column `g` in the rows whose start index is `n`. -/
theorem rowScatterDims_apply {N E W w : Nat} (wf : ScatterDims.WF ⟨2, ![N, W]⟩ ⟨2, ![E, 1]⟩ ⟨2, ![E, W]⟩ [1] [0] [0] 1)
    (x : (⟨2, ![N, W]⟩ : Shape).Idx → EReal) (idx : IVec (⟨2, ![E, 1]⟩ : Shape) w) (upd : (⟨2, ![E, W]⟩ : Shape).Idx → EReal)
    (n : Fin N) (g : Fin W) :
    Ideal.hostScatterAdd (rowScatterDims N E W wf) x idx upd (ix2 n g)
      = x (ix2 n g) + ∑ e ∈ Finset.univ.filter (fun e : Fin E => (idx (ix2 e ⟨0, Nat.one_pos⟩)).toInt = (n.val : Int)), upd (ix2 e g) := by
  unfold Ideal.hostScatterAdd
  congr 1
  rw [Finset.sum_filter, Finset.sum_filter, sum_idx2]
  refine Finset.sum_congr rfl fun e _ => ?_
  refine (Finset.sum_congr rfl fun f _ => if_congr (rowScatter_resultIdx_iff wf idx e f n g) rfl rfl).trans ?_
  exact sum_ite_and_eq _ g fun f => upd (ix2 e f)

/-- THE ROW SCATTER-ADD READ AT `(n, g)`, for any record with these dimension numbers. -/
theorem rowScatterAdd_apply {N E W w : Nat}
    (d : ScatterDims (⟨2, ![N, W]⟩ : Shape) (⟨2, ![E, 1]⟩ : Shape) (⟨2, ![E, W]⟩ : Shape))
    (h1 : d.updateWindowDims = [1]) (h2 : d.insertedWindowDims = [0]) (h3 : d.scatterDimsToOperandDims = [0])
    (h4 : d.indexVectorDim = 1)
    (x : (⟨2, ![N, W]⟩ : Shape).Idx → EReal) (idx : IVec (⟨2, ![E, 1]⟩ : Shape) w) (upd : (⟨2, ![E, W]⟩ : Shape).Idx → EReal)
    (n : Fin N) (g : Fin W) :
    Ideal.hostScatterAdd d x idx upd (ix2 n g)
      = x (ix2 n g) + ∑ e ∈ Finset.univ.filter (fun e : Fin E => (idx (ix2 e ⟨0, Nat.one_pos⟩)).toInt = (n.val : Int)), upd (ix2 e g) := by
  obtain ⟨uw, iw, sd, iv, wf⟩ := d
  simp only at h1 h2 h3 h4
  subst h1 h2 h3 h4
  exact rowScatterDims_apply wf x idx upd n g

/-- The same, as a program spells the accumulating scatter at the ideal instance. -/
theorem rowScatterAdd_apply' {N E W w : Nat}
    (d : ScatterDims (⟨2, ![N, W]⟩ : Shape) (⟨2, ![E, 1]⟩ : Shape) (⟨2, ![E, W]⟩ : Shape))
    (h1 : d.updateWindowDims = [1]) (h2 : d.insertedWindowDims = [0]) (h3 : d.scatterDimsToOperandDims = [0])
    (h4 : d.indexVectorDim = 1)
    (x : FVec Ideal (⟨2, ![N, W]⟩ : Shape) .f32) (idx : IVec (⟨2, ![E, 1]⟩ : Shape) w) (upd : FVec Ideal (⟨2, ![E, W]⟩ : Shape) .f32)
    (n : Fin N) (g : Fin W) :
    Host.scatterAdd (F := Ideal) (φ := .f32) d x idx upd (ix2 n g)
      = x (ix2 n g) + ∑ e ∈ Finset.univ.filter (fun e : Fin E => (idx (ix2 e ⟨0, Nat.one_pos⟩)).toInt = (n.val : Int)), upd (ix2 e g) :=
  rowScatterAdd_apply d h1 h2 h3 h4 x idx upd n g

/-! ## The scatter-add of a rank-1 operand -/

/-- The dimension numbers of a scatter into a rank-1 operand as a literal record: operand `[N]`, scatter
    indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable {N E w : Nat} (wf : ScatterDims.WF ⟨1, ![N]⟩ ⟨2, ![E, 1]⟩ ⟨1, ![E]⟩ [] [0] [0] 1)
  (idx : IVec (⟨2, ![E, 1]⟩ : Shape) w) (e : Fin E)

/-- The window of update `e` starts at the start index `idx[e, 0]`, read signed. -/
theorem vecScatter_start0 :
    (vecScatterDims N E wf).start (ix1 e) idx 0 = (idx (ix2 e ⟨0, Nat.one_pos⟩)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The operand's one axis is inserted: window coordinate `0`. -/
theorem vecScatter_window0 : (vecScatterDims N E wf).window (ix1 e) 0 = 0 := by
  unfold ScatterDims.window
  rw [dif_neg (fun h => (scatter_mem_sKept _ _).mp h (List.mem_singleton.mpr rfl))]

/-- WHERE AN UPDATE LANDS: update `e` lands on element `n` exactly when its start index, read signed, is `n`. -/
theorem vecScatter_resultIdx_iff (n : Fin N) :
    (vecScatterDims N E wf).resultIdx? (ix1 e) idx = some (ix1 n)
      ↔ (idx (ix2 e ⟨0, Nat.one_pos⟩)).toInt = (n.val : Int) := by
  have s0 := vecScatter_start0 wf idx e
  have w0 := vecScatter_window0 wf e
  unfold ScatterDims.resultIdx?
  constructor
  · intro h
    split at h
    · rename_i hc
      have h' := Option.some.inj h
      have e0 : ((vecScatterDims N E wf).start (ix1 e) idx 0
          + ((vecScatterDims N E wf).window (ix1 e) 0 : Nat)).toNat = n.val :=
        congrArg (fun F : (⟨1, ![N]⟩ : Shape).Idx => (F 0).val) h'
      have c0 := (hc 0).1
      rw [s0, w0] at e0 c0
      omega
    · exact absurd h (by simp)
  · intro hz
    have hc : ∀ a, 0 ≤ (vecScatterDims N E wf).start (ix1 e) idx a + ((vecScatterDims N E wf).window (ix1 e) a : Nat)
        ∧ (vecScatterDims N E wf).start (ix1 e) idx a + ((vecScatterDims N E wf).window (ix1 e) a : Nat)
          < ((⟨1, ![N]⟩ : Shape).size a : Nat) := by
      intro a
      match a with
      | ⟨0, _⟩ =>
        show 0 ≤ (vecScatterDims N E wf).start (ix1 e) idx 0 + ((vecScatterDims N E wf).window (ix1 e) 0 : Nat)
          ∧ (vecScatterDims N E wf).start (ix1 e) idx 0 + ((vecScatterDims N E wf).window (ix1 e) 0 : Nat) < (N : Int)
        rw [s0, w0, hz]
        have := n.isLt
        omega
    rw [dif_pos hc]
    congr 1
    funext a
    refine Fin.ext ?_
    match a with
    | ⟨0, _⟩ =>
      show ((vecScatterDims N E wf).start (ix1 e) idx 0 + ((vecScatterDims N E wf).window (ix1 e) 0 : Nat)).toNat = n.val
      rw [s0, w0, hz]; omega

end VecScatter

/-- The scatter-add into a rank-1 operand, for the literal record, at `n`: the operand's element plus the
    updates whose start index is `n`. -/
theorem vecScatterDims_apply {N E w : Nat} (wf : ScatterDims.WF ⟨1, ![N]⟩ ⟨2, ![E, 1]⟩ ⟨1, ![E]⟩ [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (vecScatterDims N E wf) x idx upd (ix1 n)
      = x (ix1 n) + ∑ e ∈ Finset.univ.filter (fun e : Fin E => (idx (ix2 e ⟨0, Nat.one_pos⟩)).toInt = (n.val : Int)), upd (ix1 e) := by
  unfold Ideal.hostScatterAdd
  congr 1
  rw [Finset.sum_filter, Finset.sum_filter, sum_idx1]
  exact Finset.sum_congr rfl fun e _ => if_congr (vecScatter_resultIdx_iff wf idx e n) rfl rfl

/-- THE SCATTER-ADD INTO A RANK-1 OPERAND READ AT `n`, for any record with these dimension numbers. -/
theorem vecScatterAdd_apply {N E w : Nat}
    (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1)
    (x : (⟨1, ![N]⟩ : Shape).Idx → EReal) (idx : IVec (⟨2, ![E, 1]⟩ : Shape) w) (upd : (⟨1, ![E]⟩ : Shape).Idx → EReal) (n : Fin N) :
    Ideal.hostScatterAdd d x idx upd (ix1 n)
      = x (ix1 n) + ∑ e ∈ Finset.univ.filter (fun e : Fin E => (idx (ix2 e ⟨0, Nat.one_pos⟩)).toInt = (n.val : Int)), upd (ix1 e) := by
  obtain ⟨uw, iw, sd, iv, wf⟩ := d
  simp only at h1 h2 h3 h4
  subst h1 h2 h3 h4
  exact vecScatterDims_apply wf x idx upd n

/-- The same, as a program spells the accumulating scatter at the ideal instance. -/
theorem vecScatterAdd_apply' {N E w : Nat}
    (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1)
    (x : FVec Ideal (⟨1, ![N]⟩ : Shape) .f32) (idx : IVec (⟨2, ![E, 1]⟩ : Shape) w) (upd : FVec Ideal (⟨1, ![E]⟩ : Shape) .f32) (n : Fin N) :
    Host.scatterAdd (F := Ideal) (φ := .f32) d x idx upd (ix1 n)
      = x (ix1 n) + ∑ e ∈ Finset.univ.filter (fun e : Fin E => (idx (ix2 e ⟨0, Nat.one_pos⟩)).toInt = (n.val : Int)), upd (ix1 e) :=
  vecScatterAdd_apply d h1 h2 h3 h4 x idx upd n

end Cert.Proof.LibRowIndex

end
-- ==== Proof.Model.lean ====
/-
  The two programs as compositions of the pieces of Spec.lean.

  Both read the edge list as two index columns.  A row gather reads, for edge `e`, the row whose number is the
  edge's index word taken as a signed integer and clamped into the table; an accumulating scatter adds row `e` of
  its updates to the row whose number IS the edge's index word taken as a signed integer, and drops the edge when
  that is no row of the table.  `segSum` and `gatherRows` are these two readings.

  The reference weights edge `e` by `dis (src e) · dis (dst e)` inside the sum and adds the self loop
  `h · (dis · dis)`; the other program scales `h` by `dis` before the gather and by `dis` again after the sum.
  The normalisation statistics are the same formulas on both sides, and so are the pooling and the head.
-/
import proofs.«168746_j56882546868465_2_alg».proof.Proof.Spec
import proofs.«168746_j56882546868465_2_alg».proof.Proof.LibRowIndex

noncomputable section

open scoped BigOperators

namespace Cert.GCN

open Idealize.ShloMosaic Idealize.ShloMosaic.ValueIdx Cert.Proof.LibRowIndex

/-- The accumulating scatter of the rows `upd` into a zero `[N, W]` table along the index column `idx`: entry
    `(n, g)` is `0` plus the sum of `upd (e, g)` over the edges `e` whose index word, read signed, is `n`. -/
def segSum {N E W : Nat} (idx : IVec (⟨2, ![E, 1]⟩ : Shape) 32) (upd : (⟨2, ![E, W]⟩ : Shape).Idx → EReal) :
    (⟨2, ![N, W]⟩ : Shape).Idx → EReal :=
  fun i => 0 + ∑ e ∈ Finset.univ.filter (fun e : Fin E => (idx (ix2 e ⟨0, Nat.one_pos⟩)).toInt = ((rowOf i).val : Int)),
    upd (ix2 e (colOf i))

/-- The same into a zero vector `[N]`, the updates a vector `[E]`. -/
def segSumVec {N E : Nat} (idx : IVec (⟨2, ![E, 1]⟩ : Shape) 32) (upd : (⟨1, ![E]⟩ : Shape).Idx → EReal) :
    (⟨1, ![N]⟩ : Shape).Idx → EReal :=
  fun i => 0 + ∑ e ∈ Finset.univ.filter (fun e : Fin E => (idx (ix2 e ⟨0, Nat.one_pos⟩)).toInt = (((i 0).val : Nat) : Int)),
    upd (ix1 e)

/-- The row gather of a table `[N, W]` along the index column `idx`: row `e` of the result is the table's row
    `gatherRow … idx e` (the index word read signed and clamped into `[0, N − 1]`). -/
def gatherRows {N E W : Nat} (hN : 0 < N) (idx : IVec (⟨2, ![E, 1]⟩ : Shape) 32) (x : (⟨2, ![N, W]⟩ : Shape).Idx → EReal) :
    (⟨2, ![E, W]⟩ : Shape).Idx → EReal :=
  fun j => x (ix2 (gatherRow N hN idx (rowOf j)) (colOf j))

section Layer

/-- What a layer sees of the graph: the index column the row gathers of source rows use (`srcG`), the one the
    gather of `dis` at the target uses (`dstG`), the raw target column the scatters use (`dstS`), and the
    per-node factor `dis` as a column. -/
structure Graph where
  srcG : IVec (⟨2, ![800000, 1]⟩ : Shape) 32
  dstG : IVec (⟨2, ![800000, 1]⟩ : Shape) 32
  dstS : IVec (⟨2, ![800000, 1]⟩ : Shape) 32
  dis : (⟨2, ![50000, 1]⟩ : Shape).Idx → EReal

variable (G : Graph)

/-- The statistics of a pre-normalisation array `y`: the column means and the (biased) column variances, each a
    sum over the 50000 rows divided by `n`, the variance taken around the mean. -/
def meanRow (n : EReal) (y : (⟨2, ![50000, 128]⟩ : Shape).Idx → EReal) : (⟨2, ![1, 128]⟩ : Shape).Idx → EReal :=
  fun j => Ideal.div (colSum y j) n
def varRow (n : EReal) (y : (⟨2, ![50000, 128]⟩ : Shape).Idx → EReal) : (⟨2, ![1, 128]⟩ : Shape).Idx → EReal :=
  fun j => Ideal.div (colSum (sqDev y (meanRow n y)) j) n

/-- Normalise `y` by its own statistics, scale by `g`, shift by `b`, clip at zero. -/
def bnRelu (n : EReal) (y : (⟨2, ![50000, 128]⟩ : Shape).Idx → EReal) (g b : (⟨2, ![1, 128]⟩ : Shape).Idx → EReal) :
    (⟨2, ![50000, 128]⟩ : Shape).Idx → EReal :=
  normRelu y (meanRow n y) (varRow n y) g b

/-- The factored aggregation: from `h`, scale by `dis`, gather the source rows, sum them into the targets, scale
    by `dis` again together with the self loop, add the bias. -/
def aggFactored (h : (⟨2, ![50000, 128]⟩ : Shape).Idx → EReal) (cb : (⟨2, ![1, 128]⟩ : Shape).Idx → EReal) :
    (⟨2, ![50000, 128]⟩ : Shape).Idx → EReal :=
  combine (segSum G.dstS (gatherRows (by decide : 0 < 50000) G.srcG (scaleRows h G.dis))) h G.dis cb

/-- The reference aggregation: every gathered source row weighted by `dis (src e) · dis (dst e)`, summed into the
    targets, plus the self loop `h · (dis · dis)`, plus the bias. -/
def aggWeighted (h : (⟨2, ![50000, 128]⟩ : Shape).Idx → EReal) (cb : (⟨2, ![1, 128]⟩ : Shape).Idx → EReal) :
    (⟨2, ![50000, 128]⟩ : Shape).Idx → EReal :=
  fun i =>
    segSum (N := 50000) G.dstS (fun j : (⟨2, ![800000, 128]⟩ : Shape).Idx =>
        gatherRows (by decide : 0 < 50000) G.srcG h j
          * (G.dis (ix2 (gatherRow 50000 (by decide) G.srcG (rowOf j)) 0) * G.dis (ix2 (gatherRow 50000 (by decide) G.dstG (rowOf j)) 0))) i
      + h i * (G.dis (ix2 (rowOf i) 0) * G.dis (ix2 (rowOf i) 0))
      + cb (ix2 0 (colOf i))

end Layer

/-! ## The inputs as the layers see them -/

/-- Row `r` of the `[2, 800000]` edge array as an index column `[800000, 1]`. -/
def edgeCol (ei : (⟨2, ![2, 800000]⟩ : Shape).Idx → BitVec 32) (r : Fin 2) : IVec (⟨2, ![800000, 1]⟩ : Shape) 32 :=
  fun j => ei (ix2 r (rowOf j))

/-- The wrap of negative indices, entry by entry: `x` becomes `x + 50000` where `x < 0` as a signed integer. -/
def wrapCol (col : IVec (⟨2, ![800000, 1]⟩ : Shape) 32) : IVec (⟨2, ![800000, 1]⟩ : Shape) 32 :=
  fun j => Scalar.select (IntOp.cmpi .slt (col j) 0#32) (IntOp.addi (col j) 50000#32) (col j)

/-- The per-node factor: the inverse square root of one plus the number of edges into the node. -/
def disColOf (dstCol : IVec (⟨2, ![800000, 1]⟩ : Shape) 32) : (⟨2, ![50000, 1]⟩ : Shape).Idx → EReal :=
  fun i => Ideal.rsqrt (segSumVec dstCol (fun _ => (1 : EReal)) (ix1 (rowOf i)) + 1)

/-- The graph of an edge array: sources in row 0, targets in row 1. -/
def graphOf (ei : (⟨2, ![2, 800000]⟩ : Shape).Idx → BitVec 32) : Graph where
  srcG := wrapCol (edgeCol ei 0)
  dstG := wrapCol (edgeCol ei 1)
  dstS := edgeCol ei 1
  dis := disColOf (edgeCol ei 1)

/-- Slice `l` of the `[3, 128, 128]` weights as a `[128, 128]` matrix. -/
def wSlice (cw : (⟨3, ![3, 128, 128]⟩ : Shape).Idx → EReal) (l : Fin 3) : (⟨2, ![128, 128]⟩ : Shape).Idx → EReal :=
  fun i => cw (ix3 l (rowOf i) (colOf i))

/-- Row `l` of a `[3, 128]` parameter as a `[1, 128]` row. -/
def rowSlice (a : (⟨2, ![3, 128]⟩ : Shape).Idx → EReal) (l : Fin 3) : (⟨2, ![1, 128]⟩ : Shape).Idx → EReal :=
  fun j => a (ix2 l (colOf j))

/-- A vector `[k]` as a row `[1, k]`. -/
def rowOfVec {k : Nat} (v : (⟨1, ![k]⟩ : Shape).Idx → EReal) : (⟨2, ![1, k]⟩ : Shape).Idx → EReal :=
  fun j => v (ix1 (colOf j))

/-- The batch vector `[50000]` as an index column `[50000, 1]`. -/
def batchCol (batch : (⟨1, ![50000]⟩ : Shape).Idx → BitVec 32) : IVec (⟨2, ![50000, 1]⟩ : Shape) 32 :=
  fun j => batch (ix1 (rowOf j))

/-- Mean pooling per graph: the segment sum of the node rows divided by the node count clipped below at one. -/
def pooledOf (bcol : IVec (⟨2, ![50000, 1]⟩ : Shape) 32) (x : (⟨2, ![50000, 128]⟩ : Shape).Idx → EReal) :
    (⟨2, ![1000, 128]⟩ : Shape).Idx → EReal :=
  fun i => Ideal.div (segSum bcol x i) (max (segSumVec bcol (fun _ => (1 : EReal)) (ix1 (rowOf i))) 1)

/-- The node count the statistics divide by, as the f32 word of 50000 denotes it. -/
def nNodes : EReal := Ideal.ofBits .f32 0x47435000#32

/-- One layer with the factored aggregation, and one with the weighted aggregation. -/
def layerF (G : Graph) (x : (⟨2, ![50000, 128]⟩ : Shape).Idx → EReal) (w : (⟨2, ![128, 128]⟩ : Shape).Idx → EReal)
    (cb g b : (⟨2, ![1, 128]⟩ : Shape).Idx → EReal) : (⟨2, ![50000, 128]⟩ : Shape).Idx → EReal :=
  bnRelu nNodes (aggFactored G (mm x w) cb) g b
def layerW (G : Graph) (x : (⟨2, ![50000, 128]⟩ : Shape).Idx → EReal) (w : (⟨2, ![128, 128]⟩ : Shape).Idx → EReal)
    (cb g b : (⟨2, ![1, 128]⟩ : Shape).Idx → EReal) : (⟨2, ![50000, 128]⟩ : Shape).Idx → EReal :=
  bnRelu nNodes (aggWeighted G (mm x w) cb) g b

section Net
variable (x : (⟨2, ![50000, 128]⟩ : Shape).Idx → EReal) (ei : (⟨2, ![2, 800000]⟩ : Shape).Idx → BitVec 32)
  (batch : (⟨1, ![50000]⟩ : Shape).Idx → BitVec 32) (cw : (⟨3, ![3, 128, 128]⟩ : Shape).Idx → EReal)
  (cb g b : (⟨2, ![3, 128]⟩ : Shape).Idx → EReal) (w1 : (⟨2, ![128, 128]⟩ : Shape).Idx → EReal)
  (b1 : (⟨1, ![128]⟩ : Shape).Idx → EReal) (w2 : (⟨2, ![128, 6]⟩ : Shape).Idx → EReal) (b2 : (⟨1, ![6]⟩ : Shape).Idx → EReal)

/-- The whole network, three layers, pooling and head, with the factored aggregation … -/
def netF : (⟨2, ![1000, 6]⟩ : Shape).Idx → EReal :=
  head (pooledOf (batchCol batch)
      (layerF (graphOf ei)
        (layerF (graphOf ei)
          (layerF (graphOf ei) x (wSlice cw 0) (rowSlice cb 0) (rowSlice g 0) (rowSlice b 0))
          (wSlice cw 1) (rowSlice cb 1) (rowSlice g 1) (rowSlice b 1))
        (wSlice cw 2) (rowSlice cb 2) (rowSlice g 2) (rowSlice b 2)))
    w1 (rowOfVec b1) w2 (rowOfVec b2)

/-- … and with the weighted aggregation. -/
def netW : (⟨2, ![1000, 6]⟩ : Shape).Idx → EReal :=
  head (pooledOf (batchCol batch)
      (layerW (graphOf ei)
        (layerW (graphOf ei)
          (layerW (graphOf ei) x (wSlice cw 0) (rowSlice cb 0) (rowSlice g 0) (rowSlice b 0))
          (wSlice cw 1) (rowSlice cb 1) (rowSlice g 1) (rowSlice b 1))
        (wSlice cw 2) (rowSlice cb 2) (rowSlice g 2) (rowSlice b 2)))
    w1 (rowOfVec b1) w2 (rowOfVec b2)
end Net

end Cert.GCN

end
-- ==== Proof.ChainKeep.lean ====
/-
  Buffers that a stretch of host operations or a region does not write keep their contents.

  Each statement follows one buffer from the segment boundary where it was produced to the boundary where it is
  read: a host stretch that does not write it leaves it alone, and so does a region none of whose windows is it.
-/
import proofs.«168746_j56882546868465_2_alg».proof.Proof.Gen.KernelIdeal.Frame
import proofs.«168746_j56882546868465_2_alg».proof.Proof.Model

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem Idealize.ShloMosaic.ValueIdx
open Cert.GCN

variable (m : (ℓ : Loc nD τ sig) → Buf (Elt Ideal) ℓ) (ρ : Dev nD → PrngReg) (c : Dev nD)

/-- A buffer that none of the operations of a host stretch writes keeps its contents. -/
macro "host_keep" : tactic => `(tactic| (
  refine StableHlo.after_of_forall_not_mem _ _ (List.forall_iff_forall_mem.mp ?_)
  simp only [hostOps0, hostOps1, hostOps2, hostOps3, hostOps4, hostOps5, hostOps6, hostOps7, hostOps8, hostOps9, hostOps10,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The argument arrays as launched. -/
abbrev A0 : S50000x128.Idx → EReal := m ((c : Thread nD τ).loc main_arg0)
abbrev A1 : S2x800000.Idx → BitVec 32 := m ((c : Thread nD τ).loc main_arg1)
abbrev A2 : S50000.Idx → BitVec 32 := m ((c : Thread nD τ).loc main_arg2)
abbrev A3 : S3x128x128.Idx → EReal := m ((c : Thread nD τ).loc main_arg3)
abbrev A4 : S3x128.Idx → EReal := m ((c : Thread nD τ).loc main_arg4)
abbrev A5 : S3x128.Idx → EReal := m ((c : Thread nD τ).loc main_arg5)
abbrev A6 : S3x128.Idx → EReal := m ((c : Thread nD τ).loc main_arg6)
abbrev A7 : S128x128.Idx → EReal := m ((c : Thread nD τ).loc main_arg7)
abbrev A8 : S128.Idx → EReal := m ((c : Thread nD τ).loc main_arg8)
abbrev A9 : S128x6.Idx → EReal := m ((c : Thread nD τ).loc main_arg9)
abbrev A10 : S6.Idx → EReal := m ((c : Thread nD τ).loc main_arg10)

/-- The graph of the launched edge array. -/
abbrev G : Graph := graphOf (A1 m c)

theorem keep_main_v1_1_2 : W2 (F := Ideal) m ρ c (Proc.devRef .tc main_v1) = W1 (F := Ideal) m ρ c (Proc.devRef .tc main_v1) :=
  calc W2 (F := Ideal) m ρ c (Proc.devRef .tc main_v1)
    _ = W1 m ρ c (Proc.devRef .tc main_v1) := W2_of_ne m ρ c main_v1 (by decide)

theorem keep_main_v1_1_8 : W8 (F := Ideal) m ρ c (Proc.devRef .tc main_v1) = W1 (F := Ideal) m ρ c (Proc.devRef .tc main_v1) :=
  calc W8 (F := Ideal) m ρ c (Proc.devRef .tc main_v1)
    _ = W7 m ρ c (Proc.devRef .tc main_v1) := W8_of_ne m ρ c main_v1 (by decide)
    _ = W6 m ρ c (Proc.devRef .tc main_v1) := by show StableHlo.after hostOps3 (W6 m ρ c) _ = _; host_keep
    _ = W5 m ρ c (Proc.devRef .tc main_v1) := W6_of_ne m ρ c main_v1 (by decide)
    _ = W4 m ρ c (Proc.devRef .tc main_v1) := by show StableHlo.after hostOps2 (W4 m ρ c) _ = _; host_keep
    _ = W3 m ρ c (Proc.devRef .tc main_v1) := W4_of_ne m ρ c main_v1 (by decide)
    _ = W2 m ρ c (Proc.devRef .tc main_v1) := by show StableHlo.after hostOps1 (W2 m ρ c) _ = _; host_keep
    _ = W1 m ρ c (Proc.devRef .tc main_v1) := W2_of_ne m ρ c main_v1 (by decide)

theorem keep_main_v1_1_14 : W14 (F := Ideal) m ρ c (Proc.devRef .tc main_v1) = W1 (F := Ideal) m ρ c (Proc.devRef .tc main_v1) :=
  calc W14 (F := Ideal) m ρ c (Proc.devRef .tc main_v1)
    _ = W13 m ρ c (Proc.devRef .tc main_v1) := W14_of_ne m ρ c main_v1 (by decide)
    _ = W12 m ρ c (Proc.devRef .tc main_v1) := by show StableHlo.after hostOps6 (W12 m ρ c) _ = _; host_keep
    _ = W11 m ρ c (Proc.devRef .tc main_v1) := W12_of_ne m ρ c main_v1 (by decide)
    _ = W10 m ρ c (Proc.devRef .tc main_v1) := by show StableHlo.after hostOps5 (W10 m ρ c) _ = _; host_keep
    _ = W9 m ρ c (Proc.devRef .tc main_v1) := W10_of_ne m ρ c main_v1 (by decide)
    _ = W8 m ρ c (Proc.devRef .tc main_v1) := by show StableHlo.after hostOps4 (W8 m ρ c) _ = _; host_keep
    _ = W7 m ρ c (Proc.devRef .tc main_v1) := W8_of_ne m ρ c main_v1 (by decide)
    _ = W6 m ρ c (Proc.devRef .tc main_v1) := by show StableHlo.after hostOps3 (W6 m ρ c) _ = _; host_keep
    _ = W5 m ρ c (Proc.devRef .tc main_v1) := W6_of_ne m ρ c main_v1 (by decide)
    _ = W4 m ρ c (Proc.devRef .tc main_v1) := by show StableHlo.after hostOps2 (W4 m ρ c) _ = _; host_keep
    _ = W3 m ρ c (Proc.devRef .tc main_v1) := W4_of_ne m ρ c main_v1 (by decide)
    _ = W2 m ρ c (Proc.devRef .tc main_v1) := by show StableHlo.after hostOps1 (W2 m ρ c) _ = _; host_keep
    _ = W1 m ρ c (Proc.devRef .tc main_v1) := W2_of_ne m ρ c main_v1 (by decide)

theorem keep_main_v3_1_2 : W2 (F := Ideal) m ρ c (Proc.devRef .tc main_v3) = W1 (F := Ideal) m ρ c (Proc.devRef .tc main_v3) :=
  calc W2 (F := Ideal) m ρ c (Proc.devRef .tc main_v3)
    _ = W1 m ρ c (Proc.devRef .tc main_v3) := W2_of_ne m ρ c main_v3 (by decide)

theorem keep_main_v3_1_8 : W8 (F := Ideal) m ρ c (Proc.devRef .tc main_v3) = W1 (F := Ideal) m ρ c (Proc.devRef .tc main_v3) :=
  calc W8 (F := Ideal) m ρ c (Proc.devRef .tc main_v3)
    _ = W7 m ρ c (Proc.devRef .tc main_v3) := W8_of_ne m ρ c main_v3 (by decide)
    _ = W6 m ρ c (Proc.devRef .tc main_v3) := by show StableHlo.after hostOps3 (W6 m ρ c) _ = _; host_keep
    _ = W5 m ρ c (Proc.devRef .tc main_v3) := W6_of_ne m ρ c main_v3 (by decide)
    _ = W4 m ρ c (Proc.devRef .tc main_v3) := by show StableHlo.after hostOps2 (W4 m ρ c) _ = _; host_keep
    _ = W3 m ρ c (Proc.devRef .tc main_v3) := W4_of_ne m ρ c main_v3 (by decide)
    _ = W2 m ρ c (Proc.devRef .tc main_v3) := by show StableHlo.after hostOps1 (W2 m ρ c) _ = _; host_keep
    _ = W1 m ρ c (Proc.devRef .tc main_v3) := W2_of_ne m ρ c main_v3 (by decide)

theorem keep_main_v3_1_14 : W14 (F := Ideal) m ρ c (Proc.devRef .tc main_v3) = W1 (F := Ideal) m ρ c (Proc.devRef .tc main_v3) :=
  calc W14 (F := Ideal) m ρ c (Proc.devRef .tc main_v3)
    _ = W13 m ρ c (Proc.devRef .tc main_v3) := W14_of_ne m ρ c main_v3 (by decide)
    _ = W12 m ρ c (Proc.devRef .tc main_v3) := by show StableHlo.after hostOps6 (W12 m ρ c) _ = _; host_keep
    _ = W11 m ρ c (Proc.devRef .tc main_v3) := W12_of_ne m ρ c main_v3 (by decide)
    _ = W10 m ρ c (Proc.devRef .tc main_v3) := by show StableHlo.after hostOps5 (W10 m ρ c) _ = _; host_keep
    _ = W9 m ρ c (Proc.devRef .tc main_v3) := W10_of_ne m ρ c main_v3 (by decide)
    _ = W8 m ρ c (Proc.devRef .tc main_v3) := by show StableHlo.after hostOps4 (W8 m ρ c) _ = _; host_keep
    _ = W7 m ρ c (Proc.devRef .tc main_v3) := W8_of_ne m ρ c main_v3 (by decide)
    _ = W6 m ρ c (Proc.devRef .tc main_v3) := by show StableHlo.after hostOps3 (W6 m ρ c) _ = _; host_keep
    _ = W5 m ρ c (Proc.devRef .tc main_v3) := W6_of_ne m ρ c main_v3 (by decide)
    _ = W4 m ρ c (Proc.devRef .tc main_v3) := by show StableHlo.after hostOps2 (W4 m ρ c) _ = _; host_keep
    _ = W3 m ρ c (Proc.devRef .tc main_v3) := W4_of_ne m ρ c main_v3 (by decide)
    _ = W2 m ρ c (Proc.devRef .tc main_v3) := by show StableHlo.after hostOps1 (W2 m ρ c) _ = _; host_keep
    _ = W1 m ρ c (Proc.devRef .tc main_v3) := W2_of_ne m ρ c main_v3 (by decide)

theorem keep_main_v11_1_3 : W3 (F := Ideal) m ρ c (Proc.devRef .tc main_v11) = W1 (F := Ideal) m ρ c (Proc.devRef .tc main_v11) :=
  calc W3 (F := Ideal) m ρ c (Proc.devRef .tc main_v11)
    _ = W2 m ρ c (Proc.devRef .tc main_v11) := by show StableHlo.after hostOps1 (W2 m ρ c) _ = _; host_keep
    _ = W1 m ρ c (Proc.devRef .tc main_v11) := (W2_arr m ρ c 2).trans (((dat0 (V1 m ρ) c).arrAt_in 2 rfl _).trans (A_eq0 (V1 m ρ) c 2))

theorem keep_main_v11_1_7 : W7 (F := Ideal) m ρ c (Proc.devRef .tc main_v11) = W1 (F := Ideal) m ρ c (Proc.devRef .tc main_v11) :=
  calc W7 (F := Ideal) m ρ c (Proc.devRef .tc main_v11)
    _ = W6 m ρ c (Proc.devRef .tc main_v11) := by show StableHlo.after hostOps3 (W6 m ρ c) _ = _; host_keep
    _ = W5 m ρ c (Proc.devRef .tc main_v11) := W6_of_ne m ρ c main_v11 (by decide)
    _ = W4 m ρ c (Proc.devRef .tc main_v11) := by show StableHlo.after hostOps2 (W4 m ρ c) _ = _; host_keep
    _ = W3 m ρ c (Proc.devRef .tc main_v11) := (W4_arr m ρ c 2).trans (((dat1 (V3 m ρ) c).arrAt_in 2 rfl _).trans (A_eq1 (V3 m ρ) c 2))
    _ = W2 m ρ c (Proc.devRef .tc main_v11) := by show StableHlo.after hostOps1 (W2 m ρ c) _ = _; host_keep
    _ = W1 m ρ c (Proc.devRef .tc main_v11) := (W2_arr m ρ c 2).trans (((dat0 (V1 m ρ) c).arrAt_in 2 rfl _).trans (A_eq0 (V1 m ρ) c 2))

theorem keep_main_v11_1_9 : W9 (F := Ideal) m ρ c (Proc.devRef .tc main_v11) = W1 (F := Ideal) m ρ c (Proc.devRef .tc main_v11) :=
  calc W9 (F := Ideal) m ρ c (Proc.devRef .tc main_v11)
    _ = W8 m ρ c (Proc.devRef .tc main_v11) := by show StableHlo.after hostOps4 (W8 m ρ c) _ = _; host_keep
    _ = W7 m ρ c (Proc.devRef .tc main_v11) := (W8_arr m ρ c 6).trans (((dat3 (V7 m ρ) c).arrAt_in 6 rfl _).trans (A_eq3 (V7 m ρ) c 6))
    _ = W6 m ρ c (Proc.devRef .tc main_v11) := by show StableHlo.after hostOps3 (W6 m ρ c) _ = _; host_keep
    _ = W5 m ρ c (Proc.devRef .tc main_v11) := W6_of_ne m ρ c main_v11 (by decide)
    _ = W4 m ρ c (Proc.devRef .tc main_v11) := by show StableHlo.after hostOps2 (W4 m ρ c) _ = _; host_keep
    _ = W3 m ρ c (Proc.devRef .tc main_v11) := (W4_arr m ρ c 2).trans (((dat1 (V3 m ρ) c).arrAt_in 2 rfl _).trans (A_eq1 (V3 m ρ) c 2))
    _ = W2 m ρ c (Proc.devRef .tc main_v11) := by show StableHlo.after hostOps1 (W2 m ρ c) _ = _; host_keep
    _ = W1 m ρ c (Proc.devRef .tc main_v11) := (W2_arr m ρ c 2).trans (((dat0 (V1 m ρ) c).arrAt_in 2 rfl _).trans (A_eq0 (V1 m ρ) c 2))

theorem keep_main_v11_1_13 : W13 (F := Ideal) m ρ c (Proc.devRef .tc main_v11) = W1 (F := Ideal) m ρ c (Proc.devRef .tc main_v11) :=
  calc W13 (F := Ideal) m ρ c (Proc.devRef .tc main_v11)
    _ = W12 m ρ c (Proc.devRef .tc main_v11) := by show StableHlo.after hostOps6 (W12 m ρ c) _ = _; host_keep
    _ = W11 m ρ c (Proc.devRef .tc main_v11) := W12_of_ne m ρ c main_v11 (by decide)
    _ = W10 m ρ c (Proc.devRef .tc main_v11) := by show StableHlo.after hostOps5 (W10 m ρ c) _ = _; host_keep
    _ = W9 m ρ c (Proc.devRef .tc main_v11) := (W10_arr m ρ c 2).trans (((dat4 (V9 m ρ) c).arrAt_in 2 rfl _).trans (A_eq4 (V9 m ρ) c 2))
    _ = W8 m ρ c (Proc.devRef .tc main_v11) := by show StableHlo.after hostOps4 (W8 m ρ c) _ = _; host_keep
    _ = W7 m ρ c (Proc.devRef .tc main_v11) := (W8_arr m ρ c 6).trans (((dat3 (V7 m ρ) c).arrAt_in 6 rfl _).trans (A_eq3 (V7 m ρ) c 6))
    _ = W6 m ρ c (Proc.devRef .tc main_v11) := by show StableHlo.after hostOps3 (W6 m ρ c) _ = _; host_keep
    _ = W5 m ρ c (Proc.devRef .tc main_v11) := W6_of_ne m ρ c main_v11 (by decide)
    _ = W4 m ρ c (Proc.devRef .tc main_v11) := by show StableHlo.after hostOps2 (W4 m ρ c) _ = _; host_keep
    _ = W3 m ρ c (Proc.devRef .tc main_v11) := (W4_arr m ρ c 2).trans (((dat1 (V3 m ρ) c).arrAt_in 2 rfl _).trans (A_eq1 (V3 m ρ) c 2))
    _ = W2 m ρ c (Proc.devRef .tc main_v11) := by show StableHlo.after hostOps1 (W2 m ρ c) _ = _; host_keep
    _ = W1 m ρ c (Proc.devRef .tc main_v11) := (W2_arr m ρ c 2).trans (((dat0 (V1 m ρ) c).arrAt_in 2 rfl _).trans (A_eq0 (V1 m ρ) c 2))

theorem keep_main_v11_1_15 : W15 (F := Ideal) m ρ c (Proc.devRef .tc main_v11) = W1 (F := Ideal) m ρ c (Proc.devRef .tc main_v11) :=
  calc W15 (F := Ideal) m ρ c (Proc.devRef .tc main_v11)
    _ = W14 m ρ c (Proc.devRef .tc main_v11) := by show StableHlo.after hostOps7 (W14 m ρ c) _ = _; host_keep
    _ = W13 m ρ c (Proc.devRef .tc main_v11) := (W14_arr m ρ c 6).trans (((dat6 (V13 m ρ) c).arrAt_in 6 rfl _).trans (A_eq6 (V13 m ρ) c 6))
    _ = W12 m ρ c (Proc.devRef .tc main_v11) := by show StableHlo.after hostOps6 (W12 m ρ c) _ = _; host_keep
    _ = W11 m ρ c (Proc.devRef .tc main_v11) := W12_of_ne m ρ c main_v11 (by decide)
    _ = W10 m ρ c (Proc.devRef .tc main_v11) := by show StableHlo.after hostOps5 (W10 m ρ c) _ = _; host_keep
    _ = W9 m ρ c (Proc.devRef .tc main_v11) := (W10_arr m ρ c 2).trans (((dat4 (V9 m ρ) c).arrAt_in 2 rfl _).trans (A_eq4 (V9 m ρ) c 2))
    _ = W8 m ρ c (Proc.devRef .tc main_v11) := by show StableHlo.after hostOps4 (W8 m ρ c) _ = _; host_keep
    _ = W7 m ρ c (Proc.devRef .tc main_v11) := (W8_arr m ρ c 6).trans (((dat3 (V7 m ρ) c).arrAt_in 6 rfl _).trans (A_eq3 (V7 m ρ) c 6))
    _ = W6 m ρ c (Proc.devRef .tc main_v11) := by show StableHlo.after hostOps3 (W6 m ρ c) _ = _; host_keep
    _ = W5 m ρ c (Proc.devRef .tc main_v11) := W6_of_ne m ρ c main_v11 (by decide)
    _ = W4 m ρ c (Proc.devRef .tc main_v11) := by show StableHlo.after hostOps2 (W4 m ρ c) _ = _; host_keep
    _ = W3 m ρ c (Proc.devRef .tc main_v11) := (W4_arr m ρ c 2).trans (((dat1 (V3 m ρ) c).arrAt_in 2 rfl _).trans (A_eq1 (V3 m ρ) c 2))
    _ = W2 m ρ c (Proc.devRef .tc main_v11) := by show StableHlo.after hostOps1 (W2 m ρ c) _ = _; host_keep
    _ = W1 m ρ c (Proc.devRef .tc main_v11) := (W2_arr m ρ c 2).trans (((dat0 (V1 m ρ) c).arrAt_in 2 rfl _).trans (A_eq0 (V1 m ρ) c 2))

theorem keep_main_v14_0_2_3 : W3 (F := Ideal) m ρ c (Proc.devRef .tc main_v14_0) = W2 (F := Ideal) m ρ c (Proc.devRef .tc main_v14_0) :=
  calc W3 (F := Ideal) m ρ c (Proc.devRef .tc main_v14_0)
    _ = W2 m ρ c (Proc.devRef .tc main_v14_0) := by show StableHlo.after hostOps1 (W2 m ρ c) _ = _; host_keep

theorem keep_main_v28_0_4_5 : W5 (F := Ideal) m ρ c (Proc.devRef .tc main_v28_0) = W4 (F := Ideal) m ρ c (Proc.devRef .tc main_v28_0) :=
  calc W5 (F := Ideal) m ρ c (Proc.devRef .tc main_v28_0)
    _ = W4 m ρ c (Proc.devRef .tc main_v28_0) := by show StableHlo.after hostOps2 (W4 m ρ c) _ = _; host_keep

theorem keep_main_v28_0_4_7 : W7 (F := Ideal) m ρ c (Proc.devRef .tc main_v28_0) = W4 (F := Ideal) m ρ c (Proc.devRef .tc main_v28_0) :=
  calc W7 (F := Ideal) m ρ c (Proc.devRef .tc main_v28_0)
    _ = W6 m ρ c (Proc.devRef .tc main_v28_0) := by show StableHlo.after hostOps3 (W6 m ρ c) _ = _; host_keep
    _ = W5 m ρ c (Proc.devRef .tc main_v28_0) := (W6_arr m ρ c 0).trans (((dat2 (V5 m ρ) c).arrAt_in 0 rfl _).trans (A_eq2 (V5 m ρ) c 0))
    _ = W4 m ρ c (Proc.devRef .tc main_v28_0) := by show StableHlo.after hostOps2 (W4 m ρ c) _ = _; host_keep

theorem keep_main_v30_5_7 : W7 (F := Ideal) m ρ c (Proc.devRef .tc main_v30) = W5 (F := Ideal) m ρ c (Proc.devRef .tc main_v30) :=
  calc W7 (F := Ideal) m ρ c (Proc.devRef .tc main_v30)
    _ = W6 m ρ c (Proc.devRef .tc main_v30) := by show StableHlo.after hostOps3 (W6 m ρ c) _ = _; host_keep
    _ = W5 m ρ c (Proc.devRef .tc main_v30) := (W6_arr m ρ c 1).trans (((dat2 (V5 m ρ) c).arrAt_in 1 rfl _).trans (A_eq2 (V5 m ρ) c 1))

theorem keep_main_v42_0_8_9 : W9 (F := Ideal) m ρ c (Proc.devRef .tc main_v42_0) = W8 (F := Ideal) m ρ c (Proc.devRef .tc main_v42_0) :=
  calc W9 (F := Ideal) m ρ c (Proc.devRef .tc main_v42_0)
    _ = W8 m ρ c (Proc.devRef .tc main_v42_0) := by show StableHlo.after hostOps4 (W8 m ρ c) _ = _; host_keep

theorem keep_main_v56_0_10_11 : W11 (F := Ideal) m ρ c (Proc.devRef .tc main_v56_0) = W10 (F := Ideal) m ρ c (Proc.devRef .tc main_v56_0) :=
  calc W11 (F := Ideal) m ρ c (Proc.devRef .tc main_v56_0)
    _ = W10 m ρ c (Proc.devRef .tc main_v56_0) := by show StableHlo.after hostOps5 (W10 m ρ c) _ = _; host_keep

theorem keep_main_v56_0_10_13 : W13 (F := Ideal) m ρ c (Proc.devRef .tc main_v56_0) = W10 (F := Ideal) m ρ c (Proc.devRef .tc main_v56_0) :=
  calc W13 (F := Ideal) m ρ c (Proc.devRef .tc main_v56_0)
    _ = W12 m ρ c (Proc.devRef .tc main_v56_0) := by show StableHlo.after hostOps6 (W12 m ρ c) _ = _; host_keep
    _ = W11 m ρ c (Proc.devRef .tc main_v56_0) := (W12_arr m ρ c 0).trans (((dat5 (V11 m ρ) c).arrAt_in 0 rfl _).trans (A_eq5 (V11 m ρ) c 0))
    _ = W10 m ρ c (Proc.devRef .tc main_v56_0) := by show StableHlo.after hostOps5 (W10 m ρ c) _ = _; host_keep

theorem keep_main_v58_11_13 : W13 (F := Ideal) m ρ c (Proc.devRef .tc main_v58) = W11 (F := Ideal) m ρ c (Proc.devRef .tc main_v58) :=
  calc W13 (F := Ideal) m ρ c (Proc.devRef .tc main_v58)
    _ = W12 m ρ c (Proc.devRef .tc main_v58) := by show StableHlo.after hostOps6 (W12 m ρ c) _ = _; host_keep
    _ = W11 m ρ c (Proc.devRef .tc main_v58) := (W12_arr m ρ c 1).trans (((dat5 (V11 m ρ) c).arrAt_in 1 rfl _).trans (A_eq5 (V11 m ρ) c 1))

theorem keep_main_v70_0_14_15 : W15 (F := Ideal) m ρ c (Proc.devRef .tc main_v70_0) = W14 (F := Ideal) m ρ c (Proc.devRef .tc main_v70_0) :=
  calc W15 (F := Ideal) m ρ c (Proc.devRef .tc main_v70_0)
    _ = W14 m ρ c (Proc.devRef .tc main_v70_0) := by show StableHlo.after hostOps7 (W14 m ρ c) _ = _; host_keep

theorem keep_main_v84_0_16_17 : W17 (F := Ideal) m ρ c (Proc.devRef .tc main_v84_0) = W16 (F := Ideal) m ρ c (Proc.devRef .tc main_v84_0) :=
  calc W17 (F := Ideal) m ρ c (Proc.devRef .tc main_v84_0)
    _ = W16 m ρ c (Proc.devRef .tc main_v84_0) := by show StableHlo.after hostOps8 (W16 m ρ c) _ = _; host_keep

theorem keep_main_v84_0_16_19 : W19 (F := Ideal) m ρ c (Proc.devRef .tc main_v84_0) = W16 (F := Ideal) m ρ c (Proc.devRef .tc main_v84_0) :=
  calc W19 (F := Ideal) m ρ c (Proc.devRef .tc main_v84_0)
    _ = W18 m ρ c (Proc.devRef .tc main_v84_0) := by show StableHlo.after hostOps9 (W18 m ρ c) _ = _; host_keep
    _ = W17 m ρ c (Proc.devRef .tc main_v84_0) := (W18_arr m ρ c 0).trans (((dat8 (V17 m ρ) c).arrAt_in 0 rfl _).trans (A_eq8 (V17 m ρ) c 0))
    _ = W16 m ρ c (Proc.devRef .tc main_v84_0) := by show StableHlo.after hostOps8 (W16 m ρ c) _ = _; host_keep

theorem keep_main_v86_17_19 : W19 (F := Ideal) m ρ c (Proc.devRef .tc main_v86) = W17 (F := Ideal) m ρ c (Proc.devRef .tc main_v86) :=
  calc W19 (F := Ideal) m ρ c (Proc.devRef .tc main_v86)
    _ = W18 m ρ c (Proc.devRef .tc main_v86) := by show StableHlo.after hostOps9 (W18 m ρ c) _ = _; host_keep
    _ = W17 m ρ c (Proc.devRef .tc main_v86) := (W18_arr m ρ c 1).trans (((dat8 (V17 m ρ) c).arrAt_in 1 rfl _).trans (A_eq8 (V17 m ρ) c 1))

theorem keep_main_arg3_0_6 : W6 (F := Ideal) m ρ c (Proc.devRef .tc main_arg3) = W0 (F := Ideal) m ρ c (Proc.devRef .tc main_arg3) :=
  calc W6 (F := Ideal) m ρ c (Proc.devRef .tc main_arg3)
    _ = W5 m ρ c (Proc.devRef .tc main_arg3) := W6_of_ne m ρ c main_arg3 (by decide)
    _ = W4 m ρ c (Proc.devRef .tc main_arg3) := by show StableHlo.after hostOps2 (W4 m ρ c) _ = _; host_keep
    _ = W3 m ρ c (Proc.devRef .tc main_arg3) := W4_of_ne m ρ c main_arg3 (by decide)
    _ = W2 m ρ c (Proc.devRef .tc main_arg3) := by show StableHlo.after hostOps1 (W2 m ρ c) _ = _; host_keep
    _ = W1 m ρ c (Proc.devRef .tc main_arg3) := W2_of_ne m ρ c main_arg3 (by decide)
    _ = W0 m ρ c (Proc.devRef .tc main_arg3) := by show StableHlo.after hostOps0 (W0 m ρ c) _ = _; host_keep

theorem keep_main_arg3_0_12 : W12 (F := Ideal) m ρ c (Proc.devRef .tc main_arg3) = W0 (F := Ideal) m ρ c (Proc.devRef .tc main_arg3) :=
  calc W12 (F := Ideal) m ρ c (Proc.devRef .tc main_arg3)
    _ = W11 m ρ c (Proc.devRef .tc main_arg3) := W12_of_ne m ρ c main_arg3 (by decide)
    _ = W10 m ρ c (Proc.devRef .tc main_arg3) := by show StableHlo.after hostOps5 (W10 m ρ c) _ = _; host_keep
    _ = W9 m ρ c (Proc.devRef .tc main_arg3) := W10_of_ne m ρ c main_arg3 (by decide)
    _ = W8 m ρ c (Proc.devRef .tc main_arg3) := by show StableHlo.after hostOps4 (W8 m ρ c) _ = _; host_keep
    _ = W7 m ρ c (Proc.devRef .tc main_arg3) := W8_of_ne m ρ c main_arg3 (by decide)
    _ = W6 m ρ c (Proc.devRef .tc main_arg3) := by show StableHlo.after hostOps3 (W6 m ρ c) _ = _; host_keep
    _ = W5 m ρ c (Proc.devRef .tc main_arg3) := W6_of_ne m ρ c main_arg3 (by decide)
    _ = W4 m ρ c (Proc.devRef .tc main_arg3) := by show StableHlo.after hostOps2 (W4 m ρ c) _ = _; host_keep
    _ = W3 m ρ c (Proc.devRef .tc main_arg3) := W4_of_ne m ρ c main_arg3 (by decide)
    _ = W2 m ρ c (Proc.devRef .tc main_arg3) := by show StableHlo.after hostOps1 (W2 m ρ c) _ = _; host_keep
    _ = W1 m ρ c (Proc.devRef .tc main_arg3) := W2_of_ne m ρ c main_arg3 (by decide)
    _ = W0 m ρ c (Proc.devRef .tc main_arg3) := by show StableHlo.after hostOps0 (W0 m ρ c) _ = _; host_keep

theorem keep_main_arg4_0_2 : W2 (F := Ideal) m ρ c (Proc.devRef .tc main_arg4) = W0 (F := Ideal) m ρ c (Proc.devRef .tc main_arg4) :=
  calc W2 (F := Ideal) m ρ c (Proc.devRef .tc main_arg4)
    _ = W1 m ρ c (Proc.devRef .tc main_arg4) := W2_of_ne m ρ c main_arg4 (by decide)
    _ = W0 m ρ c (Proc.devRef .tc main_arg4) := by show StableHlo.after hostOps0 (W0 m ρ c) _ = _; host_keep

theorem keep_main_arg4_0_8 : W8 (F := Ideal) m ρ c (Proc.devRef .tc main_arg4) = W0 (F := Ideal) m ρ c (Proc.devRef .tc main_arg4) :=
  calc W8 (F := Ideal) m ρ c (Proc.devRef .tc main_arg4)
    _ = W7 m ρ c (Proc.devRef .tc main_arg4) := W8_of_ne m ρ c main_arg4 (by decide)
    _ = W6 m ρ c (Proc.devRef .tc main_arg4) := by show StableHlo.after hostOps3 (W6 m ρ c) _ = _; host_keep
    _ = W5 m ρ c (Proc.devRef .tc main_arg4) := W6_of_ne m ρ c main_arg4 (by decide)
    _ = W4 m ρ c (Proc.devRef .tc main_arg4) := by show StableHlo.after hostOps2 (W4 m ρ c) _ = _; host_keep
    _ = W3 m ρ c (Proc.devRef .tc main_arg4) := W4_of_ne m ρ c main_arg4 (by decide)
    _ = W2 m ρ c (Proc.devRef .tc main_arg4) := by show StableHlo.after hostOps1 (W2 m ρ c) _ = _; host_keep
    _ = W1 m ρ c (Proc.devRef .tc main_arg4) := W2_of_ne m ρ c main_arg4 (by decide)
    _ = W0 m ρ c (Proc.devRef .tc main_arg4) := by show StableHlo.after hostOps0 (W0 m ρ c) _ = _; host_keep

theorem keep_main_arg4_0_14 : W14 (F := Ideal) m ρ c (Proc.devRef .tc main_arg4) = W0 (F := Ideal) m ρ c (Proc.devRef .tc main_arg4) :=
  calc W14 (F := Ideal) m ρ c (Proc.devRef .tc main_arg4)
    _ = W13 m ρ c (Proc.devRef .tc main_arg4) := W14_of_ne m ρ c main_arg4 (by decide)
    _ = W12 m ρ c (Proc.devRef .tc main_arg4) := by show StableHlo.after hostOps6 (W12 m ρ c) _ = _; host_keep
    _ = W11 m ρ c (Proc.devRef .tc main_arg4) := W12_of_ne m ρ c main_arg4 (by decide)
    _ = W10 m ρ c (Proc.devRef .tc main_arg4) := by show StableHlo.after hostOps5 (W10 m ρ c) _ = _; host_keep
    _ = W9 m ρ c (Proc.devRef .tc main_arg4) := W10_of_ne m ρ c main_arg4 (by decide)
    _ = W8 m ρ c (Proc.devRef .tc main_arg4) := by show StableHlo.after hostOps4 (W8 m ρ c) _ = _; host_keep
    _ = W7 m ρ c (Proc.devRef .tc main_arg4) := W8_of_ne m ρ c main_arg4 (by decide)
    _ = W6 m ρ c (Proc.devRef .tc main_arg4) := by show StableHlo.after hostOps3 (W6 m ρ c) _ = _; host_keep
    _ = W5 m ρ c (Proc.devRef .tc main_arg4) := W6_of_ne m ρ c main_arg4 (by decide)
    _ = W4 m ρ c (Proc.devRef .tc main_arg4) := by show StableHlo.after hostOps2 (W4 m ρ c) _ = _; host_keep
    _ = W3 m ρ c (Proc.devRef .tc main_arg4) := W4_of_ne m ρ c main_arg4 (by decide)
    _ = W2 m ρ c (Proc.devRef .tc main_arg4) := by show StableHlo.after hostOps1 (W2 m ρ c) _ = _; host_keep
    _ = W1 m ρ c (Proc.devRef .tc main_arg4) := W2_of_ne m ρ c main_arg4 (by decide)
    _ = W0 m ρ c (Proc.devRef .tc main_arg4) := by show StableHlo.after hostOps0 (W0 m ρ c) _ = _; host_keep

theorem keep_main_arg5_0_6 : W6 (F := Ideal) m ρ c (Proc.devRef .tc main_arg5) = W0 (F := Ideal) m ρ c (Proc.devRef .tc main_arg5) :=
  calc W6 (F := Ideal) m ρ c (Proc.devRef .tc main_arg5)
    _ = W5 m ρ c (Proc.devRef .tc main_arg5) := W6_of_ne m ρ c main_arg5 (by decide)
    _ = W4 m ρ c (Proc.devRef .tc main_arg5) := by show StableHlo.after hostOps2 (W4 m ρ c) _ = _; host_keep
    _ = W3 m ρ c (Proc.devRef .tc main_arg5) := W4_of_ne m ρ c main_arg5 (by decide)
    _ = W2 m ρ c (Proc.devRef .tc main_arg5) := by show StableHlo.after hostOps1 (W2 m ρ c) _ = _; host_keep
    _ = W1 m ρ c (Proc.devRef .tc main_arg5) := W2_of_ne m ρ c main_arg5 (by decide)
    _ = W0 m ρ c (Proc.devRef .tc main_arg5) := by show StableHlo.after hostOps0 (W0 m ρ c) _ = _; host_keep

theorem keep_main_arg5_0_12 : W12 (F := Ideal) m ρ c (Proc.devRef .tc main_arg5) = W0 (F := Ideal) m ρ c (Proc.devRef .tc main_arg5) :=
  calc W12 (F := Ideal) m ρ c (Proc.devRef .tc main_arg5)
    _ = W11 m ρ c (Proc.devRef .tc main_arg5) := W12_of_ne m ρ c main_arg5 (by decide)
    _ = W10 m ρ c (Proc.devRef .tc main_arg5) := by show StableHlo.after hostOps5 (W10 m ρ c) _ = _; host_keep
    _ = W9 m ρ c (Proc.devRef .tc main_arg5) := W10_of_ne m ρ c main_arg5 (by decide)
    _ = W8 m ρ c (Proc.devRef .tc main_arg5) := by show StableHlo.after hostOps4 (W8 m ρ c) _ = _; host_keep
    _ = W7 m ρ c (Proc.devRef .tc main_arg5) := W8_of_ne m ρ c main_arg5 (by decide)
    _ = W6 m ρ c (Proc.devRef .tc main_arg5) := by show StableHlo.after hostOps3 (W6 m ρ c) _ = _; host_keep
    _ = W5 m ρ c (Proc.devRef .tc main_arg5) := W6_of_ne m ρ c main_arg5 (by decide)
    _ = W4 m ρ c (Proc.devRef .tc main_arg5) := by show StableHlo.after hostOps2 (W4 m ρ c) _ = _; host_keep
    _ = W3 m ρ c (Proc.devRef .tc main_arg5) := W4_of_ne m ρ c main_arg5 (by decide)
    _ = W2 m ρ c (Proc.devRef .tc main_arg5) := by show StableHlo.after hostOps1 (W2 m ρ c) _ = _; host_keep
    _ = W1 m ρ c (Proc.devRef .tc main_arg5) := W2_of_ne m ρ c main_arg5 (by decide)
    _ = W0 m ρ c (Proc.devRef .tc main_arg5) := by show StableHlo.after hostOps0 (W0 m ρ c) _ = _; host_keep

theorem keep_main_arg5_0_18 : W18 (F := Ideal) m ρ c (Proc.devRef .tc main_arg5) = W0 (F := Ideal) m ρ c (Proc.devRef .tc main_arg5) :=
  calc W18 (F := Ideal) m ρ c (Proc.devRef .tc main_arg5)
    _ = W17 m ρ c (Proc.devRef .tc main_arg5) := W18_of_ne m ρ c main_arg5 (by decide)
    _ = W16 m ρ c (Proc.devRef .tc main_arg5) := by show StableHlo.after hostOps8 (W16 m ρ c) _ = _; host_keep
    _ = W15 m ρ c (Proc.devRef .tc main_arg5) := W16_of_ne m ρ c main_arg5 (by decide)
    _ = W14 m ρ c (Proc.devRef .tc main_arg5) := by show StableHlo.after hostOps7 (W14 m ρ c) _ = _; host_keep
    _ = W13 m ρ c (Proc.devRef .tc main_arg5) := W14_of_ne m ρ c main_arg5 (by decide)
    _ = W12 m ρ c (Proc.devRef .tc main_arg5) := by show StableHlo.after hostOps6 (W12 m ρ c) _ = _; host_keep
    _ = W11 m ρ c (Proc.devRef .tc main_arg5) := W12_of_ne m ρ c main_arg5 (by decide)
    _ = W10 m ρ c (Proc.devRef .tc main_arg5) := by show StableHlo.after hostOps5 (W10 m ρ c) _ = _; host_keep
    _ = W9 m ρ c (Proc.devRef .tc main_arg5) := W10_of_ne m ρ c main_arg5 (by decide)
    _ = W8 m ρ c (Proc.devRef .tc main_arg5) := by show StableHlo.after hostOps4 (W8 m ρ c) _ = _; host_keep
    _ = W7 m ρ c (Proc.devRef .tc main_arg5) := W8_of_ne m ρ c main_arg5 (by decide)
    _ = W6 m ρ c (Proc.devRef .tc main_arg5) := by show StableHlo.after hostOps3 (W6 m ρ c) _ = _; host_keep
    _ = W5 m ρ c (Proc.devRef .tc main_arg5) := W6_of_ne m ρ c main_arg5 (by decide)
    _ = W4 m ρ c (Proc.devRef .tc main_arg5) := by show StableHlo.after hostOps2 (W4 m ρ c) _ = _; host_keep
    _ = W3 m ρ c (Proc.devRef .tc main_arg5) := W4_of_ne m ρ c main_arg5 (by decide)
    _ = W2 m ρ c (Proc.devRef .tc main_arg5) := by show StableHlo.after hostOps1 (W2 m ρ c) _ = _; host_keep
    _ = W1 m ρ c (Proc.devRef .tc main_arg5) := W2_of_ne m ρ c main_arg5 (by decide)
    _ = W0 m ρ c (Proc.devRef .tc main_arg5) := by show StableHlo.after hostOps0 (W0 m ρ c) _ = _; host_keep

theorem keep_main_arg6_0_6 : W6 (F := Ideal) m ρ c (Proc.devRef .tc main_arg6) = W0 (F := Ideal) m ρ c (Proc.devRef .tc main_arg6) :=
  calc W6 (F := Ideal) m ρ c (Proc.devRef .tc main_arg6)
    _ = W5 m ρ c (Proc.devRef .tc main_arg6) := W6_of_ne m ρ c main_arg6 (by decide)
    _ = W4 m ρ c (Proc.devRef .tc main_arg6) := by show StableHlo.after hostOps2 (W4 m ρ c) _ = _; host_keep
    _ = W3 m ρ c (Proc.devRef .tc main_arg6) := W4_of_ne m ρ c main_arg6 (by decide)
    _ = W2 m ρ c (Proc.devRef .tc main_arg6) := by show StableHlo.after hostOps1 (W2 m ρ c) _ = _; host_keep
    _ = W1 m ρ c (Proc.devRef .tc main_arg6) := W2_of_ne m ρ c main_arg6 (by decide)
    _ = W0 m ρ c (Proc.devRef .tc main_arg6) := by show StableHlo.after hostOps0 (W0 m ρ c) _ = _; host_keep

theorem keep_main_arg6_0_12 : W12 (F := Ideal) m ρ c (Proc.devRef .tc main_arg6) = W0 (F := Ideal) m ρ c (Proc.devRef .tc main_arg6) :=
  calc W12 (F := Ideal) m ρ c (Proc.devRef .tc main_arg6)
    _ = W11 m ρ c (Proc.devRef .tc main_arg6) := W12_of_ne m ρ c main_arg6 (by decide)
    _ = W10 m ρ c (Proc.devRef .tc main_arg6) := by show StableHlo.after hostOps5 (W10 m ρ c) _ = _; host_keep
    _ = W9 m ρ c (Proc.devRef .tc main_arg6) := W10_of_ne m ρ c main_arg6 (by decide)
    _ = W8 m ρ c (Proc.devRef .tc main_arg6) := by show StableHlo.after hostOps4 (W8 m ρ c) _ = _; host_keep
    _ = W7 m ρ c (Proc.devRef .tc main_arg6) := W8_of_ne m ρ c main_arg6 (by decide)
    _ = W6 m ρ c (Proc.devRef .tc main_arg6) := by show StableHlo.after hostOps3 (W6 m ρ c) _ = _; host_keep
    _ = W5 m ρ c (Proc.devRef .tc main_arg6) := W6_of_ne m ρ c main_arg6 (by decide)
    _ = W4 m ρ c (Proc.devRef .tc main_arg6) := by show StableHlo.after hostOps2 (W4 m ρ c) _ = _; host_keep
    _ = W3 m ρ c (Proc.devRef .tc main_arg6) := W4_of_ne m ρ c main_arg6 (by decide)
    _ = W2 m ρ c (Proc.devRef .tc main_arg6) := by show StableHlo.after hostOps1 (W2 m ρ c) _ = _; host_keep
    _ = W1 m ρ c (Proc.devRef .tc main_arg6) := W2_of_ne m ρ c main_arg6 (by decide)
    _ = W0 m ρ c (Proc.devRef .tc main_arg6) := by show StableHlo.after hostOps0 (W0 m ρ c) _ = _; host_keep

theorem keep_main_arg6_0_18 : W18 (F := Ideal) m ρ c (Proc.devRef .tc main_arg6) = W0 (F := Ideal) m ρ c (Proc.devRef .tc main_arg6) :=
  calc W18 (F := Ideal) m ρ c (Proc.devRef .tc main_arg6)
    _ = W17 m ρ c (Proc.devRef .tc main_arg6) := W18_of_ne m ρ c main_arg6 (by decide)
    _ = W16 m ρ c (Proc.devRef .tc main_arg6) := by show StableHlo.after hostOps8 (W16 m ρ c) _ = _; host_keep
    _ = W15 m ρ c (Proc.devRef .tc main_arg6) := W16_of_ne m ρ c main_arg6 (by decide)
    _ = W14 m ρ c (Proc.devRef .tc main_arg6) := by show StableHlo.after hostOps7 (W14 m ρ c) _ = _; host_keep
    _ = W13 m ρ c (Proc.devRef .tc main_arg6) := W14_of_ne m ρ c main_arg6 (by decide)
    _ = W12 m ρ c (Proc.devRef .tc main_arg6) := by show StableHlo.after hostOps6 (W12 m ρ c) _ = _; host_keep
    _ = W11 m ρ c (Proc.devRef .tc main_arg6) := W12_of_ne m ρ c main_arg6 (by decide)
    _ = W10 m ρ c (Proc.devRef .tc main_arg6) := by show StableHlo.after hostOps5 (W10 m ρ c) _ = _; host_keep
    _ = W9 m ρ c (Proc.devRef .tc main_arg6) := W10_of_ne m ρ c main_arg6 (by decide)
    _ = W8 m ρ c (Proc.devRef .tc main_arg6) := by show StableHlo.after hostOps4 (W8 m ρ c) _ = _; host_keep
    _ = W7 m ρ c (Proc.devRef .tc main_arg6) := W8_of_ne m ρ c main_arg6 (by decide)
    _ = W6 m ρ c (Proc.devRef .tc main_arg6) := by show StableHlo.after hostOps3 (W6 m ρ c) _ = _; host_keep
    _ = W5 m ρ c (Proc.devRef .tc main_arg6) := W6_of_ne m ρ c main_arg6 (by decide)
    _ = W4 m ρ c (Proc.devRef .tc main_arg6) := by show StableHlo.after hostOps2 (W4 m ρ c) _ = _; host_keep
    _ = W3 m ρ c (Proc.devRef .tc main_arg6) := W4_of_ne m ρ c main_arg6 (by decide)
    _ = W2 m ρ c (Proc.devRef .tc main_arg6) := by show StableHlo.after hostOps1 (W2 m ρ c) _ = _; host_keep
    _ = W1 m ρ c (Proc.devRef .tc main_arg6) := W2_of_ne m ρ c main_arg6 (by decide)
    _ = W0 m ρ c (Proc.devRef .tc main_arg6) := by show StableHlo.after hostOps0 (W0 m ρ c) _ = _; host_keep

theorem keep_main_arg2_0_20 : W20 (F := Ideal) m ρ c (Proc.devRef .tc main_arg2) = W0 (F := Ideal) m ρ c (Proc.devRef .tc main_arg2) :=
  calc W20 (F := Ideal) m ρ c (Proc.devRef .tc main_arg2)
    _ = W19 m ρ c (Proc.devRef .tc main_arg2) := W20_of_ne m ρ c main_arg2 (by decide)
    _ = W18 m ρ c (Proc.devRef .tc main_arg2) := by show StableHlo.after hostOps9 (W18 m ρ c) _ = _; host_keep
    _ = W17 m ρ c (Proc.devRef .tc main_arg2) := W18_of_ne m ρ c main_arg2 (by decide)
    _ = W16 m ρ c (Proc.devRef .tc main_arg2) := by show StableHlo.after hostOps8 (W16 m ρ c) _ = _; host_keep
    _ = W15 m ρ c (Proc.devRef .tc main_arg2) := W16_of_ne m ρ c main_arg2 (by decide)
    _ = W14 m ρ c (Proc.devRef .tc main_arg2) := by show StableHlo.after hostOps7 (W14 m ρ c) _ = _; host_keep
    _ = W13 m ρ c (Proc.devRef .tc main_arg2) := W14_of_ne m ρ c main_arg2 (by decide)
    _ = W12 m ρ c (Proc.devRef .tc main_arg2) := by show StableHlo.after hostOps6 (W12 m ρ c) _ = _; host_keep
    _ = W11 m ρ c (Proc.devRef .tc main_arg2) := W12_of_ne m ρ c main_arg2 (by decide)
    _ = W10 m ρ c (Proc.devRef .tc main_arg2) := by show StableHlo.after hostOps5 (W10 m ρ c) _ = _; host_keep
    _ = W9 m ρ c (Proc.devRef .tc main_arg2) := W10_of_ne m ρ c main_arg2 (by decide)
    _ = W8 m ρ c (Proc.devRef .tc main_arg2) := by show StableHlo.after hostOps4 (W8 m ρ c) _ = _; host_keep
    _ = W7 m ρ c (Proc.devRef .tc main_arg2) := W8_of_ne m ρ c main_arg2 (by decide)
    _ = W6 m ρ c (Proc.devRef .tc main_arg2) := by show StableHlo.after hostOps3 (W6 m ρ c) _ = _; host_keep
    _ = W5 m ρ c (Proc.devRef .tc main_arg2) := W6_of_ne m ρ c main_arg2 (by decide)
    _ = W4 m ρ c (Proc.devRef .tc main_arg2) := by show StableHlo.after hostOps2 (W4 m ρ c) _ = _; host_keep
    _ = W3 m ρ c (Proc.devRef .tc main_arg2) := W4_of_ne m ρ c main_arg2 (by decide)
    _ = W2 m ρ c (Proc.devRef .tc main_arg2) := by show StableHlo.after hostOps1 (W2 m ρ c) _ = _; host_keep
    _ = W1 m ρ c (Proc.devRef .tc main_arg2) := W2_of_ne m ρ c main_arg2 (by decide)
    _ = W0 m ρ c (Proc.devRef .tc main_arg2) := by show StableHlo.after hostOps0 (W0 m ρ c) _ = _; host_keep

theorem keep_main_arg8_0_20 : W20 (F := Ideal) m ρ c (Proc.devRef .tc main_arg8) = W0 (F := Ideal) m ρ c (Proc.devRef .tc main_arg8) :=
  calc W20 (F := Ideal) m ρ c (Proc.devRef .tc main_arg8)
    _ = W19 m ρ c (Proc.devRef .tc main_arg8) := W20_of_ne m ρ c main_arg8 (by decide)
    _ = W18 m ρ c (Proc.devRef .tc main_arg8) := by show StableHlo.after hostOps9 (W18 m ρ c) _ = _; host_keep
    _ = W17 m ρ c (Proc.devRef .tc main_arg8) := W18_of_ne m ρ c main_arg8 (by decide)
    _ = W16 m ρ c (Proc.devRef .tc main_arg8) := by show StableHlo.after hostOps8 (W16 m ρ c) _ = _; host_keep
    _ = W15 m ρ c (Proc.devRef .tc main_arg8) := W16_of_ne m ρ c main_arg8 (by decide)
    _ = W14 m ρ c (Proc.devRef .tc main_arg8) := by show StableHlo.after hostOps7 (W14 m ρ c) _ = _; host_keep
    _ = W13 m ρ c (Proc.devRef .tc main_arg8) := W14_of_ne m ρ c main_arg8 (by decide)
    _ = W12 m ρ c (Proc.devRef .tc main_arg8) := by show StableHlo.after hostOps6 (W12 m ρ c) _ = _; host_keep
    _ = W11 m ρ c (Proc.devRef .tc main_arg8) := W12_of_ne m ρ c main_arg8 (by decide)
    _ = W10 m ρ c (Proc.devRef .tc main_arg8) := by show StableHlo.after hostOps5 (W10 m ρ c) _ = _; host_keep
    _ = W9 m ρ c (Proc.devRef .tc main_arg8) := W10_of_ne m ρ c main_arg8 (by decide)
    _ = W8 m ρ c (Proc.devRef .tc main_arg8) := by show StableHlo.after hostOps4 (W8 m ρ c) _ = _; host_keep
    _ = W7 m ρ c (Proc.devRef .tc main_arg8) := W8_of_ne m ρ c main_arg8 (by decide)
    _ = W6 m ρ c (Proc.devRef .tc main_arg8) := by show StableHlo.after hostOps3 (W6 m ρ c) _ = _; host_keep
    _ = W5 m ρ c (Proc.devRef .tc main_arg8) := W6_of_ne m ρ c main_arg8 (by decide)
    _ = W4 m ρ c (Proc.devRef .tc main_arg8) := by show StableHlo.after hostOps2 (W4 m ρ c) _ = _; host_keep
    _ = W3 m ρ c (Proc.devRef .tc main_arg8) := W4_of_ne m ρ c main_arg8 (by decide)
    _ = W2 m ρ c (Proc.devRef .tc main_arg8) := by show StableHlo.after hostOps1 (W2 m ρ c) _ = _; host_keep
    _ = W1 m ρ c (Proc.devRef .tc main_arg8) := W2_of_ne m ρ c main_arg8 (by decide)
    _ = W0 m ρ c (Proc.devRef .tc main_arg8) := by show StableHlo.after hostOps0 (W0 m ρ c) _ = _; host_keep

theorem keep_main_arg10_0_20 : W20 (F := Ideal) m ρ c (Proc.devRef .tc main_arg10) = W0 (F := Ideal) m ρ c (Proc.devRef .tc main_arg10) :=
  calc W20 (F := Ideal) m ρ c (Proc.devRef .tc main_arg10)
    _ = W19 m ρ c (Proc.devRef .tc main_arg10) := W20_of_ne m ρ c main_arg10 (by decide)
    _ = W18 m ρ c (Proc.devRef .tc main_arg10) := by show StableHlo.after hostOps9 (W18 m ρ c) _ = _; host_keep
    _ = W17 m ρ c (Proc.devRef .tc main_arg10) := W18_of_ne m ρ c main_arg10 (by decide)
    _ = W16 m ρ c (Proc.devRef .tc main_arg10) := by show StableHlo.after hostOps8 (W16 m ρ c) _ = _; host_keep
    _ = W15 m ρ c (Proc.devRef .tc main_arg10) := W16_of_ne m ρ c main_arg10 (by decide)
    _ = W14 m ρ c (Proc.devRef .tc main_arg10) := by show StableHlo.after hostOps7 (W14 m ρ c) _ = _; host_keep
    _ = W13 m ρ c (Proc.devRef .tc main_arg10) := W14_of_ne m ρ c main_arg10 (by decide)
    _ = W12 m ρ c (Proc.devRef .tc main_arg10) := by show StableHlo.after hostOps6 (W12 m ρ c) _ = _; host_keep
    _ = W11 m ρ c (Proc.devRef .tc main_arg10) := W12_of_ne m ρ c main_arg10 (by decide)
    _ = W10 m ρ c (Proc.devRef .tc main_arg10) := by show StableHlo.after hostOps5 (W10 m ρ c) _ = _; host_keep
    _ = W9 m ρ c (Proc.devRef .tc main_arg10) := W10_of_ne m ρ c main_arg10 (by decide)
    _ = W8 m ρ c (Proc.devRef .tc main_arg10) := by show StableHlo.after hostOps4 (W8 m ρ c) _ = _; host_keep
    _ = W7 m ρ c (Proc.devRef .tc main_arg10) := W8_of_ne m ρ c main_arg10 (by decide)
    _ = W6 m ρ c (Proc.devRef .tc main_arg10) := by show StableHlo.after hostOps3 (W6 m ρ c) _ = _; host_keep
    _ = W5 m ρ c (Proc.devRef .tc main_arg10) := W6_of_ne m ρ c main_arg10 (by decide)
    _ = W4 m ρ c (Proc.devRef .tc main_arg10) := by show StableHlo.after hostOps2 (W4 m ρ c) _ = _; host_keep
    _ = W3 m ρ c (Proc.devRef .tc main_arg10) := W4_of_ne m ρ c main_arg10 (by decide)
    _ = W2 m ρ c (Proc.devRef .tc main_arg10) := by show StableHlo.after hostOps1 (W2 m ρ c) _ = _; host_keep
    _ = W1 m ρ c (Proc.devRef .tc main_arg10) := W2_of_ne m ρ c main_arg10 (by decide)
    _ = W0 m ρ c (Proc.devRef .tc main_arg10) := by show StableHlo.after hostOps0 (W0 m ρ c) _ = _; host_keep

theorem keep_main_arg7_0_21 : W21 (F := Ideal) m ρ c (Proc.devRef .tc main_arg7) = W0 (F := Ideal) m ρ c (Proc.devRef .tc main_arg7) :=
  calc W21 (F := Ideal) m ρ c (Proc.devRef .tc main_arg7)
    _ = W20 m ρ c (Proc.devRef .tc main_arg7) := by show StableHlo.after hostOps10 (W20 m ρ c) _ = _; host_keep
    _ = W19 m ρ c (Proc.devRef .tc main_arg7) := W20_of_ne m ρ c main_arg7 (by decide)
    _ = W18 m ρ c (Proc.devRef .tc main_arg7) := by show StableHlo.after hostOps9 (W18 m ρ c) _ = _; host_keep
    _ = W17 m ρ c (Proc.devRef .tc main_arg7) := W18_of_ne m ρ c main_arg7 (by decide)
    _ = W16 m ρ c (Proc.devRef .tc main_arg7) := by show StableHlo.after hostOps8 (W16 m ρ c) _ = _; host_keep
    _ = W15 m ρ c (Proc.devRef .tc main_arg7) := W16_of_ne m ρ c main_arg7 (by decide)
    _ = W14 m ρ c (Proc.devRef .tc main_arg7) := by show StableHlo.after hostOps7 (W14 m ρ c) _ = _; host_keep
    _ = W13 m ρ c (Proc.devRef .tc main_arg7) := W14_of_ne m ρ c main_arg7 (by decide)
    _ = W12 m ρ c (Proc.devRef .tc main_arg7) := by show StableHlo.after hostOps6 (W12 m ρ c) _ = _; host_keep
    _ = W11 m ρ c (Proc.devRef .tc main_arg7) := W12_of_ne m ρ c main_arg7 (by decide)
    _ = W10 m ρ c (Proc.devRef .tc main_arg7) := by show StableHlo.after hostOps5 (W10 m ρ c) _ = _; host_keep
    _ = W9 m ρ c (Proc.devRef .tc main_arg7) := W10_of_ne m ρ c main_arg7 (by decide)
    _ = W8 m ρ c (Proc.devRef .tc main_arg7) := by show StableHlo.after hostOps4 (W8 m ρ c) _ = _; host_keep
    _ = W7 m ρ c (Proc.devRef .tc main_arg7) := W8_of_ne m ρ c main_arg7 (by decide)
    _ = W6 m ρ c (Proc.devRef .tc main_arg7) := by show StableHlo.after hostOps3 (W6 m ρ c) _ = _; host_keep
    _ = W5 m ρ c (Proc.devRef .tc main_arg7) := W6_of_ne m ρ c main_arg7 (by decide)
    _ = W4 m ρ c (Proc.devRef .tc main_arg7) := by show StableHlo.after hostOps2 (W4 m ρ c) _ = _; host_keep
    _ = W3 m ρ c (Proc.devRef .tc main_arg7) := W4_of_ne m ρ c main_arg7 (by decide)
    _ = W2 m ρ c (Proc.devRef .tc main_arg7) := by show StableHlo.after hostOps1 (W2 m ρ c) _ = _; host_keep
    _ = W1 m ρ c (Proc.devRef .tc main_arg7) := W2_of_ne m ρ c main_arg7 (by decide)
    _ = W0 m ρ c (Proc.devRef .tc main_arg7) := by show StableHlo.after hostOps0 (W0 m ρ c) _ = _; host_keep

theorem keep_main_arg9_0_21 : W21 (F := Ideal) m ρ c (Proc.devRef .tc main_arg9) = W0 (F := Ideal) m ρ c (Proc.devRef .tc main_arg9) :=
  calc W21 (F := Ideal) m ρ c (Proc.devRef .tc main_arg9)
    _ = W20 m ρ c (Proc.devRef .tc main_arg9) := by show StableHlo.after hostOps10 (W20 m ρ c) _ = _; host_keep
    _ = W19 m ρ c (Proc.devRef .tc main_arg9) := W20_of_ne m ρ c main_arg9 (by decide)
    _ = W18 m ρ c (Proc.devRef .tc main_arg9) := by show StableHlo.after hostOps9 (W18 m ρ c) _ = _; host_keep
    _ = W17 m ρ c (Proc.devRef .tc main_arg9) := W18_of_ne m ρ c main_arg9 (by decide)
    _ = W16 m ρ c (Proc.devRef .tc main_arg9) := by show StableHlo.after hostOps8 (W16 m ρ c) _ = _; host_keep
    _ = W15 m ρ c (Proc.devRef .tc main_arg9) := W16_of_ne m ρ c main_arg9 (by decide)
    _ = W14 m ρ c (Proc.devRef .tc main_arg9) := by show StableHlo.after hostOps7 (W14 m ρ c) _ = _; host_keep
    _ = W13 m ρ c (Proc.devRef .tc main_arg9) := W14_of_ne m ρ c main_arg9 (by decide)
    _ = W12 m ρ c (Proc.devRef .tc main_arg9) := by show StableHlo.after hostOps6 (W12 m ρ c) _ = _; host_keep
    _ = W11 m ρ c (Proc.devRef .tc main_arg9) := W12_of_ne m ρ c main_arg9 (by decide)
    _ = W10 m ρ c (Proc.devRef .tc main_arg9) := by show StableHlo.after hostOps5 (W10 m ρ c) _ = _; host_keep
    _ = W9 m ρ c (Proc.devRef .tc main_arg9) := W10_of_ne m ρ c main_arg9 (by decide)
    _ = W8 m ρ c (Proc.devRef .tc main_arg9) := by show StableHlo.after hostOps4 (W8 m ρ c) _ = _; host_keep
    _ = W7 m ρ c (Proc.devRef .tc main_arg9) := W8_of_ne m ρ c main_arg9 (by decide)
    _ = W6 m ρ c (Proc.devRef .tc main_arg9) := by show StableHlo.after hostOps3 (W6 m ρ c) _ = _; host_keep
    _ = W5 m ρ c (Proc.devRef .tc main_arg9) := W6_of_ne m ρ c main_arg9 (by decide)
    _ = W4 m ρ c (Proc.devRef .tc main_arg9) := by show StableHlo.after hostOps2 (W4 m ρ c) _ = _; host_keep
    _ = W3 m ρ c (Proc.devRef .tc main_arg9) := W4_of_ne m ρ c main_arg9 (by decide)
    _ = W2 m ρ c (Proc.devRef .tc main_arg9) := by show StableHlo.after hostOps1 (W2 m ρ c) _ = _; host_keep
    _ = W1 m ρ c (Proc.devRef .tc main_arg9) := W2_of_ne m ρ c main_arg9 (by decide)
    _ = W0 m ρ c (Proc.devRef .tc main_arg9) := by show StableHlo.after hostOps0 (W0 m ρ c) _ = _; host_keep

theorem keep_main_arg0_0_1 : W1 (F := Ideal) m ρ c (Proc.devRef .tc main_arg0) = W0 (F := Ideal) m ρ c (Proc.devRef .tc main_arg0) :=
  calc W1 (F := Ideal) m ρ c (Proc.devRef .tc main_arg0)
    _ = W0 m ρ c (Proc.devRef .tc main_arg0) := by show StableHlo.after hostOps0 (W0 m ρ c) _ = _; host_keep

end Cert.KernelIdeal.Chain

end
-- ==== Proof.HostGlue.lean ====
/-
  Host operations read as the model's functions, at the ideal instance.

  * The accumulating scatter of rows into a table of zeros along an index column is `segSum`; into a vector of
    zeros, `segSumVec`.
  * The row gather along an index column is `gatherRows`.
  * A quotient by a splat constant is the entrywise quotient by that constant.
  The dimension numbers are a variable record whose fields are given by hypotheses, the extents stay variables.
-/
import proofs.«168746_j56882546868465_2_alg».proof.Proof.Model
import Idealize.ShloMosaic.PureOps.Ideal.Laws

noncomputable section

open scoped BigOperators

namespace Cert.GCN

open Idealize.ShloMosaic Idealize.ShloMosaic.ValueIdx Cert.Proof.LibRowIndex

/-- A row scatter-add into zeros is the segment sum. -/
theorem scatterAdd_zeros_eq_segSum {N E W : Nat}
    (d : ScatterDims (⟨2, ![N, W]⟩ : Shape) (⟨2, ![E, 1]⟩ : Shape) (⟨2, ![E, W]⟩ : Shape))
    (h1 : d.updateWindowDims = [1]) (h2 : d.insertedWindowDims = [0]) (h3 : d.scatterDimsToOperandDims = [0])
    (h4 : d.indexVectorDim = 1)
    (z : FVec Ideal (⟨2, ![N, W]⟩ : Shape) .f32) (hz : ∀ i, z i = 0)
    (idx : IVec (⟨2, ![E, 1]⟩ : Shape) 32) (upd : FVec Ideal (⟨2, ![E, W]⟩ : Shape) .f32) :
    Host.scatterAdd (F := Ideal) (φ := .f32) d z idx upd = segSum idx upd := by
  funext i
  obtain ⟨n, g, rfl⟩ : ∃ (n : Fin N) (g : Fin W), i = ix2 n g := ⟨i 0, i 1, eq_ix2 i⟩
  rw [rowScatterAdd_apply' d h1 h2 h3 h4, hz]
  rfl

/-- A scatter-add of a vector into zeros is the segment sum of the vector. -/
theorem scatterAdd_zeros_eq_segSumVec {N E : Nat}
    (d : ScatterDims (⟨1, ![N]⟩ : Shape) (⟨2, ![E, 1]⟩ : Shape) (⟨1, ![E]⟩ : Shape))
    (h1 : d.updateWindowDims = []) (h2 : d.insertedWindowDims = [0]) (h3 : d.scatterDimsToOperandDims = [0])
    (h4 : d.indexVectorDim = 1)
    (z : FVec Ideal (⟨1, ![N]⟩ : Shape) .f32) (hz : ∀ i, z i = 0)
    (idx : IVec (⟨2, ![E, 1]⟩ : Shape) 32) (upd : FVec Ideal (⟨1, ![E]⟩ : Shape) .f32) :
    Host.scatterAdd (F := Ideal) (φ := .f32) d z idx upd = segSumVec idx upd := by
  funext i
  obtain ⟨n, rfl⟩ : ∃ n : Fin N, i = ix1 n := ⟨i 0, eq_ix1 i⟩
  rw [vecScatterAdd_apply' d h1 h2 h3 h4, hz]
  rfl

/-- A row gather is `gatherRows`. -/
theorem gather_eq_gatherRows {N E W : Nat} (hN : 0 < N)
    (d : GatherDims (⟨2, ![N, W]⟩ : Shape) (⟨2, ![E, 1]⟩ : Shape) (⟨2, ![E, W]⟩ : Shape))
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, W])
    (x : (⟨2, ![N, W]⟩ : Shape).Idx → EReal) (idx : IVec (⟨2, ![E, 1]⟩ : Shape) 32) :
    Host.gather d x idx = gatherRows hN idx x := by
  funext j
  obtain ⟨e, f, rfl⟩ : ∃ (e : Fin E) (f : Fin W), j = ix2 e f := ⟨j 0, j 1, eq_ix2 j⟩
  rw [rowGather_apply hN d h1 h2 h3 h4 h5 h6 h7]
  rfl

/-- The zero splat is zero everywhere. -/
theorem bcast_zero_apply {s : Shape} (h : (⟨0, ![]⟩ : Shape).BroadcastsInDim s ![]) (i : s.Idx) :
    (broadcastInDim s ![] h (constant (F := Ideal) (⟨0, ![]⟩ : Shape) .f32 0x00000000#32) : FVec Ideal s .f32) i = 0 := by
  show Ideal.ofBits .f32 0x00000000#32 = 0
  exact Ideal.ofBits_zero_f32

end Cert.GCN

end
-- ==== Proof.LibColRow.lean ====
/-
  A vector laid out as a column or as a row: the reshape and the broadcast in one dimension agree.

  An `[n]` array becomes an `[n, 1]` column either by a reshape or by a broadcast that sends its axis to axis 0; it becomes
  a `[1, n]` row either by a reshape or by a broadcast that sends its axis to axis 1.  Either way the entry at `(p, u)`
  (resp. `(u, q)`) is the vector's entry at `p` (resp. `q`), so the two arrays are equal.
-/
import Idealize.ShloMosaic.Lib.Pipeline.Value
import Idealize.ShloMosaic.Lib.ValueIdx
import Idealize.ShloMosaic.Lib.ValueLayout

namespace Cert.LibColRow

open Idealize.ShloMosaic Idealize.ShloMosaic.ValueIdx

variable {α : Type}

/-- The column `[n, 1]` broadcast from `[n]` along axis 0 reads, at `(p, u)`, the vector at `p`. -/
theorem broadcastInDim_col_apply {n : ℕ} (v : (⟨1, ![n]⟩ : Shape).Idx → α)
    (hb : (⟨1, ![n]⟩ : Shape).BroadcastsInDim ⟨2, ![n, 1]⟩ ![0]) (p : Fin n) (u : Fin 1) :
    broadcastInDim ⟨2, ![n, 1]⟩ ![0] hb v (ix2 p u) = v (ix1 p) :=
  broadcastInDim_apply ![0] hb v (ix2 p u) (ix1 p) fun a => by
    match a with
    | ⟨0, _⟩ =>
      show p.val = if n = 1 then 0 else p.val
      split
      · have := p.isLt; omega
      · rfl

/-- The row `[1, n]` broadcast from `[n]` along axis 1 reads, at `(u, q)`, the vector at `q`. -/
theorem broadcastInDim_row_apply {n : ℕ} (v : (⟨1, ![n]⟩ : Shape).Idx → α)
    (hb : (⟨1, ![n]⟩ : Shape).BroadcastsInDim ⟨2, ![1, n]⟩ ![1]) (u : Fin 1) (q : Fin n) :
    broadcastInDim ⟨2, ![1, n]⟩ ![1] hb v (ix2 u q) = v (ix1 q) :=
  broadcastInDim_apply ![1] hb v (ix2 u q) (ix1 q) fun a => by
    match a with
    | ⟨0, _⟩ =>
      show q.val = if n = 1 then 0 else q.val
      split
      · have := q.isLt; omega
      · rfl

/-- A vector reshaped to a column reads, at `(p, u)`, the vector at `p`. -/
theorem shapeCast_col_apply {n : ℕ} (v : (⟨1, ![n]⟩ : Shape).Idx → α) (h : (⟨1, ![n]⟩ : Shape).ShapeCasts ⟨2, ![n, 1]⟩)
    (p : Fin n) (u : Fin 1) : shapeCast ⟨2, ![n, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A vector reshaped to a column is the vector broadcast along axis 0. -/
theorem shapeCast_col_eq_broadcastInDim {n : ℕ} (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ v h = broadcastInDim ⟨2, ![n, 1]⟩ ![0] hb v := by
  funext i
  obtain ⟨p, u, rfl⟩ : ∃ (p : Fin n) (u : Fin 1), i = ix2 p u := ⟨i 0, i 1, eq_ix2 i⟩
  rw [shapeCast_col_apply, broadcastInDim_col_apply]

/-- A vector reshaped to a row is the vector broadcast along axis 1. -/
theorem shapeCast_row_eq_broadcastInDim {n : ℕ} (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ v h = broadcastInDim ⟨2, ![1, n]⟩ ![1] hb v := by
  funext i
  obtain ⟨u, q, rfl⟩ : ∃ (u : Fin 1) (q : Fin n), i = ix2 u q := ⟨i 0, i 1, eq_ix2 i⟩
  rw [shapeCast_a_1a_apply, broadcastInDim_row_apply]

end Cert.LibColRow
-- ==== Proof.LayoutGlue.lean ====
/-
  Slices, reshapes and broadcasts of the inputs read as the model's views of them.

  Row `o` of the edge array, sliced out, flattened and made a column, is `edgeCol`; slice `o` of the weights with
  its unit axis dropped is `wSlice`; row `o` of a `[3, 128]` parameter, flattened and made a row again, is
  `rowSlice`; a vector made a row is `rowOfVec`; a vector made a column reads its entry at the row coordinate.
-/
import proofs.«168746_j56882546868465_2_alg».proof.Proof.Model
import proofs.«168746_j56882546868465_2_alg».proof.Proof.LibColRow
import Idealize.ShloMosaic.Lib.Pipeline.Value
import Idealize.ShloMosaic.Lib.ValueLayout

noncomputable section

namespace Cert.GCN

open Idealize.ShloMosaic Idealize.ShloMosaic.ValueIdx

variable {α : Type}

/-- Row `o` of a `[2, E]` array, sliced out and flattened, at `e`. -/
theorem sliceRow_flat_apply {E : Nat} (o : Nat) (ho : o < 2) (ei : (⟨2, ![2, E]⟩ : Shape).Idx → α)
    (hs : (⟨2, ![2, E]⟩ : Shape).Slices ![o, 0] ⟨2, ![1, E]⟩) (hc : (⟨2, ![1, E]⟩ : Shape).ShapeCasts ⟨1, ![E]⟩) (e : Fin E) :
    shapeCast ⟨1, ![E]⟩ (extractStridedSlice ⟨2, ![1, E]⟩ ![o, 0] ei hs) hc (ix1 e) = ei (ix2 ⟨o, ho⟩ e) := by
  rw [shapeCast_1a_a_apply, slice2_axis0_apply o ei hs (0 : Fin 1) e ⟨o, ho⟩ (by simp)]

/-- … and made a column: the model's `edgeCol`. -/
theorem edgeCol_read (o : Nat) (ho : o < 2) (ei : (⟨2, ![2, 800000]⟩ : Shape).Idx → BitVec 32)
    (hs : (⟨2, ![2, 800000]⟩ : Shape).Slices ![o, 0] ⟨2, ![1, 800000]⟩)
    (hc : (⟨2, ![1, 800000]⟩ : Shape).ShapeCasts ⟨1, ![800000]⟩)
    (hb : (⟨1, ![800000]⟩ : Shape).BroadcastsInDim ⟨2, ![800000, 1]⟩ ![0]) :
    broadcastInDim ⟨2, ![800000, 1]⟩ ![0] hb (shapeCast ⟨1, ![800000]⟩ (extractStridedSlice ⟨2, ![1, 800000]⟩ ![o, 0] ei hs) hc)
      = edgeCol ei ⟨o, ho⟩ := by
  funext j
  obtain ⟨p, u, rfl⟩ : ∃ (p : Fin 800000) (u : Fin 1), j = ix2 p u := ⟨j 0, j 1, eq_ix2 j⟩
  rw [Cert.LibColRow.broadcastInDim_col_apply, sliceRow_flat_apply o ho]
  rfl

/-- Slice `o` of the `[3, 128, 128]` weights with its unit axis dropped: the model's `wSlice`. -/
theorem wSlice_read (o : Nat) (ho : o < 3) (cw : (⟨3, ![3, 128, 128]⟩ : Shape).Idx → EReal)
    (hs : (⟨3, ![3, 128, 128]⟩ : Shape).Slices ![o, 0, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![o, 0, 0] cw hs) hc = wSlice cw ⟨o, ho⟩ := by
  funext i
  obtain ⟨p, q, rfl⟩ : ∃ (p q : Fin 128), i = ix2 p q := ⟨i 0, i 1, eq_ix2 i⟩
  rw [shapeCast_1ab_ab_apply]
  refine (extractStridedSlice_apply _ cw hs _ (ix3 (⟨o, ho⟩ : Fin 3) p q) fun ax => ?_).trans rfl
  match ax with
  | ⟨0, _⟩ => rfl
  | ⟨1, _⟩ => exact (Nat.zero_add _).symm
  | ⟨2, _⟩ => exact (Nat.zero_add _).symm

/-- Row `o` of a `[3, 128]` parameter sliced out and flattened, at `q`. -/
theorem sliceRow3_flat_apply (o : Nat) (ho : o < 3) (a : (⟨2, ![3, 128]⟩ : Shape).Idx → EReal)
    (hs : (⟨2, ![3, 128]⟩ : Shape).Slices ![o, 0] ⟨2, ![1, 128]⟩) (hc : (⟨2, ![1, 128]⟩ : Shape).ShapeCasts ⟨1, ![128]⟩) (q : Fin 128) :
    shapeCast ⟨1, ![128]⟩ (extractStridedSlice ⟨2, ![1, 128]⟩ ![o, 0] a hs) hc (ix1 q) = a (ix2 ⟨o, ho⟩ q) := by
  rw [shapeCast_1a_a_apply, slice2_axis0_apply o a hs (0 : Fin 1) q ⟨o, ho⟩ (by simp)]

/-- … and made a row again by a reshape: the model's `rowSlice`. -/
theorem rowSlice_read (o : Nat) (ho : o < 3) (a : (⟨2, ![3, 128]⟩ : Shape).Idx → EReal)
    (hs : (⟨2, ![3, 128]⟩ : Shape).Slices ![o, 0] ⟨2, ![1, 128]⟩) (hc : (⟨2, ![1, 128]⟩ : Shape).ShapeCasts ⟨1, ![128]⟩)
    (hc' : (⟨1, ![128]⟩ : Shape).ShapeCasts ⟨2, ![1, 128]⟩) :
    shapeCast ⟨2, ![1, 128]⟩ (shapeCast ⟨1, ![128]⟩ (extractStridedSlice ⟨2, ![1, 128]⟩ ![o, 0] a hs) hc) hc' = rowSlice a ⟨o, ho⟩ := by
  funext j
  obtain ⟨u, q, rfl⟩ : ∃ (u : Fin 1) (q : Fin 128), j = ix2 u q := ⟨j 0, j 1, eq_ix2 j⟩
  rw [shapeCast_a_1a_apply, sliceRow3_flat_apply o ho]
  rfl

/-- A vector made a row by a reshape: the model's `rowOfVec`. -/
theorem rowOfVec_read {k : Nat} (v : (⟨1, ![k]⟩ : Shape).Idx → EReal) (hc : (⟨1, ![k]⟩ : Shape).ShapeCasts ⟨2, ![1, k]⟩) :
    shapeCast ⟨2, ![1, k]⟩ v hc = rowOfVec v := by
  funext j
  obtain ⟨u, q, rfl⟩ : ∃ (u : Fin 1) (q : Fin k), j = ix2 u q := ⟨j 0, j 1, eq_ix2 j⟩
  rw [shapeCast_a_1a_apply]
  rfl

/-- The batch vector made an index column by a broadcast: the model's `batchCol`. -/
theorem batchCol_read (batch : (⟨1, ![50000]⟩ : Shape).Idx → BitVec 32)
    (hb : (⟨1, ![50000]⟩ : Shape).BroadcastsInDim ⟨2, ![50000, 1]⟩ ![0]) :
    broadcastInDim ⟨2, ![50000, 1]⟩ ![0] hb batch = batchCol batch := by
  funext j
  obtain ⟨p, u, rfl⟩ : ∃ (p : Fin 50000) (u : Fin 1), j = ix2 p u := ⟨j 0, j 1, eq_ix2 j⟩
  rw [Cert.LibColRow.broadcastInDim_col_apply]
  rfl

/-- The wrap of negative indices applied to a flat index vector and then made a column is `wrapCol` of the
    column. -/
theorem wrapCol_read (v : (⟨1, ![800000]⟩ : Shape).Idx → BitVec 32)
    (hb : (⟨1, ![800000]⟩ : Shape).BroadcastsInDim ⟨2, ![800000, 1]⟩ ![0])
    (h0 : (⟨0, ![]⟩ : Shape).BroadcastsInDim ⟨1, ![800000]⟩ ![]) :
    broadcastInDim ⟨2, ![800000, 1]⟩ ![0] hb
        (select (cmpi .slt v (broadcastInDim ⟨1, ![800000]⟩ ![] h0 (constantI ⟨0, ![]⟩ 32 0#32)))
          (addi v (broadcastInDim ⟨1, ![800000]⟩ ![] h0 (constantI ⟨0, ![]⟩ 32 50000#32))) v)
      = wrapCol (broadcastInDim ⟨2, ![800000, 1]⟩ ![0] hb v) := by
  funext j
  obtain ⟨p, u, rfl⟩ : ∃ (p : Fin 800000) (u : Fin 1), j = ix2 p u := ⟨j 0, j 1, eq_ix2 j⟩
  unfold wrapCol
  rw [Cert.LibColRow.broadcastInDim_col_apply, Cert.LibColRow.broadcastInDim_col_apply]
  rfl

/-- A quotient by a splat constant, entry by entry. -/
theorem divf_splat_apply {s : Shape} (x : FVec Ideal s .f32) (h : (⟨0, ![]⟩ : Shape).BroadcastsInDim s ![]) (w : BitVec 32) (j : s.Idx) :
    Host.divf x (broadcastInDim s ![] h (constant (F := Ideal) (⟨0, ![]⟩ : Shape) .f32 w)) j = Ideal.div (x j) (Ideal.ofBits .f32 w) := rfl

end Cert.GCN

end
-- ==== Proof.LibIndexArith.lean ====
/-
  Index arithmetic on 32-bit words that are non-negative integers.

  jax's index computations (`clip`, the wrap of negative indices, `floor_divide`, `remainder`, running counts) are
  written for signed integers of either sign, with selects that repair the truncating division where signs differ.
  On a word whose signed value is non-negative none of those repairs fires, and each operation is the plain
  operation on natural numbers: clipping from below at zero and wrapping a negative index do nothing, the floor
  quotient by a positive divisor is the quotient, the remainder the remainder. Also here: a sum of words whose
  values add up to less than `2 ^ w` has the sum of the values as its value (nothing wraps).
-/
import Idealize.ShloMosaic.PureOps.Vector
import Mathlib.Data.BitVec
import Mathlib.Algebra.BigOperators.Fin

namespace Idealize.ShloMosaic.IndexArith

open Idealize.ShloMosaic

/-- A 32-bit word that is a non-negative signed integer. -/
def NN (x : BitVec 32) : Prop := x.toNat < 2 ^ 31

theorem toInt_of_NN {x : BitVec 32} (h : NN x) : x.toInt = (x.toNat : ℤ) := by
  unfold NN at h
  rw [BitVec.toInt_eq_toNat_cond]
  rw [if_pos (by omega)]

theorem slt_zero_of_NN {x : BitVec 32} (h : NN x) : x.slt 0#32 = false := by
  unfold BitVec.slt
  rw [toInt_of_NN h]
  simp

theorem msb_of_NN {x : BitVec 32} (h : NN x) : x.msb = false := by
  unfold NN at h
  rw [BitVec.msb_eq_decide]
  simp; omega

theorem sdiv_of_NN {x d : BitVec 32} (hx : NN x) (hd : NN d) : x.sdiv d = x / d := by
  rw [BitVec.sdiv_eq, msb_of_NN hx, msb_of_NN hd]; rfl

theorem srem_of_NN {x d : BitVec 32} (hx : NN x) (hd : NN d) : x.srem d = x % d := by
  rw [BitVec.srem_eq, msb_of_NN hx, msb_of_NN hd]

/-- `jnp.clip(x, 0)` from below at a non-negative word. -/
theorem maxsi_zero {x : BitVec 32} (h : NN x) : IntOp.maxsi 0#32 x = x := by
  unfold IntOp.maxsi
  rw [slt_zero_of_NN h]; simp

/-- jax's wrap of a negative index (`select (x < 0) (x + n) x`) leaves a non-negative word alone. -/
theorem wrap_of_NN {x n : BitVec 32} (h : NN x) :
    Scalar.select (IntOp.cmpi .slt x 0#32) (IntOp.addi x n) x = x := by
  unfold IntOp.cmpi Scalar.select
  simp only [slt_zero_of_NN h]
  simp

theorem div_toNat {x d : BitVec 32} : (x / d).toNat = x.toNat / d.toNat := BitVec.toNat_udiv
theorem mod_toNat {x d : BitVec 32} : (x % d).toNat = x.toNat % d.toNat := BitVec.toNat_umod

theorem NN_div {x d : BitVec 32} (hx : NN x) : NN (x / d) := by
  unfold NN at *; rw [div_toNat]; exact lt_of_le_of_lt (Nat.div_le_self _ _) hx
theorem NN_mod {x d : BitVec 32} (hx : NN x) : NN (x % d) := by
  unfold NN at *; rw [mod_toNat]; exact lt_of_le_of_lt (Nat.mod_le _ _) hx

/-- The signed division of the host program on non-negative words with a positive divisor is the quotient. -/
theorem divsi_host {x d : BitVec 32} (hx : NN x) (hd : NN d) (hd0 : d ≠ 0) : IntOp.divsi .host x d = x / d := by
  unfold IntOp.divsi
  rw [if_neg, sdiv_of_NN hx hd]
  rintro (h | ⟨_, h⟩)
  · exact hd0 h
  · subst h; unfold NN at hd; simp at hd

theorem remsi_host {x d : BitVec 32} (hx : NN x) (hd : NN d) (hd0 : d ≠ 0) : IntOp.remsi .host x d = x % d := by
  unfold IntOp.remsi
  rw [if_neg, srem_of_NN hx hd]
  rintro (h | ⟨_, h⟩)
  · exact hd0 h
  · subst h; unfold NN at hd; simp at hd

/-- The sign word of a non-negative, nonzero word is one; of zero, zero. -/
theorem sign_of_NN {x : BitVec 32} (h : NN x) :
    (if x = 0 then (0 : BitVec 32) else if x.msb then -1 else 1) = if x = 0 then 0 else 1 := by
  rw [msb_of_NN h]; simp

/-- `jnp.floor_divide` of a non-negative word by a positive one, as jax spells it (the truncating quotient, less one
    where the signs differ and the remainder is not zero), is the quotient. -/
theorem floorDiv_of_NN {x d : BitVec 32} (hx : NN x) (hd : NN d) (hd0 : d ≠ 0) :
    Scalar.select
        (IntOp.andi
          (IntOp.cmpi .ne (if x = 0 then (0 : BitVec 32) else if x.msb then -1 else 1)
            (if d = 0 then (0 : BitVec 32) else if d.msb then -1 else 1))
          (IntOp.cmpi .ne (IntOp.remsi .host x d) 0#32))
        (IntOp.subi (IntOp.divsi .host x d) 1#32) (IntOp.divsi .host x d)
      = x / d := by
  rw [sign_of_NN hx, sign_of_NN hd, if_neg hd0, divsi_host hx hd hd0, remsi_host hx hd hd0]
  by_cases h0 : x = 0
  · subst h0
    unfold IntOp.cmpi IntOp.andi Scalar.select
    simp
  · rw [if_neg h0]
    unfold IntOp.cmpi IntOp.andi Scalar.select
    simp

/-- `jnp.remainder` of a non-negative word by a positive one, as jax spells it (the truncating remainder, plus the
    divisor where their signs differ and it is not zero; a zero divisor replaced by one), is the remainder. -/
theorem remainder_of_NN {x d : BitVec 32} (hx : NN x) (hd : NN d) (hd0 : d ≠ 0) :
    Scalar.select
        (IntOp.andi
          (IntOp.cmpi .ne
            (IntOp.cmpi .slt (IntOp.remsi .host x (Scalar.select (IntOp.cmpi .eq d 0#32) 1#32 d)) 0#32)
            (IntOp.cmpi .slt (Scalar.select (IntOp.cmpi .eq d 0#32) 1#32 d) 0#32))
          (IntOp.cmpi .ne (IntOp.remsi .host x (Scalar.select (IntOp.cmpi .eq d 0#32) 1#32 d)) 0#32))
        (IntOp.addi (IntOp.remsi .host x (Scalar.select (IntOp.cmpi .eq d 0#32) 1#32 d))
          (Scalar.select (IntOp.cmpi .eq d 0#32) 1#32 d))
        (IntOp.remsi .host x (Scalar.select (IntOp.cmpi .eq d 0#32) 1#32 d))
      = x % d := by
  have hd' : Scalar.select (IntOp.cmpi .eq d 0#32) 1#32 d = d := by
    have hb : (d == 0#32) = false := by simpa using hd0
    unfold IntOp.cmpi Scalar.select; simp [hb]
  rw [hd', remsi_host hx hd hd0]
  have h1 : (x % d).slt 0#32 = false := slt_zero_of_NN (NN_mod hx)
  have h2 : d.slt 0#32 = false := slt_zero_of_NN hd
  unfold IntOp.cmpi IntOp.andi Scalar.select
  simp [h1, h2]

/-- A sum of words whose values add up to less than `2 ^ w` does not wrap. -/
theorem toNat_sum {ι : Type*} {w : Nat} (s : Finset ι) (f : ι → BitVec w) (h : ∑ i ∈ s, (f i).toNat < 2 ^ w) :
    (∑ i ∈ s, f i).toNat = ∑ i ∈ s, (f i).toNat := by
  classical
  induction s using Finset.induction_on with
  | empty => simp
  | insert a s ha ih =>
    rw [Finset.sum_insert ha] at h ⊢
    rw [Finset.sum_insert ha, BitVec.toNat_add, ih (by omega)]
    exact Nat.mod_eq_of_lt h

end Idealize.ShloMosaic.IndexArith
-- ==== Proof.GraphFacts.lean ====
/-
  Two facts about the graph's index words and degrees.

  * An index word whose signed value is a row number `n` is a non-negative word, so the wrap of negative indices
    leaves it alone, and the clamp into `[0, 49999]` leaves it alone too: the gather through the wrapped column
    reads row `n`.
  * A degree is a count of edges plus one, a positive real; its inverse square root is a finite non-negative real.
-/
import proofs.«168746_j56882546868465_2_alg».proof.Proof.Model
import proofs.«168746_j56882546868465_2_alg».proof.Proof.LibIndexArith

noncomputable section

open scoped BigOperators

namespace Cert.GCN

open Idealize.ShloMosaic Idealize.ShloMosaic.ValueIdx Idealize.ShloMosaic.IndexArith

/-- A word whose signed value is a natural number is a non-negative word. -/
theorem NN_of_toInt_eq {x : BitVec 32} {n : ℕ} (h : x.toInt = (n : Int)) : NN x := by
  unfold NN
  rw [BitVec.toInt_eq_toNat_cond] at h
  split at h
  · omega
  · have := x.isLt; omega

/-- The wrapped and clamped index of a word whose signed value is the row number `n` is `n`. -/
theorem wrap_hit (x : BitVec 32) (n : Fin 50000) (hx : x.toInt = (n.val : Int)) :
    min (Scalar.select (IntOp.cmpi .slt x 0#32) (IntOp.addi x 50000#32) x).toInt.toNat (50000 - 1) = n.val := by
  rw [wrap_of_NN (NN_of_toInt_eq hx), hx]
  have := n.isLt
  simp only [Int.toNat_natCast]
  omega

/-- The f32 word of one denotes one. -/
theorem ofBits_one_f32 : Ideal.ofBits .f32 0x3F800000#32 = 1 := by
  simp [Ideal.ofBits, Ideal.ieee]
  exact_mod_cast (by norm_num : (8388608 : ℝ) * ((2 : ℝ) ^ 23)⁻¹ = 1)

/-- The inverse square root of a positive real is the real `(√r)⁻¹`. -/
theorem rsqrt_coe_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A count of ones plus one is a positive real. -/
theorem count_add_one {ι : Type*} (s : Finset ι) : (0 + ∑ _e ∈ s, (1 : EReal)) + 1 = (((s.card : ℝ) + 1 : ℝ) : EReal) := by
  rw [Finset.sum_const, zero_add, EReal.nsmul_eq_mul, mul_one]
  norm_cast

/-- The inverse square root of a degree is finite and non-negative. -/
theorem rsqrt_degree {ι : Type*} (s : Finset ι) :
    0 ≤ Ideal.rsqrt ((0 + ∑ _e ∈ s, (1 : EReal)) + 1) ∧ Ideal.rsqrt ((0 + ∑ _e ∈ s, (1 : EReal)) + 1) ≠ ⊤ := by
  rw [count_add_one, rsqrt_coe_pos (by positivity)]
  exact ⟨EReal.coe_nonneg.mpr (inv_nonneg.mpr (Real.sqrt_nonneg _)), EReal.coe_ne_top _⟩

/-- Every entry of `dis` is finite and non-negative. -/
theorem graphOf_dis_nonneg (ei : (⟨2, ![2, 800000]⟩ : Shape).Idx → BitVec 32) (i) :
    0 ≤ (graphOf ei).dis i ∧ (graphOf ei).dis i ≠ ⊤ := by
  simp only [graphOf, disColOf, segSumVec]
  exact rsqrt_degree _

/-- An edge the scatter sends to row `n` reads row `n` through the target gather. -/
theorem graphOf_hit (ei : (⟨2, ![2, 800000]⟩ : Shape).Idx → BitVec 32) (e : Fin 800000) (n : Fin 50000)
    (h : ((graphOf ei).dstS (ix2 e ⟨0, Nat.one_pos⟩)).toInt = (n.val : Int)) :
    Cert.Proof.LibRowIndex.gatherRow 50000 (by decide) (graphOf ei).dstG e = n :=
  Fin.ext (wrap_hit _ n h)

end Cert.GCN

end
-- ==== Proof.RegionA_Payload.lean ====
/-
  What the five straight-line kernel bodies compute on one block, index by index, on extended reals.

  Each body loads whole blocks, applies pointwise operations and broadcasts of a row or of a column, takes at most
  two products with a weight matrix accumulated from zero, and stores whole blocks.  On extended reals a change of
  float format is the identity, a cast to the same shape is the identity, and a product into the zero accumulator is
  the plain sum over the 128 contracted positions.  So every stored block is one of the specification's functions
  (`mm`, `scaleRows`, `normRelu`, `head`) of the loaded blocks, at the block's own extents.
-/
import proofs.«168746_j56882546868465_2_alg».proof.Proof.Gen.KernelIdeal.Skeleton
import proofs.«168746_j56882546868465_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.RegionValue

open Idealize.ShloMosaic Idealize.ShloMosaic.ValueIdx Cert.KernelIdeal Cert.KernelIdeal.Gen Cert.GCN

/-! ## The three products read at an index -/

/-- The product of a `[5000, 128]` by a `[128, 128]` vector accumulated from zero: entry `(a, b)` is the sum over the
    128 contracted positions of the products of the entries. -/
theorem matmul_5000_apply {φ₁ φ₂ : FTy} (A : FVec Ideal S5000x128 φ₁) (B : FVec Ideal S128x128 φ₂) (a : Fin 5000) (b : Fin 128) :
    matmul dot_S5000x128_S128x128_S5000x128_1_0_0_1_n_n none A B (constant S5000x128 .f32 0x00000000#32) (ix2 a b)
      = ∑ c : Fin 128, A (ix2 a c) * B (ix2 c b) := by
  show FloatOps.matmul _ none A B (constant S5000x128 .f32 0x00000000#32) (ix2 a b) = _
  rw [Ideal.matmul_constant_zero_apply, ← Equiv.sum_comp (contrEquiv1 dot_S5000x128_S128x128_S5000x128_1_0_0_1_n_n 128 rfl rfl).symm]
  refine Finset.sum_congr rfl fun c _ => ?_
  have c2 := contrEquiv1_symm_val dot_S5000x128_S128x128_S5000x128_1_0_0_1_n_n 128 rfl rfl c
  have l2 : dot_S5000x128_S128x128_S5000x128_1_0_0_1_n_n.lhsIdx (ix2 a b) ((contrEquiv1 _ 128 rfl rfl).symm c) = ix2 a c := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact c2
  have r2 : dot_S5000x128_S128x128_S5000x128_1_0_0_1_n_n.rhsIdx (ix2 a b) ((contrEquiv1 _ 128 rfl rfl).symm c) = ix2 c b := by
    funext ax; apply Fin.ext
    match ax with
    | ⟨0, _⟩ => simp [DotDims.rhsIdx, dot_S5000x128_S128x128_S5000x128_1_0_0_1_n_n]; exact c2
    | ⟨1, _⟩ => simp [DotDims.rhsIdx, dot_S5000x128_S128x128_S5000x128_1_0_0_1_n_n]; rfl
  rw [l2, r2]

/-- The product of a `[1000, 128]` by a `[128, 128]` vector accumulated from zero: entry `(a, b)` is the sum over the
    128 contracted positions of the products of the entries. -/
theorem matmul_1000_apply {φ₁ φ₂ : FTy} (A : FVec Ideal S1000x128 φ₁) (B : FVec Ideal S128x128 φ₂) (a : Fin 1000) (b : Fin 128) :
    matmul dot_S1000x128_S128x128_S1000x128_1_0_0_1_n_n none A B (constant S1000x128 .f32 0x00000000#32) (ix2 a b)
      = ∑ c : Fin 128, A (ix2 a c) * B (ix2 c b) := by
  show FloatOps.matmul _ none A B (constant S1000x128 .f32 0x00000000#32) (ix2 a b) = _
  rw [Ideal.matmul_constant_zero_apply, ← Equiv.sum_comp (contrEquiv1 dot_S1000x128_S128x128_S1000x128_1_0_0_1_n_n 128 rfl rfl).symm]
  refine Finset.sum_congr rfl fun c _ => ?_
  have c2 := contrEquiv1_symm_val dot_S1000x128_S128x128_S1000x128_1_0_0_1_n_n 128 rfl rfl c
  have l2 : dot_S1000x128_S128x128_S1000x128_1_0_0_1_n_n.lhsIdx (ix2 a b) ((contrEquiv1 _ 128 rfl rfl).symm c) = ix2 a c := by
    funext ax; apply Fin.ext
    match ax with
    | ⟨0, _⟩ => simp [DotDims.lhsIdx, dot_S1000x128_S128x128_S1000x128_1_0_0_1_n_n]; rfl
    | ⟨1, _⟩ => simp [DotDims.lhsIdx, dot_S1000x128_S128x128_S1000x128_1_0_0_1_n_n]; exact c2
  have r2 : dot_S1000x128_S128x128_S1000x128_1_0_0_1_n_n.rhsIdx (ix2 a b) ((contrEquiv1 _ 128 rfl rfl).symm c) = ix2 c b := by
    funext ax; apply Fin.ext
    match ax with
    | ⟨0, _⟩ => simp [DotDims.rhsIdx, dot_S1000x128_S128x128_S1000x128_1_0_0_1_n_n]; exact c2
    | ⟨1, _⟩ => simp [DotDims.rhsIdx, dot_S1000x128_S128x128_S1000x128_1_0_0_1_n_n]; rfl
  rw [l2, r2]

/-- The product of a `[1000, 128]` by a `[128, 6]` vector accumulated from zero: entry `(a, b)` is the sum over the
    128 contracted positions of the products of the entries. -/
theorem matmul_1000x6_apply {φ₁ φ₂ : FTy} (A : FVec Ideal S1000x128 φ₁) (B : FVec Ideal S128x6 φ₂) (a : Fin 1000) (b : Fin 6) :
    matmul dot_S1000x128_S128x6_S1000x6_1_0_0_1_n_n none A B (constant S1000x6 .f32 0x00000000#32) (ix2 a b)
      = ∑ c : Fin 128, A (ix2 a c) * B (ix2 c b) := by
  show FloatOps.matmul _ none A B (constant S1000x6 .f32 0x00000000#32) (ix2 a b) = _
  rw [Ideal.matmul_constant_zero_apply, ← Equiv.sum_comp (contrEquiv1 dot_S1000x128_S128x6_S1000x6_1_0_0_1_n_n 128 rfl rfl).symm]
  refine Finset.sum_congr rfl fun c _ => ?_
  have c2 := contrEquiv1_symm_val dot_S1000x128_S128x6_S1000x6_1_0_0_1_n_n 128 rfl rfl c
  have l2 : dot_S1000x128_S128x6_S1000x6_1_0_0_1_n_n.lhsIdx (ix2 a b) ((contrEquiv1 _ 128 rfl rfl).symm c) = ix2 a c := by
    funext ax; apply Fin.ext
    match ax with
    | ⟨0, _⟩ => simp [DotDims.lhsIdx, dot_S1000x128_S128x6_S1000x6_1_0_0_1_n_n]; rfl
    | ⟨1, _⟩ => simp [DotDims.lhsIdx, dot_S1000x128_S128x6_S1000x6_1_0_0_1_n_n]; exact c2
  have r2 : dot_S1000x128_S128x6_S1000x6_1_0_0_1_n_n.rhsIdx (ix2 a b) ((contrEquiv1 _ 128 rfl rfl).symm c) = ix2 c b := by
    funext ax; apply Fin.ext
    match ax with
    | ⟨0, _⟩ => simp [DotDims.rhsIdx, dot_S1000x128_S128x6_S1000x6_1_0_0_1_n_n]; exact c2
    | ⟨1, _⟩ => simp [DotDims.rhsIdx, dot_S1000x128_S128x6_S1000x6_1_0_0_1_n_n]; rfl
  rw [l2, r2]

/-! ## The payloads as the specification's functions of the loaded blocks -/

/-- The first body's first store: the block times the weights. -/
theorem k0_pay1_eq (x0 : Vec Ideal S5000x128 .f32) (x1 : Vec Ideal S128x128 .f32) :
    k0_pay1 x0 x1 = mm x0 x1 := by
  funext i
  obtain ⟨p, q, rfl⟩ : ∃ (p : Fin 5000) (q : Fin 128), i = ix2 p q := ⟨i 0, i 1, eq_ix2 i⟩
  unfold k0_pay1
  simp only [shapeCast_self]
  refine (matmul_5000_apply _ _ p q).trans ?_
  rfl

/-- A column `[a, 1]` broadcast to `[a, b]` reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first body's second store: the product with every row scaled by the column block's entry of that row. -/
theorem k0_pay2_eq (x0 : Vec Ideal S5000x128 .f32) (x1 : Vec Ideal S128x128 .f32) (x2 : Vec Ideal S5000x1 .f32) :
    k0_pay2 x0 x1 x2 = scaleRows (mm x0 x1) x2 := by
  funext i
  obtain ⟨p, q, rfl⟩ : ∃ (p : Fin 5000) (q : Fin 128), i = ix2 p q := ⟨i 0, i 1, eq_ix2 i⟩
  unfold k0_pay2
  simp only [shapeCast_self]
  rw [mulf_apply, k0_pay1_eq, broadcastTo_col_apply]
  rfl

/-- The normalising body's store: the block normalised, scaled, shifted and clipped at zero, column by column. -/
theorem k9_pay1_eq (v0 : Vec Ideal S1x128 .f32) (v5 : Vec Ideal S5000x128 .f32) (v7 v13 v17 : Vec Ideal S1x128 .f32) :
    k9_pay1 v0 v5 v7 v13 v17 = normRelu v5 v7 v0 v13 v17 := by
  funext i
  obtain ⟨p, q, rfl⟩ : ∃ (p : Fin 5000) (q : Fin 128), i = ix2 p q := ⟨i 0, i 1, eq_ix2 i⟩
  unfold k9_pay1
  simp only [shapeCast_self]
  rw [maximumf_apply, addf_apply, mulf_apply, mulf_apply, subf_apply, broadcastTo_1b_ab_apply, broadcastTo_1b_ab_apply,
    broadcastTo_1b_ab_apply, broadcastTo_1b_ab_apply]
  exact congrArg (max _) Ideal.ofBits_zero_f32

/-- The normalise-then-multiply body's first store (region 3): the normalised block times the weights. -/
theorem k3_pay1_eq (v0 : Vec Ideal S1x128 .f32) (v5 : Vec Ideal S5000x128 .f32) (v7 v13 v17 : Vec Ideal S1x128 .f32)
    (v24 : Vec Ideal S128x128 .f32) :
    k3_pay1 v0 v5 v7 v13 v17 v24 = mm (normRelu v5 v7 v0 v13 v17) v24 := by
  funext i
  obtain ⟨p, q, rfl⟩ : ∃ (p : Fin 5000) (q : Fin 128), i = ix2 p q := ⟨i 0, i 1, eq_ix2 i⟩
  unfold k3_pay1
  refine (matmul_5000_apply _ _ p q).trans ?_
  refine Finset.sum_congr rfl fun c _ => ?_
  refine congrArg₂ (· * ·) ?_ ?_
  · show k9_pay1 v0 v5 v7 v13 v17 (ix2 p c) = _
    rw [k9_pay1_eq]
  · show shapeCast S128x128 v24 shapeCasts_S128x128_S128x128 (ix2 c q) = _
    rw [shapeCast_self]

/-- Its second store (region 3): that product with every row scaled by the column block's entry of that row. -/
theorem k3_pay2_eq (v0 : Vec Ideal S1x128 .f32) (v5 : Vec Ideal S5000x128 .f32) (v7 v13 v17 : Vec Ideal S1x128 .f32)
    (v24 : Vec Ideal S128x128 .f32) (v29 : Vec Ideal S5000x1 .f32) :
    k3_pay2 v0 v5 v7 v13 v17 v24 v29 = scaleRows (mm (normRelu v5 v7 v0 v13 v17) v24) v29 := by
  funext i
  obtain ⟨p, q, rfl⟩ : ∃ (p : Fin 5000) (q : Fin 128), i = ix2 p q := ⟨i 0, i 1, eq_ix2 i⟩
  unfold k3_pay2
  simp only [shapeCast_self]
  rw [mulf_apply, k3_pay1_eq, broadcastTo_col_apply]
  rfl

/-- The normalise-then-multiply body's first store (region 6): the normalised block times the weights. -/
theorem k6_pay1_eq (v0 : Vec Ideal S1x128 .f32) (v5 : Vec Ideal S5000x128 .f32) (v7 v13 v17 : Vec Ideal S1x128 .f32)
    (v24 : Vec Ideal S128x128 .f32) :
    k6_pay1 v0 v5 v7 v13 v17 v24 = mm (normRelu v5 v7 v0 v13 v17) v24 := by
  funext i
  obtain ⟨p, q, rfl⟩ : ∃ (p : Fin 5000) (q : Fin 128), i = ix2 p q := ⟨i 0, i 1, eq_ix2 i⟩
  unfold k6_pay1
  refine (matmul_5000_apply _ _ p q).trans ?_
  refine Finset.sum_congr rfl fun c _ => ?_
  refine congrArg₂ (· * ·) ?_ ?_
  · show k9_pay1 v0 v5 v7 v13 v17 (ix2 p c) = _
    rw [k9_pay1_eq]
  · show shapeCast S128x128 v24 shapeCasts_S128x128_S128x128 (ix2 c q) = _
    rw [shapeCast_self]

/-- Its second store (region 6): that product with every row scaled by the column block's entry of that row. -/
theorem k6_pay2_eq (v0 : Vec Ideal S1x128 .f32) (v5 : Vec Ideal S5000x128 .f32) (v7 v13 v17 : Vec Ideal S1x128 .f32)
    (v24 : Vec Ideal S128x128 .f32) (v29 : Vec Ideal S5000x1 .f32) :
    k6_pay2 v0 v5 v7 v13 v17 v24 v29 = scaleRows (mm (normRelu v5 v7 v0 v13 v17) v24) v29 := by
  funext i
  obtain ⟨p, q, rfl⟩ : ∃ (p : Fin 5000) (q : Fin 128), i = ix2 p q := ⟨i 0, i 1, eq_ix2 i⟩
  unfold k6_pay2
  simp only [shapeCast_self]
  rw [mulf_apply, k6_pay1_eq, broadcastTo_col_apply]
  rfl

/-- The last body's store: the two-layer head of the pooled block. -/
theorem k10_pay1_eq (v0 : Vec Ideal S1000x128 .f32) (v3 : Vec Ideal S128x128 .f32) (v6 : Vec Ideal S1x128 .f32)
    (v13 : Vec Ideal S128x6 .f32) (v16 : Vec Ideal S1x6 .f32) :
    k10_pay1 v0 v3 v6 v13 v16 = head v0 v3 v6 v13 v16 := by
  funext i
  obtain ⟨p, q, rfl⟩ : ∃ (p : Fin 1000) (q : Fin 6), i = ix2 p q := ⟨i 0, i 1, eq_ix2 i⟩
  unfold k10_pay1
  simp only [shapeCast_self]
  rw [addf_apply, broadcastTo_1b_ab_apply]
  refine congrArg (· + _) ?_
  refine (matmul_1000x6_apply _ _ p q).trans ?_
  refine Finset.sum_congr rfl fun c _ => ?_
  refine congrArg (· * _) ?_
  show maximumf (F := Ideal) _ _ (ix2 p c) = _
  rw [maximumf_apply, addf_apply, broadcastTo_1b_ab_apply]
  refine congrArg₂ max (congrArg (· + _) ?_) Ideal.ofBits_zero_f32
  exact matmul_1000_apply _ _ p c

/-! ## A block of rows of an array

A grid point's block of a `[50000, ·]` array is 5000 consecutive rows of it.  Taking such rows commutes with every
function of the specification that works row by row: the product with a weight matrix, the scaling of rows by a
column, and the column-wise normalisation (whose row operands are not cut). -/

/-- Rows `o, …, o + a − 1` of an `[n, m]` array, as an `[a, m]` array. -/
def rowsFrom {n m : Nat} (a o : Nat) (h : o + a ≤ n) (X : (⟨2, ![n, m]⟩ : Shape).Idx → EReal) :
    (⟨2, ![a, m]⟩ : Shape).Idx → EReal :=
  fun j => X (ix2 ⟨o + (j 0).val, by have := idx2_lt0 j; omega⟩ (colOf j))

theorem rowsFrom_apply {n m : Nat} (a o : Nat) (h : o + a ≤ n) (X : (⟨2, ![n, m]⟩ : Shape).Idx → EReal)
    (j : (⟨2, ![a, m]⟩ : Shape).Idx) :
    rowsFrom a o h X j = X (ix2 ⟨o + (j 0).val, by have := idx2_lt0 j; omega⟩ (colOf j)) := rfl

/-- The rows of a product are the products of the rows. -/
theorem mm_rowsFrom {n k m : Nat} (a o : Nat) (h : o + a ≤ n) (X : (⟨2, ![n, k]⟩ : Shape).Idx → EReal)
    (W : (⟨2, ![k, m]⟩ : Shape).Idx → EReal) : mm (rowsFrom a o h X) W = rowsFrom a o h (mm X W) := rfl

/-- Scaling the rows of a block by the matching rows of the column. -/
theorem scaleRows_rowsFrom {n m : Nat} (a o : Nat) (h : o + a ≤ n) (H : (⟨2, ![n, m]⟩ : Shape).Idx → EReal)
    (D : (⟨2, ![n, 1]⟩ : Shape).Idx → EReal) :
    scaleRows (rowsFrom a o h H) (rowsFrom a o h D) = rowsFrom a o h (scaleRows H D) := rfl

/-- The column-wise normalisation of a block of rows is the block of rows of the normalised array. -/
theorem normRelu_rowsFrom {n m : Nat} (a o : Nat) (h : o + a ≤ n) (Y : (⟨2, ![n, m]⟩ : Shape).Idx → EReal)
    (mu var g b : (⟨2, ![1, m]⟩ : Shape).Idx → EReal) :
    normRelu (rowsFrom a o h Y) mu var g b = rowsFrom a o h (normRelu Y mu var g b) := rfl

/-- The zero offsets of a whole-block rectangle, however they are spelt. -/
theorem hz : (![0, 0] : Fin 2 → Nat) = fun _ => 0 := funext fun a => by fin_cases a <;> rfl

end Cert.KernelIdeal.RegionValue

end
-- ==== Proof.Region0.lean ====
/-
  The first region: the node features times the first weight matrix, and that product with every row scaled by the
  node's entry of the scaling column.  What its two result arrays hold after all ten grid points, for arbitrary
  contents of the three arrays it reads.

  Grid point `t` reads rows `5000 t, …, 5000 t + 4999` of the feature array and of the scaling column and the whole
  weight matrix, and writes the same rows of both results.  What it writes is the product (resp. the scaled product)
  of its block of rows, which is the block of rows of the product of the whole arrays.  The ten row blocks cover the
  50000 rows, so each result array ends as the product (resp. the scaled product) of the whole arrays.
-/
import proofs.«168746_j56882546868465_2_alg».proof.Proof.Gen.KernelIdeal.Frame
import proofs.«168746_j56882546868465_2_alg».proof.Proof.RegionA_Payload
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-- The index maps over the ten grid points: the row-block windows sit at block `(t, 0)`, the weights at `(0, 0)`. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The ten blocks of 5000 rows stay inside the 50000 rows. -/
theorem rows0 (t : Fin cfg0.N) : 5000 * t.val + 5000 ≤ 50000 := by
  have h : t.val < 10 := lt_of_lt_of_eq t.isLt N_0
  omega

/-! ## Each window's block is a block of rows, or the whole array -/

theorem read_blk0_0 (t : Fin cfg0.N) (X : S50000x128.Idx → EReal) :
    ((cfg0.win 0).blk t).view.read (Elt Ideal) X = rowsFrom 5000 (5000 * t.val) (rows0 t) X := by
  funext y
  rw [View.read_apply]
  refine congrArg X (funext fun a => Fin.ext ?_)
  match a with
  | ⟨0, _⟩ => show win0_0.index t (0 : Fin 2) * 5000 + 1 * (y 0).val = 5000 * t.val + (y 0).val; rw [(idx0 t).1]; omega
  | ⟨1, _⟩ => show win0_0.index t (1 : Fin 2) * 128 + 1 * (y 1).val = (y 1).val; rw [(idx0 t).2.1]; omega

theorem read_blk0_1 (t : Fin cfg0.N) (X : S128x128.Idx → EReal) :
    ((cfg0.win 1).blk t).view.read (Elt Ideal) X = X := by
  funext y
  rw [View.read_apply]
  refine congrArg X (funext fun a => Fin.ext ?_)
  match a with
  | ⟨0, _⟩ => show win0_1.index t (0 : Fin 2) * 128 + 1 * (y 0).val = (y 0).val; rw [(idx0 t).2.2.1]; omega
  | ⟨1, _⟩ => show win0_1.index t (1 : Fin 2) * 128 + 1 * (y 1).val = (y 1).val; rw [(idx0 t).2.2.2.1]; omega

theorem read_blk0_2 (t : Fin cfg0.N) (X : S50000x1.Idx → EReal) :
    ((cfg0.win 2).blk t).view.read (Elt Ideal) X = rowsFrom 5000 (5000 * t.val) (rows0 t) X := by
  funext y
  rw [View.read_apply]
  refine congrArg X (funext fun a => Fin.ext ?_)
  match a with
  | ⟨0, _⟩ => show win0_2.index t (0 : Fin 2) * 5000 + 1 * (y 0).val = 5000 * t.val + (y 0).val; rw [(idx0 t).2.2.2.2.1]; omega
  | ⟨1, _⟩ => show win0_2.index t (1 : Fin 2) * 1 + 1 * (y 1).val = (y 1).val; rw [(idx0 t).2.2.2.2.2.1]; omega

theorem read_blk0_3 (t : Fin cfg0.N) (X : S50000x128.Idx → EReal) :
    ((cfg0.win 3).blk t).view.read (Elt Ideal) X = rowsFrom 5000 (5000 * t.val) (rows0 t) X := by
  funext y
  rw [View.read_apply]
  refine congrArg X (funext fun a => Fin.ext ?_)
  match a with
  | ⟨0, _⟩ => show win0_3.index t (0 : Fin 2) * 5000 + 1 * (y 0).val = 5000 * t.val + (y 0).val; rw [(idx0 t).2.2.2.2.2.2.1]; omega
  | ⟨1, _⟩ => show win0_3.index t (1 : Fin 2) * 128 + 1 * (y 1).val = (y 1).val; rw [(idx0 t).2.2.2.2.2.2.2.1]; omega

theorem read_blk0_4 (t : Fin cfg0.N) (X : S50000x128.Idx → EReal) :
    ((cfg0.win 4).blk t).view.read (Elt Ideal) X = rowsFrom 5000 (5000 * t.val) (rows0 t) X := by
  funext y
  rw [View.read_apply]
  refine congrArg X (funext fun a => Fin.ext ?_)
  match a with
  | ⟨0, _⟩ => show win0_4.index t (0 : Fin 2) * 5000 + 1 * (y 0).val = 5000 * t.val + (y 0).val; rw [(idx0 t).2.2.2.2.2.2.2.2.1]; omega
  | ⟨1, _⟩ => show win0_4.index t (1 : Fin 2) * 128 + 1 * (y 1).val = (y 1).val; rw [(idx0 t).2.2.2.2.2.2.2.2.2]; omega

/-! ## What a grid point writes back -/

/-- Point `t` writes back to the first result its block of rows of the product of the whole arrays. -/
theorem flushed0_3_eq (c : Dev nD) (t : Fin cfg0.N) :
    (dat0 (F := Ideal) V c).flushed 3 t
      = ((cfg0.win 3).blk t).view.read (Elt Ideal) (mm (V c main_arg0 : S50000x128.Idx → EReal) (V c main_v13 : S128x128.Idx → EReal)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  rw [read_blk0_3 t]
  show k0_pay1 (iblk0 V c 0 t) (iblk0 V c 1 t) = _
  unfold iblk0
  rw [read_blk0_0 t, read_blk0_1 t, k0_pay1_eq, mm_rowsFrom]

/-- Point `t` writes back to the second result its block of rows of the scaled product of the whole arrays. -/
theorem flushed0_4_eq (c : Dev nD) (t : Fin cfg0.N) :
    (dat0 (F := Ideal) V c).flushed 4 t
      = ((cfg0.win 4).blk t).view.read (Elt Ideal) (scaleRows (mm (V c main_arg0 : S50000x128.Idx → EReal) (V c main_v13 : S128x128.Idx → EReal)) (V c main_v11 : S50000x1.Idx → EReal)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S5000x1) hz]
  rw [read_blk0_4 t]
  show k0_pay2 (iblk0 V c 0 t) (iblk0 V c 1 t) (iblk0 V c 2 t) = _
  unfold iblk0
  rw [read_blk0_0 t, read_blk0_1 t, read_blk0_2 t, k0_pay2_eq, mm_rowsFrom, scaleRows_rowsFrom]

/-! ## The blocks cover the arrays -/

/-- An index of the array is in point `t`'s block of window 3 iff each coordinate is in the block's range on its axis. -/
theorem mem_blk0_3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14_0).slice (win0_3.rect t)).set ↔ _
  rw [View.set_slice_whole, Rect.mem_set_unit]
  exact Iff.rfl

/-- Row `r` is in the block of point `r / 5000`, which writes it back: the ten blocks cover the array. -/
theorem rows_cover0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 5000 < cfg0.N := lt_of_lt_of_eq (by omega : (i 0).val / 5000 < 10) N_0.symm
  have e0 : win0_3.index ⟨(i 0).val / 5000, ht⟩ (0 : Fin 2) = (i 0).val / 5000 := (idx0 ⟨(i 0).val / 5000, ht⟩).2.2.2.2.2.2.1
  have e1 : win0_3.index ⟨(i 0).val / 5000, ht⟩ (1 : Fin 2) = 0 := (idx0 ⟨(i 0).val / 5000, ht⟩).2.2.2.2.2.2.2.1
  refine ⟨⟨(i 0).val / 5000, ht⟩, flush0_3 _, ?_⟩
  rw [mem_blk0_3]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e0]; omega
  | ⟨1, _⟩ =>
    show win0_3.index ⟨(i 0).val / 5000, ht⟩ (1 : Fin 2) * 128 ≤ (i 1).val ∧ (i 1).val < win0_3.index ⟨(i 0).val / 5000, ht⟩ (1 : Fin 2) * 128 + 128
    rw [e1]; omega

/-- An index of the array is in point `t`'s block of window 4 iff each coordinate is in the block's range on its axis. -/
theorem mem_blk0_4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v14_1).slice (win0_4.rect t)).set ↔ _
  rw [View.set_slice_whole, Rect.mem_set_unit]
  exact Iff.rfl

/-- Row `r` is in the block of point `r / 5000`, which writes it back: the ten blocks cover the array. -/
theorem rows_cover0_4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have ht : (i 0).val / 5000 < cfg0.N := lt_of_lt_of_eq (by omega : (i 0).val / 5000 < 10) N_0.symm
  have e0 : win0_4.index ⟨(i 0).val / 5000, ht⟩ (0 : Fin 2) = (i 0).val / 5000 := (idx0 ⟨(i 0).val / 5000, ht⟩).2.2.2.2.2.2.2.2.1
  have e1 : win0_4.index ⟨(i 0).val / 5000, ht⟩ (1 : Fin 2) = 0 := (idx0 ⟨(i 0).val / 5000, ht⟩).2.2.2.2.2.2.2.2.2
  refine ⟨⟨(i 0).val / 5000, ht⟩, flush0_4 _, ?_⟩
  rw [mem_blk0_4]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e0]; omega
  | ⟨1, _⟩ =>
    show win0_4.index ⟨(i 0).val / 5000, ht⟩ (1 : Fin 2) * 128 ≤ (i 1).val ∧ (i 1).val < win0_4.index ⟨(i 0).val / 5000, ht⟩ (1 : Fin 2) * 128 + 128
    rw [e1]; omega

/-! ## The result arrays after the region -/

/-- After the region the first result array is the feature array times the weights. -/
theorem region0_h (c : Dev nD) :
    (dat0 (F := Ideal) V c).arrAt 3 cfg0.N = mm (V c main_arg0 : S50000x128.Idx → EReal) (V c main_v13 : S128x128.Idx → EReal) :=
  (dat0 V c).arrAt_eq_of_cover 3 _ (fun t _ => flushed0_3_eq V c t) rows_cover0_3

/-- After the region the second result array is that product with row `r` scaled by the column's entry `r`. -/
theorem region0_hs (c : Dev nD) :
    (dat0 (F := Ideal) V c).arrAt 4 cfg0.N
      = scaleRows (mm (V c main_arg0 : S50000x128.Idx → EReal) (V c main_v13 : S128x128.Idx → EReal)) (V c main_v11 : S50000x1.Idx → EReal) :=
  (dat0 V c).arrAt_eq_of_cover 4 _ (fun t _ => flushed0_4_eq V c t) rows_cover0_4

end Cert.KernelIdeal.RegionValue

end
-- ==== Proof.Chain0.lean ====
/-
  The first stretch of the idealized kernel program and its first region, read as the model's functions.

  After the launch stretch the per-node column holds `dis` of the graph of the edge array, the first weight slice
  is in place, and the two index vectors are rows 0 and 1 of the edge array.  Region 0 then leaves `h = x · W₀`
  and `h` scaled by `dis`.  A buffer a stretch does not write keeps its contents (`host_keep`).
-/
import proofs.«168746_j56882546868465_2_alg».proof.Proof.Gen.KernelIdeal.Frame
import proofs.«168746_j56882546868465_2_alg».proof.Proof.ChainKeep
import proofs.«168746_j56882546868465_2_alg».proof.Proof.HostGlue
import proofs.«168746_j56882546868465_2_alg».proof.Proof.LayoutGlue
import proofs.«168746_j56882546868465_2_alg».proof.Proof.GraphFacts
import proofs.«168746_j56882546868465_2_alg».proof.Proof.Region0

set_option maxRecDepth 16384

noncomputable section

namespace Cert.KernelIdeal.Chain

open Cert.KernelIdeal Cert.KernelIdeal.Gen Cert.KernelIdeal.RegionValue
open Idealize.ShloMosaic Idealize.ShloMosaic.TcCoe Idealize.ShloMosaic.StableHlo Idealize.SL.Sem Idealize.ShloMosaic.ValueIdx
open Cert.GCN

variable (m : (ℓ : Loc nD τ sig) → Buf (Elt Ideal) ℓ) (ρ : Dev nD → PrngReg) (c : Dev nD)

theorem W0_arg0 : W0 (F := Ideal) m ρ c (Proc.devRef .tc main_arg0) = A0 m c := rfl
theorem W0_arg1 : W0 (F := Ideal) m ρ c (Proc.devRef .tc main_arg1) = A1 m c := rfl
theorem W0_arg3 : W0 (F := Ideal) m ρ c (Proc.devRef .tc main_arg3) = A3 m c := rfl

/-- After the launch stretch: the features are untouched. -/
theorem W1_arg0 : W1 (F := Ideal) m ρ c (Proc.devRef .tc main_arg0) = A0 m c := keep_main_arg0_0_1 m ρ c

/-- After the launch stretch: the first weight slice. -/
theorem W1_v13 : (W1 (F := Ideal) m ρ c (Proc.devRef .tc main_v13) : S128x128.Idx → EReal) = wSlice (A3 m c) 0 := by
  dsimp only [W1]
  after_results
  exact wSlice_read 0 (by decide) (A3 m c) _ _

/-- After the launch stretch: the two index vectors, as columns. -/
theorem W1_v1_col : broadcastInDim S800000x1 ![0] bcast_S800000_S800000x1_0 (W1 (F := Ideal) m ρ c (Proc.devRef .tc main_v1) : S800000.Idx → BitVec 32)
    = edgeCol (A1 m c) 0 := by
  dsimp only [W1]
  after_results
  exact edgeCol_read 0 (by decide) (A1 m c) _ _ _
theorem W1_v3_col : broadcastInDim S800000x1 ![0] bcast_S800000_S800000x1_0 (W1 (F := Ideal) m ρ c (Proc.devRef .tc main_v3) : S800000.Idx → BitVec 32)
    = edgeCol (A1 m c) 1 := by
  dsimp only [W1]
  after_results
  exact edgeCol_read 1 (by decide) (A1 m c) _ _ _

/-- The host's inverse square root, an added splat constant, entry by entry. -/
theorem hostRsqrt_apply {s : Shape} (x : FVec Ideal s .f32) (i : s.Idx) : Host.rsqrt x i = Ideal.rsqrt (x i) := rfl
theorem addf_splat_apply {s : Shape} (x : FVec Ideal s .f32) (h : (⟨0, ![]⟩ : Shape).BroadcastsInDim s ![]) (w : BitVec 32) (i : s.Idx) :
    addf x (broadcastInDim s ![] h (constant (F := Ideal) (⟨0, ![]⟩ : Shape) .f32 w)) i = x i + Ideal.ofBits .f32 w := rfl

/-- The inverse square root of one plus a count of ones along an index column is the model's `dis` column. -/
theorem disCol_read (idx idx' : IVec (⟨2, ![800000, 1]⟩ : Shape) 32) (hidx : idx = idx')
    (ones : (⟨1, ![800000]⟩ : Shape).Idx → EReal) (hones : ones = fun _ => (1 : EReal)) (p : Fin 50000) (u : Fin 1) :
    Ideal.rsqrt (segSumVec (N := 50000) idx ones (ix1 p) + 1) = disColOf idx' (ix2 p u) := by
  subst hidx hones
  rfl

-- From here on the `dis` column is never opened: it is an inverse square root of a sum over all 800000 edges.
attribute [local irreducible] Cert.GCN.disColOf

/-- The graph's `dis` column, by definition. -/
theorem G_dis : (G m c).dis = disColOf (edgeCol (A1 m c) 1) := by
  simp only [G, graphOf]

/-- After the launch stretch: the per-node column is `dis` of the graph — the inverse square root of one plus the
    number of edges into the node. -/
theorem W1_v11 : (W1 (F := Ideal) m ρ c (Proc.devRef .tc main_v11) : S50000x1.Idx → EReal) = (G m c).dis := by
  rw [G_dis]
  dsimp only [W1]
  after_results
  funext i
  obtain ⟨p, u, rfl⟩ : ∃ (p : Fin 50000) (u : Fin 1), i = ix2 p u := ⟨i 0, i 1, eq_ix2 i⟩
  refine (Cert.LibColRow.shapeCast_col_apply _ _ p u).trans ?_
  rw [hostRsqrt_apply, addf_splat_apply, scatterAdd_zeros_eq_segSumVec _ rfl rfl rfl rfl _ (fun i => bcast_zero_apply _ i),
    ofBits_one_f32]
  exact disCol_read _ _ (edgeCol_read 1 (by decide) (A1 m c) _ _ _) _ (funext fun _ => ofBits_one_f32) p u

/-- Region 0 leaves `h = x · W₀` … -/
theorem W2_v14_0 : (W2 (F := Ideal) m ρ c (Proc.devRef .tc main_v14_0) : S50000x128.Idx → EReal)
    = mm (A0 m c) (wSlice (A3 m c) 0) := by
  refine (W2_arr m ρ c 3).trans ?_
  rw [region0_h (V1 m ρ) c]
  show mm (W1 m ρ c (Proc.devRef .tc main_arg0)) (W1 m ρ c (Proc.devRef .tc main_v13)) = _
  rw [W1_arg0, W1_v13]

/-- … and `h` scaled by `dis`. -/
theorem W2_v14_1 : (W2 (F := Ideal) m ρ c (Proc.devRef .tc main_v14_1) : S50000x128.Idx → EReal)
    = scaleRows (mm (A0 m c) (wSlice (A3 m c) 0)) (G m c).dis := by
  refine (W2_arr m ρ c 4).trans ?_
  rw [region0_hs (V1 m ρ) c]
  show scaleRows (mm (W1 m ρ c (Proc.devRef .tc main_arg0)) (W1 m ρ c (Proc.devRef .tc main_v13)))
    (W1 m ρ c (Proc.devRef .tc main_v11)) = _
  rw [W1_arg0, W1_v13, W1_v11]

end Cert.KernelIdeal.Chain

end
-- ==== Proof.LibTileSum.lean ====
/-
  Regrouping a sum over a range cut into equal tiles, and the value of a running
  accumulator that adds the tiles one after another.

  Everything here holds in any additive commutative monoid; the extended reals are one,
  so no finiteness hypothesis is needed.
-/
import Mathlib.Algebra.BigOperators.Fin
import Idealize.ShloMosaic.PureOps.Ideal

namespace Cert.TileSum

open Finset

variable {M : Type*} [AddCommMonoid M]

/-- The position `t * j + r` of row `r` of tile `j` lies below `n * t`. -/
theorem tile_pos_lt {n t : ℕ} (j : Fin n) (r : Fin t) : t * j.val + r.val < n * t := by
  calc t * j.val + r.val < t * j.val + t := Nat.add_lt_add_left r.isLt _
    _ = t * (j.val + 1) := by rw [Nat.mul_succ]
    _ ≤ t * n := Nat.mul_le_mul_left _ j.isLt
    _ = n * t := Nat.mul_comm _ _

/-- A sum over `n * t` positions is the sum, over the `n` tiles, of the sums over the `t` rows of
each tile, row `r` of tile `j` being position `t * j + r`. -/
theorem sum_tiles_mul (n t : ℕ) (f : Fin (n * t) → M) :
    ∑ j : Fin n, ∑ r : Fin t, f ⟨t * j.val + r.val, tile_pos_lt j r⟩ = ∑ s : Fin (n * t), f s := by
  rw [← Fintype.sum_prod_type']
  refine Fintype.sum_equiv finProdFinEquiv _ _ ?_
  rintro ⟨j, r⟩
  refine congrArg f (Fin.ext ?_)
  simp only [finProdFinEquiv_apply_val]
  exact Nat.add_comm _ _

/-- The case of 8 tiles of 512 rows: a sum over 4096 positions, tile by tile. -/
theorem sum_tiles (f : Fin 4096 → M) :
    ∑ j : Fin 8, ∑ r : Fin 512, f ⟨512 * j.val + r.val, by omega⟩ = ∑ s : Fin 4096, f s :=
  sum_tiles_mul 8 512 f

/-- The same with a starting value in front, as an accumulator that starts from `z` sees it. -/
theorem add_sum_tiles (z : M) (f : Fin 4096 → M) :
    z + ∑ j : Fin 8, ∑ r : Fin 512, f ⟨512 * j.val + r.val, by omega⟩ = z + ∑ s : Fin 4096, f s := by
  rw [sum_tiles]

/-- The running accumulator over 8 tile sums `g`: it starts as `z + g 0` and step `n + 1` adds
`g (n + 1)` on the right of what step `n` left. -/
def accUpTo (z : M) (g : Fin 8 → M) : (n : ℕ) → n < 8 → M
  | 0, _ => z + g 0
  | n + 1, h => accUpTo z g n (by omega) + g ⟨n + 1, h⟩

/-- Eight terms added one after another to `z`, left to right, are `z` plus their sum. -/
theorem add_eight (z : M) (g : Fin 8 → M) :
    z + g 0 + g 1 + g 2 + g 3 + g 4 + g 5 + g 6 + g 7 = z + ∑ j : Fin 8, g j := by
  rw [Fin.sum_univ_eight]
  simp only [add_assoc]

/-- After the last step the accumulator holds `z` plus the sum of all 8 tile sums. -/
theorem accUpTo_last (z : M) (g : Fin 8 → M) :
    accUpTo z g 7 (by omega) = z + ∑ j : Fin 8, g j := by
  rw [← add_eight]
  rfl

/-- The accumulator over tile sums of 512 rows each ends as `z` plus the sum over all 4096
positions. -/
theorem accUpTo_tiles (z : M) (f : Fin 4096 → M) :
    accUpTo z (fun j : Fin 8 => ∑ r : Fin 512, f ⟨512 * j.val + r.val, by omega⟩) 7 (by omega)
      = z + ∑ s : Fin 4096, f s := by
  rw [accUpTo_last, sum_tiles]

end Cert.TileSum
-- ==== Proof.RegionR_Payload.lean ====
/-
  The arithmetic of the two column-statistics kernel bodies, read at one entry over the extended reals.

  Both bodies work on a block of 5000 rows by 128 columns and keep a running row of 128 column totals.
  The first forms, entry by entry, `d r * (agg (r, q) + d r * h (r, q)) + cb q` from a column `d`, two blocks and
  a row `cb`, and adds the block's column sums to the running row.  The second adds to the running row the column
  sums of the squared deviations `(y (r, q) - mu q) * (y (r, q) - mu q)`.  The running row starts from the zero row.

  A sum down the rows of a block, laid out as a row, is at column `q` the sum over the 5000 rows of the entries
  `(r, q)`; casts between equal shapes do nothing; a column broadcast along the columns reads its row coordinate and a
  row broadcast along the rows reads its column coordinate.
-/
import proofs.«168746_j56882546868465_2_alg».proof.Proof.Gen.KernelIdeal.Skeleton
import proofs.«168746_j56882546868465_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«168746_j56882546868465_2_alg».proof.Proof.LibTileSum

noncomputable section

open scoped BigOperators

namespace Cert.KernelIdeal.RegionValue

open Idealize.ShloMosaic Idealize.ShloMosaic.ValueIdx
open Cert.KernelIdeal Cert.KernelIdeal.Gen

/-- The sums down the 5000 rows of a block, laid out as a row: at column `q` the sum of the entries `(r, q)`. -/
theorem blockColSum_apply (src : FVec Ideal S5000x128 .f32) (h : S5000x128.Reduces [0] S128) (hc : S128.ShapeCasts S1x128)
    (hφ : FKind.Formats .f32) (hacc : (0x00000000#32 : BitVec 32) = FKind.add.neutral .f32 hφ) (u : Fin 1) (q : Fin 128) :
    shapeCast S1x128 (multiReduction .add [0] S128 src 0x00000000#32 h hφ hacc) hc (ix2 u q)
      = ∑ r : Fin 5000, src (ix2 r q) := by
  refine (shapeCast_a_1a_apply _ hc u q).trans ?_
  refine (Ideal.multiReduction_add_single src _ h hφ hacc (ix1 q)).trans ?_
  refine Finset.sum_congr rfl fun r _ => congrArg src ?_
  funext a
  match a with
  | ⟨0, _⟩ => rfl
  | ⟨1, _⟩ => rfl

/-- The column of a block broadcast along the 128 columns reads, at `(r, q)`, the column's entry of row `r`. -/
theorem colBroadcast_apply (v : FVec Ideal S5000x1 .f32) (h : S5000x1.Broadcasts S5000x128) (r : Fin 5000) (q : Fin 128) :
    broadcastTo S5000x128 v h (ix2 r q) = v (ix2 r (0 : Fin 1)) := by
  refine broadcastTo_apply v h (ix2 r q) (ix2 r (0 : Fin 1)) fun ax => ?_
  match ax with
  | ⟨0, _⟩ => rfl
  | ⟨1, _⟩ => rfl

/-- The zero word is the number zero. -/
theorem zeroRow_apply (i : S1x128.Idx) :
    (broadcast S1x128 (Scalar.ofBits (F := Ideal) .f32 0x00000000#32) : FVec Ideal S1x128 .f32) i = 0 :=
  Ideal.ofBits_zero_f32

/-- The squared-deviation step at column `q`: the running row's entry plus the block's column sum of
    `(y - mu) * (y - mu)`. -/
theorem sqdevStep_apply (y : FVec Ideal S5000x128 .f32) (mu acc : FVec Ideal S1x128 .f32)
    (h1 : S5000x128.ShapeCasts S5000x128) (h2 : S1x128.ShapeCasts S1x128) (h3 : S1x128.Broadcasts S5000x128)
    (h4 : S5000x128.Reduces [0] S128) (h5 : S128.ShapeCasts S1x128)
    (hφ : FKind.Formats .f32) (hacc : (0x00000000#32 : BitVec 32) = FKind.add.neutral .f32 hφ) (q : Fin 128) :
    addf (F := Ideal) (shapeCast S1x128 acc h2)
        (shapeCast S1x128 (multiReduction .add [0] S128
          (mulf (subf (shapeCast S5000x128 y h1) (broadcastTo S5000x128 (shapeCast S1x128 mu h2) h3))
                (subf (shapeCast S5000x128 y h1) (broadcastTo S5000x128 (shapeCast S1x128 mu h2) h3)))
          0x00000000#32 h4 hφ hacc) h5) (ix2 (0 : Fin 1) q)
      = acc (ix2 (0 : Fin 1) q)
        + ∑ r : Fin 5000, (y (ix2 r q) - mu (ix2 (0 : Fin 1) q)) * (y (ix2 r q) - mu (ix2 (0 : Fin 1) q)) := by
  rw [shapeCast_self, shapeCast_self, shapeCast_self]
  refine (congrArg (acc (ix2 (0 : Fin 1) q) + ·) (blockColSum_apply _ h4 h5 hφ hacc 0 q)).trans ?_
  refine congrArg (acc (ix2 (0 : Fin 1) q) + ·) (Finset.sum_congr rfl fun r _ => ?_)
  show (y (ix2 r q) - broadcastTo S5000x128 mu h3 (ix2 r q)) * (y (ix2 r q) - broadcastTo S5000x128 mu h3 (ix2 r q)) = _
  rw [broadcastTo_1b_ab_apply]

/-- The combination step at entry `(r, q)`: `d r * (agg (r, q) + d r * h (r, q)) + cb q`. -/
theorem combineBlock_apply (d : FVec Ideal S5000x1 .f32) (agg hh : FVec Ideal S5000x128 .f32) (cb : FVec Ideal S1x128 .f32)
    (h0 : S5000x1.ShapeCasts S5000x1) (hb : S5000x1.Broadcasts S5000x128)
    (h1 : S5000x128.ShapeCasts S5000x128) (h2 : S1x128.ShapeCasts S1x128) (h3 : S1x128.Broadcasts S5000x128)
    (r : Fin 5000) (q : Fin 128) :
    addf (F := Ideal) (mulf (broadcastTo S5000x128 (shapeCast S5000x1 (shapeCast S5000x1 d h0) h0) hb)
            (addf (shapeCast S5000x128 agg h1)
              (mulf (broadcastTo S5000x128 (shapeCast S5000x1 (shapeCast S5000x1 d h0) h0) hb) (shapeCast S5000x128 hh h1))))
        (broadcastTo S5000x128 (shapeCast S1x128 cb h2) h3) (ix2 r q)
      = d (ix2 r (0 : Fin 1)) * (agg (ix2 r q) + d (ix2 r (0 : Fin 1)) * hh (ix2 r q)) + cb (ix2 (0 : Fin 1) q) := by
  rw [shapeCast_self, shapeCast_self, shapeCast_self, shapeCast_self, shapeCast_self]
  show broadcastTo S5000x128 d hb (ix2 r q) * (agg (ix2 r q) + broadcastTo S5000x128 d hb (ix2 r q) * hh (ix2 r q))
      + broadcastTo S5000x128 cb h3 (ix2 r q) = _
  rw [broadcastTo_1b_ab_apply, colBroadcast_apply]

/-- The plain accumulation step at column `q`: the running row's entry plus the block's column sum. -/
theorem sumStep_apply (blk : FVec Ideal S5000x128 .f32) (acc : FVec Ideal S1x128 .f32)
    (h2 : S1x128.ShapeCasts S1x128) (h4 : S5000x128.Reduces [0] S128) (h5 : S128.ShapeCasts S1x128)
    (hφ : FKind.Formats .f32) (hacc : (0x00000000#32 : BitVec 32) = FKind.add.neutral .f32 hφ) (q : Fin 128) :
    addf (F := Ideal) (shapeCast S1x128 acc h2)
        (shapeCast S1x128 (multiReduction .add [0] S128 blk 0x00000000#32 h4 hφ hacc) h5) (ix2 (0 : Fin 1) q)
      = acc (ix2 (0 : Fin 1) q) + ∑ r : Fin 5000, blk (ix2 r q) := by
  rw [shapeCast_self]
  exact congrArg (acc (ix2 (0 : Fin 1) q) + ·) (blockColSum_apply _ h4 h5 hφ hacc 0 q)

/-! ## The bodies' stored values, region by region -/

/-- Region 1: the row the first grid point starts from is the zero row. -/
theorem k1_pay1_apply (i : S1x128.Idx) : (k1_pay1 (F := Ideal)) i = 0 := Ideal.ofBits_zero_f32

/-- Region 1: the block the body stores, at entry `(r, q)`. -/
theorem k1_pay2_apply (d : Vec Ideal S5000x1 .f32) (agg hh : Vec Ideal S5000x128 .f32) (cb : Vec Ideal S1x128 .f32)
    (r : Fin 5000) (q : Fin 128) :
    k1_pay2 (F := Ideal) d agg hh cb (ix2 r q)
      = d (ix2 r (0 : Fin 1)) * (agg (ix2 r q) + d (ix2 r (0 : Fin 1)) * hh (ix2 r q)) + cb (ix2 (0 : Fin 1) q) :=
  combineBlock_apply d agg hh cb _ _ _ _ _ r q

/-- Region 1: the running row the body stores, at column `q`: its entry before plus the stored block's column sum. -/
theorem k1_pay3_apply (d : Vec Ideal S5000x1 .f32) (agg hh : Vec Ideal S5000x128 .f32) (cb acc : Vec Ideal S1x128 .f32)
    (q : Fin 128) :
    k1_pay3 (F := Ideal) d agg hh cb acc (ix2 (0 : Fin 1) q)
      = acc (ix2 (0 : Fin 1) q) + ∑ r : Fin 5000, k1_pay2 (F := Ideal) d agg hh cb (ix2 r q) :=
  sumStep_apply (k1_pay2 (F := Ideal) d agg hh cb) acc _ _ _ _ _ q

/-- Region 2: the row the first grid point starts from is the zero row. -/
theorem k2_pay1_apply (i : S1x128.Idx) : (k2_pay1 (F := Ideal)) i = 0 := Ideal.ofBits_zero_f32

/-- Region 2: the running row the body stores, at column `q`: its entry before plus the block's column sum of the
    squared deviations. -/
theorem k2_pay2_apply (y : Vec Ideal S5000x128 .f32) (mu acc : Vec Ideal S1x128 .f32) (q : Fin 128) :
    k2_pay2 (F := Ideal) y mu acc (ix2 (0 : Fin 1) q)
      = acc (ix2 (0 : Fin 1) q)
        + ∑ r : Fin 5000, (y (ix2 r q) - mu (ix2 (0 : Fin 1) q)) * (y (ix2 r q) - mu (ix2 (0 : Fin 1) q)) :=
  sqdevStep_apply y mu acc _ _ _ _ _ _ _ q

/-- Region 4: the row the first grid point starts from is the zero row. -/
theorem k4_pay1_apply (i : S1x128.Idx) : (k4_pay1 (F := Ideal)) i = 0 := Ideal.ofBits_zero_f32

/-- Region 4: the block the body stores, at entry `(r, q)`. -/
theorem k4_pay2_apply (d : Vec Ideal S5000x1 .f32) (agg hh : Vec Ideal S5000x128 .f32) (cb : Vec Ideal S1x128 .f32)
    (r : Fin 5000) (q : Fin 128) :
    k4_pay2 (F := Ideal) d agg hh cb (ix2 r q)
      = d (ix2 r (0 : Fin 1)) * (agg (ix2 r q) + d (ix2 r (0 : Fin 1)) * hh (ix2 r q)) + cb (ix2 (0 : Fin 1) q) :=
  combineBlock_apply d agg hh cb _ _ _ _ _ r q

/-- Region 4: the running row the body stores, at column `q`: its entry before plus the stored block's column sum. -/
theorem k4_pay3_apply (d : Vec Ideal S5000x1 .f32) (agg hh : Vec Ideal S5000x128 .f32) (cb acc : Vec Ideal S1x128 .f32)
    (q : Fin 128) :
    k4_pay3 (F := Ideal) d agg hh cb acc (ix2 (0 : Fin 1) q)
      = acc (ix2 (0 : Fin 1) q) + ∑ r : Fin 5000, k4_pay2 (F := Ideal) d agg hh cb (ix2 r q) :=
  sumStep_apply (k4_pay2 (F := Ideal) d agg hh cb) acc _ _ _ _ _ q

/-- Region 5: the row the first grid point starts from is the zero row. -/
theorem k5_pay1_apply (i : S1x128.Idx) : (k5_pay1 (F := Ideal)) i = 0 := Ideal.ofBits_zero_f32

/-- Region 5: the running row the body stores, at column `q`: its entry before plus the block's column sum of the
    squared deviations. -/
theorem k5_pay2_apply (y : Vec Ideal S5000x128 .f32) (mu acc : Vec Ideal S1x128 .f32) (q : Fin 128) :
    k5_pay2 (F := Ideal) y mu acc (ix2 (0 : Fin 1) q)
      = acc (ix2 (0 : Fin 1) q)
        + ∑ r : Fin 5000, (y (ix2 r q) - mu (ix2 (0 : Fin 1) q)) * (y (ix2 r q) - mu (ix2 (0 : Fin 1) q)) :=
  sqdevStep_apply y mu acc _ _ _ _ _ _ _ q

/-- Region 7: the row the first grid point starts from is the zero row. -/
theorem k7_pay1_apply (i : S1x128.Idx) : (k7_pay1 (F := Ideal)) i = 0 := Ideal.ofBits_zero_f32

/-- Region 7: the block the body stores, at entry `(r, q)`. -/
theorem k7_pay2_apply (d : Vec Ideal S5000x1 .f32) (agg hh : Vec Ideal S5000x128 .f32) (cb : Vec Ideal S1x128 .f32)
    (r : Fin 5000) (q : Fin 128) :
    k7_pay2 (F := Ideal) d agg hh cb (ix2 r q)
      = d (ix2 r (0 : Fin 1)) * (agg (ix2 r q) + d (ix2 r (0 : Fin 1)) * hh (ix2 r q)) + cb (ix2 (0 : Fin 1) q) :=
  combineBlock_apply d agg hh cb _ _ _ _ _ r q

/-- Region 7: the running row the body stores, at column `q`: its entry before plus the stored block's column sum. -/
theorem k7_pay3_apply (d : Vec Ideal S5000x1 .f32) (agg hh : Vec Ideal S5000x128 .f32) (cb acc : Vec Ideal S1x128 .f32)
    (q : Fin 128) :
    k7_pay3 (F := Ideal) d agg hh cb acc (ix2 (0 : Fin 1) q)
      = acc (ix2 (0 : Fin 1) q) + ∑ r : Fin 5000, k7_pay2 (F := Ideal) d agg hh cb (ix2 r q) :=
  sumStep_apply (k7_pay2 (F := Ideal) d agg hh cb) acc _ _ _ _ _ q

/-- Region 8: the row the first grid point starts from is the zero row. -/
theorem k8_pay1_apply (i : S1x128.Idx) : (k8_pay1 (F := Ideal)) i = 0 := Ideal.ofBits_zero_f32

/-- Region 8: the running row the body stores, at column `q`: its entry before plus the block's column sum of the
    squared deviations. -/
theorem k8_pay2_apply (y : Vec Ideal S5000x128 .f32) (mu acc : Vec Ideal S1x128 .f32) (q : Fin 128) :
    k8_pay2 (F := Ideal) y mu acc (ix2 (0 : Fin 1) q)
      = acc (ix2 (0 : Fin 1) q)
        + ∑ r : Fin 5000, (y (ix2 r q) - mu (ix2 (0 : Fin 1) q)) * (y (ix2 r q) - mu (ix2 (0 : Fin 1) q)) :=
  sqdevStep_apply y mu acc _ _ _ _ _ _ _ q

/-! ## Sums over the 50000 rows, ten tiles of 5000 -/

theorem hzR : (![0, 0] : Fin 2 → Nat) = fun _ => 0 := funext fun a => by fin_cases a <;> rfl

/-- A function of the 50000 rows, extended by zero to every natural number. -/
def rowTerm (f : Fin 50000 → EReal) (s : ℕ) : EReal := if h : s < 50000 then f ⟨s, h⟩ else 0

theorem rowTerm_of_lt (f : Fin 50000 → EReal) (s : ℕ) (h : s < 50000) : rowTerm f s = f ⟨s, h⟩ := dif_pos h

/-- The ten tile sums, tile `j` holding rows `5000 j … 5000 j + 4999`, add up to the sum over all rows. -/
theorem sum_rowTerm_tiles (f : Fin 50000 → EReal) :
    ∑ j ∈ Finset.range 10, ∑ r : Fin 5000, rowTerm f (5000 * j + r.val) = ∑ s : Fin 50000, f s := by
  rw [Finset.sum_range]
  refine (Cert.TileSum.sum_tiles_mul 10 5000 (fun s : Fin (10 * 5000) => rowTerm f s.val)).trans ?_
  show ∑ s : Fin 50000, rowTerm f s.val = ∑ s : Fin 50000, f s
  exact Finset.sum_congr rfl fun s _ => rowTerm_of_lt f s.val s.isLt

/-- An accumulator that starts as `0 + g 0` and at step `n + 1` adds `g (n + 1)` on the right holds, after step `n`,
    the sum of `g 0, …, g n`. -/
theorem acc_eq_sum {M : Type*} [AddCommMonoid M] (N : ℕ) (a : (n : ℕ) → n < N → M) (g : ℕ → M)
    (h0 : ∀ h, a 0 h = 0 + g 0)
    (hs : ∀ n (h : n + 1 < N), a (n + 1) h = a n (Nat.lt_of_succ_lt h) + g (n + 1)) :
    ∀ n (h : n < N), a n h = ∑ j ∈ Finset.range (n + 1), g j
  | 0, h => by rw [h0, Finset.sum_range_one, zero_add]
  | n + 1, h => by rw [hs, acc_eq_sum N a g h0 hs n, ← Finset.sum_range_succ]

/-- Two rows of 128 entries agree when they agree column by column. -/
theorem row_ext {α : Type} (f g : S1x128.Idx → α) (h : ∀ q : Fin 128, f (ix2 (0 : Fin 1) q) = g (ix2 (0 : Fin 1) q)) :
    f = g := by
  funext y
  obtain ⟨u, q, rfl⟩ : ∃ (u : Fin 1) (q : Fin 128), y = ix2 u q := ⟨y 0, y 1, eq_ix2 y⟩
  obtain rfl : u = 0 := Subsingleton.elim _ _
  exact h q

/-- Two blocks of 5000 by 128 entries agree when they agree entry by entry. -/
theorem block_ext {α : Type} (f g : S5000x128.Idx → α) (h : ∀ (r : Fin 5000) (q : Fin 128), f (ix2 r q) = g (ix2 r q)) :
    f = g := by
  funext y
  obtain ⟨r, q, rfl⟩ : ∃ (r : Fin 5000) (q : Fin 128), y = ix2 r q := ⟨y 0, y 1, eq_ix2 y⟩
  exact h r q

end Cert.KernelIdeal.RegionValue

end
-- ==== Proof.Region1.lean ====
/-
  Region 1 of the network's program: the aggregation step of one layer and the first pass of its column
  normalisation.

  The region walks the 50000 rows in ten blocks of 5000 rows.  At every step it forms, entry by entry, the block
  `d r * (agg (r, q) + d r * h (r, q)) + cb q` from the blocks of `agg` and `h`, the block of the column `d` and the
  row `cb`, and writes it to the same rows of the first result.  A row of 128 running totals stays in place across the
  ten steps: the first step sets it to zero, every step adds the column sums of the block just formed, and the row is
  written out once, after the last step, as the second result.  So the first result is the combination on all 50000
  rows, and the second is, at column `q`, the ten block sums added one after another to zero; regrouped, the sum of
  column `q` of the first result over all 50000 rows.  Addition of extended reals is commutative and associative, so
  the regrouping needs no finiteness.

  Row `r` of a block at step `t` is row `5000 t + r` of its array; the row `cb` and the row of totals are their whole
  arrays.
-/
import proofs.«168746_j56882546868465_2_alg».proof.Proof.Gen.KernelIdeal.Frame
import proofs.«168746_j56882546868465_2_alg».proof.Proof.Spec
import proofs.«168746_j56882546868465_2_alg».proof.Proof.RegionR_Payload
import Idealize.ShloMosaic.Lib.Pipeline.Value
import Idealize.ShloMosaic.Lib.Tactic

noncomputable section

open scoped BigOperators

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.GCN

/-! ## What one step leaves in the two result buffers -/

section AnyValues

variable {F : FTy → Type} [FloatOps F]

/-- A later step leaves in the block buffer the body's one store there, -/
theorem r1_out_B_4 (c : Dev nD) (i : grid1.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S1x128 .f32) (h6 : a6.IsWhole)
    (hc : ¬cond1_0 i) (x0 x1 : Vec F S5000x128 .f32) (x2 : Vec F S5000x1 .f32) (x3 : Vec F S1x128 .f32) (xo : Vec F S1x128 .f32) :
    out1_B_4 c i a1 h1 a2 h2 a3 h3 a4 h4 a5 h5 a6 h6 hc x0 x1 x2 x3 xo = k1_pay2 x2 x0 x1 x3 := by
  unfold out1_B_4
  rw [View.read_writes_eq_canon _ _ _ (cover1_B_4 c i a1 h1 a2 h2 a3 h3 a4 h4 a5 h5 a6 h6 hc x0 x1 x2 x3 xo)]
  unfold kernelRun1_B
  dsimp only
  rw [View.canon_unit_zero hzR]
  simp only [View.readAt_eq_ld, h1.read_unread, h2.read_unread, h3.read_unread, h4.read_unread, h6.read_unread,
    View.ld_unit_zero (S := S5000x128) hzR, View.ld_unit_zero (S := S1x128) hzR, View.ld_unit_zero (S := S5000x1) hzR]

/-- and in the row of totals the body's one store there, computed from the totals so far. -/
theorem r1_out_B_5 (c : Dev nD) (i : grid1.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S1x128 .f32) (h6 : a6.IsWhole)
    (hc : ¬cond1_0 i) (x0 x1 : Vec F S5000x128 .f32) (x2 : Vec F S5000x1 .f32) (x3 : Vec F S1x128 .f32) (xo : Vec F S1x128 .f32) :
    out1_B_5 c i a1 h1 a2 h2 a3 h3 a4 h4 a5 h5 a6 h6 hc x0 x1 x2 x3 xo = k1_pay3 x2 x0 x1 x3 xo := by
  unfold out1_B_5
  rw [View.read_writes_eq_canon _ _ _ (cover1_B_5 c i a1 h1 a2 h2 a3 h3 a4 h4 a5 h5 a6 h6 hc x0 x1 x2 x3 xo)]
  unfold kernelRun1_B
  dsimp only
  rw [View.canon_unit_zero hzR]
  simp only [View.readAt_eq_ld, h1.read_unread, h2.read_unread, h3.read_unread, h4.read_unread, h6.read_unread,
    View.ld_unit_zero (S := S5000x128) hzR, View.ld_unit_zero (S := S1x128) hzR, View.ld_unit_zero (S := S5000x1) hzR]

/-- The first step leaves the same block, -/
theorem r1_out_A_4 (c : Dev nD) (i : grid1.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S1x128 .f32) (h6 : a6.IsWhole)
    (hc : cond1_0 i) (x0 x1 : Vec F S5000x128 .f32) (x2 : Vec F S5000x1 .f32) (x3 : Vec F S1x128 .f32) :
    out1_A_4 c i a1 h1 a2 h2 a3 h3 a4 h4 a5 h5 a6 h6 hc x0 x1 x2 x3 = k1_pay2 x2 x0 x1 x3 := by
  unfold out1_A_4
  rw [View.read_writes_eq_canon _ _ _ (cover1_A_4 c i a1 h1 a2 h2 a3 h3 a4 h4 a5 h5 a6 h6 hc x0 x1 x2 x3)]
  unfold kernelRun1_A
  dsimp only
  rw [View.canon_unit_zero hzR]
  simp only [View.readAt_eq_ld, h1.read_unread, h2.read_unread, h3.read_unread, h4.read_unread,
    View.ld_unit_zero (S := S5000x128) hzR, View.ld_unit_zero (S := S1x128) hzR, View.ld_unit_zero (S := S5000x1) hzR]

/-- and in the row of totals the zero row stored first, read back, and the totals stored over it. -/
theorem r1_out_A_5 (c : Dev nD) (i : grid1.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S1x128 .f32) (h6 : a6.IsWhole)
    (hc : cond1_0 i) (x0 x1 : Vec F S5000x128 .f32) (x2 : Vec F S5000x1 .f32) (x3 : Vec F S1x128 .f32) :
    out1_A_5 c i a1 h1 a2 h2 a3 h3 a4 h4 a5 h5 a6 h6 hc x0 x1 x2 x3 = k1_pay3 x2 x0 x1 x3 k1_pay1 := by
  unfold out1_A_5
  rw [View.read_writes_eq_canon _ _ _ (cover1_A_5 c i a1 h1 a2 h2 a3 h3 a4 h4 a5 h5 a6 h6 hc x0 x1 x2 x3)]
  unfold kernelRun1_A
  dsimp only
  sl_unfold_words
  rw [View.canon_cons_unit_zero (S := S1x128) hzR, View.readCov_unit_zero (S := S1x128) _ hzR]
  simp only [View.readAt_eq_ld, h1.read_unread, h2.read_unread, h3.read_unread, h4.read_unread,
    View.ld_unit_zero (S := S5000x128) hzR, View.ld_unit_zero (S := S1x128) hzR, View.ld_unit_zero (S := S5000x1) hzR]

/-- The block index of `agg`, `h`, the column `d` and the first result at step `t` is `(t, 0)`; the rows `cb` and of
    totals are always block `(0, 0)`. -/
theorem r1_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0 :=
  (by decide +kernel : ∀ t : Fin grid1.N, _)

end AnyValues

/-! ## The blocks over the extended reals -/

variable (V : (c : Dev nD) → (b : Ref sig .tc) → Buf (Elt Ideal) ((c : Thread nD τ).loc b))

/-- The four operand arrays and their blocks at step `t`, as functions into the extended reals. -/
abbrev r1_A (c : Dev nD) : S50000x128.Idx → EReal := V c main_v24
abbrev r1_H (c : Dev nD) : S50000x128.Idx → EReal := V c main_v14_0
abbrev r1_D (c : Dev nD) : S50000x1.Idx → EReal := V c main_v11
abbrev r1_CB (c : Dev nD) : S1x128.Idx → EReal := V c main_v27
abbrev r1_ab (c : Dev nD) (t : Fin cfg1.N) : FVec Ideal S5000x128 .f32 := iblk1 V c 0 t
abbrev r1_hb (c : Dev nD) (t : Fin cfg1.N) : FVec Ideal S5000x128 .f32 := iblk1 V c 1 t
abbrev r1_db (c : Dev nD) (t : Fin cfg1.N) : FVec Ideal S5000x1 .f32 := iblk1 V c 2 t
abbrev r1_cb (c : Dev nD) (t : Fin cfg1.N) : FVec Ideal S1x128 .f32 := iblk1 V c 3 t

/-- Row `r` of the block of `agg` at step `t` is row `5000 t + r` of `agg`. -/
theorem r1_blk0 (c : Dev nD) (t : Fin cfg1.N) (r : Fin 5000) (q : Fin 128) (hb : 5000 * t.val + r.val < 50000) :
    r1_ab V c t (ix2 r q) = r1_A V c (ix2 ⟨5000 * t.val + r.val, hb⟩ q) := by
  obtain ⟨e0, e1, -⟩ := r1_idx t
  unfold r1_ab r1_A iblk1
  rw [View.read_apply]
  show V c main_v24 _ = V c main_v24 _
  congr 1
  funext a
  apply Fin.ext
  match a with
  | ⟨0, _⟩ => show win1_0.index t (0 : Fin 2) * 5000 + 1 * r.val = 5000 * t.val + r.val; rw [e0]; omega
  | ⟨1, _⟩ => show win1_0.index t (1 : Fin 2) * 128 + 1 * q.val = q.val; rw [e1]; omega

/-- Row `r` of the block of `h` at step `t` is row `5000 t + r` of `h`. -/
theorem r1_blk1 (c : Dev nD) (t : Fin cfg1.N) (r : Fin 5000) (q : Fin 128) (hb : 5000 * t.val + r.val < 50000) :
    r1_hb V c t (ix2 r q) = r1_H V c (ix2 ⟨5000 * t.val + r.val, hb⟩ q) := by
  obtain ⟨-, -, e0, e1, -⟩ := r1_idx t
  unfold r1_hb r1_H iblk1
  rw [View.read_apply]
  show V c main_v14_0 _ = V c main_v14_0 _
  congr 1
  funext a
  apply Fin.ext
  match a with
  | ⟨0, _⟩ => show win1_1.index t (0 : Fin 2) * 5000 + 1 * r.val = 5000 * t.val + r.val; rw [e0]; omega
  | ⟨1, _⟩ => show win1_1.index t (1 : Fin 2) * 128 + 1 * q.val = q.val; rw [e1]; omega

/-- Row `r` of the block of the column `d` at step `t` is row `5000 t + r` of `d`. -/
theorem r1_blk2 (c : Dev nD) (t : Fin cfg1.N) (r : Fin 5000) (u : Fin 1) (hb : 5000 * t.val + r.val < 50000) :
    r1_db V c t (ix2 r u) = r1_D V c (ix2 ⟨5000 * t.val + r.val, hb⟩ u) := by
  obtain ⟨-, -, -, -, e0, e1, -⟩ := r1_idx t
  unfold r1_db r1_D iblk1
  rw [View.read_apply]
  show V c main_v11 _ = V c main_v11 _
  congr 1
  funext a
  apply Fin.ext
  match a with
  | ⟨0, _⟩ => show win1_2.index t (0 : Fin 2) * 5000 + 1 * r.val = 5000 * t.val + r.val; rw [e0]; omega
  | ⟨1, _⟩ => show win1_2.index t (1 : Fin 2) * 1 + 1 * u.val = u.val; rw [e1]; omega

/-- The block of `cb` at any step is `cb`. -/
theorem r1_blk3 (c : Dev nD) (t : Fin cfg1.N) (u : Fin 1) (q : Fin 128) :
    r1_cb V c t (ix2 u q) = r1_CB V c (ix2 u q) := by
  obtain ⟨-, -, -, -, -, -, e0, e1, -⟩ := r1_idx t
  unfold r1_cb r1_CB iblk1
  rw [View.read_apply]
  show V c main_v27 _ = V c main_v27 _
  congr 1
  funext a
  apply Fin.ext
  match a with
  | ⟨0, _⟩ => show win1_3.index t (0 : Fin 2) * 1 + 1 * u.val = u.val; rw [e0]; omega
  | ⟨1, _⟩ => show win1_3.index t (1 : Fin 2) * 128 + 1 * q.val = q.val; rw [e1]; omega

/-- The combination on all 50000 rows. -/
abbrev r1_G (c : Dev nD) : S50000x128.Idx → EReal := combine (r1_A V c) (r1_H V c) (r1_D V c) (r1_CB V c)

/-- The block formed at step `t` is, at `(r, q)`, the combination at row `5000 t + r`. -/
theorem r1_pay2_eq (c : Dev nD) (t : Fin cfg1.N) (r : Fin 5000) (q : Fin 128) (hb : 5000 * t.val + r.val < 50000) :
    k1_pay2 (F := Ideal) (r1_db V c t) (r1_ab V c t) (r1_hb V c t) (r1_cb V c t) (ix2 r q)
      = r1_G V c (ix2 ⟨5000 * t.val + r.val, hb⟩ q) := by
  rw [k1_pay2_apply, r1_blk0 V c t r q hb, r1_blk1 V c t r q hb, r1_blk2 V c t r 0 hb, r1_blk3 V c t 0 q]
  rfl

/-- What every step leaves in the block buffer. -/
theorem r1_hnew_blk (c : Dev nD) (t : Fin cfg1.N) :
    (outsAt1 V c t.val t.isLt).1 = k1_pay2 (F := Ideal) (r1_db V c t) (r1_ab V c t) (r1_hb V c t) (r1_cb V c t) := by
  by_cases h0 : t.val % 10 = 0
  · rw [outsAt1_A V c t h0]
    dsimp only
    rw [r1_out_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)]
  · rw [outsAt1_B V c t h0]
    dsimp only
    rw [r1_out_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t)
      (outsAt1 V c (t.val - 1) (Nat.lt_of_le_of_lt (Nat.sub_le _ _) t.isLt)).2]

/-! ## The running totals -/

/-- Column `q` of the combination, as a function of the row. -/
abbrev r1_col (c : Dev nD) (q : Fin 128) : Fin 50000 → EReal := fun s => r1_G V c (ix2 s q)

/-- What step `t` adds at column `q`: the sum of column `q` over rows `5000 t … 5000 t + 4999`. -/
abbrev r1_tile (c : Dev nD) (q : Fin 128) (j : ℕ) : EReal := ∑ r : Fin 5000, rowTerm (r1_col V c q) (5000 * j + r.val)

/-- The block sum the body forms at step `t` is that tile sum. -/
theorem r1_tile_eq (c : Dev nD) (t : Fin cfg1.N) (q : Fin 128) :
    ∑ r : Fin 5000, k1_pay2 (F := Ideal) (r1_db V c t) (r1_ab V c t) (r1_hb V c t) (r1_cb V c t) (ix2 r q) = r1_tile V c q t.val := by
  have hN : t.val < 10 := lt_of_lt_of_eq t.isLt (show cfg1.N = 10 from N_1)
  refine Finset.sum_congr rfl fun r _ => ?_
  have hb : 5000 * t.val + r.val < 50000 := by have := r.isLt; omega
  rw [rowTerm_of_lt _ _ hb, r1_pay2_eq V c t r q hb]

/-- After the first step the totals are zero plus the first tile sum. -/
theorem r1_first (c : Dev nD) (q : Fin 128) (h : 0 < cfg1.N) :
    (outsAt1 V c 0 h).2 (ix2 (0 : Fin 1) q) = 0 + r1_tile V c q 0 := by
  have e := outsAt1_A V c ⟨0, h⟩ rfl
  dsimp only at e
  rw [e]
  dsimp only
  rw [r1_out_A_5 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩)
    ((hcond1_0 ⟨0, h⟩).mpr rfl) (iblk1 V c 0 ⟨0, h⟩) (iblk1 V c 1 ⟨0, h⟩) (iblk1 V c 2 ⟨0, h⟩) (iblk1 V c 3 ⟨0, h⟩)]
  refine (k1_pay3_apply (r1_db V c ⟨0, h⟩) (r1_ab V c ⟨0, h⟩) (r1_hb V c ⟨0, h⟩) (r1_cb V c ⟨0, h⟩) (k1_pay1 (F := Ideal)) q).trans ?_
  rw [k1_pay1_apply, r1_tile_eq V c ⟨0, h⟩ q]

/-- A later step adds its tile sum to what the step before left. -/
theorem r1_later (c : Dev nD) (q : Fin 128) (n : ℕ) (h : n + 1 < cfg1.N) :
    (outsAt1 V c (n + 1) h).2 (ix2 (0 : Fin 1) q)
      = (outsAt1 V c n (Nat.lt_of_succ_lt h)).2 (ix2 (0 : Fin 1) q) + r1_tile V c q (n + 1) := by
  have hN : cfg1.N = 10 := N_1
  have hB : ¬(⟨n + 1, h⟩ : Fin cfg1.N).val % 10 = 0 := by dsimp only; omega
  have e := outsAt1_B V c ⟨n + 1, h⟩ hB
  dsimp only at e
  rw [e]
  dsimp only
  rw [r1_out_B_5 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩)
    (fun hh => hB ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩)
    (outsAt1 V c (n + 1 - 1) (Nat.lt_of_le_of_lt (Nat.sub_le _ _) h)).2]
  refine (k1_pay3_apply (r1_db V c ⟨n + 1, h⟩) (r1_ab V c ⟨n + 1, h⟩) (r1_hb V c ⟨n + 1, h⟩) (r1_cb V c ⟨n + 1, h⟩) _ q).trans ?_
  rw [r1_tile_eq V c ⟨n + 1, h⟩ q]
  rfl

/-- So after step `n` the totals are the first `n + 1` tile sums added up. -/
theorem r1_totals (c : Dev nD) (q : Fin 128) (n : ℕ) (h : n < cfg1.N) :
    (outsAt1 V c n h).2 (ix2 (0 : Fin 1) q) = ∑ j ∈ Finset.range (n + 1), r1_tile V c q j :=
  acc_eq_sum cfg1.N (fun n h => (outsAt1 V c n h).2 (ix2 (0 : Fin 1) q)) (r1_tile V c q)
    (fun h => r1_first V c q h) (fun n h => r1_later V c q n h) n h

/-! ## The two arrays the region writes -/

/-- The combination, as contents of the first result array; its column sums, as contents of the second. -/
abbrev r1_hnewres (c : Dev nD) : Buf (Elt Ideal) ((c : Thread nD τ).loc main_v28_0) := r1_G V c
abbrev r1_sumres (c : Dev nD) : Buf (Elt Ideal) ((c : Thread nD τ).loc main_v28_1) := colSum (r1_G V c)

/-- After the last step the row of totals holds the column sums. -/
theorem r1_last (c : Dev nD) (t : Fin cfg1.N) (h9 : t.val = 9) :
    (outsAt1 V c t.val t.isLt).2 = r1_sumres V c := by
  refine row_ext _ _ fun q => ?_
  rw [r1_totals V c q t.val t.isLt, h9]
  exact sum_rowTerm_tiles (r1_col V c q)

/-- The one write-back of the totals, after the last step, writes them. -/
theorem r1_flushed5 (c : Dev nD) (t : Fin cfg1.N) (hf : (cfg1.win 5).flush t = true) :
    (dat1 (F := Ideal) V c).flushed 5 t = ((cfg1.win 5).blk t).view.read (Elt Ideal) (r1_sumres V c) := by
  have hN : cfg1.N = 10 := N_1
  have h9 : t.val = 9 := by have := (flush1_5 t).mp hf; have := t.isLt; omega
  show (cfg1.win 5).cut (grid1.coords t) ((dat1 V c).after 5 t) = _
  rw [after1_5, r1_last V c t h9]
  obtain rfl : t = t1_9 := Fin.ext h9
  have hzR' : (fun a => win1_5.index t1_9 a * main_v28_1.ty.shape.size a) = fun _ => 0 := funext fun a => by fin_cases a <;> decide
  exact (Memref.read_access_unit_zero (Elt Ideal) main_v28_1 hzR' (fun a => by rw [congrFun hzR' a]; simp) (r1_sumres V c)).symm

/-- The second result array after the region: at column `q` the sum of column `q` of the combination over all 50000 rows. -/
theorem region1_sum (c : Dev nD) :
    (dat1 (F := Ideal) V c).arrAt 5 cfg1.N
      = colSum (combine (V c main_v24 : S50000x128.Idx → EReal) (V c main_v14_0 : S50000x128.Idx → EReal)
          (V c main_v11 : S50000x1.Idx → EReal) (V c main_v27 : S1x128.Idx → EReal)) :=
  (dat1 (F := Ideal) V c).arrAt_eq_of_cover 5 (r1_sumres V c) (r1_flushed5 V c) fun i =>
    ⟨t1_9, (flush1_5 t1_9).mpr rfl, by
      show i ∈ ((View.whole main_v28_1).slice (win1_5.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_5.index t1_9 0 * win1_5.size 0 ≤ (i 0 : Nat) ∧ (i 0 : Nat) < win1_5.index t1_9 0 * win1_5.size 0 + win1_5.xsize (grid1.coords t1_9) 0
                  rw [show win1_5.index t1_9 0 * win1_5.size 0 = 0 from by decide +kernel, show win1_5.xsize (grid1.coords t1_9) 0 = 1 from by decide +kernel]; omega
      | ⟨1, _⟩ => show win1_5.index t1_9 1 * win1_5.size 1 ≤ (i 1 : Nat) ∧ (i 1 : Nat) < win1_5.index t1_9 1 * win1_5.size 1 + win1_5.xsize (grid1.coords t1_9) 1
                  rw [show win1_5.index t1_9 1 * win1_5.size 1 = 0 from by decide +kernel, show win1_5.xsize (grid1.coords t1_9) 1 = 128 from by decide +kernel]; omega⟩

/-- Every step writes its block back: rows `5000 t … 5000 t + 4999` of the combination. -/
theorem r1_flushed4 (c : Dev nD) (t : Fin cfg1.N) (hf : (cfg1.win 4).flush t = true) :
    (dat1 (F := Ideal) V c).flushed 4 t = ((cfg1.win 4).blk t).view.read (Elt Ideal) (r1_hnewres V c) := by
  have hN : t.val < 10 := lt_of_lt_of_eq t.isLt (show cfg1.N = 10 from N_1)
  obtain ⟨-, -, -, -, -, -, -, -, e0, e1, -⟩ := r1_idx t
  show (cfg1.win 4).cut (grid1.coords t) ((dat1 V c).after 4 t) = _
  rw [after1_4, r1_hnew_blk V c t]
  refine block_ext _ _ fun r q => ?_
  have hb : 5000 * t.val + r.val < 50000 := by have := r.isLt; omega
  refine (r1_pay2_eq V c t r q hb).trans ?_
  rw [View.read_apply]
  show r1_G V c _ = r1_G V c _
  congr 1
  funext a
  apply Fin.ext
  match a with
  | ⟨0, _⟩ => show 5000 * t.val + r.val = win1_4.index t (0 : Fin 2) * 5000 + 1 * r.val; rw [e0]; omega
  | ⟨1, _⟩ => show q.val = win1_4.index t (1 : Fin 2) * 128 + 1 * q.val; rw [e1]; omega

/-- The first result array after the region: the combination on all 50000 rows. -/
theorem region1_hnew (c : Dev nD) :
    (dat1 (F := Ideal) V c).arrAt 4 cfg1.N
      = combine (V c main_v24 : S50000x128.Idx → EReal) (V c main_v14_0 : S50000x128.Idx → EReal)
          (V c main_v11 : S50000x1.Idx → EReal) (V c main_v27 : S1x128.Idx → EReal) :=
  (dat1 (F := Ideal) V c).arrAt_eq_of_cover 4 (r1_hnewres V c) (r1_flushed4 V c) fun i => by
    have hi0 : (i 0 : Nat) < 50000 := (i 0).isLt
    have hi1 : (i 1 : Nat) < 128 := (i 1).isLt
    have hN : cfg1.N = 10 := N_1
    obtain ⟨t, ht⟩ : ∃ t : Fin cfg1.N, t.val = (i 0 : Nat) / 5000 := ⟨⟨(i 0 : Nat) / 5000, by rw [hN]; omega⟩, rfl⟩
    obtain ⟨-, -, -, -, -, -, -, -, e0, e1, -⟩ := r1_idx t
    refine ⟨t, flush1_4 t, ?_⟩
    show i ∈ ((View.whole main_v28_0).slice (win1_4.rect t)).set
    rw [View.set_slice_whole, Rect.mem_set_unit]
    intro a
    match a with
    | ⟨0, _⟩ => show win1_4.index t (0 : Fin 2) * 5000 ≤ (i 0 : Nat) ∧ (i 0 : Nat) < win1_4.index t (0 : Fin 2) * 5000 + 5000
                rw [e0, ht]; omega
    | ⟨1, _⟩ => show win1_4.index t (1 : Fin 2) * 128 ≤ (i 1 : Nat) ∧ (i 1 : Nat) < win1_4.index t (1 : Fin 2) * 128 + 128
                rw [e1]; omega

end Cert.KernelIdeal.RegionValue

end
-- ==== Proof.Region2.lean ====
/-
  Region 2 of the network's program: the second pass of a column normalisation.

  The region walks the 50000 rows of an array `y` in ten blocks of 5000 rows.  A row of 128 running totals stays in
  place across the ten steps: the first step sets it to zero, every step adds to it, column by column, the sum over
  the block's rows of the squared deviations `(y (r, q) - mu q) * (y (r, q) - mu q)` from a fixed row `mu`, and the row
  is written out once, after the last step.  What is written is therefore, at column `q`, the ten block sums added
  one after another to zero; regrouped, that is the sum of the squared deviations over all 50000 rows.  Addition of
  extended reals is commutative and associative, so the regrouping needs no finiteness.

  Row `r` of block `t` is row `5000 t + r` of `y`; the row `mu` and the row of totals are their whole arrays.
-/
import proofs.«168746_j56882546868465_2_alg».proof.Proof.Gen.KernelIdeal.Frame
import proofs.«168746_j56882546868465_2_alg».proof.Proof.Spec
import proofs.«168746_j56882546868465_2_alg».proof.Proof.RegionR_Payload
import Idealize.ShloMosaic.Lib.Pipeline.Value
import Idealize.ShloMosaic.Lib.Tactic

noncomputable section

open scoped BigOperators

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.GCN

/-! ## What one step leaves in the row of totals -/

section AnyValues

variable {F : FTy → Type} [FloatOps F]

/-- A later step: the body's one store puts there its value computed from the block, the row `mu` and the totals so far. -/
theorem r2_out_B (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond2_0 i) (x0 : Vec F S5000x128 .f32) (x1 xo : Vec F S1x128 .f32) :
    out2_B_2 c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  rw [View.canon_unit_zero hzR]
  simp only [View.readAt_eq_ld, h1.read_unread, h2.read_unread, h3.read_unread, View.ld_unit_zero (S := S5000x128) hzR,
    View.ld_unit_zero (S := S1x128) hzR]

/-- The first step: the zero row is stored first, read back, and the same value is stored over it. -/
theorem r2_out_A (c : Dev nD) (i : grid2.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond2_0 i) (x0 : Vec F S5000x128 .f32) (x1 : Vec F S1x128 .f32) :
    out2_A_2 c i a1 h1 a2 h2 a3 h3 hc x0 x1 = k2_pay2 x0 x1 k2_pay1 := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S1x128) hzR, View.readCov_unit_zero (S := S1x128) _ hzR]
  simp only [View.readAt_eq_ld, h1.read_unread, h2.read_unread, View.ld_unit_zero (S := S5000x128) hzR,
    View.ld_unit_zero (S := S1x128) hzR]

/-- The block index of the array `y` at step `t` is `(t, 0)`; the rows `mu` and of totals are always block `(0, 0)`. -/
theorem r2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

end AnyValues

/-! ## The running totals over the extended reals -/

variable (V : (c : Dev nD) → (b : Ref sig .tc) → Buf (Elt Ideal) ((c : Thread nD τ).loc b))

/-- The array `y`, the row `mu`, and their blocks at step `t`, as functions into the extended reals. -/
abbrev r2_Y (c : Dev nD) : S50000x128.Idx → EReal := V c main_v28_0
abbrev r2_MU (c : Dev nD) : S1x128.Idx → EReal := V c main_v30
abbrev r2_yb (c : Dev nD) (t : Fin cfg2.N) : FVec Ideal S5000x128 .f32 := iblk2 V c 0 t
abbrev r2_mb (c : Dev nD) (t : Fin cfg2.N) : FVec Ideal S1x128 .f32 := iblk2 V c 1 t

/-- Row `r` of the block of `y` at step `t` is row `5000 t + r` of `y`. -/
theorem r2_blk0 (c : Dev nD) (t : Fin cfg2.N) (r : Fin 5000) (q : Fin 128) (hb : 5000 * t.val + r.val < 50000) :
    r2_yb V c t (ix2 r q) = r2_Y V c (ix2 ⟨5000 * t.val + r.val, hb⟩ q) := by
  obtain ⟨e0, e1, -⟩ := r2_idx t
  unfold r2_yb r2_Y iblk2
  rw [View.read_apply]
  show V c main_v28_0 _ = V c main_v28_0 _
  congr 1
  funext a
  apply Fin.ext
  match a with
  | ⟨0, _⟩ => show win2_0.index t (0 : Fin 2) * 5000 + 1 * r.val = 5000 * t.val + r.val; rw [e0]; omega
  | ⟨1, _⟩ => show win2_0.index t (1 : Fin 2) * 128 + 1 * q.val = q.val; rw [e1]; omega

/-- The block of `mu` at any step is `mu`. -/
theorem r2_blk1 (c : Dev nD) (t : Fin cfg2.N) (u : Fin 1) (q : Fin 128) :
    r2_mb V c t (ix2 u q) = r2_MU V c (ix2 u q) := by
  obtain ⟨-, -, e0, e1, -⟩ := r2_idx t
  unfold r2_mb r2_MU iblk2
  rw [View.read_apply]
  show V c main_v30 _ = V c main_v30 _
  congr 1
  funext a
  apply Fin.ext
  match a with
  | ⟨0, _⟩ => show win2_1.index t (0 : Fin 2) * 1 + 1 * u.val = u.val; rw [e0]; omega
  | ⟨1, _⟩ => show win2_1.index t (1 : Fin 2) * 128 + 1 * q.val = q.val; rw [e1]; omega

/-- The squared deviations of column `q`, as a function of the row. -/
abbrev r2_col (c : Dev nD) (q : Fin 128) : Fin 50000 → EReal :=
  fun s => sqDev (r2_Y V c) (r2_MU V c) (ix2 s q)

/-- What step `t` adds at column `q`: the sum of the squared deviations over rows `5000 t … 5000 t + 4999`. -/
abbrev r2_tile (c : Dev nD) (q : Fin 128) (j : ℕ) : EReal := ∑ r : Fin 5000, rowTerm (r2_col V c q) (5000 * j + r.val)

/-- The block sum the body forms at step `t` is that tile sum. -/
theorem r2_tile_eq (c : Dev nD) (t : Fin cfg2.N) (q : Fin 128) :
    ∑ r : Fin 5000, (r2_yb V c t (ix2 r q) - r2_mb V c t (ix2 (0 : Fin 1) q))
        * (r2_yb V c t (ix2 r q) - r2_mb V c t (ix2 (0 : Fin 1) q))
      = r2_tile V c q t.val := by
  have hN : t.val < 10 := lt_of_lt_of_eq t.isLt (show cfg2.N = 10 from N_2)
  refine Finset.sum_congr rfl fun r _ => ?_
  have hb : 5000 * t.val + r.val < 50000 := by have := r.isLt; omega
  rw [rowTerm_of_lt _ _ hb, r2_blk0 V c t r q hb, r2_blk1 V c t 0 q]
  rfl

/-- After the first step the totals are zero plus the first tile sum. -/
theorem r2_first (c : Dev nD) (q : Fin 128) (h : 0 < cfg2.N) :
    (outsAt2 V c 0 h : Vec Ideal S1x128 .f32) (ix2 (0 : Fin 1) q) = 0 + r2_tile V c q 0 := by
  have e := outsAt2_A V c ⟨0, h⟩ rfl
  dsimp only at e
  rw [e, r2_out_A c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩)
    ((hcond2_0 ⟨0, h⟩).mpr rfl) (iblk2 V c 0 ⟨0, h⟩) (iblk2 V c 1 ⟨0, h⟩)]
  refine (k2_pay2_apply (r2_yb V c ⟨0, h⟩) (r2_mb V c ⟨0, h⟩) (k2_pay1 (F := Ideal)) q).trans ?_
  rw [k2_pay1_apply, r2_tile_eq V c ⟨0, h⟩ q]

/-- A later step adds its tile sum to what the step before left. -/
theorem r2_later (c : Dev nD) (q : Fin 128) (n : ℕ) (h : n + 1 < cfg2.N) :
    (outsAt2 V c (n + 1) h : Vec Ideal S1x128 .f32) (ix2 (0 : Fin 1) q)
      = (outsAt2 V c n (Nat.lt_of_succ_lt h) : Vec Ideal S1x128 .f32) (ix2 (0 : Fin 1) q) + r2_tile V c q (n + 1) := by
  have hN : cfg2.N = 10 := N_2
  have hB : ¬(⟨n + 1, h⟩ : Fin cfg2.N).val % 10 = 0 := by dsimp only; omega
  have e := outsAt2_B V c ⟨n + 1, h⟩ hB
  dsimp only at e
  rw [e, r2_out_B c (grid2.coords ⟨n + 1, h⟩) (ms2_0 ⟨n + 1, h⟩) (hs2_0 ⟨n + 1, h⟩) (ms2_1 ⟨n + 1, h⟩) (hs2_1 ⟨n + 1, h⟩)
    (ms2_2 ⟨n + 1, h⟩) (hs2_2 ⟨n + 1, h⟩) (fun hh => hB ((hcond2_0 ⟨n + 1, h⟩).mp hh)) (iblk2 V c 0 ⟨n + 1, h⟩) (iblk2 V c 1 ⟨n + 1, h⟩)
    (outsAt2 V c (n + 1 - 1) (Nat.lt_of_le_of_lt (Nat.sub_le _ _) h))]
  refine (k2_pay2_apply (r2_yb V c ⟨n + 1, h⟩) (r2_mb V c ⟨n + 1, h⟩) _ q).trans ?_
  rw [r2_tile_eq V c ⟨n + 1, h⟩ q]
  rfl

/-- So after step `n` the totals are the first `n + 1` tile sums added up. -/
theorem r2_totals (c : Dev nD) (q : Fin 128) (n : ℕ) (h : n < cfg2.N) :
    (outsAt2 V c n h : Vec Ideal S1x128 .f32) (ix2 (0 : Fin 1) q) = ∑ j ∈ Finset.range (n + 1), r2_tile V c q j :=
  acc_eq_sum cfg2.N (fun n h => (outsAt2 V c n h : Vec Ideal S1x128 .f32) (ix2 (0 : Fin 1) q)) (r2_tile V c q)
    (fun h => r2_first V c q h) (fun n h => r2_later V c q n h) n h

/-! ## The array the region writes -/

/-- The column sums of the squared deviations, as contents of the region's result array. -/
abbrev r2_result (c : Dev nD) : Buf (Elt Ideal) ((c : Thread nD τ).loc main_v31) :=
  colSum (sqDev (r2_Y V c) (r2_MU V c))

/-- After the last step the row of totals holds them. -/
theorem r2_last (c : Dev nD) (t : Fin cfg2.N) (h9 : t.val = 9) :
    (outsAt2 V c t.val t.isLt : Vec Ideal S1x128 .f32) = r2_result V c := by
  refine row_ext _ _ fun q => ?_
  rw [r2_totals V c q t.val t.isLt, h9]
  exact sum_rowTerm_tiles (r2_col V c q)

/-- The one write-back, after the last step, writes them. -/
theorem r2_flushed (c : Dev nD) (t : Fin cfg2.N) (hf : (cfg2.win 2).flush t = true) :
    (dat2 (F := Ideal) V c).flushed 2 t = ((cfg2.win 2).blk t).view.read (Elt Ideal) (r2_result V c) := by
  have hN : cfg2.N = 10 := N_2
  have h9 : t.val = 9 := by have := (flush2_2 t).mp hf; have := t.isLt; omega
  show (cfg2.win 2).cut (grid2.coords t) ((dat2 V c).after 2 t) = _
  rw [after2_2, r2_last V c t h9]
  obtain rfl : t = t2_9 := Fin.ext h9
  have hzR' : (fun a => win2_2.index t2_9 a * main_v31.ty.shape.size a) = fun _ => 0 := funext fun a => by fin_cases a <;> decide
  exact (Memref.read_access_unit_zero (Elt Ideal) main_v31 hzR' (fun a => by rw [congrFun hzR' a]; simp) (r2_result V c)).symm

/-- The result array after the region: at column `q` the sum over all 50000 rows of the squared deviations. -/
theorem region2_sumsq (c : Dev nD) :
    (dat2 (F := Ideal) V c).arrAt 2 cfg2.N
      = colSum (sqDev (V c main_v28_0 : S50000x128.Idx → EReal) (V c main_v30 : S1x128.Idx → EReal)) :=
  (dat2 (F := Ideal) V c).arrAt_eq_of_cover 2 (r2_result V c) (r2_flushed V c) fun i =>
    ⟨t2_9, (flush2_2 t2_9).mpr rfl, by
      show i ∈ ((View.whole main_v31).slice (win2_2.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_2.index t2_9 0 * win2_2.size 0 ≤ (i 0 : Nat) ∧ (i 0 : Nat) < win2_2.index t2_9 0 * win2_2.size 0 + win2_2.xsize (grid2.coords t2_9) 0
                  rw [show win2_2.index t2_9 0 * win2_2.size 0 = 0 from by decide +kernel, show win2_2.xsize (grid2.coords t2_9) 0 = 1 from by decide +kernel]; omega
      | ⟨1, _⟩ => show win2_2.index t2_9 1 * win2_2.size 1 ≤ (i 1 : Nat) ∧ (i 1 : Nat) < win2_2.index t2_9 1 * win2_2.size 1 + win2_2.xsize (grid2.coords t2_9) 1
                  rw [show win2_2.index t2_9 1 * win2_2.size 1 = 0 from by decide +kernel, show win2_2.xsize (grid2.coords t2_9) 1 = 128 from by decide +kernel]; omega⟩

end Cert.KernelIdeal.RegionValue

end
-- ==== Proof.Region3.lean ====
/-
  The first normalise-then-multiply region: the aggregated features normalised column by column, scaled, shifted and
  clipped at zero, then multiplied by the next layer's weight matrix; and that product with every row scaled by the
  node's entry of the scaling column.  What its two result arrays hold after all ten grid points, for arbitrary
  contents of the seven arrays it reads.

  Grid point `t` reads rows `5000 t, …, 5000 t + 4999` of the feature array and of the scaling column, the four whole
  rows (mean, variance, scale, shift) and the whole weight matrix, and writes the same rows of both results.  The
  normalisation works entry by entry and the product row by row, so what the point writes is its block of rows of the
  same functions of the whole arrays.  The ten row blocks cover the 50000 rows.
-/
import proofs.«168746_j56882546868465_2_alg».proof.Proof.Gen.KernelIdeal.Frame
import proofs.«168746_j56882546868465_2_alg».proof.Proof.RegionA_Payload
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-- The index maps over the ten grid points: the row-block windows sit at block `(t, 0)`, the whole-array windows at
    `(0, 0)`. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

/-- The ten blocks of 5000 rows stay inside the 50000 rows. -/
theorem rows3 (t : Fin cfg3.N) : 5000 * t.val + 5000 ≤ 50000 := by
  have h : t.val < 10 := lt_of_lt_of_eq t.isLt N_3
  omega

/-! ## Each window's block is a block of rows, or the whole array -/

theorem read_blk3_0 (t : Fin cfg3.N) (X : S50000x128.Idx → EReal) :
    ((cfg3.win 0).blk t).view.read (Elt Ideal) X = rowsFrom 5000 (5000 * t.val) (rows3 t) X := by
  funext y
  rw [View.read_apply]
  refine congrArg X (funext fun a => Fin.ext ?_)
  match a with
  | ⟨0, _⟩ => show win3_0.index t (0 : Fin 2) * 5000 + 1 * (y 0).val = 5000 * t.val + (y 0).val; rw [(idx3 t).1]; omega
  | ⟨1, _⟩ => show win3_0.index t (1 : Fin 2) * 128 + 1 * (y 1).val = (y 1).val; rw [(idx3 t).2.1]; omega

theorem read_blk3_1 (t : Fin cfg3.N) (X : S1x128.Idx → EReal) :
    ((cfg3.win 1).blk t).view.read (Elt Ideal) X = X := by
  funext y
  rw [View.read_apply]
  refine congrArg X (funext fun a => Fin.ext ?_)
  match a with
  | ⟨0, _⟩ => show win3_1.index t (0 : Fin 2) * 1 + 1 * (y 0).val = (y 0).val; rw [(idx3 t).2.2.1]; omega
  | ⟨1, _⟩ => show win3_1.index t (1 : Fin 2) * 128 + 1 * (y 1).val = (y 1).val; rw [(idx3 t).2.2.2.1]; omega

theorem read_blk3_2 (t : Fin cfg3.N) (X : S1x128.Idx → EReal) :
    ((cfg3.win 2).blk t).view.read (Elt Ideal) X = X := by
  funext y
  rw [View.read_apply]
  refine congrArg X (funext fun a => Fin.ext ?_)
  match a with
  | ⟨0, _⟩ => show win3_2.index t (0 : Fin 2) * 1 + 1 * (y 0).val = (y 0).val; rw [(idx3 t).2.2.2.2.1]; omega
  | ⟨1, _⟩ => show win3_2.index t (1 : Fin 2) * 128 + 1 * (y 1).val = (y 1).val; rw [(idx3 t).2.2.2.2.2.1]; omega

theorem read_blk3_3 (t : Fin cfg3.N) (X : S1x128.Idx → EReal) :
    ((cfg3.win 3).blk t).view.read (Elt Ideal) X = X := by
  funext y
  rw [View.read_apply]
  refine congrArg X (funext fun a => Fin.ext ?_)
  match a with
  | ⟨0, _⟩ => show win3_3.index t (0 : Fin 2) * 1 + 1 * (y 0).val = (y 0).val; rw [(idx3 t).2.2.2.2.2.2.1]; omega
  | ⟨1, _⟩ => show win3_3.index t (1 : Fin 2) * 128 + 1 * (y 1).val = (y 1).val; rw [(idx3 t).2.2.2.2.2.2.2.1]; omega

theorem read_blk3_4 (t : Fin cfg3.N) (X : S1x128.Idx → EReal) :
    ((cfg3.win 4).blk t).view.read (Elt Ideal) X = X := by
  funext y
  rw [View.read_apply]
  refine congrArg X (funext fun a => Fin.ext ?_)
  match a with
  | ⟨0, _⟩ => show win3_4.index t (0 : Fin 2) * 1 + 1 * (y 0).val = (y 0).val; rw [(idx3 t).2.2.2.2.2.2.2.2.1]; omega
  | ⟨1, _⟩ => show win3_4.index t (1 : Fin 2) * 128 + 1 * (y 1).val = (y 1).val; rw [(idx3 t).2.2.2.2.2.2.2.2.2.1]; omega

theorem read_blk3_5 (t : Fin cfg3.N) (X : S128x128.Idx → EReal) :
    ((cfg3.win 5).blk t).view.read (Elt Ideal) X = X := by
  funext y
  rw [View.read_apply]
  refine congrArg X (funext fun a => Fin.ext ?_)
  match a with
  | ⟨0, _⟩ => show win3_5.index t (0 : Fin 2) * 128 + 1 * (y 0).val = (y 0).val; rw [(idx3 t).2.2.2.2.2.2.2.2.2.2.1]; omega
  | ⟨1, _⟩ => show win3_5.index t (1 : Fin 2) * 128 + 1 * (y 1).val = (y 1).val; rw [(idx3 t).2.2.2.2.2.2.2.2.2.2.2.1]; omega

theorem read_blk3_6 (t : Fin cfg3.N) (X : S50000x1.Idx → EReal) :
    ((cfg3.win 6).blk t).view.read (Elt Ideal) X = rowsFrom 5000 (5000 * t.val) (rows3 t) X := by
  funext y
  rw [View.read_apply]
  refine congrArg X (funext fun a => Fin.ext ?_)
  match a with
  | ⟨0, _⟩ => show win3_6.index t (0 : Fin 2) * 5000 + 1 * (y 0).val = 5000 * t.val + (y 0).val; rw [(idx3 t).2.2.2.2.2.2.2.2.2.2.2.2.1]; omega
  | ⟨1, _⟩ => show win3_6.index t (1 : Fin 2) * 1 + 1 * (y 1).val = (y 1).val; rw [(idx3 t).2.2.2.2.2.2.2.2.2.2.2.2.2.1]; omega

theorem read_blk3_7 (t : Fin cfg3.N) (X : S50000x128.Idx → EReal) :
    ((cfg3.win 7).blk t).view.read (Elt Ideal) X = rowsFrom 5000 (5000 * t.val) (rows3 t) X := by
  funext y
  rw [View.read_apply]
  refine congrArg X (funext fun a => Fin.ext ?_)
  match a with
  | ⟨0, _⟩ => show win3_7.index t (0 : Fin 2) * 5000 + 1 * (y 0).val = 5000 * t.val + (y 0).val; rw [(idx3 t).2.2.2.2.2.2.2.2.2.2.2.2.2.2.1]; omega
  | ⟨1, _⟩ => show win3_7.index t (1 : Fin 2) * 128 + 1 * (y 1).val = (y 1).val; rw [(idx3 t).2.2.2.2.2.2.2.2.2.2.2.2.2.2.2.1]; omega

theorem read_blk3_8 (t : Fin cfg3.N) (X : S50000x128.Idx → EReal) :
    ((cfg3.win 8).blk t).view.read (Elt Ideal) X = rowsFrom 5000 (5000 * t.val) (rows3 t) X := by
  funext y
  rw [View.read_apply]
  refine congrArg X (funext fun a => Fin.ext ?_)
  match a with
  | ⟨0, _⟩ => show win3_8.index t (0 : Fin 2) * 5000 + 1 * (y 0).val = 5000 * t.val + (y 0).val; rw [(idx3 t).2.2.2.2.2.2.2.2.2.2.2.2.2.2.2.2.1]; omega
  | ⟨1, _⟩ => show win3_8.index t (1 : Fin 2) * 128 + 1 * (y 1).val = (y 1).val; rw [(idx3 t).2.2.2.2.2.2.2.2.2.2.2.2.2.2.2.2.2]; omega

/-! ## What a grid point writes back -/

set_option maxHeartbeats 1000000 in
/-- Point `t` writes back to the first result its block of rows of the normalised array times the weights. -/
theorem flushed3_7_eq (c : Dev nD) (t : Fin cfg3.N) :
    (dat3 (F := Ideal) V c).flushed 7 t
      = ((cfg3.win 7).blk t).view.read (Elt Ideal) (mm (normRelu (V c main_v28_0 : S50000x128.Idx → EReal) (V c main_v30 : S1x128.Idx → EReal) (V c main_v33 : S1x128.Idx → EReal) (V c main_v36 : S1x128.Idx → EReal) (V c main_v39 : S1x128.Idx → EReal)) (V c main_v41 : S128x128.Idx → EReal)) := by
  show (cfg3.win 7).cut (grid3.coords t) ((dat3 V c).after 7 t) = _
  rw [after3_7]
  unfold out3_7
  rw [View.canon_unit_zero hz]
  simp only [View.ld_unit_zero (S := S5000x128) hz, View.ld_unit_zero (S := S1x128) hz, View.ld_unit_zero (S := S128x128) hz, View.ld_unit_zero (S := S5000x1) hz]
  rw [read_blk3_7 t]
  show k3_pay1 (iblk3 V c 2 t) (iblk3 V c 0 t) (iblk3 V c 1 t) (iblk3 V c 3 t) (iblk3 V c 4 t) (iblk3 V c 5 t) = _
  unfold iblk3
  rw [read_blk3_2 t, read_blk3_0 t, read_blk3_1 t, read_blk3_3 t, read_blk3_4 t, read_blk3_5 t, k3_pay1_eq, normRelu_rowsFrom, mm_rowsFrom]

set_option maxHeartbeats 1000000 in
/-- Point `t` writes back to the second result its block of rows of that product with the rows scaled. -/
theorem flushed3_8_eq (c : Dev nD) (t : Fin cfg3.N) :
    (dat3 (F := Ideal) V c).flushed 8 t
      = ((cfg3.win 8).blk t).view.read (Elt Ideal) (scaleRows (mm (normRelu (V c main_v28_0 : S50000x128.Idx → EReal) (V c main_v30 : S1x128.Idx → EReal) (V c main_v33 : S1x128.Idx → EReal) (V c main_v36 : S1x128.Idx → EReal) (V c main_v39 : S1x128.Idx → EReal)) (V c main_v41 : S128x128.Idx → EReal)) (V c main_v11 : S50000x1.Idx → EReal)) := by
  show (cfg3.win 8).cut (grid3.coords t) ((dat3 V c).after 8 t) = _
  rw [after3_8]
  unfold out3_8
  rw [View.canon_unit_zero hz]
  simp only [View.ld_unit_zero (S := S5000x128) hz, View.ld_unit_zero (S := S1x128) hz, View.ld_unit_zero (S := S128x128) hz, View.ld_unit_zero (S := S5000x1) hz]
  rw [read_blk3_8 t]
  show k3_pay2 (iblk3 V c 2 t) (iblk3 V c 0 t) (iblk3 V c 1 t) (iblk3 V c 3 t) (iblk3 V c 4 t) (iblk3 V c 5 t) (iblk3 V c 6 t) = _
  unfold iblk3
  rw [read_blk3_2 t, read_blk3_0 t, read_blk3_1 t, read_blk3_3 t, read_blk3_4 t, read_blk3_5 t, read_blk3_6 t, k3_pay2_eq, normRelu_rowsFrom, mm_rowsFrom, scaleRows_rowsFrom]

/-! ## The blocks cover the arrays -/

/-- An index of the array is in point `t`'s block of window 7 iff each coordinate is in the block's range on its axis. -/
theorem mem_blk3_7 (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v42_0).slice (win3_7.rect t)).set ↔ _
  rw [View.set_slice_whole, Rect.mem_set_unit]
  exact Iff.rfl

/-- Row `r` is in the block of point `r / 5000`, which writes it back: the ten blocks cover the array. -/
theorem rows_cover3_7 (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have ht : (i 0).val / 5000 < cfg3.N := lt_of_lt_of_eq (by omega : (i 0).val / 5000 < 10) N_3.symm
  have e0 : win3_7.index ⟨(i 0).val / 5000, ht⟩ (0 : Fin 2) = (i 0).val / 5000 := (idx3 ⟨(i 0).val / 5000, ht⟩).2.2.2.2.2.2.2.2.2.2.2.2.2.2.1
  have e1 : win3_7.index ⟨(i 0).val / 5000, ht⟩ (1 : Fin 2) = 0 := (idx3 ⟨(i 0).val / 5000, ht⟩).2.2.2.2.2.2.2.2.2.2.2.2.2.2.2.1
  refine ⟨⟨(i 0).val / 5000, ht⟩, flush3_7 _, ?_⟩
  rw [mem_blk3_7]
  intro a
  match a with
  | ⟨0, _⟩ =>
    show win3_7.index ⟨(i 0).val / 5000, ht⟩ (0 : Fin 2) * 5000 ≤ (i 0).val ∧ (i 0).val < win3_7.index ⟨(i 0).val / 5000, ht⟩ (0 : Fin 2) * 5000 + 5000
    rw [e0]; omega
  | ⟨1, _⟩ =>
    show win3_7.index ⟨(i 0).val / 5000, ht⟩ (1 : Fin 2) * 128 ≤ (i 1).val ∧ (i 1).val < win3_7.index ⟨(i 0).val / 5000, ht⟩ (1 : Fin 2) * 128 + 128
    rw [e1]; omega

/-- An index of the array is in point `t`'s block of window 8 iff each coordinate is in the block's range on its axis. -/
theorem mem_blk3_8 (t : Fin cfg3.N) (i : S50000x128.Idx) :
    i ∈ ((cfg3.win 8).blk t).view.set ↔ ∀ a : Fin 2, win3_8.index t a * S5000x128.size a ≤ (i a).val ∧ (i a).val < win3_8.index t a * S5000x128.size a + S5000x128.size a := by
  show i ∈ ((View.whole main_v42_1).slice (win3_8.rect t)).set ↔ _
  rw [View.set_slice_whole, Rect.mem_set_unit]
  exact Iff.rfl

/-- Row `r` is in the block of point `r / 5000`, which writes it back: the ten blocks cover the array. -/
theorem rows_cover3_8 (i : S50000x128.Idx) :
    ∃ t : Fin cfg3.N, (cfg3.win 8).flush t = true ∧ i ∈ ((cfg3.win 8).blk t).view.set := by
  have hi0 : (i 0).val < 50000 := (i 0).isLt
  have hi1 : (i 1).val < 128 := (i 1).isLt
  have ht : (i 0).val / 5000 < cfg3.N := lt_of_lt_of_eq (by omega : (i 0).val / 5000 < 10) N_3.symm
  have e0 : win3_8.index ⟨(i 0).val / 5000, ht⟩ (0 : Fin 2) = (i 0).val / 5000 := (idx3 ⟨(i 0).val / 5000, ht⟩).2.2.2.2.2.2.2.2.2.2.2.2.2.2.2.2.1
  have e1 : win3_8.index ⟨(i 0).val / 5000, ht⟩ (1 : Fin 2) = 0 := (idx3 ⟨(i 0).val / 5000, ht⟩).2.2.2.2.2.2.2.2.2.2.2.2.2.2.2.2.2
  refine ⟨⟨(i 0).val / 5000, ht⟩, flush3_8 _, ?_⟩
  rw [mem_blk3_8]
  intro a
  match a with
  | ⟨0, _⟩ =>
    show win3_8.index ⟨(i 0).val / 5000, ht⟩ (0 : Fin 2) * 5000 ≤ (i 0).val ∧ (i 0).val < win3_8.index ⟨(i 0).val / 5000, ht⟩ (0 : Fin 2) * 5000 + 5000
    rw [e0]; omega
  | ⟨1, _⟩ =>
    show win3_8.index ⟨(i 0).val / 5000, ht⟩ (1 : Fin 2) * 128 ≤ (i 1).val ∧ (i 1).val < win3_8.index ⟨(i 0).val / 5000, ht⟩ (1 : Fin 2) * 128 + 128
    rw [e1]; omega

/-! ## The result arrays after the region -/

/-- After the region the first result array is the normalised feature array times the weights. -/
theorem region3_h (c : Dev nD) :
    (dat3 (F := Ideal) V c).arrAt 7 cfg3.N
      = mm (normRelu (V c main_v28_0 : S50000x128.Idx → EReal) (V c main_v30 : S1x128.Idx → EReal) (V c main_v33 : S1x128.Idx → EReal) (V c main_v36 : S1x128.Idx → EReal) (V c main_v39 : S1x128.Idx → EReal)) (V c main_v41 : S128x128.Idx → EReal) :=
  (dat3 V c).arrAt_eq_of_cover 7 _ (fun t _ => flushed3_7_eq V c t) rows_cover3_7

/-- After the region the second result array is that product with row `r` scaled by the column's entry `r`. -/
theorem region3_hs (c : Dev nD) :
    (dat3 (F := Ideal) V c).arrAt 8 cfg3.N
      = scaleRows (mm (normRelu (V c main_v28_0 : S50000x128.Idx → EReal) (V c main_v30 : S1x128.Idx → EReal) (V c main_v33 : S1x128.Idx → EReal) (V c main_v36 : S1x128.Idx → EReal) (V c main_v39 : S1x128.Idx → EReal)) (V c main_v41 : S128x128.Idx → EReal)) (V c main_v11 : S50000x1.Idx → EReal) :=
  (dat3 V c).arrAt_eq_of_cover 8 _ (fun t _ => flushed3_8_eq V c t) rows_cover3_8

end Cert.KernelIdeal.RegionValue

end
-- ==== Proof.ChainL0.lean ====
/-
  Layer 0 of the idealized kernel program, segment by segment, read as the model's layer.

  The aggregation comes out in its factored form, the statistics as the model's column means and variances, and
  the normalise-and-multiply region leaves the next layer's product.
-/
import proofs.«168746_j56882546868465_2_alg».proof.Proof.Gen.KernelIdeal.Frame
import proofs.«168746_j56882546868465_2_alg».proof.Proof.Chain0
import proofs.«168746_j56882546868465_2_alg».proof.Proof.Region1
import proofs.«168746_j56882546868465_2_alg».proof.Proof.Region2
import proofs.«168746_j56882546868465_2_alg».proof.Proof.Region3

set_option maxRecDepth 16384

noncomputable section

namespace Cert.KernelIdeal.Chain

open Cert.KernelIdeal Cert.KernelIdeal.Gen Cert.KernelIdeal.RegionValue
open Idealize.ShloMosaic Idealize.ShloMosaic.TcCoe Idealize.ShloMosaic.StableHlo Idealize.SL.Sem Idealize.ShloMosaic.ValueIdx
open Cert.GCN

variable (m : (ℓ : Loc nD τ sig) → Buf (Elt Ideal) ℓ) (ρ : Dev nD → PrngReg) (c : Dev nD)

-- The `dis` column is never opened here: it is an inverse square root of a sum over all 800000 edges.
attribute [local irreducible] Cert.GCN.disColOf

/-! ## Layer 0 -/

/-- The aggregated rows: the scaled features gathered along the source column and summed into the target rows. -/
theorem W3_main_v24 : (W3 (F := Ideal) m ρ c (Proc.devRef .tc main_v24) : S50000x128.Idx → EReal)
    = segSum (G m c).dstS (gatherRows (by decide : 0 < 50000) (G m c).srcG (scaleRows (mm (A0 m c) (wSlice (A3 m c) 0)) (G m c).dis)) := by
  dsimp only [W3]
  after_results
  rw [scatterAdd_zeros_eq_segSum _ rfl rfl rfl rfl _ (fun i => bcast_zero_apply _ i),
    gather_eq_gatherRows (by decide : 0 < 50000) _ rfl rfl rfl rfl rfl rfl rfl, wrapCol_read,
    keep_main_v1_1_2, keep_main_v3_1_2, W1_v1_col, W1_v3_col, W2_v14_1]
  rfl

/-- The bias row of the layer. -/
theorem W3_main_v27 : (W3 (F := Ideal) m ρ c (Proc.devRef .tc main_v27) : S1x128.Idx → EReal) = rowSlice (A4 m c) 0 := by
  dsimp only [W3]
  after_results
  rw [keep_main_arg4_0_2]
  exact rowSlice_read 0 (by decide) (A4 m c) _ _ _

/-- The first statistics region leaves the aggregation in its factored form … -/
theorem W4_main_v28_0 : (W4 (F := Ideal) m ρ c (Proc.devRef .tc main_v28_0) : S50000x128.Idx → EReal) = aggFactored (G m c) (mm (A0 m c) (wSlice (A3 m c) 0)) (rowSlice (A4 m c) 0) := by
  refine (W4_arr m ρ c 4).trans ?_
  rw [region1_hnew (V3 m ρ) c]
  show combine (W3 m ρ c (Proc.devRef .tc main_v24)) (W3 m ρ c (Proc.devRef .tc main_v14_0))
    (W3 m ρ c (Proc.devRef .tc main_v11)) (W3 m ρ c (Proc.devRef .tc main_v27)) = _
  rw [W3_main_v24, keep_main_v14_0_2_3, W2_v14_0, keep_main_v11_1_3, W1_v11, W3_main_v27]
  rfl

/-- … and its column sums. -/
theorem W4_main_v28_1 : (W4 (F := Ideal) m ρ c (Proc.devRef .tc main_v28_1) : S1x128.Idx → EReal) = colSum (aggFactored (G m c) (mm (A0 m c) (wSlice (A3 m c) 0)) (rowSlice (A4 m c) 0)) := by
  refine (W4_arr m ρ c 5).trans ?_
  rw [region1_sum (V3 m ρ) c]
  show colSum (combine (W3 m ρ c (Proc.devRef .tc main_v24)) (W3 m ρ c (Proc.devRef .tc main_v14_0))
    (W3 m ρ c (Proc.devRef .tc main_v11)) (W3 m ρ c (Proc.devRef .tc main_v27))) = _
  rw [W3_main_v24, keep_main_v14_0_2_3, W2_v14_0, keep_main_v11_1_3, W1_v11, W3_main_v27]
  rfl

/-- The column means. -/
theorem W5_main_v30 : (W5 (F := Ideal) m ρ c (Proc.devRef .tc main_v30) : S1x128.Idx → EReal) = meanRow nNodes (aggFactored (G m c) (mm (A0 m c) (wSlice (A3 m c) 0)) (rowSlice (A4 m c) 0)) := by
  dsimp only [W5]
  after_results
  funext j
  rw [divf_splat_apply, W4_main_v28_1]
  rfl

/-- The column sums of the squared deviations from the means. -/
theorem W6_main_v31 : (W6 (F := Ideal) m ρ c (Proc.devRef .tc main_v31) : S1x128.Idx → EReal)
    = colSum (sqDev (aggFactored (G m c) (mm (A0 m c) (wSlice (A3 m c) 0)) (rowSlice (A4 m c) 0)) (meanRow nNodes (aggFactored (G m c) (mm (A0 m c) (wSlice (A3 m c) 0)) (rowSlice (A4 m c) 0)))) := by
  refine (W6_arr m ρ c 2).trans ?_
  rw [region2_sumsq (V5 m ρ) c]
  show colSum (sqDev (W5 m ρ c (Proc.devRef .tc main_v28_0)) (W5 m ρ c (Proc.devRef .tc main_v30))) = _
  rw [keep_main_v28_0_4_5, W4_main_v28_0, W5_main_v30]

/-- The column variances. -/
theorem W7_main_v33 : (W7 (F := Ideal) m ρ c (Proc.devRef .tc main_v33) : S1x128.Idx → EReal) = varRow nNodes (aggFactored (G m c) (mm (A0 m c) (wSlice (A3 m c) 0)) (rowSlice (A4 m c) 0)) := by
  dsimp only [W7]
  after_results
  funext j
  rw [divf_splat_apply, W6_main_v31]
  rfl

/-- The scale and shift rows and the next weight slice. -/
theorem W7_main_v36 : (W7 (F := Ideal) m ρ c (Proc.devRef .tc main_v36) : S1x128.Idx → EReal) = rowSlice (A5 m c) 0 := by
  dsimp only [W7]
  after_results
  rw [keep_main_arg5_0_6]
  exact rowSlice_read 0 (by decide) (A5 m c) _ _ _
theorem W7_main_v39 : (W7 (F := Ideal) m ρ c (Proc.devRef .tc main_v39) : S1x128.Idx → EReal) = rowSlice (A6 m c) 0 := by
  dsimp only [W7]
  after_results
  rw [keep_main_arg6_0_6]
  exact rowSlice_read 0 (by decide) (A6 m c) _ _ _
theorem W7_main_v41 : (W7 (F := Ideal) m ρ c (Proc.devRef .tc main_v41) : S128x128.Idx → EReal) = wSlice (A3 m c) 1 := by
  dsimp only [W7]
  after_results
  rw [keep_main_arg3_0_6]
  exact wSlice_read 1 (by decide) (A3 m c) _ _

/-- The layer's output, as the model's layer with the factored aggregation. -/
abbrev X1 : (⟨2, ![50000, 128]⟩ : Shape).Idx → EReal := layerF (G m c) (A0 m c) (wSlice (A3 m c) 0) (rowSlice (A4 m c) 0) (rowSlice (A5 m c) 0) (rowSlice (A6 m c) 0)

/-- The normalise-and-multiply region leaves the next layer's `h` … -/
theorem W8_main_v42_0 : (W8 (F := Ideal) m ρ c (Proc.devRef .tc main_v42_0) : S50000x128.Idx → EReal) = mm (X1 m c) (wSlice (A3 m c) 1) := by
  refine (W8_arr m ρ c 7).trans ?_
  rw [region3_h (V7 m ρ) c]
  show mm (normRelu (W7 m ρ c (Proc.devRef .tc main_v28_0)) (W7 m ρ c (Proc.devRef .tc main_v30)) (W7 m ρ c (Proc.devRef .tc main_v33))
    (W7 m ρ c (Proc.devRef .tc main_v36)) (W7 m ρ c (Proc.devRef .tc main_v39))) (W7 m ρ c (Proc.devRef .tc main_v41)) = _
  rw [keep_main_v28_0_4_7, W4_main_v28_0, keep_main_v30_5_7, W5_main_v30, W7_main_v33, W7_main_v36, W7_main_v39, W7_main_v41]
  rfl

/-- … and it scaled by `dis`. -/
theorem W8_main_v42_1 : (W8 (F := Ideal) m ρ c (Proc.devRef .tc main_v42_1) : S50000x128.Idx → EReal)
    = scaleRows (mm (X1 m c) (wSlice (A3 m c) 1)) (G m c).dis := by
  refine (W8_arr m ρ c 8).trans ?_
  rw [region3_hs (V7 m ρ) c]
  show scaleRows (mm (normRelu (W7 m ρ c (Proc.devRef .tc main_v28_0)) (W7 m ρ c (Proc.devRef .tc main_v30)) (W7 m ρ c (Proc.devRef .tc main_v33))
    (W7 m ρ c (Proc.devRef .tc main_v36)) (W7 m ρ c (Proc.devRef .tc main_v39))) (W7 m ρ c (Proc.devRef .tc main_v41)))
    (W7 m ρ c (Proc.devRef .tc main_v11)) = _
  rw [keep_main_v28_0_4_7, W4_main_v28_0, keep_main_v30_5_7, W5_main_v30, W7_main_v33, W7_main_v36, W7_main_v39, W7_main_v41,
    keep_main_v11_1_7, W1_v11]
  rfl

end Cert.KernelIdeal.Chain

end
-- ==== Proof.Region4.lean ====
/-
  Region 4 of the network's program: the aggregation step of one layer and the first pass of its column
  normalisation.

  The region walks the 50000 rows in ten blocks of 5000 rows.  At every step it forms, entry by entry, the block
  `d r * (agg (r, q) + d r * h (r, q)) + cb q` from the blocks of `agg` and `h`, the block of the column `d` and the
  row `cb`, and writes it to the same rows of the first result.  A row of 128 running totals stays in place across the
  ten steps: the first step sets it to zero, every step adds the column sums of the block just formed, and the row is
  written out once, after the last step, as the second result.  So the first result is the combination on all 50000
  rows, and the second is, at column `q`, the ten block sums added one after another to zero; regrouped, the sum of
  column `q` of the first result over all 50000 rows.  Addition of extended reals is commutative and associative, so
  the regrouping needs no finiteness.

  Row `r` of a block at step `t` is row `5000 t + r` of its array; the row `cb` and the row of totals are their whole
  arrays.
-/
import proofs.«168746_j56882546868465_2_alg».proof.Proof.Gen.KernelIdeal.Frame
import proofs.«168746_j56882546868465_2_alg».proof.Proof.Spec
import proofs.«168746_j56882546868465_2_alg».proof.Proof.RegionR_Payload
import Idealize.ShloMosaic.Lib.Pipeline.Value
import Idealize.ShloMosaic.Lib.Tactic

noncomputable section

open scoped BigOperators

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.GCN

/-! ## What one step leaves in the two result buffers -/

section AnyValues

variable {F : FTy → Type} [FloatOps F]

/-- A later step leaves in the block buffer the body's one store there, -/
theorem r4_out_B_4 (c : Dev nD) (i : grid4.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S1x128 .f32) (h6 : a6.IsWhole)
    (hc : ¬cond4_0 i) (x0 x1 : Vec F S5000x128 .f32) (x2 : Vec F S5000x1 .f32) (x3 : Vec F S1x128 .f32) (xo : Vec F S1x128 .f32) :
    out4_B_4 c i a1 h1 a2 h2 a3 h3 a4 h4 a5 h5 a6 h6 hc x0 x1 x2 x3 xo = k4_pay2 x2 x0 x1 x3 := by
  unfold out4_B_4
  rw [View.read_writes_eq_canon _ _ _ (cover4_B_4 c i a1 h1 a2 h2 a3 h3 a4 h4 a5 h5 a6 h6 hc x0 x1 x2 x3 xo)]
  unfold kernelRun4_B
  dsimp only
  rw [View.canon_unit_zero hzR]
  simp only [View.readAt_eq_ld, h1.read_unread, h2.read_unread, h3.read_unread, h4.read_unread, h6.read_unread,
    View.ld_unit_zero (S := S5000x128) hzR, View.ld_unit_zero (S := S1x128) hzR, View.ld_unit_zero (S := S5000x1) hzR]

/-- and in the row of totals the body's one store there, computed from the totals so far. -/
theorem r4_out_B_5 (c : Dev nD) (i : grid4.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S1x128 .f32) (h6 : a6.IsWhole)
    (hc : ¬cond4_0 i) (x0 x1 : Vec F S5000x128 .f32) (x2 : Vec F S5000x1 .f32) (x3 : Vec F S1x128 .f32) (xo : Vec F S1x128 .f32) :
    out4_B_5 c i a1 h1 a2 h2 a3 h3 a4 h4 a5 h5 a6 h6 hc x0 x1 x2 x3 xo = k4_pay3 x2 x0 x1 x3 xo := by
  unfold out4_B_5
  rw [View.read_writes_eq_canon _ _ _ (cover4_B_5 c i a1 h1 a2 h2 a3 h3 a4 h4 a5 h5 a6 h6 hc x0 x1 x2 x3 xo)]
  unfold kernelRun4_B
  dsimp only
  rw [View.canon_unit_zero hzR]
  simp only [View.readAt_eq_ld, h1.read_unread, h2.read_unread, h3.read_unread, h4.read_unread, h6.read_unread,
    View.ld_unit_zero (S := S5000x128) hzR, View.ld_unit_zero (S := S1x128) hzR, View.ld_unit_zero (S := S5000x1) hzR]

/-- The first step leaves the same block, -/
theorem r4_out_A_4 (c : Dev nD) (i : grid4.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S1x128 .f32) (h6 : a6.IsWhole)
    (hc : cond4_0 i) (x0 x1 : Vec F S5000x128 .f32) (x2 : Vec F S5000x1 .f32) (x3 : Vec F S1x128 .f32) :
    out4_A_4 c i a1 h1 a2 h2 a3 h3 a4 h4 a5 h5 a6 h6 hc x0 x1 x2 x3 = k4_pay2 x2 x0 x1 x3 := by
  unfold out4_A_4
  rw [View.read_writes_eq_canon _ _ _ (cover4_A_4 c i a1 h1 a2 h2 a3 h3 a4 h4 a5 h5 a6 h6 hc x0 x1 x2 x3)]
  unfold kernelRun4_A
  dsimp only
  rw [View.canon_unit_zero hzR]
  simp only [View.readAt_eq_ld, h1.read_unread, h2.read_unread, h3.read_unread, h4.read_unread,
    View.ld_unit_zero (S := S5000x128) hzR, View.ld_unit_zero (S := S1x128) hzR, View.ld_unit_zero (S := S5000x1) hzR]

/-- and in the row of totals the zero row stored first, read back, and the totals stored over it. -/
theorem r4_out_A_5 (c : Dev nD) (i : grid4.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S1x128 .f32) (h6 : a6.IsWhole)
    (hc : cond4_0 i) (x0 x1 : Vec F S5000x128 .f32) (x2 : Vec F S5000x1 .f32) (x3 : Vec F S1x128 .f32) :
    out4_A_5 c i a1 h1 a2 h2 a3 h3 a4 h4 a5 h5 a6 h6 hc x0 x1 x2 x3 = k4_pay3 x2 x0 x1 x3 k4_pay1 := by
  unfold out4_A_5
  rw [View.read_writes_eq_canon _ _ _ (cover4_A_5 c i a1 h1 a2 h2 a3 h3 a4 h4 a5 h5 a6 h6 hc x0 x1 x2 x3)]
  unfold kernelRun4_A
  dsimp only
  sl_unfold_words
  rw [View.canon_cons_unit_zero (S := S1x128) hzR, View.readCov_unit_zero (S := S1x128) _ hzR]
  simp only [View.readAt_eq_ld, h1.read_unread, h2.read_unread, h3.read_unread, h4.read_unread,
    View.ld_unit_zero (S := S5000x128) hzR, View.ld_unit_zero (S := S1x128) hzR, View.ld_unit_zero (S := S5000x1) hzR]

/-- The block index of `agg`, `h`, the column `d` and the first result at step `t` is `(t, 0)`; the rows `cb` and of
    totals are always block `(0, 0)`. -/
theorem r4_idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0 :=
  (by decide +kernel : ∀ t : Fin grid4.N, _)

end AnyValues

/-! ## The blocks over the extended reals -/

variable (V : (c : Dev nD) → (b : Ref sig .tc) → Buf (Elt Ideal) ((c : Thread nD τ).loc b))

/-- The four operand arrays and their blocks at step `t`, as functions into the extended reals. -/
abbrev r4_A (c : Dev nD) : S50000x128.Idx → EReal := V c main_v52
abbrev r4_H (c : Dev nD) : S50000x128.Idx → EReal := V c main_v42_0
abbrev r4_D (c : Dev nD) : S50000x1.Idx → EReal := V c main_v11
abbrev r4_CB (c : Dev nD) : S1x128.Idx → EReal := V c main_v55
abbrev r4_ab (c : Dev nD) (t : Fin cfg4.N) : FVec Ideal S5000x128 .f32 := iblk4 V c 0 t
abbrev r4_hb (c : Dev nD) (t : Fin cfg4.N) : FVec Ideal S5000x128 .f32 := iblk4 V c 1 t
abbrev r4_db (c : Dev nD) (t : Fin cfg4.N) : FVec Ideal S5000x1 .f32 := iblk4 V c 2 t
abbrev r4_cb (c : Dev nD) (t : Fin cfg4.N) : FVec Ideal S1x128 .f32 := iblk4 V c 3 t

/-- Row `r` of the block of `agg` at step `t` is row `5000 t + r` of `agg`. -/
theorem r4_blk0 (c : Dev nD) (t : Fin cfg4.N) (r : Fin 5000) (q : Fin 128) (hb : 5000 * t.val + r.val < 50000) :
    r4_ab V c t (ix2 r q) = r4_A V c (ix2 ⟨5000 * t.val + r.val, hb⟩ q) := by
  obtain ⟨e0, e1, -⟩ := r4_idx t
  unfold r4_ab r4_A iblk4
  rw [View.read_apply]
  show V c main_v52 _ = V c main_v52 _
  congr 1
  funext a
  apply Fin.ext
  match a with
  | ⟨0, _⟩ => show win4_0.index t (0 : Fin 2) * 5000 + 1 * r.val = 5000 * t.val + r.val; rw [e0]; omega
  | ⟨1, _⟩ => show win4_0.index t (1 : Fin 2) * 128 + 1 * q.val = q.val; rw [e1]; omega

/-- Row `r` of the block of `h` at step `t` is row `5000 t + r` of `h`. -/
theorem r4_blk1 (c : Dev nD) (t : Fin cfg4.N) (r : Fin 5000) (q : Fin 128) (hb : 5000 * t.val + r.val < 50000) :
    r4_hb V c t (ix2 r q) = r4_H V c (ix2 ⟨5000 * t.val + r.val, hb⟩ q) := by
  obtain ⟨-, -, e0, e1, -⟩ := r4_idx t
  unfold r4_hb r4_H iblk4
  rw [View.read_apply]
  show V c main_v42_0 _ = V c main_v42_0 _
  congr 1
  funext a
  apply Fin.ext
  match a with
  | ⟨0, _⟩ => show win4_1.index t (0 : Fin 2) * 5000 + 1 * r.val = 5000 * t.val + r.val; rw [e0]; omega
  | ⟨1, _⟩ => show win4_1.index t (1 : Fin 2) * 128 + 1 * q.val = q.val; rw [e1]; omega

/-- Row `r` of the block of the column `d` at step `t` is row `5000 t + r` of `d`. -/
theorem r4_blk2 (c : Dev nD) (t : Fin cfg4.N) (r : Fin 5000) (u : Fin 1) (hb : 5000 * t.val + r.val < 50000) :
    r4_db V c t (ix2 r u) = r4_D V c (ix2 ⟨5000 * t.val + r.val, hb⟩ u) := by
  obtain ⟨-, -, -, -, e0, e1, -⟩ := r4_idx t
  unfold r4_db r4_D iblk4
  rw [View.read_apply]
  show V c main_v11 _ = V c main_v11 _
  congr 1
  funext a
  apply Fin.ext
  match a with
  | ⟨0, _⟩ => show win4_2.index t (0 : Fin 2) * 5000 + 1 * r.val = 5000 * t.val + r.val; rw [e0]; omega
  | ⟨1, _⟩ => show win4_2.index t (1 : Fin 2) * 1 + 1 * u.val = u.val; rw [e1]; omega

/-- The block of `cb` at any step is `cb`. -/
theorem r4_blk3 (c : Dev nD) (t : Fin cfg4.N) (u : Fin 1) (q : Fin 128) :
    r4_cb V c t (ix2 u q) = r4_CB V c (ix2 u q) := by
  obtain ⟨-, -, -, -, -, -, e0, e1, -⟩ := r4_idx t
  unfold r4_cb r4_CB iblk4
  rw [View.read_apply]
  show V c main_v55 _ = V c main_v55 _
  congr 1
  funext a
  apply Fin.ext
  match a with
  | ⟨0, _⟩ => show win4_3.index t (0 : Fin 2) * 1 + 1 * u.val = u.val; rw [e0]; omega
  | ⟨1, _⟩ => show win4_3.index t (1 : Fin 2) * 128 + 1 * q.val = q.val; rw [e1]; omega

/-- The combination on all 50000 rows. -/
abbrev r4_G (c : Dev nD) : S50000x128.Idx → EReal := combine (r4_A V c) (r4_H V c) (r4_D V c) (r4_CB V c)

/-- The block formed at step `t` is, at `(r, q)`, the combination at row `5000 t + r`. -/
theorem r4_pay2_eq (c : Dev nD) (t : Fin cfg4.N) (r : Fin 5000) (q : Fin 128) (hb : 5000 * t.val + r.val < 50000) :
    k4_pay2 (F := Ideal) (r4_db V c t) (r4_ab V c t) (r4_hb V c t) (r4_cb V c t) (ix2 r q)
      = r4_G V c (ix2 ⟨5000 * t.val + r.val, hb⟩ q) := by
  rw [k4_pay2_apply, r4_blk0 V c t r q hb, r4_blk1 V c t r q hb, r4_blk2 V c t r 0 hb, r4_blk3 V c t 0 q]
  rfl

/-- What every step leaves in the block buffer. -/
theorem r4_hnew_blk (c : Dev nD) (t : Fin cfg4.N) :
    (outsAt4 V c t.val t.isLt).1 = k4_pay2 (F := Ideal) (r4_db V c t) (r4_ab V c t) (r4_hb V c t) (r4_cb V c t) := by
  by_cases h0 : t.val % 10 = 0
  · rw [outsAt4_A V c t h0]
    dsimp only
    rw [r4_out_A_4 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t) (iblk4 V c 3 t)]
  · rw [outsAt4_B V c t h0]
    dsimp only
    rw [r4_out_B_4 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (iblk4 V c 3 t)
      (outsAt4 V c (t.val - 1) (Nat.lt_of_le_of_lt (Nat.sub_le _ _) t.isLt)).2]

/-! ## The running totals -/

/-- Column `q` of the combination, as a function of the row. -/
abbrev r4_col (c : Dev nD) (q : Fin 128) : Fin 50000 → EReal := fun s => r4_G V c (ix2 s q)

/-- What step `t` adds at column `q`: the sum of column `q` over rows `5000 t … 5000 t + 4999`. -/
abbrev r4_tile (c : Dev nD) (q : Fin 128) (j : ℕ) : EReal := ∑ r : Fin 5000, rowTerm (r4_col V c q) (5000 * j + r.val)

/-- The block sum the body forms at step `t` is that tile sum. -/
theorem r4_tile_eq (c : Dev nD) (t : Fin cfg4.N) (q : Fin 128) :
    ∑ r : Fin 5000, k4_pay2 (F := Ideal) (r4_db V c t) (r4_ab V c t) (r4_hb V c t) (r4_cb V c t) (ix2 r q) = r4_tile V c q t.val := by
  have hN : t.val < 10 := lt_of_lt_of_eq t.isLt (show cfg4.N = 10 from N_4)
  refine Finset.sum_congr rfl fun r _ => ?_
  have hb : 5000 * t.val + r.val < 50000 := by have := r.isLt; omega
  rw [rowTerm_of_lt _ _ hb, r4_pay2_eq V c t r q hb]

/-- After the first step the totals are zero plus the first tile sum. -/
theorem r4_first (c : Dev nD) (q : Fin 128) (h : 0 < cfg4.N) :
    (outsAt4 V c 0 h).2 (ix2 (0 : Fin 1) q) = 0 + r4_tile V c q 0 := by
  have e := outsAt4_A V c ⟨0, h⟩ rfl
  dsimp only at e
  rw [e]
  dsimp only
  rw [r4_out_A_5 c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) (ms4_3 ⟨0, h⟩) (hs4_3 ⟨0, h⟩) (ms4_4 ⟨0, h⟩) (hs4_4 ⟨0, h⟩) (ms4_5 ⟨0, h⟩) (hs4_5 ⟨0, h⟩)
    ((hcond4_0 ⟨0, h⟩).mpr rfl) (iblk4 V c 0 ⟨0, h⟩) (iblk4 V c 1 ⟨0, h⟩) (iblk4 V c 2 ⟨0, h⟩) (iblk4 V c 3 ⟨0, h⟩)]
  refine (k4_pay3_apply (r4_db V c ⟨0, h⟩) (r4_ab V c ⟨0, h⟩) (r4_hb V c ⟨0, h⟩) (r4_cb V c ⟨0, h⟩) (k4_pay1 (F := Ideal)) q).trans ?_
  rw [k4_pay1_apply, r4_tile_eq V c ⟨0, h⟩ q]

/-- A later step adds its tile sum to what the step before left. -/
theorem r4_later (c : Dev nD) (q : Fin 128) (n : ℕ) (h : n + 1 < cfg4.N) :
    (outsAt4 V c (n + 1) h).2 (ix2 (0 : Fin 1) q)
      = (outsAt4 V c n (Nat.lt_of_succ_lt h)).2 (ix2 (0 : Fin 1) q) + r4_tile V c q (n + 1) := by
  have hN : cfg4.N = 10 := N_4
  have hB : ¬(⟨n + 1, h⟩ : Fin cfg4.N).val % 10 = 0 := by dsimp only; omega
  have e := outsAt4_B V c ⟨n + 1, h⟩ hB
  dsimp only at e
  rw [e]
  dsimp only
  rw [r4_out_B_5 c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (ms4_3 ⟨n + 1, h⟩) (hs4_3 ⟨n + 1, h⟩) (ms4_4 ⟨n + 1, h⟩) (hs4_4 ⟨n + 1, h⟩) (ms4_5 ⟨n + 1, h⟩) (hs4_5 ⟨n + 1, h⟩)
    (fun hh => hB ((hcond4_0 ⟨n + 1, h⟩).mp hh)) (iblk4 V c 0 ⟨n + 1, h⟩) (iblk4 V c 1 ⟨n + 1, h⟩) (iblk4 V c 2 ⟨n + 1, h⟩) (iblk4 V c 3 ⟨n + 1, h⟩)
    (outsAt4 V c (n + 1 - 1) (Nat.lt_of_le_of_lt (Nat.sub_le _ _) h)).2]
  refine (k4_pay3_apply (r4_db V c ⟨n + 1, h⟩) (r4_ab V c ⟨n + 1, h⟩) (r4_hb V c ⟨n + 1, h⟩) (r4_cb V c ⟨n + 1, h⟩) _ q).trans ?_
  rw [r4_tile_eq V c ⟨n + 1, h⟩ q]
  rfl

/-- So after step `n` the totals are the first `n + 1` tile sums added up. -/
theorem r4_totals (c : Dev nD) (q : Fin 128) (n : ℕ) (h : n < cfg4.N) :
    (outsAt4 V c n h).2 (ix2 (0 : Fin 1) q) = ∑ j ∈ Finset.range (n + 1), r4_tile V c q j :=
  acc_eq_sum cfg4.N (fun n h => (outsAt4 V c n h).2 (ix2 (0 : Fin 1) q)) (r4_tile V c q)
    (fun h => r4_first V c q h) (fun n h => r4_later V c q n h) n h

/-! ## The two arrays the region writes -/

/-- The combination, as contents of the first result array; its column sums, as contents of the second. -/
abbrev r4_hnewres (c : Dev nD) : Buf (Elt Ideal) ((c : Thread nD τ).loc main_v56_0) := r4_G V c
abbrev r4_sumres (c : Dev nD) : Buf (Elt Ideal) ((c : Thread nD τ).loc main_v56_1) := colSum (r4_G V c)

/-- After the last step the row of totals holds the column sums. -/
theorem r4_last (c : Dev nD) (t : Fin cfg4.N) (h9 : t.val = 9) :
    (outsAt4 V c t.val t.isLt).2 = r4_sumres V c := by
  refine row_ext _ _ fun q => ?_
  rw [r4_totals V c q t.val t.isLt, h9]
  exact sum_rowTerm_tiles (r4_col V c q)

/-- The one write-back of the totals, after the last step, writes them. -/
theorem r4_flushed5 (c : Dev nD) (t : Fin cfg4.N) (hf : (cfg4.win 5).flush t = true) :
    (dat4 (F := Ideal) V c).flushed 5 t = ((cfg4.win 5).blk t).view.read (Elt Ideal) (r4_sumres V c) := by
  have hN : cfg4.N = 10 := N_4
  have h9 : t.val = 9 := by have := (flush4_5 t).mp hf; have := t.isLt; omega
  show (cfg4.win 5).cut (grid4.coords t) ((dat4 V c).after 5 t) = _
  rw [after4_5, r4_last V c t h9]
  obtain rfl : t = t4_9 := Fin.ext h9
  have hzR' : (fun a => win4_5.index t4_9 a * main_v56_1.ty.shape.size a) = fun _ => 0 := funext fun a => by fin_cases a <;> decide
  exact (Memref.read_access_unit_zero (Elt Ideal) main_v56_1 hzR' (fun a => by rw [congrFun hzR' a]; simp) (r4_sumres V c)).symm

/-- The second result array after the region: at column `q` the sum of column `q` of the combination over all 50000 rows. -/
theorem region4_sum (c : Dev nD) :
    (dat4 (F := Ideal) V c).arrAt 5 cfg4.N
      = colSum (combine (V c main_v52 : S50000x128.Idx → EReal) (V c main_v42_0 : S50000x128.Idx → EReal)
          (V c main_v11 : S50000x1.Idx → EReal) (V c main_v55 : S1x128.Idx → EReal)) :=
  (dat4 (F := Ideal) V c).arrAt_eq_of_cover 5 (r4_sumres V c) (r4_flushed5 V c) fun i =>
    ⟨t4_9, (flush4_5 t4_9).mpr rfl, by
      show i ∈ ((View.whole main_v56_1).slice (win4_5.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_5.index t4_9 0 * win4_5.size 0 ≤ (i 0 : Nat) ∧ (i 0 : Nat) < win4_5.index t4_9 0 * win4_5.size 0 + win4_5.xsize (grid4.coords t4_9) 0
                  rw [show win4_5.index t4_9 0 * win4_5.size 0 = 0 from by decide +kernel, show win4_5.xsize (grid4.coords t4_9) 0 = 1 from by decide +kernel]; omega
      | ⟨1, _⟩ => show win4_5.index t4_9 1 * win4_5.size 1 ≤ (i 1 : Nat) ∧ (i 1 : Nat) < win4_5.index t4_9 1 * win4_5.size 1 + win4_5.xsize (grid4.coords t4_9) 1
                  rw [show win4_5.index t4_9 1 * win4_5.size 1 = 0 from by decide +kernel, show win4_5.xsize (grid4.coords t4_9) 1 = 128 from by decide +kernel]; omega⟩

/-- Every step writes its block back: rows `5000 t … 5000 t + 4999` of the combination. -/
theorem r4_flushed4 (c : Dev nD) (t : Fin cfg4.N) (hf : (cfg4.win 4).flush t = true) :
    (dat4 (F := Ideal) V c).flushed 4 t = ((cfg4.win 4).blk t).view.read (Elt Ideal) (r4_hnewres V c) := by
  have hN : t.val < 10 := lt_of_lt_of_eq t.isLt (show cfg4.N = 10 from N_4)
  obtain ⟨-, -, -, -, -, -, -, -, e0, e1, -⟩ := r4_idx t
  show (cfg4.win 4).cut (grid4.coords t) ((dat4 V c).after 4 t) = _
  rw [after4_4, r4_hnew_blk V c t]
  refine block_ext _ _ fun r q => ?_
  have hb : 5000 * t.val + r.val < 50000 := by have := r.isLt; omega
  refine (r4_pay2_eq V c t r q hb).trans ?_
  rw [View.read_apply]
  show r4_G V c _ = r4_G V c _
  congr 1
  funext a
  apply Fin.ext
  match a with
  | ⟨0, _⟩ => show 5000 * t.val + r.val = win4_4.index t (0 : Fin 2) * 5000 + 1 * r.val; rw [e0]; omega
  | ⟨1, _⟩ => show q.val = win4_4.index t (1 : Fin 2) * 128 + 1 * q.val; rw [e1]; omega

/-- The first result array after the region: the combination on all 50000 rows. -/
theorem region4_hnew (c : Dev nD) :
    (dat4 (F := Ideal) V c).arrAt 4 cfg4.N
      = combine (V c main_v52 : S50000x128.Idx → EReal) (V c main_v42_0 : S50000x128.Idx → EReal)
          (V c main_v11 : S50000x1.Idx → EReal) (V c main_v55 : S1x128.Idx → EReal) :=
  (dat4 (F := Ideal) V c).arrAt_eq_of_cover 4 (r4_hnewres V c) (r4_flushed4 V c) fun i => by
    have hi0 : (i 0 : Nat) < 50000 := (i 0).isLt
    have hi1 : (i 1 : Nat) < 128 := (i 1).isLt
    have hN : cfg4.N = 10 := N_4
    obtain ⟨t, ht⟩ : ∃ t : Fin cfg4.N, t.val = (i 0 : Nat) / 5000 := ⟨⟨(i 0 : Nat) / 5000, by rw [hN]; omega⟩, rfl⟩
    obtain ⟨-, -, -, -, -, -, -, -, e0, e1, -⟩ := r4_idx t
    refine ⟨t, flush4_4 t, ?_⟩
    show i ∈ ((View.whole main_v56_0).slice (win4_4.rect t)).set
    rw [View.set_slice_whole, Rect.mem_set_unit]
    intro a
    match a with
    | ⟨0, _⟩ => show win4_4.index t (0 : Fin 2) * 5000 ≤ (i 0 : Nat) ∧ (i 0 : Nat) < win4_4.index t (0 : Fin 2) * 5000 + 5000
                rw [e0, ht]; omega
    | ⟨1, _⟩ => show win4_4.index t (1 : Fin 2) * 128 ≤ (i 1 : Nat) ∧ (i 1 : Nat) < win4_4.index t (1 : Fin 2) * 128 + 128
                rw [e1]; omega

end Cert.KernelIdeal.RegionValue

end
-- ==== Proof.Region5.lean ====
/-
  Region 5 of the network's program: the second pass of a column normalisation.

  The region walks the 50000 rows of an array `y` in ten blocks of 5000 rows.  A row of 128 running totals stays in
  place across the ten steps: the first step sets it to zero, every step adds to it, column by column, the sum over
  the block's rows of the squared deviations `(y (r, q) - mu q) * (y (r, q) - mu q)` from a fixed row `mu`, and the row
  is written out once, after the last step.  What is written is therefore, at column `q`, the ten block sums added
  one after another to zero; regrouped, that is the sum of the squared deviations over all 50000 rows.  Addition of
  extended reals is commutative and associative, so the regrouping needs no finiteness.

  Row `r` of block `t` is row `5000 t + r` of `y`; the row `mu` and the row of totals are their whole arrays.
-/
import proofs.«168746_j56882546868465_2_alg».proof.Proof.Gen.KernelIdeal.Frame
import proofs.«168746_j56882546868465_2_alg».proof.Proof.Spec
import proofs.«168746_j56882546868465_2_alg».proof.Proof.RegionR_Payload
import Idealize.ShloMosaic.Lib.Pipeline.Value
import Idealize.ShloMosaic.Lib.Tactic

noncomputable section

open scoped BigOperators

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.GCN

/-! ## What one step leaves in the row of totals -/

section AnyValues

variable {F : FTy → Type} [FloatOps F]

/-- A later step: the body's one store puts there its value computed from the block, the row `mu` and the totals so far. -/
theorem r5_out_B (c : Dev nD) (i : grid5.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond5_0 i) (x0 : Vec F S5000x128 .f32) (x1 xo : Vec F S1x128 .f32) :
    out5_B_2 c i a1 h1 a2 h2 a3 h3 hc x0 x1 xo = k5_pay2 x0 x1 xo := by
  unfold out5_B_2
  rw [View.read_writes_eq_canon _ _ _ (cover5_B_2 c i a1 h1 a2 h2 a3 h3 hc x0 x1 xo)]
  unfold kernelRun5_B
  dsimp only
  rw [View.canon_unit_zero hzR]
  simp only [View.readAt_eq_ld, h1.read_unread, h2.read_unread, h3.read_unread, View.ld_unit_zero (S := S5000x128) hzR,
    View.ld_unit_zero (S := S1x128) hzR]

/-- The first step: the zero row is stored first, read back, and the same value is stored over it. -/
theorem r5_out_A (c : Dev nD) (i : grid5.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond5_0 i) (x0 : Vec F S5000x128 .f32) (x1 : Vec F S1x128 .f32) :
    out5_A_2 c i a1 h1 a2 h2 a3 h3 hc x0 x1 = k5_pay2 x0 x1 k5_pay1 := by
  unfold out5_A_2
  rw [View.read_writes_eq_canon _ _ _ (cover5_A_2 c i a1 h1 a2 h2 a3 h3 hc x0 x1)]
  unfold kernelRun5_A
  dsimp only
  sl_unfold_words
  rw [View.canon_cons_unit_zero (S := S1x128) hzR, View.readCov_unit_zero (S := S1x128) _ hzR]
  simp only [View.readAt_eq_ld, h1.read_unread, h2.read_unread, View.ld_unit_zero (S := S5000x128) hzR,
    View.ld_unit_zero (S := S1x128) hzR]

/-- The block index of the array `y` at step `t` is `(t, 0)`; the rows `mu` and of totals are always block `(0, 0)`. -/
theorem r5_idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

end AnyValues

/-! ## The running totals over the extended reals -/

variable (V : (c : Dev nD) → (b : Ref sig .tc) → Buf (Elt Ideal) ((c : Thread nD τ).loc b))

/-- The array `y`, the row `mu`, and their blocks at step `t`, as functions into the extended reals. -/
abbrev r5_Y (c : Dev nD) : S50000x128.Idx → EReal := V c main_v56_0
abbrev r5_MU (c : Dev nD) : S1x128.Idx → EReal := V c main_v58
abbrev r5_yb (c : Dev nD) (t : Fin cfg5.N) : FVec Ideal S5000x128 .f32 := iblk5 V c 0 t
abbrev r5_mb (c : Dev nD) (t : Fin cfg5.N) : FVec Ideal S1x128 .f32 := iblk5 V c 1 t

/-- Row `r` of the block of `y` at step `t` is row `5000 t + r` of `y`. -/
theorem r5_blk0 (c : Dev nD) (t : Fin cfg5.N) (r : Fin 5000) (q : Fin 128) (hb : 5000 * t.val + r.val < 50000) :
    r5_yb V c t (ix2 r q) = r5_Y V c (ix2 ⟨5000 * t.val + r.val, hb⟩ q) := by
  obtain ⟨e0, e1, -⟩ := r5_idx t
  unfold r5_yb r5_Y iblk5
  rw [View.read_apply]
  show V c main_v56_0 _ = V c main_v56_0 _
  congr 1
  funext a
  apply Fin.ext
  match a with
  | ⟨0, _⟩ => show win5_0.index t (0 : Fin 2) * 5000 + 1 * r.val = 5000 * t.val + r.val; rw [e0]; omega
  | ⟨1, _⟩ => show win5_0.index t (1 : Fin 2) * 128 + 1 * q.val = q.val; rw [e1]; omega

/-- The block of `mu` at any step is `mu`. -/
theorem r5_blk1 (c : Dev nD) (t : Fin cfg5.N) (u : Fin 1) (q : Fin 128) :
    r5_mb V c t (ix2 u q) = r5_MU V c (ix2 u q) := by
  obtain ⟨-, -, e0, e1, -⟩ := r5_idx t
  unfold r5_mb r5_MU iblk5
  rw [View.read_apply]
  show V c main_v58 _ = V c main_v58 _
  congr 1
  funext a
  apply Fin.ext
  match a with
  | ⟨0, _⟩ => show win5_1.index t (0 : Fin 2) * 1 + 1 * u.val = u.val; rw [e0]; omega
  | ⟨1, _⟩ => show win5_1.index t (1 : Fin 2) * 128 + 1 * q.val = q.val; rw [e1]; omega

/-- The squared deviations of column `q`, as a function of the row. -/
abbrev r5_col (c : Dev nD) (q : Fin 128) : Fin 50000 → EReal :=
  fun s => sqDev (r5_Y V c) (r5_MU V c) (ix2 s q)

/-- What step `t` adds at column `q`: the sum of the squared deviations over rows `5000 t … 5000 t + 4999`. -/
abbrev r5_tile (c : Dev nD) (q : Fin 128) (j : ℕ) : EReal := ∑ r : Fin 5000, rowTerm (r5_col V c q) (5000 * j + r.val)

/-- The block sum the body forms at step `t` is that tile sum. -/
theorem r5_tile_eq (c : Dev nD) (t : Fin cfg5.N) (q : Fin 128) :
    ∑ r : Fin 5000, (r5_yb V c t (ix2 r q) - r5_mb V c t (ix2 (0 : Fin 1) q))
        * (r5_yb V c t (ix2 r q) - r5_mb V c t (ix2 (0 : Fin 1) q))
      = r5_tile V c q t.val := by
  have hN : t.val < 10 := lt_of_lt_of_eq t.isLt (show cfg5.N = 10 from N_5)
  refine Finset.sum_congr rfl fun r _ => ?_
  have hb : 5000 * t.val + r.val < 50000 := by have := r.isLt; omega
  rw [rowTerm_of_lt _ _ hb, r5_blk0 V c t r q hb, r5_blk1 V c t 0 q]
  rfl

/-- After the first step the totals are zero plus the first tile sum. -/
theorem r5_first (c : Dev nD) (q : Fin 128) (h : 0 < cfg5.N) :
    (outsAt5 V c 0 h : Vec Ideal S1x128 .f32) (ix2 (0 : Fin 1) q) = 0 + r5_tile V c q 0 := by
  have e := outsAt5_A V c ⟨0, h⟩ rfl
  dsimp only at e
  rw [e, r5_out_A c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩)
    ((hcond5_0 ⟨0, h⟩).mpr rfl) (iblk5 V c 0 ⟨0, h⟩) (iblk5 V c 1 ⟨0, h⟩)]
  refine (k5_pay2_apply (r5_yb V c ⟨0, h⟩) (r5_mb V c ⟨0, h⟩) (k5_pay1 (F := Ideal)) q).trans ?_
  rw [k5_pay1_apply, r5_tile_eq V c ⟨0, h⟩ q]

/-- A later step adds its tile sum to what the step before left. -/
theorem r5_later (c : Dev nD) (q : Fin 128) (n : ℕ) (h : n + 1 < cfg5.N) :
    (outsAt5 V c (n + 1) h : Vec Ideal S1x128 .f32) (ix2 (0 : Fin 1) q)
      = (outsAt5 V c n (Nat.lt_of_succ_lt h) : Vec Ideal S1x128 .f32) (ix2 (0 : Fin 1) q) + r5_tile V c q (n + 1) := by
  have hN : cfg5.N = 10 := N_5
  have hB : ¬(⟨n + 1, h⟩ : Fin cfg5.N).val % 10 = 0 := by dsimp only; omega
  have e := outsAt5_B V c ⟨n + 1, h⟩ hB
  dsimp only at e
  rw [e, r5_out_B c (grid5.coords ⟨n + 1, h⟩) (ms5_0 ⟨n + 1, h⟩) (hs5_0 ⟨n + 1, h⟩) (ms5_1 ⟨n + 1, h⟩) (hs5_1 ⟨n + 1, h⟩)
    (ms5_2 ⟨n + 1, h⟩) (hs5_2 ⟨n + 1, h⟩) (fun hh => hB ((hcond5_0 ⟨n + 1, h⟩).mp hh)) (iblk5 V c 0 ⟨n + 1, h⟩) (iblk5 V c 1 ⟨n + 1, h⟩)
    (outsAt5 V c (n + 1 - 1) (Nat.lt_of_le_of_lt (Nat.sub_le _ _) h))]
  refine (k5_pay2_apply (r5_yb V c ⟨n + 1, h⟩) (r5_mb V c ⟨n + 1, h⟩) _ q).trans ?_
  rw [r5_tile_eq V c ⟨n + 1, h⟩ q]
  rfl

/-- So after step `n` the totals are the first `n + 1` tile sums added up. -/
theorem r5_totals (c : Dev nD) (q : Fin 128) (n : ℕ) (h : n < cfg5.N) :
    (outsAt5 V c n h : Vec Ideal S1x128 .f32) (ix2 (0 : Fin 1) q) = ∑ j ∈ Finset.range (n + 1), r5_tile V c q j :=
  acc_eq_sum cfg5.N (fun n h => (outsAt5 V c n h : Vec Ideal S1x128 .f32) (ix2 (0 : Fin 1) q)) (r5_tile V c q)
    (fun h => r5_first V c q h) (fun n h => r5_later V c q n h) n h

/-! ## The array the region writes -/

/-- The column sums of the squared deviations, as contents of the region's result array. -/
abbrev r5_result (c : Dev nD) : Buf (Elt Ideal) ((c : Thread nD τ).loc main_v59) :=
  colSum (sqDev (r5_Y V c) (r5_MU V c))

/-- After the last step the row of totals holds them. -/
theorem r5_last (c : Dev nD) (t : Fin cfg5.N) (h9 : t.val = 9) :
    (outsAt5 V c t.val t.isLt : Vec Ideal S1x128 .f32) = r5_result V c := by
  refine row_ext _ _ fun q => ?_
  rw [r5_totals V c q t.val t.isLt, h9]
  exact sum_rowTerm_tiles (r5_col V c q)

/-- The one write-back, after the last step, writes them. -/
theorem r5_flushed (c : Dev nD) (t : Fin cfg5.N) (hf : (cfg5.win 2).flush t = true) :
    (dat5 (F := Ideal) V c).flushed 2 t = ((cfg5.win 2).blk t).view.read (Elt Ideal) (r5_result V c) := by
  have hN : cfg5.N = 10 := N_5
  have h9 : t.val = 9 := by have := (flush5_2 t).mp hf; have := t.isLt; omega
  show (cfg5.win 2).cut (grid5.coords t) ((dat5 V c).after 2 t) = _
  rw [after5_2, r5_last V c t h9]
  obtain rfl : t = t5_9 := Fin.ext h9
  have hzR' : (fun a => win5_2.index t5_9 a * main_v59.ty.shape.size a) = fun _ => 0 := funext fun a => by fin_cases a <;> decide
  exact (Memref.read_access_unit_zero (Elt Ideal) main_v59 hzR' (fun a => by rw [congrFun hzR' a]; simp) (r5_result V c)).symm

/-- The result array after the region: at column `q` the sum over all 50000 rows of the squared deviations. -/
theorem region5_sumsq (c : Dev nD) :
    (dat5 (F := Ideal) V c).arrAt 2 cfg5.N
      = colSum (sqDev (V c main_v56_0 : S50000x128.Idx → EReal) (V c main_v58 : S1x128.Idx → EReal)) :=
  (dat5 (F := Ideal) V c).arrAt_eq_of_cover 2 (r5_result V c) (r5_flushed V c) fun i =>
    ⟨t5_9, (flush5_2 t5_9).mpr rfl, by
      show i ∈ ((View.whole main_v59).slice (win5_2.rect t5_9)).set
      rw [View.set_slice_whole, Rect.mem_set_unit]
      intro a
      have h0 : (i 0 : Nat) < 1 := (i 0).isLt
      have h1 : (i 1 : Nat) < 128 := (i 1).isLt
      match a with
      | ⟨0, _⟩ => show win5_2.index t5_9 0 * win5_2.size 0 ≤ (i 0 : Nat) ∧ (i 0 : Nat) < win5_2.index t5_9 0 * win5_2.size 0 + win5_2.xsize (grid5.coords t5_9) 0
                  rw [show win5_2.index t5_9 0 * win5_2.size 0 = 0 from by decide +kernel, show win5_2.xsize (grid5.coords t5_9) 0 = 1 from by decide +kernel]; omega
      | ⟨1, _⟩ => show win5_2.index t5_9 1 * win5_2.size 1 ≤ (i 1 : Nat) ∧ (i 1 : Nat) < win5_2.index t5_9 1 * win5_2.size 1 + win5_2.xsize (grid5.coords t5_9) 1
                  rw [show win5_2.index t5_9 1 * win5_2.size 1 = 0 from by decide +kernel, show win5_2.xsize (grid5.coords t5_9) 1 = 128 from by decide +kernel]; omega⟩

end Cert.KernelIdeal.RegionValue

end
-- ==== Proof.Region6.lean ====
/-
  The second normalise-then-multiply region: the aggregated features normalised column by column, scaled, shifted and
  clipped at zero, then multiplied by the next layer's weight matrix; and that product with every row scaled by the
  node's entry of the scaling column.  What its two result arrays hold after all ten grid points, for arbitrary
  contents of the seven arrays it reads.

  Grid point `t` reads rows `5000 t, …, 5000 t + 4999` of the feature array and of the scaling column, the four whole
  rows (mean, variance, scale, shift) and the whole weight matrix, and writes the same rows of both results.  The
  normalisation works entry by entry and the product row by row, so what the point writes is its block of rows of the
  same functions of the whole arrays.  The ten row blocks cover the 50000 rows.
-/
import proofs.«168746_j56882546868465_2_alg».proof.Proof.Gen.KernelIdeal.Frame
import proofs.«168746_j56882546868465_2_alg».proof.Proof.RegionA_Payload
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-- The index maps over the ten grid points: the row-block windows sit at block `(t, 0)`, the whole-array windows at
    `(0, 0)`. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0
    ∧ win6_8.index t (0 : Fin 2) = t.val ∧ win6_8.index t (1 : Fin 2) = 0 :=
  (by decide +kernel : ∀ t : Fin grid6.N, _)

/-- The ten blocks of 5000 rows stay inside the 50000 rows. -/
theorem rows6 (t : Fin cfg6.N) : 5000 * t.val + 5000 ≤ 50000 := by
  have h : t.val < 10 := lt_of_lt_of_eq t.isLt N_6
  omega

/-! ## Each window's block is a block of rows, or the whole array -/

theorem read_blk6_0 (t : Fin cfg6.N) (X : S50000x128.Idx → EReal) :
    ((cfg6.win 0).blk t).view.read (Elt Ideal) X = rowsFrom 5000 (5000 * t.val) (rows6 t) X := by
  funext y
  rw [View.read_apply]
  refine congrArg X (funext fun a => Fin.ext ?_)
  match a with
  | ⟨0, _⟩ => show win6_0.index t (0 : Fin 2) * 5000 + 1 * (y 0).val = 5000 * t.val + (y 0).val; rw [(idx6 t).1]; omega
  | ⟨1, _⟩ => show win6_0.index t (1 : Fin 2) * 128 + 1 * (y 1).val = (y 1).val; rw [(idx6 t).2.1]; omega

theorem read_blk6_1 (t : Fin cfg6.N) (X : S1x128.Idx → EReal) :
    ((cfg6.win 1).blk t).view.read (Elt Ideal) X = X := by
  funext y
  rw [View.read_apply]
  refine congrArg X (funext fun a => Fin.ext ?_)
  match a with
  | ⟨0, _⟩ => show win6_1.index t (0 : Fin 2) * 1 + 1 * (y 0).val = (y 0).val; rw [(idx6 t).2.2.1]; omega
  | ⟨1, _⟩ => show win6_1.index t (1 : Fin 2) * 128 + 1 * (y 1).val = (y 1).val; rw [(idx6 t).2.2.2.1]; omega

theorem read_blk6_2 (t : Fin cfg6.N) (X : S1x128.Idx → EReal) :
    ((cfg6.win 2).blk t).view.read (Elt Ideal) X = X := by
  funext y
  rw [View.read_apply]
  refine congrArg X (funext fun a => Fin.ext ?_)
  match a with
  | ⟨0, _⟩ => show win6_2.index t (0 : Fin 2) * 1 + 1 * (y 0).val = (y 0).val; rw [(idx6 t).2.2.2.2.1]; omega
  | ⟨1, _⟩ => show win6_2.index t (1 : Fin 2) * 128 + 1 * (y 1).val = (y 1).val; rw [(idx6 t).2.2.2.2.2.1]; omega

theorem read_blk6_3 (t : Fin cfg6.N) (X : S1x128.Idx → EReal) :
    ((cfg6.win 3).blk t).view.read (Elt Ideal) X = X := by
  funext y
  rw [View.read_apply]
  refine congrArg X (funext fun a => Fin.ext ?_)
  match a with
  | ⟨0, _⟩ => show win6_3.index t (0 : Fin 2) * 1 + 1 * (y 0).val = (y 0).val; rw [(idx6 t).2.2.2.2.2.2.1]; omega
  | ⟨1, _⟩ => show win6_3.index t (1 : Fin 2) * 128 + 1 * (y 1).val = (y 1).val; rw [(idx6 t).2.2.2.2.2.2.2.1]; omega

theorem read_blk6_4 (t : Fin cfg6.N) (X : S1x128.Idx → EReal) :
    ((cfg6.win 4).blk t).view.read (Elt Ideal) X = X := by
  funext y
  rw [View.read_apply]
  refine congrArg X (funext fun a => Fin.ext ?_)
  match a with
  | ⟨0, _⟩ => show win6_4.index t (0 : Fin 2) * 1 + 1 * (y 0).val = (y 0).val; rw [(idx6 t).2.2.2.2.2.2.2.2.1]; omega
  | ⟨1, _⟩ => show win6_4.index t (1 : Fin 2) * 128 + 1 * (y 1).val = (y 1).val; rw [(idx6 t).2.2.2.2.2.2.2.2.2.1]; omega

theorem read_blk6_5 (t : Fin cfg6.N) (X : S128x128.Idx → EReal) :
    ((cfg6.win 5).blk t).view.read (Elt Ideal) X = X := by
  funext y
  rw [View.read_apply]
  refine congrArg X (funext fun a => Fin.ext ?_)
  match a with
  | ⟨0, _⟩ => show win6_5.index t (0 : Fin 2) * 128 + 1 * (y 0).val = (y 0).val; rw [(idx6 t).2.2.2.2.2.2.2.2.2.2.1]; omega
  | ⟨1, _⟩ => show win6_5.index t (1 : Fin 2) * 128 + 1 * (y 1).val = (y 1).val; rw [(idx6 t).2.2.2.2.2.2.2.2.2.2.2.1]; omega

theorem read_blk6_6 (t : Fin cfg6.N) (X : S50000x1.Idx → EReal) :
    ((cfg6.win 6).blk t).view.read (Elt Ideal) X = rowsFrom 5000 (5000 * t.val) (rows6 t) X := by
  funext y
  rw [View.read_apply]
  refine congrArg X (funext fun a => Fin.ext ?_)
  match a with
  | ⟨0, _⟩ => show win6_6.index t (0 : Fin 2) * 5000 + 1 * (y 0).val = 5000 * t.val + (y 0).val; rw [(idx6 t).2.2.2.2.2.2.2.2.2.2.2.2.1]; omega
  | ⟨1, _⟩ => show win6_6.index t (1 : Fin 2) * 1 + 1 * (y 1).val = (y 1).val; rw [(idx6 t).2.2.2.2.2.2.2.2.2.2.2.2.2.1]; omega

theorem read_blk6_7 (t : Fin cfg6.N) (X : S50000x128.Idx → EReal) :
    ((cfg6.win 7).blk t).view.read (Elt Ideal) X = rowsFrom 5000 (5000 * t.val) (rows6 t) X := by
  funext y
  rw [View.read_apply]
  refine congrArg X (funext fun a => Fin.ext ?_)
  match a with
  | ⟨0, _⟩ => show win6_7.index t (0 : Fin 2) * 5000 + 1 * (y 0).val = 5000 * t.val + (y 0).val; rw [(idx6 t).2.2.2.2.2.2.2.2.2.2.2.2.2.2.1]; omega
  | ⟨1, _⟩ => show win6_7.index t (1 : Fin 2) * 128 + 1 * (y 1).val = (y 1).val; rw [(idx6 t).2.2.2.2.2.2.2.2.2.2.2.2.2.2.2.1]; omega

theorem read_blk6_8 (t : Fin cfg6.N) (X : S50000x128.Idx → EReal) :
    ((cfg6.win 8).blk t).view.read (Elt Ideal) X = rowsFrom 5000 (5000 * t.val) (rows6 t) X := by
  funext y
  rw [View.read_apply]
  refine congrArg X (funext fun a => Fin.ext ?_)
  match a with
  | ⟨0, _⟩ => show win6_8.index t (0 : Fin 2) * 5000 + 1 * (y 0).val = 5000 * t.val + (y 0).val; rw [(idx6 t).2.2.2.2.2.2.2.2.2.2.2.2.2.2.2.2.1]; omega
  | ⟨1, _⟩ => show win6_8.index t (1 : Fin 2) * 128 + 1 * (y 1).val = (y 1).val; rw [(idx6 t).2.2.2.2.2.2.2.2.2.2.2.2.2.2.2.2.2]; omega

/-! ## What a grid point writes back -/

set_option maxHeartbeats 1000000 in
/-- Point `t` writes back to the first result its block of rows of the normalised array times the weights. -/
theorem flushed6_7_eq (c : Dev nD) (t : Fin cfg6.N) :
    (dat6 (F := Ideal) V c).flushed 7 t
      = ((cfg6.win 7).blk t).view.read (Elt Ideal) (mm (normRelu (V c main_v56_0 : S50000x128.Idx → EReal) (V c main_v58 : S1x128.Idx → EReal) (V c main_v61 : S1x128.Idx → EReal) (V c main_v64 : S1x128.Idx → EReal) (V c main_v67 : S1x128.Idx → EReal)) (V c main_v69 : S128x128.Idx → EReal)) := by
  show (cfg6.win 7).cut (grid6.coords t) ((dat6 V c).after 7 t) = _
  rw [after6_7]
  unfold out6_7
  rw [View.canon_unit_zero hz]
  simp only [View.ld_unit_zero (S := S5000x128) hz, View.ld_unit_zero (S := S1x128) hz, View.ld_unit_zero (S := S128x128) hz, View.ld_unit_zero (S := S5000x1) hz]
  rw [read_blk6_7 t]
  show k6_pay1 (iblk6 V c 2 t) (iblk6 V c 0 t) (iblk6 V c 1 t) (iblk6 V c 3 t) (iblk6 V c 4 t) (iblk6 V c 5 t) = _
  unfold iblk6
  rw [read_blk6_2 t, read_blk6_0 t, read_blk6_1 t, read_blk6_3 t, read_blk6_4 t, read_blk6_5 t, k6_pay1_eq, normRelu_rowsFrom, mm_rowsFrom]

set_option maxHeartbeats 1000000 in
/-- Point `t` writes back to the second result its block of rows of that product with the rows scaled. -/
theorem flushed6_8_eq (c : Dev nD) (t : Fin cfg6.N) :
    (dat6 (F := Ideal) V c).flushed 8 t
      = ((cfg6.win 8).blk t).view.read (Elt Ideal) (scaleRows (mm (normRelu (V c main_v56_0 : S50000x128.Idx → EReal) (V c main_v58 : S1x128.Idx → EReal) (V c main_v61 : S1x128.Idx → EReal) (V c main_v64 : S1x128.Idx → EReal) (V c main_v67 : S1x128.Idx → EReal)) (V c main_v69 : S128x128.Idx → EReal)) (V c main_v11 : S50000x1.Idx → EReal)) := by
  show (cfg6.win 8).cut (grid6.coords t) ((dat6 V c).after 8 t) = _
  rw [after6_8]
  unfold out6_8
  rw [View.canon_unit_zero hz]
  simp only [View.ld_unit_zero (S := S5000x128) hz, View.ld_unit_zero (S := S1x128) hz, View.ld_unit_zero (S := S128x128) hz, View.ld_unit_zero (S := S5000x1) hz]
  rw [read_blk6_8 t]
  show k6_pay2 (iblk6 V c 2 t) (iblk6 V c 0 t) (iblk6 V c 1 t) (iblk6 V c 3 t) (iblk6 V c 4 t) (iblk6 V c 5 t) (iblk6 V c 6 t) = _
  unfold iblk6
  rw [read_blk6_2 t, read_blk6_0 t, read_blk6_1 t, read_blk6_3 t, read_blk6_4 t, read_blk6_5 t, read_blk6_6 t, k6_pay2_eq, normRelu_rowsFrom, mm_rowsFrom, scaleRows_rowsFrom]

/-! ## The blocks cover the arrays -/

/-- An index of the array is in point `t`'s block of window 7 iff each coordinate is in the block's range on its axis. -/
theorem mem_blk6_7 (t : Fin cfg6.N) (i : S50000x128.Idx) :
    i ∈ ((cfg6.win 7).blk t).view.set ↔ ∀ a : Fin 2, win6_7.index t a * S5000x128.size a ≤ (i a).val ∧ (i a).val < win6_7.index t a * S5000x128.size a + S5000x128.size a := by
  show i ∈ ((View.whole main_v70_0).slice (win6_7.rect t)).set ↔ _
  rw [View.set_slice_whole, Rect.mem_set_unit]
  exact Iff.rfl

/-- Row `r` is in the block of point `r / 5000`, which writes it back: the ten blocks cover the array. -/
theorem rows_cover6_7 (i : S50000x128.Idx) :
    ∃ t : Fin cfg6.N, (cfg6.win 7).flush t = true ∧ i ∈ ((cfg6.win 7).blk t).view.set := by
  have hi0 : (i 0).val < 50000 := (i 0).isLt
  have hi1 : (i 1).val < 128 := (i 1).isLt
  have ht : (i 0).val / 5000 < cfg6.N := lt_of_lt_of_eq (by omega : (i 0).val / 5000 < 10) N_6.symm
  have e0 : win6_7.index ⟨(i 0).val / 5000, ht⟩ (0 : Fin 2) = (i 0).val / 5000 := (idx6 ⟨(i 0).val / 5000, ht⟩).2.2.2.2.2.2.2.2.2.2.2.2.2.2.1
  have e1 : win6_7.index ⟨(i 0).val / 5000, ht⟩ (1 : Fin 2) = 0 := (idx6 ⟨(i 0).val / 5000, ht⟩).2.2.2.2.2.2.2.2.2.2.2.2.2.2.2.1
  refine ⟨⟨(i 0).val / 5000, ht⟩, flush6_7 _, ?_⟩
  rw [mem_blk6_7]
  intro a
  match a with
  | ⟨0, _⟩ =>
    show win6_7.index ⟨(i 0).val / 5000, ht⟩ (0 : Fin 2) * 5000 ≤ (i 0).val ∧ (i 0).val < win6_7.index ⟨(i 0).val / 5000, ht⟩ (0 : Fin 2) * 5000 + 5000
    rw [e0]; omega
  | ⟨1, _⟩ =>
    show win6_7.index ⟨(i 0).val / 5000, ht⟩ (1 : Fin 2) * 128 ≤ (i 1).val ∧ (i 1).val < win6_7.index ⟨(i 0).val / 5000, ht⟩ (1 : Fin 2) * 128 + 128
    rw [e1]; omega

/-- An index of the array is in point `t`'s block of window 8 iff each coordinate is in the block's range on its axis. -/
theorem mem_blk6_8 (t : Fin cfg6.N) (i : S50000x128.Idx) :
    i ∈ ((cfg6.win 8).blk t).view.set ↔ ∀ a : Fin 2, win6_8.index t a * S5000x128.size a ≤ (i a).val ∧ (i a).val < win6_8.index t a * S5000x128.size a + S5000x128.size a := by
  show i ∈ ((View.whole main_v70_1).slice (win6_8.rect t)).set ↔ _
  rw [View.set_slice_whole, Rect.mem_set_unit]
  exact Iff.rfl

/-- Row `r` is in the block of point `r / 5000`, which writes it back: the ten blocks cover the array. -/
theorem rows_cover6_8 (i : S50000x128.Idx) :
    ∃ t : Fin cfg6.N, (cfg6.win 8).flush t = true ∧ i ∈ ((cfg6.win 8).blk t).view.set := by
  have hi0 : (i 0).val < 50000 := (i 0).isLt
  have hi1 : (i 1).val < 128 := (i 1).isLt
  have ht : (i 0).val / 5000 < cfg6.N := lt_of_lt_of_eq (by omega : (i 0).val / 5000 < 10) N_6.symm
  have e0 : win6_8.index ⟨(i 0).val / 5000, ht⟩ (0 : Fin 2) = (i 0).val / 5000 := (idx6 ⟨(i 0).val / 5000, ht⟩).2.2.2.2.2.2.2.2.2.2.2.2.2.2.2.2.1
  have e1 : win6_8.index ⟨(i 0).val / 5000, ht⟩ (1 : Fin 2) = 0 := (idx6 ⟨(i 0).val / 5000, ht⟩).2.2.2.2.2.2.2.2.2.2.2.2.2.2.2.2.2
  refine ⟨⟨(i 0).val / 5000, ht⟩, flush6_8 _, ?_⟩
  rw [mem_blk6_8]
  intro a
  match a with
  | ⟨0, _⟩ =>
    show win6_8.index ⟨(i 0).val / 5000, ht⟩ (0 : Fin 2) * 5000 ≤ (i 0).val ∧ (i 0).val < win6_8.index ⟨(i 0).val / 5000, ht⟩ (0 : Fin 2) * 5000 + 5000
    rw [e0]; omega
  | ⟨1, _⟩ =>
    show win6_8.index ⟨(i 0).val / 5000, ht⟩ (1 : Fin 2) * 128 ≤ (i 1).val ∧ (i 1).val < win6_8.index ⟨(i 0).val / 5000, ht⟩ (1 : Fin 2) * 128 + 128
    rw [e1]; omega

/-! ## The result arrays after the region -/

/-- After the region the first result array is the normalised feature array times the weights. -/
theorem region6_h (c : Dev nD) :
    (dat6 (F := Ideal) V c).arrAt 7 cfg6.N
      = mm (normRelu (V c main_v56_0 : S50000x128.Idx → EReal) (V c main_v58 : S1x128.Idx → EReal) (V c main_v61 : S1x128.Idx → EReal) (V c main_v64 : S1x128.Idx → EReal) (V c main_v67 : S1x128.Idx → EReal)) (V c main_v69 : S128x128.Idx → EReal) :=
  (dat6 V c).arrAt_eq_of_cover 7 _ (fun t _ => flushed6_7_eq V c t) rows_cover6_7

/-- After the region the second result array is that product with row `r` scaled by the column's entry `r`. -/
theorem region6_hs (c : Dev nD) :
    (dat6 (F := Ideal) V c).arrAt 8 cfg6.N
      = scaleRows (mm (normRelu (V c main_v56_0 : S50000x128.Idx → EReal) (V c main_v58 : S1x128.Idx → EReal) (V c main_v61 : S1x128.Idx → EReal) (V c main_v64 : S1x128.Idx → EReal) (V c main_v67 : S1x128.Idx → EReal)) (V c main_v69 : S128x128.Idx → EReal)) (V c main_v11 : S50000x1.Idx → EReal) :=
  (dat6 V c).arrAt_eq_of_cover 8 _ (fun t _ => flushed6_8_eq V c t) rows_cover6_8

end Cert.KernelIdeal.RegionValue

end
-- ==== Proof.ChainL1.lean ====
/-
  Layer 1 of the idealized kernel program, segment by segment, read as the model's layer.

  The same text as layer 0 with the buffers of the second layer: factored aggregation, column means and variances,
  and the next layer's product.
-/
import proofs.«168746_j56882546868465_2_alg».proof.Proof.Gen.KernelIdeal.Frame
import proofs.«168746_j56882546868465_2_alg».proof.Proof.ChainL0
import proofs.«168746_j56882546868465_2_alg».proof.Proof.Region4
import proofs.«168746_j56882546868465_2_alg».proof.Proof.Region5
import proofs.«168746_j56882546868465_2_alg».proof.Proof.Region6

set_option maxRecDepth 16384

noncomputable section

namespace Cert.KernelIdeal.Chain

open Cert.KernelIdeal Cert.KernelIdeal.Gen Cert.KernelIdeal.RegionValue
open Idealize.ShloMosaic Idealize.ShloMosaic.TcCoe Idealize.ShloMosaic.StableHlo Idealize.SL.Sem Idealize.ShloMosaic.ValueIdx
open Cert.GCN

variable (m : (ℓ : Loc nD τ sig) → Buf (Elt Ideal) ℓ) (ρ : Dev nD → PrngReg) (c : Dev nD)

-- The `dis` column is never opened here: it is an inverse square root of a sum over all 800000 edges.
attribute [local irreducible] Cert.GCN.disColOf

/-! ## Layer 1 -/

set_option maxHeartbeats 4000000 in
/-- The aggregated rows, over the scaled features as the stretch finds them: gathered along the source column and
    summed into the target rows. -/
theorem W9_main_v52_raw : (W9 (F := Ideal) m ρ c (Proc.devRef .tc main_v52) : S50000x128.Idx → EReal)
    = segSum (G m c).dstS (gatherRows (by decide : 0 < 50000) (G m c).srcG
        (W8 m ρ c (Proc.devRef .tc main_v42_1) : S50000x128.Idx → EReal)) := by
  dsimp only [W9]
  after_results
  rw [scatterAdd_zeros_eq_segSum _ rfl rfl rfl rfl _ (fun i => bcast_zero_apply _ i),
    gather_eq_gatherRows (by decide : 0 < 50000) _ rfl rfl rfl rfl rfl rfl rfl, wrapCol_read,
    keep_main_v1_1_8, keep_main_v3_1_8, W1_v1_col, W1_v3_col]
  rfl

theorem W9_main_v52 : (W9 (F := Ideal) m ρ c (Proc.devRef .tc main_v52) : S50000x128.Idx → EReal)
    = segSum (G m c).dstS (gatherRows (by decide : 0 < 50000) (G m c).srcG (scaleRows (mm (X1 m c) (wSlice (A3 m c) 1)) (G m c).dis)) := by
  rw [W9_main_v52_raw, W8_main_v42_1]

set_option maxHeartbeats 4000000 in
/-- The bias row of the layer. -/
theorem W9_main_v55 : (W9 (F := Ideal) m ρ c (Proc.devRef .tc main_v55) : S1x128.Idx → EReal) = rowSlice (A4 m c) 1 := by
  dsimp only [W9]
  after_results
  rw [keep_main_arg4_0_8]
  exact rowSlice_read 1 (by decide) (A4 m c) _ _ _

/-- The first statistics region leaves the aggregation in its factored form … -/
theorem W10_main_v56_0 : (W10 (F := Ideal) m ρ c (Proc.devRef .tc main_v56_0) : S50000x128.Idx → EReal) = aggFactored (G m c) (mm (X1 m c) (wSlice (A3 m c) 1)) (rowSlice (A4 m c) 1) := by
  refine (W10_arr m ρ c 4).trans ?_
  rw [region4_hnew (V9 m ρ) c]
  show combine (W9 m ρ c (Proc.devRef .tc main_v52)) (W9 m ρ c (Proc.devRef .tc main_v42_0))
    (W9 m ρ c (Proc.devRef .tc main_v11)) (W9 m ρ c (Proc.devRef .tc main_v55)) = _
  rw [W9_main_v52, keep_main_v42_0_8_9, W8_main_v42_0, keep_main_v11_1_9, W1_v11, W9_main_v55]
  rfl

/-- … and its column sums. -/
theorem W10_main_v56_1 : (W10 (F := Ideal) m ρ c (Proc.devRef .tc main_v56_1) : S1x128.Idx → EReal) = colSum (aggFactored (G m c) (mm (X1 m c) (wSlice (A3 m c) 1)) (rowSlice (A4 m c) 1)) := by
  refine (W10_arr m ρ c 5).trans ?_
  rw [region4_sum (V9 m ρ) c]
  show colSum (combine (W9 m ρ c (Proc.devRef .tc main_v52)) (W9 m ρ c (Proc.devRef .tc main_v42_0))
    (W9 m ρ c (Proc.devRef .tc main_v11)) (W9 m ρ c (Proc.devRef .tc main_v55))) = _
  rw [W9_main_v52, keep_main_v42_0_8_9, W8_main_v42_0, keep_main_v11_1_9, W1_v11, W9_main_v55]
  rfl

set_option maxHeartbeats 4000000 in
/-- The column means: the column sums divided by the node count. -/
theorem W11_main_v58_raw : (W11 (F := Ideal) m ρ c (Proc.devRef .tc main_v58) : S1x128.Idx → EReal)
    = fun j => Ideal.div ((W10 m ρ c (Proc.devRef .tc main_v56_1) : S1x128.Idx → EReal) j) nNodes := by
  dsimp only [W11]
  after_results
  rfl
theorem W11_main_v58 : (W11 (F := Ideal) m ρ c (Proc.devRef .tc main_v58) : S1x128.Idx → EReal) = meanRow nNodes (aggFactored (G m c) (mm (X1 m c) (wSlice (A3 m c) 1)) (rowSlice (A4 m c) 1)) := by
  rw [W11_main_v58_raw, W10_main_v56_1]
  rfl

/-- The column sums of the squared deviations from the means. -/
theorem W12_main_v59 : (W12 (F := Ideal) m ρ c (Proc.devRef .tc main_v59) : S1x128.Idx → EReal)
    = colSum (sqDev (aggFactored (G m c) (mm (X1 m c) (wSlice (A3 m c) 1)) (rowSlice (A4 m c) 1)) (meanRow nNodes (aggFactored (G m c) (mm (X1 m c) (wSlice (A3 m c) 1)) (rowSlice (A4 m c) 1)))) := by
  refine (W12_arr m ρ c 2).trans ?_
  rw [region5_sumsq (V11 m ρ) c]
  show colSum (sqDev (W11 m ρ c (Proc.devRef .tc main_v56_0)) (W11 m ρ c (Proc.devRef .tc main_v58))) = _
  rw [keep_main_v56_0_10_11, W10_main_v56_0, W11_main_v58]

set_option maxHeartbeats 4000000 in
/-- The column variances: those sums divided by the node count. -/
theorem W13_main_v61_raw : (W13 (F := Ideal) m ρ c (Proc.devRef .tc main_v61) : S1x128.Idx → EReal)
    = fun j => Ideal.div ((W12 m ρ c (Proc.devRef .tc main_v59) : S1x128.Idx → EReal) j) nNodes := by
  dsimp only [W13]
  after_results
  rfl
theorem W13_main_v61 : (W13 (F := Ideal) m ρ c (Proc.devRef .tc main_v61) : S1x128.Idx → EReal) = varRow nNodes (aggFactored (G m c) (mm (X1 m c) (wSlice (A3 m c) 1)) (rowSlice (A4 m c) 1)) := by
  rw [W13_main_v61_raw, W12_main_v59]
  rfl

set_option maxHeartbeats 4000000 in
/-- The scale and shift rows and the next weight slice. -/
theorem W13_main_v64 : (W13 (F := Ideal) m ρ c (Proc.devRef .tc main_v64) : S1x128.Idx → EReal) = rowSlice (A5 m c) 1 := by
  dsimp only [W13]
  after_results
  rw [keep_main_arg5_0_12]
  exact rowSlice_read 1 (by decide) (A5 m c) _ _ _
set_option maxHeartbeats 4000000 in
theorem W13_main_v67 : (W13 (F := Ideal) m ρ c (Proc.devRef .tc main_v67) : S1x128.Idx → EReal) = rowSlice (A6 m c) 1 := by
  dsimp only [W13]
  after_results
  rw [keep_main_arg6_0_12]
  exact rowSlice_read 1 (by decide) (A6 m c) _ _ _
set_option maxHeartbeats 4000000 in
theorem W13_main_v69 : (W13 (F := Ideal) m ρ c (Proc.devRef .tc main_v69) : S128x128.Idx → EReal) = wSlice (A3 m c) 2 := by
  dsimp only [W13]
  after_results
  rw [keep_main_arg3_0_12]
  exact wSlice_read 2 (by decide) (A3 m c) _ _

/-- The layer's output, as the model's layer with the factored aggregation. -/
abbrev X2 : (⟨2, ![50000, 128]⟩ : Shape).Idx → EReal := layerF (G m c) (X1 m c) (wSlice (A3 m c) 1) (rowSlice (A4 m c) 1) (rowSlice (A5 m c) 1) (rowSlice (A6 m c) 1)

/-- The normalise-and-multiply region leaves the next layer's `h` … -/
theorem W14_main_v70_0 : (W14 (F := Ideal) m ρ c (Proc.devRef .tc main_v70_0) : S50000x128.Idx → EReal) = mm (X2 m c) (wSlice (A3 m c) 2) := by
  refine (W14_arr m ρ c 7).trans ?_
  rw [region6_h (V13 m ρ) c]
  show mm (normRelu (W13 m ρ c (Proc.devRef .tc main_v56_0)) (W13 m ρ c (Proc.devRef .tc main_v58)) (W13 m ρ c (Proc.devRef .tc main_v61))
    (W13 m ρ c (Proc.devRef .tc main_v64)) (W13 m ρ c (Proc.devRef .tc main_v67))) (W13 m ρ c (Proc.devRef .tc main_v69)) = _
  rw [keep_main_v56_0_10_13, W10_main_v56_0, keep_main_v58_11_13, W11_main_v58, W13_main_v61, W13_main_v64, W13_main_v67, W13_main_v69]
  rfl

/-- … and it scaled by `dis`. -/
theorem W14_main_v70_1 : (W14 (F := Ideal) m ρ c (Proc.devRef .tc main_v70_1) : S50000x128.Idx → EReal)
    = scaleRows (mm (X2 m c) (wSlice (A3 m c) 2)) (G m c).dis := by
  refine (W14_arr m ρ c 8).trans ?_
  rw [region6_hs (V13 m ρ) c]
  show scaleRows (mm (normRelu (W13 m ρ c (Proc.devRef .tc main_v56_0)) (W13 m ρ c (Proc.devRef .tc main_v58)) (W13 m ρ c (Proc.devRef .tc main_v61))
    (W13 m ρ c (Proc.devRef .tc main_v64)) (W13 m ρ c (Proc.devRef .tc main_v67))) (W13 m ρ c (Proc.devRef .tc main_v69)))
    (W13 m ρ c (Proc.devRef .tc main_v11)) = _
  rw [keep_main_v56_0_10_13, W10_main_v56_0, keep_main_v58_11_13, W11_main_v58, W13_main_v61, W13_main_v64, W13_main_v67, W13_main_v69,
    keep_main_v11_1_13, W1_v11]
  rfl

end Cert.KernelIdeal.Chain

end
-- ==== Proof.Region7.lean ====
/-
  Region 7 of the network's program: the aggregation step of one layer and the first pass of its column
  normalisation.

  The region walks the 50000 rows in ten blocks of 5000 rows.  At every step it forms, entry by entry, the block
  `d r * (agg (r, q) + d r * h (r, q)) + cb q` from the blocks of `agg` and `h`, the block of the column `d` and the
  row `cb`, and writes it to the same rows of the first result.  A row of 128 running totals stays in place across the
  ten steps: the first step sets it to zero, every step adds the column sums of the block just formed, and the row is
  written out once, after the last step, as the second result.  So the first result is the combination on all 50000
  rows, and the second is, at column `q`, the ten block sums added one after another to zero; regrouped, the sum of
  column `q` of the first result over all 50000 rows.  Addition of extended reals is commutative and associative, so
  the regrouping needs no finiteness.

  Row `r` of a block at step `t` is row `5000 t + r` of its array; the row `cb` and the row of totals are their whole
  arrays.
-/
import proofs.«168746_j56882546868465_2_alg».proof.Proof.Gen.KernelIdeal.Frame
import proofs.«168746_j56882546868465_2_alg».proof.Proof.Spec
import proofs.«168746_j56882546868465_2_alg».proof.Proof.RegionR_Payload
import Idealize.ShloMosaic.Lib.Pipeline.Value
import Idealize.ShloMosaic.Lib.Tactic

noncomputable section

open scoped BigOperators

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.GCN

/-! ## What one step leaves in the two result buffers -/

section AnyValues

variable {F : FTy → Type} [FloatOps F]

/-- A later step leaves in the block buffer the body's one store there, -/
theorem r7_out_B_4 (c : Dev nD) (i : grid7.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S1x128 .f32) (h6 : a6.IsWhole)
    (hc : ¬cond7_0 i) (x0 x1 : Vec F S5000x128 .f32) (x2 : Vec F S5000x1 .f32) (x3 : Vec F S1x128 .f32) (xo : Vec F S1x128 .f32) :
    out7_B_4 c i a1 h1 a2 h2 a3 h3 a4 h4 a5 h5 a6 h6 hc x0 x1 x2 x3 xo = k7_pay2 x2 x0 x1 x3 := by
  unfold out7_B_4
  rw [View.read_writes_eq_canon _ _ _ (cover7_B_4 c i a1 h1 a2 h2 a3 h3 a4 h4 a5 h5 a6 h6 hc x0 x1 x2 x3 xo)]
  unfold kernelRun7_B
  dsimp only
  rw [View.canon_unit_zero hzR]
  simp only [View.readAt_eq_ld, h1.read_unread, h2.read_unread, h3.read_unread, h4.read_unread, h6.read_unread,
    View.ld_unit_zero (S := S5000x128) hzR, View.ld_unit_zero (S := S1x128) hzR, View.ld_unit_zero (S := S5000x1) hzR]

/-- and in the row of totals the body's one store there, computed from the totals so far. -/
theorem r7_out_B_5 (c : Dev nD) (i : grid7.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S1x128 .f32) (h6 : a6.IsWhole)
    (hc : ¬cond7_0 i) (x0 x1 : Vec F S5000x128 .f32) (x2 : Vec F S5000x1 .f32) (x3 : Vec F S1x128 .f32) (xo : Vec F S1x128 .f32) :
    out7_B_5 c i a1 h1 a2 h2 a3 h3 a4 h4 a5 h5 a6 h6 hc x0 x1 x2 x3 xo = k7_pay3 x2 x0 x1 x3 xo := by
  unfold out7_B_5
  rw [View.read_writes_eq_canon _ _ _ (cover7_B_5 c i a1 h1 a2 h2 a3 h3 a4 h4 a5 h5 a6 h6 hc x0 x1 x2 x3 xo)]
  unfold kernelRun7_B
  dsimp only
  rw [View.canon_unit_zero hzR]
  simp only [View.readAt_eq_ld, h1.read_unread, h2.read_unread, h3.read_unread, h4.read_unread, h6.read_unread,
    View.ld_unit_zero (S := S5000x128) hzR, View.ld_unit_zero (S := S1x128) hzR, View.ld_unit_zero (S := S5000x1) hzR]

/-- The first step leaves the same block, -/
theorem r7_out_A_4 (c : Dev nD) (i : grid7.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S1x128 .f32) (h6 : a6.IsWhole)
    (hc : cond7_0 i) (x0 x1 : Vec F S5000x128 .f32) (x2 : Vec F S5000x1 .f32) (x3 : Vec F S1x128 .f32) :
    out7_A_4 c i a1 h1 a2 h2 a3 h3 a4 h4 a5 h5 a6 h6 hc x0 x1 x2 x3 = k7_pay2 x2 x0 x1 x3 := by
  unfold out7_A_4
  rw [View.read_writes_eq_canon _ _ _ (cover7_A_4 c i a1 h1 a2 h2 a3 h3 a4 h4 a5 h5 a6 h6 hc x0 x1 x2 x3)]
  unfold kernelRun7_A
  dsimp only
  rw [View.canon_unit_zero hzR]
  simp only [View.readAt_eq_ld, h1.read_unread, h2.read_unread, h3.read_unread, h4.read_unread,
    View.ld_unit_zero (S := S5000x128) hzR, View.ld_unit_zero (S := S1x128) hzR, View.ld_unit_zero (S := S5000x1) hzR]

/-- and in the row of totals the zero row stored first, read back, and the totals stored over it. -/
theorem r7_out_A_5 (c : Dev nD) (i : grid7.Coords) (a1 : Memref sig .tc .vmem S5000x128 .f32) (h1 : a1.IsWhole)
    (a2 : Memref sig .tc .vmem S5000x128 .f32) (h2 : a2.IsWhole) (a3 : Memref sig .tc .vmem S5000x1 .f32) (h3 : a3.IsWhole)
    (a4 : Memref sig .tc .vmem S1x128 .f32) (h4 : a4.IsWhole) (a5 : Memref sig .tc .vmem S5000x128 .f32) (h5 : a5.IsWhole)
    (a6 : Memref sig .tc .vmem S1x128 .f32) (h6 : a6.IsWhole)
    (hc : cond7_0 i) (x0 x1 : Vec F S5000x128 .f32) (x2 : Vec F S5000x1 .f32) (x3 : Vec F S1x128 .f32) :
    out7_A_5 c i a1 h1 a2 h2 a3 h3 a4 h4 a5 h5 a6 h6 hc x0 x1 x2 x3 = k7_pay3 x2 x0 x1 x3 k7_pay1 := by
  unfold out7_A_5
  rw [View.read_writes_eq_canon _ _ _ (cover7_A_5 c i a1 h1 a2 h2 a3 h3 a4 h4 a5 h5 a6 h6 hc x0 x1 x2 x3)]
  unfold kernelRun7_A
  dsimp only
  sl_unfold_words
  rw [View.canon_cons_unit_zero (S := S1x128) hzR, View.readCov_unit_zero (S := S1x128) _ hzR]
  simp only [View.readAt_eq_ld, h1.read_unread, h2.read_unread, h3.read_unread, h4.read_unread,
    View.ld_unit_zero (S := S5000x128) hzR, View.ld_unit_zero (S := S1x128) hzR, View.ld_unit_zero (S := S5000x1) hzR]

/-- The block index of `agg`, `h`, the column `d` and the first result at step `t` is `(t, 0)`; the rows `cb` and of
    totals are always block `(0, 0)`. -/
theorem r7_idx : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0 :=
  (by decide +kernel : ∀ t : Fin grid7.N, _)

end AnyValues

/-! ## The blocks over the extended reals -/

variable (V : (c : Dev nD) → (b : Ref sig .tc) → Buf (Elt Ideal) ((c : Thread nD τ).loc b))

/-- The four operand arrays and their blocks at step `t`, as functions into the extended reals. -/
abbrev r7_A (c : Dev nD) : S50000x128.Idx → EReal := V c main_v80
abbrev r7_H (c : Dev nD) : S50000x128.Idx → EReal := V c main_v70_0
abbrev r7_D (c : Dev nD) : S50000x1.Idx → EReal := V c main_v11
abbrev r7_CB (c : Dev nD) : S1x128.Idx → EReal := V c main_v83
abbrev r7_ab (c : Dev nD) (t : Fin cfg7.N) : FVec Ideal S5000x128 .f32 := iblk7 V c 0 t
abbrev r7_hb (c : Dev nD) (t : Fin cfg7.N) : FVec Ideal S5000x128 .f32 := iblk7 V c 1 t
abbrev r7_db (c : Dev nD) (t : Fin cfg7.N) : FVec Ideal S5000x1 .f32 := iblk7 V c 2 t
abbrev r7_cb (c : Dev nD) (t : Fin cfg7.N) : FVec Ideal S1x128 .f32 := iblk7 V c 3 t

/-- Row `r` of the block of `agg` at step `t` is row `5000 t + r` of `agg`. -/
theorem r7_blk0 (c : Dev nD) (t : Fin cfg7.N) (r : Fin 5000) (q : Fin 128) (hb : 5000 * t.val + r.val < 50000) :
    r7_ab V c t (ix2 r q) = r7_A V c (ix2 ⟨5000 * t.val + r.val, hb⟩ q) := by
  obtain ⟨e0, e1, -⟩ := r7_idx t
  unfold r7_ab r7_A iblk7
  rw [View.read_apply]
  show V c main_v80 _ = V c main_v80 _
  congr 1
  funext a
  apply Fin.ext
  match a with
  | ⟨0, _⟩ => show win7_0.index t (0 : Fin 2) * 5000 + 1 * r.val = 5000 * t.val + r.val; rw [e0]; omega
  | ⟨1, _⟩ => show win7_0.index t (1 : Fin 2) * 128 + 1 * q.val = q.val; rw [e1]; omega

/-- Row `r` of the block of `h` at step `t` is row `5000 t + r` of `h`. -/
theorem r7_blk1 (c : Dev nD) (t : Fin cfg7.N) (r : Fin 5000) (q : Fin 128) (hb : 5000 * t.val + r.val < 50000) :
    r7_hb V c t (ix2 r q) = r7_H V c (ix2 ⟨5000 * t.val + r.val, hb⟩ q) := by
  obtain ⟨-, -, e0, e1, -⟩ := r7_idx t
  unfold r7_hb r7_H iblk7
  rw [View.read_apply]
  show V c main_v70_0 _ = V c main_v70_0 _
  congr 1
  funext a
  apply Fin.ext
  match a with
  | ⟨0, _⟩ => show win7_1.index t (0 : Fin 2) * 5000 + 1 * r.val = 5000 * t.val + r.val; rw [e0]; omega
  | ⟨1, _⟩ => show win7_1.index t (1 : Fin 2) * 128 + 1 * q.val = q.val; rw [e1]; omega

/-- Row `r` of the block of the column `d` at step `t` is row `5000 t + r` of `d`. -/
theorem r7_blk2 (c : Dev nD) (t : Fin cfg7.N) (r : Fin 5000) (u : Fin 1) (hb : 5000 * t.val + r.val < 50000) :
    r7_db V c t (ix2 r u) = r7_D V c (ix2 ⟨5000 * t.val + r.val, hb⟩ u) := by
  obtain ⟨-, -, -, -, e0, e1, -⟩ := r7_idx t
  unfold r7_db r7_D iblk7
  rw [View.read_apply]
  show V c main_v11 _ = V c main_v11 _
  congr 1
  funext a
  apply Fin.ext
  match a with
  | ⟨0, _⟩ => show win7_2.index t (0 : Fin 2) * 5000 + 1 * r.val = 5000 * t.val + r.val; rw [e0]; omega
  | ⟨1, _⟩ => show win7_2.index t (1 : Fin 2) * 1 + 1 * u.val = u.val; rw [e1]; omega

/-- The block of `cb` at any step is `cb`. -/
theorem r7_blk3 (c : Dev nD) (t : Fin cfg7.N) (u : Fin 1) (q : Fin 128) :
    r7_cb V c t (ix2 u q) = r7_CB V c (ix2 u q) := by
  obtain ⟨-, -, -, -, -, -, e0, e1, -⟩ := r7_idx t
  unfold r7_cb r7_CB iblk7
  rw [View.read_apply]
  show V c main_v83 _ = V c main_v83 _
  congr 1
  funext a
  apply Fin.ext
  match a with
  | ⟨0, _⟩ => show win7_3.index t (0 : Fin 2) * 1 + 1 * u.val = u.val; rw [e0]; omega
  | ⟨1, _⟩ => show win7_3.index t (1 : Fin 2) * 128 + 1 * q.val = q.val; rw [e1]; omega

/-- The combination on all 50000 rows. -/
abbrev r7_G (c : Dev nD) : S50000x128.Idx → EReal := combine (r7_A V c) (r7_H V c) (r7_D V c) (r7_CB V c)

/-- The block formed at step `t` is, at `(r, q)`, the combination at row `5000 t + r`. -/
theorem r7_pay2_eq (c : Dev nD) (t : Fin cfg7.N) (r : Fin 5000) (q : Fin 128) (hb : 5000 * t.val + r.val < 50000) :
    k7_pay2 (F := Ideal) (r7_db V c t) (r7_ab V c t) (r7_hb V c t) (r7_cb V c t) (ix2 r q)
      = r7_G V c (ix2 ⟨5000 * t.val + r.val, hb⟩ q) := by
  rw [k7_pay2_apply, r7_blk0 V c t r q hb, r7_blk1 V c t r q hb, r7_blk2 V c t r 0 hb, r7_blk3 V c t 0 q]
  rfl

/-- What every step leaves in the block buffer. -/
theorem r7_hnew_blk (c : Dev nD) (t : Fin cfg7.N) :
    (outsAt7 V c t.val t.isLt).1 = k7_pay2 (F := Ideal) (r7_db V c t) (r7_ab V c t) (r7_hb V c t) (r7_cb V c t) := by
  by_cases h0 : t.val % 10 = 0
  · rw [outsAt7_A V c t h0]
    dsimp only
    rw [r7_out_A_4 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (iblk7 V c 0 t) (iblk7 V c 1 t) (iblk7 V c 2 t) (iblk7 V c 3 t)]
  · rw [outsAt7_B V c t h0]
    dsimp only
    rw [r7_out_B_4 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (iblk7 V c 0 t) (iblk7 V c 1 t) (iblk7 V c 2 t) (iblk7 V c 3 t)
      (outsAt7 V c (t.val - 1) (Nat.lt_of_le_of_lt (Nat.sub_le _ _) t.isLt)).2]

/-! ## The running totals -/

/-- Column `q` of the combination, as a function of the row. -/
abbrev r7_col (c : Dev nD) (q : Fin 128) : Fin 50000 → EReal := fun s => r7_G V c (ix2 s q)

/-- What step `t` adds at column `q`: the sum of column `q` over rows `5000 t … 5000 t + 4999`. -/
abbrev r7_tile (c : Dev nD) (q : Fin 128) (j : ℕ) : EReal := ∑ r : Fin 5000, rowTerm (r7_col V c q) (5000 * j + r.val)

/-- The block sum the body forms at step `t` is that tile sum. -/
theorem r7_tile_eq (c : Dev nD) (t : Fin cfg7.N) (q : Fin 128) :
    ∑ r : Fin 5000, k7_pay2 (F := Ideal) (r7_db V c t) (r7_ab V c t) (r7_hb V c t) (r7_cb V c t) (ix2 r q) = r7_tile V c q t.val := by
  have hN : t.val < 10 := lt_of_lt_of_eq t.isLt (show cfg7.N = 10 from N_7)
  refine Finset.sum_congr rfl fun r _ => ?_
  have hb : 5000 * t.val + r.val < 50000 := by have := r.isLt; omega
  rw [rowTerm_of_lt _ _ hb, r7_pay2_eq V c t r q hb]

/-- After the first step the totals are zero plus the first tile sum. -/
theorem r7_first (c : Dev nD) (q : Fin 128) (h : 0 < cfg7.N) :
    (outsAt7 V c 0 h).2 (ix2 (0 : Fin 1) q) = 0 + r7_tile V c q 0 := by
  have e := outsAt7_A V c ⟨0, h⟩ rfl
  dsimp only at e
  rw [e]
  dsimp only
  rw [r7_out_A_5 c (grid7.coords ⟨0, h⟩) (ms7_0 ⟨0, h⟩) (hs7_0 ⟨0, h⟩) (ms7_1 ⟨0, h⟩) (hs7_1 ⟨0, h⟩) (ms7_2 ⟨0, h⟩) (hs7_2 ⟨0, h⟩) (ms7_3 ⟨0, h⟩) (hs7_3 ⟨0, h⟩) (ms7_4 ⟨0, h⟩) (hs7_4 ⟨0, h⟩) (ms7_5 ⟨0, h⟩) (hs7_5 ⟨0, h⟩)
    ((hcond7_0 ⟨0, h⟩).mpr rfl) (iblk7 V c 0 ⟨0, h⟩) (iblk7 V c 1 ⟨0, h⟩) (iblk7 V c 2 ⟨0, h⟩) (iblk7 V c 3 ⟨0, h⟩)]
  refine (k7_pay3_apply (r7_db V c ⟨0, h⟩) (r7_ab V c ⟨0, h⟩) (r7_hb V c ⟨0, h⟩) (r7_cb V c ⟨0, h⟩) (k7_pay1 (F := Ideal)) q).trans ?_
  rw [k7_pay1_apply, r7_tile_eq V c ⟨0, h⟩ q]

/-- A later step adds its tile sum to what the step before left. -/
theorem r7_later (c : Dev nD) (q : Fin 128) (n : ℕ) (h : n + 1 < cfg7.N) :
    (outsAt7 V c (n + 1) h).2 (ix2 (0 : Fin 1) q)
      = (outsAt7 V c n (Nat.lt_of_succ_lt h)).2 (ix2 (0 : Fin 1) q) + r7_tile V c q (n + 1) := by
  have hN : cfg7.N = 10 := N_7
  have hB : ¬(⟨n + 1, h⟩ : Fin cfg7.N).val % 10 = 0 := by dsimp only; omega
  have e := outsAt7_B V c ⟨n + 1, h⟩ hB
  dsimp only at e
  rw [e]
  dsimp only
  rw [r7_out_B_5 c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩) (ms7_3 ⟨n + 1, h⟩) (hs7_3 ⟨n + 1, h⟩) (ms7_4 ⟨n + 1, h⟩) (hs7_4 ⟨n + 1, h⟩) (ms7_5 ⟨n + 1, h⟩) (hs7_5 ⟨n + 1, h⟩)
    (fun hh => hB ((hcond7_0 ⟨n + 1, h⟩).mp hh)) (iblk7 V c 0 ⟨n + 1, h⟩) (iblk7 V c 1 ⟨n + 1, h⟩) (iblk7 V c 2 ⟨n + 1, h⟩) (iblk7 V c 3 ⟨n + 1, h⟩)
    (outsAt7 V c (n + 1 - 1) (Nat.lt_of_le_of_lt (Nat.sub_le _ _) h)).2]
  refine (k7_pay3_apply (r7_db V c ⟨n + 1, h⟩) (r7_ab V c ⟨n + 1, h⟩) (r7_hb V c ⟨n + 1, h⟩) (r7_cb V c ⟨n + 1, h⟩) _ q).trans ?_
  rw [r7_tile_eq V c ⟨n + 1, h⟩ q]
  rfl

/-- So after step `n` the totals are the first `n + 1` tile sums added up. -/
theorem r7_totals (c : Dev nD) (q : Fin 128) (n : ℕ) (h : n < cfg7.N) :
    (outsAt7 V c n h).2 (ix2 (0 : Fin 1) q) = ∑ j ∈ Finset.range (n + 1), r7_tile V c q j :=
  acc_eq_sum cfg7.N (fun n h => (outsAt7 V c n h).2 (ix2 (0 : Fin 1) q)) (r7_tile V c q)
    (fun h => r7_first V c q h) (fun n h => r7_later V c q n h) n h

/-! ## The two arrays the region writes -/

/-- The combination, as contents of the first result array; its column sums, as contents of the second. -/
abbrev r7_hnewres (c : Dev nD) : Buf (Elt Ideal) ((c : Thread nD τ).loc main_v84_0) := r7_G V c
abbrev r7_sumres (c : Dev nD) : Buf (Elt Ideal) ((c : Thread nD τ).loc main_v84_1) := colSum (r7_G V c)

/-- After the last step the row of totals holds the column sums. -/
theorem r7_last (c : Dev nD) (t : Fin cfg7.N) (h9 : t.val = 9) :
    (outsAt7 V c t.val t.isLt).2 = r7_sumres V c := by
  refine row_ext _ _ fun q => ?_
  rw [r7_totals V c q t.val t.isLt, h9]
  exact sum_rowTerm_tiles (r7_col V c q)

/-- The one write-back of the totals, after the last step, writes them. -/
theorem r7_flushed5 (c : Dev nD) (t : Fin cfg7.N) (hf : (cfg7.win 5).flush t = true) :
    (dat7 (F := Ideal) V c).flushed 5 t = ((cfg7.win 5).blk t).view.read (Elt Ideal) (r7_sumres V c) := by
  have hN : cfg7.N = 10 := N_7
  have h9 : t.val = 9 := by have := (flush7_5 t).mp hf; have := t.isLt; omega
  show (cfg7.win 5).cut (grid7.coords t) ((dat7 V c).after 5 t) = _
  rw [after7_5, r7_last V c t h9]
  obtain rfl : t = t7_9 := Fin.ext h9
  have hzR' : (fun a => win7_5.index t7_9 a * main_v84_1.ty.shape.size a) = fun _ => 0 := funext fun a => by fin_cases a <;> decide
  exact (Memref.read_access_unit_zero (Elt Ideal) main_v84_1 hzR' (fun a => by rw [congrFun hzR' a]; simp) (r7_sumres V c)).symm

/-- The second result array after the region: at column `q` the sum of column `q` of the combination over all 50000 rows. -/
theorem region7_sum (c : Dev nD) :
    (dat7 (F := Ideal) V c).arrAt 5 cfg7.N
      = colSum (combine (V c main_v80 : S50000x128.Idx → EReal) (V c main_v70_0 : S50000x128.Idx → EReal)
          (V c main_v11 : S50000x1.Idx → EReal) (V c main_v83 : S1x128.Idx → EReal)) :=
  (dat7 (F := Ideal) V c).arrAt_eq_of_cover 5 (r7_sumres V c) (r7_flushed5 V c) fun i =>
    ⟨t7_9, (flush7_5 t7_9).mpr rfl, by
      show i ∈ ((View.whole main_v84_1).slice (win7_5.rect t7_9)).set
      rw [View.set_slice_whole, Rect.mem_set_unit]
      intro a
      have h0 : (i 0 : Nat) < 1 := (i 0).isLt
      have h1 : (i 1 : Nat) < 128 := (i 1).isLt
      match a with
      | ⟨0, _⟩ => show win7_5.index t7_9 0 * win7_5.size 0 ≤ (i 0 : Nat) ∧ (i 0 : Nat) < win7_5.index t7_9 0 * win7_5.size 0 + win7_5.xsize (grid7.coords t7_9) 0
                  rw [show win7_5.index t7_9 0 * win7_5.size 0 = 0 from by decide +kernel, show win7_5.xsize (grid7.coords t7_9) 0 = 1 from by decide +kernel]; omega
      | ⟨1, _⟩ => show win7_5.index t7_9 1 * win7_5.size 1 ≤ (i 1 : Nat) ∧ (i 1 : Nat) < win7_5.index t7_9 1 * win7_5.size 1 + win7_5.xsize (grid7.coords t7_9) 1
                  rw [show win7_5.index t7_9 1 * win7_5.size 1 = 0 from by decide +kernel, show win7_5.xsize (grid7.coords t7_9) 1 = 128 from by decide +kernel]; omega⟩

/-- Every step writes its block back: rows `5000 t … 5000 t + 4999` of the combination. -/
theorem r7_flushed4 (c : Dev nD) (t : Fin cfg7.N) (hf : (cfg7.win 4).flush t = true) :
    (dat7 (F := Ideal) V c).flushed 4 t = ((cfg7.win 4).blk t).view.read (Elt Ideal) (r7_hnewres V c) := by
  have hN : t.val < 10 := lt_of_lt_of_eq t.isLt (show cfg7.N = 10 from N_7)
  obtain ⟨-, -, -, -, -, -, -, -, e0, e1, -⟩ := r7_idx t
  show (cfg7.win 4).cut (grid7.coords t) ((dat7 V c).after 4 t) = _
  rw [after7_4, r7_hnew_blk V c t]
  refine block_ext _ _ fun r q => ?_
  have hb : 5000 * t.val + r.val < 50000 := by have := r.isLt; omega
  refine (r7_pay2_eq V c t r q hb).trans ?_
  rw [View.read_apply]
  show r7_G V c _ = r7_G V c _
  congr 1
  funext a
  apply Fin.ext
  match a with
  | ⟨0, _⟩ => show 5000 * t.val + r.val = win7_4.index t (0 : Fin 2) * 5000 + 1 * r.val; rw [e0]; omega
  | ⟨1, _⟩ => show q.val = win7_4.index t (1 : Fin 2) * 128 + 1 * q.val; rw [e1]; omega

/-- The first result array after the region: the combination on all 50000 rows. -/
theorem region7_hnew (c : Dev nD) :
    (dat7 (F := Ideal) V c).arrAt 4 cfg7.N
      = combine (V c main_v80 : S50000x128.Idx → EReal) (V c main_v70_0 : S50000x128.Idx → EReal)
          (V c main_v11 : S50000x1.Idx → EReal) (V c main_v83 : S1x128.Idx → EReal) :=
  (dat7 (F := Ideal) V c).arrAt_eq_of_cover 4 (r7_hnewres V c) (r7_flushed4 V c) fun i => by
    have hi0 : (i 0 : Nat) < 50000 := (i 0).isLt
    have hi1 : (i 1 : Nat) < 128 := (i 1).isLt
    have hN : cfg7.N = 10 := N_7
    obtain ⟨t, ht⟩ : ∃ t : Fin cfg7.N, t.val = (i 0 : Nat) / 5000 := ⟨⟨(i 0 : Nat) / 5000, by rw [hN]; omega⟩, rfl⟩
    obtain ⟨-, -, -, -, -, -, -, -, e0, e1, -⟩ := r7_idx t
    refine ⟨t, flush7_4 t, ?_⟩
    show i ∈ ((View.whole main_v84_0).slice (win7_4.rect t)).set
    rw [View.set_slice_whole, Rect.mem_set_unit]
    intro a
    match a with
    | ⟨0, _⟩ => show win7_4.index t (0 : Fin 2) * 5000 ≤ (i 0 : Nat) ∧ (i 0 : Nat) < win7_4.index t (0 : Fin 2) * 5000 + 5000
                rw [e0, ht]; omega
    | ⟨1, _⟩ => show win7_4.index t (1 : Fin 2) * 128 ≤ (i 1 : Nat) ∧ (i 1 : Nat) < win7_4.index t (1 : Fin 2) * 128 + 128
                rw [e1]; omega

end Cert.KernelIdeal.RegionValue

end
-- ==== Proof.Region8.lean ====
/-
  Region 8 of the network's program: the second pass of a column normalisation.

  The region walks the 50000 rows of an array `y` in ten blocks of 5000 rows.  A row of 128 running totals stays in
  place across the ten steps: the first step sets it to zero, every step adds to it, column by column, the sum over
  the block's rows of the squared deviations `(y (r, q) - mu q) * (y (r, q) - mu q)` from a fixed row `mu`, and the row
  is written out once, after the last step.  What is written is therefore, at column `q`, the ten block sums added
  one after another to zero; regrouped, that is the sum of the squared deviations over all 50000 rows.  Addition of
  extended reals is commutative and associative, so the regrouping needs no finiteness.

  Row `r` of block `t` is row `5000 t + r` of `y`; the row `mu` and the row of totals are their whole arrays.
-/
import proofs.«168746_j56882546868465_2_alg».proof.Proof.Gen.KernelIdeal.Frame
import proofs.«168746_j56882546868465_2_alg».proof.Proof.Spec
import proofs.«168746_j56882546868465_2_alg».proof.Proof.RegionR_Payload
import Idealize.ShloMosaic.Lib.Pipeline.Value
import Idealize.ShloMosaic.Lib.Tactic

noncomputable section

open scoped BigOperators

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.GCN

/-! ## What one step leaves in the row of totals -/

section AnyValues

variable {F : FTy → Type} [FloatOps F]

/-- A later step: the body's one store puts there its value computed from the block, the row `mu` and the totals so far. -/
theorem r8_out_B (c : Dev nD) (i : grid8.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond8_0 i) (x0 : Vec F S5000x128 .f32) (x1 xo : Vec F S1x128 .f32) :
    out8_B_2 c i a1 h1 a2 h2 a3 h3 hc x0 x1 xo = k8_pay2 x0 x1 xo := by
  unfold out8_B_2
  rw [View.read_writes_eq_canon _ _ _ (cover8_B_2 c i a1 h1 a2 h2 a3 h3 hc x0 x1 xo)]
  unfold kernelRun8_B
  dsimp only
  rw [View.canon_unit_zero hzR]
  simp only [View.readAt_eq_ld, h1.read_unread, h2.read_unread, h3.read_unread, View.ld_unit_zero (S := S5000x128) hzR,
    View.ld_unit_zero (S := S1x128) hzR]

/-- The first step: the zero row is stored first, read back, and the same value is stored over it. -/
theorem r8_out_A (c : Dev nD) (i : grid8.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond8_0 i) (x0 : Vec F S5000x128 .f32) (x1 : Vec F S1x128 .f32) :
    out8_A_2 c i a1 h1 a2 h2 a3 h3 hc x0 x1 = k8_pay2 x0 x1 k8_pay1 := by
  unfold out8_A_2
  rw [View.read_writes_eq_canon _ _ _ (cover8_A_2 c i a1 h1 a2 h2 a3 h3 hc x0 x1)]
  unfold kernelRun8_A
  dsimp only
  sl_unfold_words
  rw [View.canon_cons_unit_zero (S := S1x128) hzR, View.readCov_unit_zero (S := S1x128) _ hzR]
  simp only [View.readAt_eq_ld, h1.read_unread, h2.read_unread, View.ld_unit_zero (S := S5000x128) hzR,
    View.ld_unit_zero (S := S1x128) hzR]

/-- The block index of the array `y` at step `t` is `(t, 0)`; the rows `mu` and of totals are always block `(0, 0)`. -/
theorem r8_idx : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0 :=
  (by decide +kernel : ∀ t : Fin grid8.N, _)

end AnyValues

/-! ## The running totals over the extended reals -/

variable (V : (c : Dev nD) → (b : Ref sig .tc) → Buf (Elt Ideal) ((c : Thread nD τ).loc b))

/-- The array `y`, the row `mu`, and their blocks at step `t`, as functions into the extended reals. -/
abbrev r8_Y (c : Dev nD) : S50000x128.Idx → EReal := V c main_v84_0
abbrev r8_MU (c : Dev nD) : S1x128.Idx → EReal := V c main_v86
abbrev r8_yb (c : Dev nD) (t : Fin cfg8.N) : FVec Ideal S5000x128 .f32 := iblk8 V c 0 t
abbrev r8_mb (c : Dev nD) (t : Fin cfg8.N) : FVec Ideal S1x128 .f32 := iblk8 V c 1 t

/-- Row `r` of the block of `y` at step `t` is row `5000 t + r` of `y`. -/
theorem r8_blk0 (c : Dev nD) (t : Fin cfg8.N) (r : Fin 5000) (q : Fin 128) (hb : 5000 * t.val + r.val < 50000) :
    r8_yb V c t (ix2 r q) = r8_Y V c (ix2 ⟨5000 * t.val + r.val, hb⟩ q) := by
  obtain ⟨e0, e1, -⟩ := r8_idx t
  unfold r8_yb r8_Y iblk8
  rw [View.read_apply]
  show V c main_v84_0 _ = V c main_v84_0 _
  congr 1
  funext a
  apply Fin.ext
  match a with
  | ⟨0, _⟩ => show win8_0.index t (0 : Fin 2) * 5000 + 1 * r.val = 5000 * t.val + r.val; rw [e0]; omega
  | ⟨1, _⟩ => show win8_0.index t (1 : Fin 2) * 128 + 1 * q.val = q.val; rw [e1]; omega

/-- The block of `mu` at any step is `mu`. -/
theorem r8_blk1 (c : Dev nD) (t : Fin cfg8.N) (u : Fin 1) (q : Fin 128) :
    r8_mb V c t (ix2 u q) = r8_MU V c (ix2 u q) := by
  obtain ⟨-, -, e0, e1, -⟩ := r8_idx t
  unfold r8_mb r8_MU iblk8
  rw [View.read_apply]
  show V c main_v86 _ = V c main_v86 _
  congr 1
  funext a
  apply Fin.ext
  match a with
  | ⟨0, _⟩ => show win8_1.index t (0 : Fin 2) * 1 + 1 * u.val = u.val; rw [e0]; omega
  | ⟨1, _⟩ => show win8_1.index t (1 : Fin 2) * 128 + 1 * q.val = q.val; rw [e1]; omega

/-- The squared deviations of column `q`, as a function of the row. -/
abbrev r8_col (c : Dev nD) (q : Fin 128) : Fin 50000 → EReal :=
  fun s => sqDev (r8_Y V c) (r8_MU V c) (ix2 s q)

/-- What step `t` adds at column `q`: the sum of the squared deviations over rows `5000 t … 5000 t + 4999`. -/
abbrev r8_tile (c : Dev nD) (q : Fin 128) (j : ℕ) : EReal := ∑ r : Fin 5000, rowTerm (r8_col V c q) (5000 * j + r.val)

/-- The block sum the body forms at step `t` is that tile sum. -/
theorem r8_tile_eq (c : Dev nD) (t : Fin cfg8.N) (q : Fin 128) :
    ∑ r : Fin 5000, (r8_yb V c t (ix2 r q) - r8_mb V c t (ix2 (0 : Fin 1) q))
        * (r8_yb V c t (ix2 r q) - r8_mb V c t (ix2 (0 : Fin 1) q))
      = r8_tile V c q t.val := by
  have hN : t.val < 10 := lt_of_lt_of_eq t.isLt (show cfg8.N = 10 from N_8)
  refine Finset.sum_congr rfl fun r _ => ?_
  have hb : 5000 * t.val + r.val < 50000 := by have := r.isLt; omega
  rw [rowTerm_of_lt _ _ hb, r8_blk0 V c t r q hb, r8_blk1 V c t 0 q]
  rfl

/-- After the first step the totals are zero plus the first tile sum. -/
theorem r8_first (c : Dev nD) (q : Fin 128) (h : 0 < cfg8.N) :
    (outsAt8 V c 0 h : Vec Ideal S1x128 .f32) (ix2 (0 : Fin 1) q) = 0 + r8_tile V c q 0 := by
  have e := outsAt8_A V c ⟨0, h⟩ rfl
  dsimp only at e
  rw [e, r8_out_A c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩)
    ((hcond8_0 ⟨0, h⟩).mpr rfl) (iblk8 V c 0 ⟨0, h⟩) (iblk8 V c 1 ⟨0, h⟩)]
  refine (k8_pay2_apply (r8_yb V c ⟨0, h⟩) (r8_mb V c ⟨0, h⟩) (k8_pay1 (F := Ideal)) q).trans ?_
  rw [k8_pay1_apply, r8_tile_eq V c ⟨0, h⟩ q]

/-- A later step adds its tile sum to what the step before left. -/
theorem r8_later (c : Dev nD) (q : Fin 128) (n : ℕ) (h : n + 1 < cfg8.N) :
    (outsAt8 V c (n + 1) h : Vec Ideal S1x128 .f32) (ix2 (0 : Fin 1) q)
      = (outsAt8 V c n (Nat.lt_of_succ_lt h) : Vec Ideal S1x128 .f32) (ix2 (0 : Fin 1) q) + r8_tile V c q (n + 1) := by
  have hN : cfg8.N = 10 := N_8
  have hB : ¬(⟨n + 1, h⟩ : Fin cfg8.N).val % 10 = 0 := by dsimp only; omega
  have e := outsAt8_B V c ⟨n + 1, h⟩ hB
  dsimp only at e
  rw [e, r8_out_B c (grid8.coords ⟨n + 1, h⟩) (ms8_0 ⟨n + 1, h⟩) (hs8_0 ⟨n + 1, h⟩) (ms8_1 ⟨n + 1, h⟩) (hs8_1 ⟨n + 1, h⟩)
    (ms8_2 ⟨n + 1, h⟩) (hs8_2 ⟨n + 1, h⟩) (fun hh => hB ((hcond8_0 ⟨n + 1, h⟩).mp hh)) (iblk8 V c 0 ⟨n + 1, h⟩) (iblk8 V c 1 ⟨n + 1, h⟩)
    (outsAt8 V c (n + 1 - 1) (Nat.lt_of_le_of_lt (Nat.sub_le _ _) h))]
  refine (k8_pay2_apply (r8_yb V c ⟨n + 1, h⟩) (r8_mb V c ⟨n + 1, h⟩) _ q).trans ?_
  rw [r8_tile_eq V c ⟨n + 1, h⟩ q]
  rfl

/-- So after step `n` the totals are the first `n + 1` tile sums added up. -/
theorem r8_totals (c : Dev nD) (q : Fin 128) (n : ℕ) (h : n < cfg8.N) :
    (outsAt8 V c n h : Vec Ideal S1x128 .f32) (ix2 (0 : Fin 1) q) = ∑ j ∈ Finset.range (n + 1), r8_tile V c q j :=
  acc_eq_sum cfg8.N (fun n h => (outsAt8 V c n h : Vec Ideal S1x128 .f32) (ix2 (0 : Fin 1) q)) (r8_tile V c q)
    (fun h => r8_first V c q h) (fun n h => r8_later V c q n h) n h

/-! ## The array the region writes -/

/-- The column sums of the squared deviations, as contents of the region's result array. -/
abbrev r8_result (c : Dev nD) : Buf (Elt Ideal) ((c : Thread nD τ).loc main_v87) :=
  colSum (sqDev (r8_Y V c) (r8_MU V c))

/-- After the last step the row of totals holds them. -/
theorem r8_last (c : Dev nD) (t : Fin cfg8.N) (h9 : t.val = 9) :
    (outsAt8 V c t.val t.isLt : Vec Ideal S1x128 .f32) = r8_result V c := by
  refine row_ext _ _ fun q => ?_
  rw [r8_totals V c q t.val t.isLt, h9]
  exact sum_rowTerm_tiles (r8_col V c q)

/-- The one write-back, after the last step, writes them. -/
theorem r8_flushed (c : Dev nD) (t : Fin cfg8.N) (hf : (cfg8.win 2).flush t = true) :
    (dat8 (F := Ideal) V c).flushed 2 t = ((cfg8.win 2).blk t).view.read (Elt Ideal) (r8_result V c) := by
  have hN : cfg8.N = 10 := N_8
  have h9 : t.val = 9 := by have := (flush8_2 t).mp hf; have := t.isLt; omega
  show (cfg8.win 2).cut (grid8.coords t) ((dat8 V c).after 2 t) = _
  rw [after8_2, r8_last V c t h9]
  obtain rfl : t = t8_9 := Fin.ext h9
  have hzR' : (fun a => win8_2.index t8_9 a * main_v87.ty.shape.size a) = fun _ => 0 := funext fun a => by fin_cases a <;> decide
  exact (Memref.read_access_unit_zero (Elt Ideal) main_v87 hzR' (fun a => by rw [congrFun hzR' a]; simp) (r8_result V c)).symm

/-- The result array after the region: at column `q` the sum over all 50000 rows of the squared deviations. -/
theorem region8_sumsq (c : Dev nD) :
    (dat8 (F := Ideal) V c).arrAt 2 cfg8.N
      = colSum (sqDev (V c main_v84_0 : S50000x128.Idx → EReal) (V c main_v86 : S1x128.Idx → EReal)) :=
  (dat8 (F := Ideal) V c).arrAt_eq_of_cover 2 (r8_result V c) (r8_flushed V c) fun i =>
    ⟨t8_9, (flush8_2 t8_9).mpr rfl, by
      show i ∈ ((View.whole main_v87).slice (win8_2.rect t8_9)).set
      rw [View.set_slice_whole, Rect.mem_set_unit]
      intro a
      have h0 : (i 0 : Nat) < 1 := (i 0).isLt
      have h1 : (i 1 : Nat) < 128 := (i 1).isLt
      match a with
      | ⟨0, _⟩ => show win8_2.index t8_9 0 * win8_2.size 0 ≤ (i 0 : Nat) ∧ (i 0 : Nat) < win8_2.index t8_9 0 * win8_2.size 0 + win8_2.xsize (grid8.coords t8_9) 0
                  rw [show win8_2.index t8_9 0 * win8_2.size 0 = 0 from by decide +kernel, show win8_2.xsize (grid8.coords t8_9) 0 = 1 from by decide +kernel]; omega
      | ⟨1, _⟩ => show win8_2.index t8_9 1 * win8_2.size 1 ≤ (i 1 : Nat) ∧ (i 1 : Nat) < win8_2.index t8_9 1 * win8_2.size 1 + win8_2.xsize (grid8.coords t8_9) 1
                  rw [show win8_2.index t8_9 1 * win8_2.size 1 = 0 from by decide +kernel, show win8_2.xsize (grid8.coords t8_9) 1 = 128 from by decide +kernel]; omega⟩

end Cert.KernelIdeal.RegionValue

end
-- ==== Proof.Region9.lean ====
/-
  The last normalising region: the aggregated features of the third layer normalised column by column, scaled, shifted
  and clipped at zero.  What its result array holds after all ten grid points, for arbitrary contents of the five
  arrays it reads.

  Grid point `t` reads rows `5000 t, …, 5000 t + 4999` of the feature array and the four whole rows (mean, variance,
  scale, shift) and writes the same rows of the result.  The normalisation works entry by entry with the column's
  row operands, so what the point writes is its block of rows of the normalised whole array.  The ten row blocks cover
  the 50000 rows.
-/
import proofs.«168746_j56882546868465_2_alg».proof.Proof.Gen.KernelIdeal.Frame
import proofs.«168746_j56882546868465_2_alg».proof.Proof.RegionA_Payload
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-- The index maps over the ten grid points: the row-block windows sit at block `(t, 0)`, the whole-array windows at
    `(0, 0)`. -/
theorem idx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- The ten blocks of 5000 rows stay inside the 50000 rows. -/
theorem rows9 (t : Fin cfg9.N) : 5000 * t.val + 5000 ≤ 50000 := by
  have h : t.val < 10 := lt_of_lt_of_eq t.isLt N_9
  omega

/-! ## Each window's block is a block of rows, or the whole array -/

theorem read_blk9_0 (t : Fin cfg9.N) (X : S50000x128.Idx → EReal) :
    ((cfg9.win 0).blk t).view.read (Elt Ideal) X = rowsFrom 5000 (5000 * t.val) (rows9 t) X := by
  funext y
  rw [View.read_apply]
  refine congrArg X (funext fun a => Fin.ext ?_)
  match a with
  | ⟨0, _⟩ => show win9_0.index t (0 : Fin 2) * 5000 + 1 * (y 0).val = 5000 * t.val + (y 0).val; rw [(idx9 t).1]; omega
  | ⟨1, _⟩ => show win9_0.index t (1 : Fin 2) * 128 + 1 * (y 1).val = (y 1).val; rw [(idx9 t).2.1]; omega

theorem read_blk9_1 (t : Fin cfg9.N) (X : S1x128.Idx → EReal) :
    ((cfg9.win 1).blk t).view.read (Elt Ideal) X = X := by
  funext y
  rw [View.read_apply]
  refine congrArg X (funext fun a => Fin.ext ?_)
  match a with
  | ⟨0, _⟩ => show win9_1.index t (0 : Fin 2) * 1 + 1 * (y 0).val = (y 0).val; rw [(idx9 t).2.2.1]; omega
  | ⟨1, _⟩ => show win9_1.index t (1 : Fin 2) * 128 + 1 * (y 1).val = (y 1).val; rw [(idx9 t).2.2.2.1]; omega

theorem read_blk9_2 (t : Fin cfg9.N) (X : S1x128.Idx → EReal) :
    ((cfg9.win 2).blk t).view.read (Elt Ideal) X = X := by
  funext y
  rw [View.read_apply]
  refine congrArg X (funext fun a => Fin.ext ?_)
  match a with
  | ⟨0, _⟩ => show win9_2.index t (0 : Fin 2) * 1 + 1 * (y 0).val = (y 0).val; rw [(idx9 t).2.2.2.2.1]; omega
  | ⟨1, _⟩ => show win9_2.index t (1 : Fin 2) * 128 + 1 * (y 1).val = (y 1).val; rw [(idx9 t).2.2.2.2.2.1]; omega

theorem read_blk9_3 (t : Fin cfg9.N) (X : S1x128.Idx → EReal) :
    ((cfg9.win 3).blk t).view.read (Elt Ideal) X = X := by
  funext y
  rw [View.read_apply]
  refine congrArg X (funext fun a => Fin.ext ?_)
  match a with
  | ⟨0, _⟩ => show win9_3.index t (0 : Fin 2) * 1 + 1 * (y 0).val = (y 0).val; rw [(idx9 t).2.2.2.2.2.2.1]; omega
  | ⟨1, _⟩ => show win9_3.index t (1 : Fin 2) * 128 + 1 * (y 1).val = (y 1).val; rw [(idx9 t).2.2.2.2.2.2.2.1]; omega

theorem read_blk9_4 (t : Fin cfg9.N) (X : S1x128.Idx → EReal) :
    ((cfg9.win 4).blk t).view.read (Elt Ideal) X = X := by
  funext y
  rw [View.read_apply]
  refine congrArg X (funext fun a => Fin.ext ?_)
  match a with
  | ⟨0, _⟩ => show win9_4.index t (0 : Fin 2) * 1 + 1 * (y 0).val = (y 0).val; rw [(idx9 t).2.2.2.2.2.2.2.2.1]; omega
  | ⟨1, _⟩ => show win9_4.index t (1 : Fin 2) * 128 + 1 * (y 1).val = (y 1).val; rw [(idx9 t).2.2.2.2.2.2.2.2.2.1]; omega

theorem read_blk9_5 (t : Fin cfg9.N) (X : S50000x128.Idx → EReal) :
    ((cfg9.win 5).blk t).view.read (Elt Ideal) X = rowsFrom 5000 (5000 * t.val) (rows9 t) X := by
  funext y
  rw [View.read_apply]
  refine congrArg X (funext fun a => Fin.ext ?_)
  match a with
  | ⟨0, _⟩ => show win9_5.index t (0 : Fin 2) * 5000 + 1 * (y 0).val = 5000 * t.val + (y 0).val; rw [(idx9 t).2.2.2.2.2.2.2.2.2.2.1]; omega
  | ⟨1, _⟩ => show win9_5.index t (1 : Fin 2) * 128 + 1 * (y 1).val = (y 1).val; rw [(idx9 t).2.2.2.2.2.2.2.2.2.2.2]; omega

/-! ## What a grid point writes back -/

/-- Point `t` writes back its block of rows of the normalised whole array. -/
theorem flushed9_5_eq (c : Dev nD) (t : Fin cfg9.N) :
    (dat9 (F := Ideal) V c).flushed 5 t
      = ((cfg9.win 5).blk t).view.read (Elt Ideal) (normRelu (V c main_v84_0 : S50000x128.Idx → EReal) (V c main_v86 : S1x128.Idx → EReal) (V c main_v89 : S1x128.Idx → EReal) (V c main_v92 : S1x128.Idx → EReal) (V c main_v95 : S1x128.Idx → EReal)) := by
  show (cfg9.win 5).cut (grid9.coords t) ((dat9 V c).after 5 t) = _
  rw [after9_5]
  unfold out9_5
  rw [View.canon_unit_zero hz]
  simp only [View.ld_unit_zero (S := S5000x128) hz, View.ld_unit_zero (S := S1x128) hz]
  rw [read_blk9_5 t]
  show k9_pay1 (iblk9 V c 2 t) (iblk9 V c 0 t) (iblk9 V c 1 t) (iblk9 V c 3 t) (iblk9 V c 4 t) = _
  unfold iblk9
  rw [read_blk9_2 t, read_blk9_0 t, read_blk9_1 t, read_blk9_3 t, read_blk9_4 t, k9_pay1_eq, normRelu_rowsFrom]

/-! ## The blocks cover the arrays -/

/-- An index of the array is in point `t`'s block of window 5 iff each coordinate is in the block's range on its axis. -/
theorem mem_blk9_5 (t : Fin cfg9.N) (i : S50000x128.Idx) :
    i ∈ ((cfg9.win 5).blk t).view.set ↔ ∀ a : Fin 2, win9_5.index t a * S5000x128.size a ≤ (i a).val ∧ (i a).val < win9_5.index t a * S5000x128.size a + S5000x128.size a := by
  show i ∈ ((View.whole main_v96).slice (win9_5.rect t)).set ↔ _
  rw [View.set_slice_whole, Rect.mem_set_unit]
  exact Iff.rfl

/-- Row `r` is in the block of point `r / 5000`, which writes it back: the ten blocks cover the array. -/
theorem rows_cover9_5 (i : S50000x128.Idx) :
    ∃ t : Fin cfg9.N, (cfg9.win 5).flush t = true ∧ i ∈ ((cfg9.win 5).blk t).view.set := by
  have hi0 : (i 0).val < 50000 := (i 0).isLt
  have hi1 : (i 1).val < 128 := (i 1).isLt
  have ht : (i 0).val / 5000 < cfg9.N := lt_of_lt_of_eq (by omega : (i 0).val / 5000 < 10) N_9.symm
  have e0 : win9_5.index ⟨(i 0).val / 5000, ht⟩ (0 : Fin 2) = (i 0).val / 5000 := (idx9 ⟨(i 0).val / 5000, ht⟩).2.2.2.2.2.2.2.2.2.2.1
  have e1 : win9_5.index ⟨(i 0).val / 5000, ht⟩ (1 : Fin 2) = 0 := (idx9 ⟨(i 0).val / 5000, ht⟩).2.2.2.2.2.2.2.2.2.2.2
  refine ⟨⟨(i 0).val / 5000, ht⟩, flush9_5 _, ?_⟩
  rw [mem_blk9_5]
  intro a
  match a with
  | ⟨0, _⟩ =>
    show win9_5.index ⟨(i 0).val / 5000, ht⟩ (0 : Fin 2) * 5000 ≤ (i 0).val ∧ (i 0).val < win9_5.index ⟨(i 0).val / 5000, ht⟩ (0 : Fin 2) * 5000 + 5000
    rw [e0]; omega
  | ⟨1, _⟩ =>
    show win9_5.index ⟨(i 0).val / 5000, ht⟩ (1 : Fin 2) * 128 ≤ (i 1).val ∧ (i 1).val < win9_5.index ⟨(i 0).val / 5000, ht⟩ (1 : Fin 2) * 128 + 128
    rw [e1]; omega

/-! ## The result arrays after the region -/

/-- After the region the result array is the feature array normalised, scaled, shifted and clipped at zero. -/
theorem region9_x (c : Dev nD) :
    (dat9 (F := Ideal) V c).arrAt 5 cfg9.N
      = normRelu (V c main_v84_0 : S50000x128.Idx → EReal) (V c main_v86 : S1x128.Idx → EReal) (V c main_v89 : S1x128.Idx → EReal) (V c main_v92 : S1x128.Idx → EReal) (V c main_v95 : S1x128.Idx → EReal) :=
  (dat9 V c).arrAt_eq_of_cover 5 _ (fun t _ => flushed9_5_eq V c t) rows_cover9_5

end Cert.KernelIdeal.RegionValue

end
-- ==== Proof.ChainL2.lean ====
/-
  Layer 2 of the idealized kernel program, segment by segment, read as the model's layer.

  The same text as layers 0 and 1 with the buffers of the third layer; the last region only normalises, so the
  layer's output itself is left in memory.
-/
import proofs.«168746_j56882546868465_2_alg».proof.Proof.Gen.KernelIdeal.Frame
import proofs.«168746_j56882546868465_2_alg».proof.Proof.ChainL1
import proofs.«168746_j56882546868465_2_alg».proof.Proof.Region7
import proofs.«168746_j56882546868465_2_alg».proof.Proof.Region8
import proofs.«168746_j56882546868465_2_alg».proof.Proof.Region9

set_option maxRecDepth 16384

noncomputable section

namespace Cert.KernelIdeal.Chain

open Cert.KernelIdeal Cert.KernelIdeal.Gen Cert.KernelIdeal.RegionValue
open Idealize.ShloMosaic Idealize.ShloMosaic.TcCoe Idealize.ShloMosaic.StableHlo Idealize.SL.Sem Idealize.ShloMosaic.ValueIdx
open Cert.GCN

variable (m : (ℓ : Loc nD τ sig) → Buf (Elt Ideal) ℓ) (ρ : Dev nD → PrngReg) (c : Dev nD)

-- The `dis` column is never opened here: it is an inverse square root of a sum over all 800000 edges.
attribute [local irreducible] Cert.GCN.disColOf

/-! ## Layer 2 -/

set_option maxHeartbeats 4000000 in
/-- The aggregated rows, over the scaled features as the stretch finds them: gathered along the source column and
    summed into the target rows. -/
theorem W15_main_v80_raw : (W15 (F := Ideal) m ρ c (Proc.devRef .tc main_v80) : S50000x128.Idx → EReal)
    = segSum (G m c).dstS (gatherRows (by decide : 0 < 50000) (G m c).srcG
        (W14 m ρ c (Proc.devRef .tc main_v70_1) : S50000x128.Idx → EReal)) := by
  dsimp only [W15]
  after_results
  rw [scatterAdd_zeros_eq_segSum _ rfl rfl rfl rfl _ (fun i => bcast_zero_apply _ i),
    gather_eq_gatherRows (by decide : 0 < 50000) _ rfl rfl rfl rfl rfl rfl rfl, wrapCol_read,
    keep_main_v1_1_14, keep_main_v3_1_14, W1_v1_col, W1_v3_col]
  rfl

theorem W15_main_v80 : (W15 (F := Ideal) m ρ c (Proc.devRef .tc main_v80) : S50000x128.Idx → EReal)
    = segSum (G m c).dstS (gatherRows (by decide : 0 < 50000) (G m c).srcG (scaleRows (mm (X2 m c) (wSlice (A3 m c) 2)) (G m c).dis)) := by
  rw [W15_main_v80_raw, W14_main_v70_1]

set_option maxHeartbeats 4000000 in
/-- The bias row of the layer. -/
theorem W15_main_v83 : (W15 (F := Ideal) m ρ c (Proc.devRef .tc main_v83) : S1x128.Idx → EReal) = rowSlice (A4 m c) 2 := by
  dsimp only [W15]
  after_results
  rw [keep_main_arg4_0_14]
  exact rowSlice_read 2 (by decide) (A4 m c) _ _ _

/-- The first statistics region leaves the aggregation in its factored form … -/
theorem W16_main_v84_0 : (W16 (F := Ideal) m ρ c (Proc.devRef .tc main_v84_0) : S50000x128.Idx → EReal) = aggFactored (G m c) (mm (X2 m c) (wSlice (A3 m c) 2)) (rowSlice (A4 m c) 2) := by
  refine (W16_arr m ρ c 4).trans ?_
  rw [region7_hnew (V15 m ρ) c]
  show combine (W15 m ρ c (Proc.devRef .tc main_v80)) (W15 m ρ c (Proc.devRef .tc main_v70_0))
    (W15 m ρ c (Proc.devRef .tc main_v11)) (W15 m ρ c (Proc.devRef .tc main_v83)) = _
  rw [W15_main_v80, keep_main_v70_0_14_15, W14_main_v70_0, keep_main_v11_1_15, W1_v11, W15_main_v83]
  rfl

/-- … and its column sums. -/
theorem W16_main_v84_1 : (W16 (F := Ideal) m ρ c (Proc.devRef .tc main_v84_1) : S1x128.Idx → EReal) = colSum (aggFactored (G m c) (mm (X2 m c) (wSlice (A3 m c) 2)) (rowSlice (A4 m c) 2)) := by
  refine (W16_arr m ρ c 5).trans ?_
  rw [region7_sum (V15 m ρ) c]
  show colSum (combine (W15 m ρ c (Proc.devRef .tc main_v80)) (W15 m ρ c (Proc.devRef .tc main_v70_0))
    (W15 m ρ c (Proc.devRef .tc main_v11)) (W15 m ρ c (Proc.devRef .tc main_v83))) = _
  rw [W15_main_v80, keep_main_v70_0_14_15, W14_main_v70_0, keep_main_v11_1_15, W1_v11, W15_main_v83]
  rfl

set_option maxHeartbeats 4000000 in
/-- The column means: the column sums divided by the node count. -/
theorem W17_main_v86_raw : (W17 (F := Ideal) m ρ c (Proc.devRef .tc main_v86) : S1x128.Idx → EReal)
    = fun j => Ideal.div ((W16 m ρ c (Proc.devRef .tc main_v84_1) : S1x128.Idx → EReal) j) nNodes := by
  dsimp only [W17]
  after_results
  rfl
theorem W17_main_v86 : (W17 (F := Ideal) m ρ c (Proc.devRef .tc main_v86) : S1x128.Idx → EReal) = meanRow nNodes (aggFactored (G m c) (mm (X2 m c) (wSlice (A3 m c) 2)) (rowSlice (A4 m c) 2)) := by
  rw [W17_main_v86_raw, W16_main_v84_1]
  rfl

/-- The column sums of the squared deviations from the means. -/
theorem W18_main_v87 : (W18 (F := Ideal) m ρ c (Proc.devRef .tc main_v87) : S1x128.Idx → EReal)
    = colSum (sqDev (aggFactored (G m c) (mm (X2 m c) (wSlice (A3 m c) 2)) (rowSlice (A4 m c) 2)) (meanRow nNodes (aggFactored (G m c) (mm (X2 m c) (wSlice (A3 m c) 2)) (rowSlice (A4 m c) 2)))) := by
  refine (W18_arr m ρ c 2).trans ?_
  rw [region8_sumsq (V17 m ρ) c]
  show colSum (sqDev (W17 m ρ c (Proc.devRef .tc main_v84_0)) (W17 m ρ c (Proc.devRef .tc main_v86))) = _
  rw [keep_main_v84_0_16_17, W16_main_v84_0, W17_main_v86]

set_option maxHeartbeats 4000000 in
/-- The column variances: those sums divided by the node count. -/
theorem W19_main_v89_raw : (W19 (F := Ideal) m ρ c (Proc.devRef .tc main_v89) : S1x128.Idx → EReal)
    = fun j => Ideal.div ((W18 m ρ c (Proc.devRef .tc main_v87) : S1x128.Idx → EReal) j) nNodes := by
  dsimp only [W19]
  after_results
  rfl
theorem W19_main_v89 : (W19 (F := Ideal) m ρ c (Proc.devRef .tc main_v89) : S1x128.Idx → EReal) = varRow nNodes (aggFactored (G m c) (mm (X2 m c) (wSlice (A3 m c) 2)) (rowSlice (A4 m c) 2)) := by
  rw [W19_main_v89_raw, W18_main_v87]
  rfl

set_option maxHeartbeats 4000000 in
/-- The scale and shift rows. -/
theorem W19_main_v92 : (W19 (F := Ideal) m ρ c (Proc.devRef .tc main_v92) : S1x128.Idx → EReal) = rowSlice (A5 m c) 2 := by
  dsimp only [W19]
  after_results
  rw [keep_main_arg5_0_18]
  exact rowSlice_read 2 (by decide) (A5 m c) _ _ _
set_option maxHeartbeats 4000000 in
theorem W19_main_v95 : (W19 (F := Ideal) m ρ c (Proc.devRef .tc main_v95) : S1x128.Idx → EReal) = rowSlice (A6 m c) 2 := by
  dsimp only [W19]
  after_results
  rw [keep_main_arg6_0_18]
  exact rowSlice_read 2 (by decide) (A6 m c) _ _ _

/-- The last layer's output, as the model's layer with the factored aggregation. -/
abbrev X3 : (⟨2, ![50000, 128]⟩ : Shape).Idx → EReal := layerF (G m c) (X2 m c) (wSlice (A3 m c) 2) (rowSlice (A4 m c) 2) (rowSlice (A5 m c) 2) (rowSlice (A6 m c) 2)

/-- The last normalise region leaves the layer's output. -/
theorem W20_main_v96 : (W20 (F := Ideal) m ρ c (Proc.devRef .tc main_v96) : S50000x128.Idx → EReal) = X3 m c := by
  refine (W20_arr m ρ c 5).trans ?_
  rw [region9_x (V19 m ρ) c]
  show normRelu (W19 m ρ c (Proc.devRef .tc main_v84_0)) (W19 m ρ c (Proc.devRef .tc main_v86)) (W19 m ρ c (Proc.devRef .tc main_v89))
    (W19 m ρ c (Proc.devRef .tc main_v92)) (W19 m ρ c (Proc.devRef .tc main_v95)) = _
  rw [keep_main_v84_0_16_19, W16_main_v84_0, keep_main_v86_17_19, W17_main_v86, W19_main_v89, W19_main_v92, W19_main_v95]
  rfl

end Cert.KernelIdeal.Chain

end
-- ==== Proof.Region10.lean ====
/-
  The last region: the two-layer head on the pooled features, `relu (p · w1 + b1) · w2 + b2`.  What its result array
  holds after its single grid point, for arbitrary contents of the five arrays it reads.

  The grid has one point and every window's block is its whole array, at block `(0, 0)`.  So the point reads the five
  arrays whole and writes the whole result, which is the head of the arrays read.
-/
import proofs.«168746_j56882546868465_2_alg».proof.Proof.Gen.KernelIdeal.Frame
import proofs.«168746_j56882546868465_2_alg».proof.Proof.RegionA_Payload
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat)
open Cert.KernelIdeal Cert.KernelIdeal.Gen Cert.GCN

variable (V : (c : Dev nD) → (b : Ref sig .tc) → Buf (Elt Ideal) ((c : Thread nD τ).loc b))

/-- The index maps at the single grid point: every window sits at block `(0, 0)`. -/
theorem idx10 : ∀ t : Fin cfg10.N,
    win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0 :=
  (by decide +kernel : ∀ t : Fin grid10.N, _)

/-! ## Each window's block is its whole array -/

theorem read_blk10_0 (t : Fin cfg10.N) (X : S1000x128.Idx → EReal) :
    ((cfg10.win 0).blk t).view.read (Elt Ideal) X = X := by
  funext y
  rw [View.read_apply]
  refine congrArg X (funext fun a => Fin.ext ?_)
  match a with
  | ⟨0, _⟩ => show win10_0.index t (0 : Fin 2) * 1000 + 1 * (y 0).val = (y 0).val; rw [(idx10 t).1]; omega
  | ⟨1, _⟩ => show win10_0.index t (1 : Fin 2) * 128 + 1 * (y 1).val = (y 1).val; rw [(idx10 t).2.1]; omega

theorem read_blk10_1 (t : Fin cfg10.N) (X : S128x128.Idx → EReal) :
    ((cfg10.win 1).blk t).view.read (Elt Ideal) X = X := by
  funext y
  rw [View.read_apply]
  refine congrArg X (funext fun a => Fin.ext ?_)
  match a with
  | ⟨0, _⟩ => show win10_1.index t (0 : Fin 2) * 128 + 1 * (y 0).val = (y 0).val; rw [(idx10 t).2.2.1]; omega
  | ⟨1, _⟩ => show win10_1.index t (1 : Fin 2) * 128 + 1 * (y 1).val = (y 1).val; rw [(idx10 t).2.2.2.1]; omega

theorem read_blk10_2 (t : Fin cfg10.N) (X : S1x128.Idx → EReal) :
    ((cfg10.win 2).blk t).view.read (Elt Ideal) X = X := by
  funext y
  rw [View.read_apply]
  refine congrArg X (funext fun a => Fin.ext ?_)
  match a with
  | ⟨0, _⟩ => show win10_2.index t (0 : Fin 2) * 1 + 1 * (y 0).val = (y 0).val; rw [(idx10 t).2.2.2.2.1]; omega
  | ⟨1, _⟩ => show win10_2.index t (1 : Fin 2) * 128 + 1 * (y 1).val = (y 1).val; rw [(idx10 t).2.2.2.2.2.1]; omega

theorem read_blk10_3 (t : Fin cfg10.N) (X : S128x6.Idx → EReal) :
    ((cfg10.win 3).blk t).view.read (Elt Ideal) X = X := by
  funext y
  rw [View.read_apply]
  refine congrArg X (funext fun a => Fin.ext ?_)
  match a with
  | ⟨0, _⟩ => show win10_3.index t (0 : Fin 2) * 128 + 1 * (y 0).val = (y 0).val; rw [(idx10 t).2.2.2.2.2.2.1]; omega
  | ⟨1, _⟩ => show win10_3.index t (1 : Fin 2) * 6 + 1 * (y 1).val = (y 1).val; rw [(idx10 t).2.2.2.2.2.2.2.1]; omega

theorem read_blk10_4 (t : Fin cfg10.N) (X : S1x6.Idx → EReal) :
    ((cfg10.win 4).blk t).view.read (Elt Ideal) X = X := by
  funext y
  rw [View.read_apply]
  refine congrArg X (funext fun a => Fin.ext ?_)
  match a with
  | ⟨0, _⟩ => show win10_4.index t (0 : Fin 2) * 1 + 1 * (y 0).val = (y 0).val; rw [(idx10 t).2.2.2.2.2.2.2.2.1]; omega
  | ⟨1, _⟩ => show win10_4.index t (1 : Fin 2) * 6 + 1 * (y 1).val = (y 1).val; rw [(idx10 t).2.2.2.2.2.2.2.2.2.1]; omega

theorem read_blk10_5 (t : Fin cfg10.N) (X : S1000x6.Idx → EReal) :
    ((cfg10.win 5).blk t).view.read (Elt Ideal) X = X := by
  funext y
  rw [View.read_apply]
  refine congrArg X (funext fun a => Fin.ext ?_)
  match a with
  | ⟨0, _⟩ => show win10_5.index t (0 : Fin 2) * 1000 + 1 * (y 0).val = (y 0).val; rw [(idx10 t).2.2.2.2.2.2.2.2.2.2.1]; omega
  | ⟨1, _⟩ => show win10_5.index t (1 : Fin 2) * 6 + 1 * (y 1).val = (y 1).val; rw [(idx10 t).2.2.2.2.2.2.2.2.2.2.2]; omega

/-! ## What the grid point writes back -/

/-- The point writes back the head of the whole arrays. -/
theorem flushed10_5_eq (c : Dev nD) (t : Fin cfg10.N) :
    (dat10 (F := Ideal) V c).flushed 5 t
      = ((cfg10.win 5).blk t).view.read (Elt Ideal) (head (V c main_v108 : S1000x128.Idx → EReal) (V c main_arg7 : S128x128.Idx → EReal) (V c main_v109 : S1x128.Idx → EReal) (V c main_arg9 : S128x6.Idx → EReal) (V c main_v110 : S1x6.Idx → EReal)) := by
  show (cfg10.win 5).cut (grid10.coords t) ((dat10 V c).after 5 t) = _
  rw [after10_5]
  unfold out10_5
  rw [View.canon_unit_zero hz]
  simp only [View.ld_unit_zero (S := S1000x128) hz, View.ld_unit_zero (S := S128x128) hz, View.ld_unit_zero (S := S1x128) hz, View.ld_unit_zero (S := S128x6) hz, View.ld_unit_zero (S := S1x6) hz]
  rw [read_blk10_5 t]
  show k10_pay1 (iblk10 V c 0 t) (iblk10 V c 1 t) (iblk10 V c 2 t) (iblk10 V c 3 t) (iblk10 V c 4 t) = _
  unfold iblk10
  rw [read_blk10_0 t, read_blk10_1 t, read_blk10_2 t, read_blk10_3 t, read_blk10_4 t, k10_pay1_eq]

/-! ## The block covers the array -/

/-- An index of the result array is in the point's block iff each coordinate is in the block's range on its axis. -/
theorem mem_blk10_5 (t : Fin cfg10.N) (i : S1000x6.Idx) :
    i ∈ ((cfg10.win 5).blk t).view.set ↔ ∀ a : Fin 2, win10_5.index t a * S1000x6.size a ≤ (i a).val ∧ (i a).val < win10_5.index t a * S1000x6.size a + S1000x6.size a := by
  show i ∈ ((View.whole main_v111).slice (win10_5.rect t)).set ↔ _
  rw [View.set_slice_whole, Rect.mem_set_unit]
  exact Iff.rfl

/-- Every index is in the single point's block, which is written back. -/
theorem whole_cover10_5 (i : S1000x6.Idx) :
    ∃ t : Fin cfg10.N, (cfg10.win 5).flush t = true ∧ i ∈ ((cfg10.win 5).blk t).view.set := by
  have hi0 : (i 0).val < 1000 := (i 0).isLt
  have hi1 : (i 1).val < 6 := (i 1).isLt
  have ht : 0 < cfg10.N := lt_of_lt_of_eq Nat.zero_lt_one N_10.symm
  have e0 : win10_5.index ⟨0, ht⟩ (0 : Fin 2) = 0 := (idx10 ⟨0, ht⟩).2.2.2.2.2.2.2.2.2.2.1
  have e1 : win10_5.index ⟨0, ht⟩ (1 : Fin 2) = 0 := (idx10 ⟨0, ht⟩).2.2.2.2.2.2.2.2.2.2.2
  refine ⟨⟨0, ht⟩, flush10_5 _, ?_⟩
  rw [mem_blk10_5]
  intro a
  match a with
  | ⟨0, _⟩ =>
    show win10_5.index ⟨0, ht⟩ (0 : Fin 2) * 1000 ≤ (i 0).val ∧ (i 0).val < win10_5.index ⟨0, ht⟩ (0 : Fin 2) * 1000 + 1000
    rw [e0]; omega
  | ⟨1, _⟩ =>
    show win10_5.index ⟨0, ht⟩ (1 : Fin 2) * 6 ≤ (i 1).val ∧ (i 1).val < win10_5.index ⟨0, ht⟩ (1 : Fin 2) * 6 + 6
    rw [e1]; omega

/-! ## The result array after the region -/

/-- After the region the result array is the two-layer head of the arrays read. -/
theorem region10_out (c : Dev nD) :
    (dat10 (F := Ideal) V c).arrAt 5 cfg10.N
      = head (V c main_v108 : S1000x128.Idx → EReal) (V c main_arg7 : S128x128.Idx → EReal) (V c main_v109 : S1x128.Idx → EReal) (V c main_arg9 : S128x6.Idx → EReal) (V c main_v110 : S1x6.Idx → EReal) :=
  (dat10 V c).arrAt_eq_of_cover 5 _ (fun t _ => flushed10_5_eq V c t) whole_cover10_5

end Cert.KernelIdeal.RegionValue

end
-- ==== Proof.PoolHeadGlue.lean ====
/-
  The pooling and the head as the host operations spell them, read as the model's functions.

  Mean pooling: the node rows are summed per graph by an accumulating scatter into zeros along the batch column,
  the node counts are the same scatter of ones, clipped below at one, made a column and copied along the rows, and
  the quotient is taken entry by entry.  That is `pooledOf`.

  The head: a product with a `[128, 128]` matrix, a bias vector made a row and copied down the rows and added, a
  clip at zero against a zero splat, a product with a `[128, 6]` matrix, and a second bias added the same way.  A
  product whose dimension numbers contract the left operand's last axis with the right operand's first is the
  plain matrix product, a sum over the 128 contracted positions.  That is `head` with the biases as rows.

  The dimension numbers are variable records whose fields are given by hypotheses, and the shape facts of the
  broadcasts are variables, so the equations apply to either program's spelling of these operations.
-/
import proofs.«168746_j56882546868465_2_alg».proof.Proof.Model
import proofs.«168746_j56882546868465_2_alg».proof.Proof.HostGlue
import proofs.«168746_j56882546868465_2_alg».proof.Proof.GraphFacts
import proofs.«168746_j56882546868465_2_alg».proof.Proof.LayoutGlue
import proofs.«168746_j56882546868465_2_alg».proof.Proof.LibColRow
import Idealize.ShloMosaic.PureOps.Ideal.Laws
import Idealize.ShloMosaic.Lib.IdealHost
import Idealize.ShloMosaic.Lib.StackMember
import Idealize.ShloMosaic.Lib.Pipeline.Value

noncomputable section

open scoped BigOperators

namespace Cert.GCN

open Idealize.ShloMosaic Idealize.ShloMosaic.ValueIdx

/-! ## Two broadcasts along both axes -/

/-- A column `[a, 1]` copied along the rows to `[a, b]` reads, at `(p, c)`, the column's entry of row `p`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- A row `[1, b]` copied down the rows to `[a, b]` reads, at `(p, c)`, the row's entry of column `c`. -/
theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

/-- A splat of the word of one is one everywhere. -/
theorem bcast_one_apply {s : Shape} (h : (⟨0, ![]⟩ : Shape).BroadcastsInDim s ![]) (i : s.Idx) :
    (broadcastInDim s ![] h (constant (F := Ideal) (⟨0, ![]⟩ : Shape) .f32 0x3F800000#32) : FVec Ideal s .f32) i = 1 := by
  show Ideal.ofBits .f32 0x3F800000#32 = 1
  exact ofBits_one_f32

/-! ## Mean pooling -/

/-- The pooling as the host operations spell it is `pooledOf`: the segment sum of the node rows over the node
    count clipped below at one. -/
theorem pooled_read
    (dS2 : ScatterDims (⟨2, ![1000, 128]⟩ : Shape) (⟨2, ![50000, 1]⟩ : Shape) (⟨2, ![50000, 128]⟩ : Shape))
    (h21 : dS2.updateWindowDims = [1]) (h22 : dS2.insertedWindowDims = [0]) (h23 : dS2.scatterDimsToOperandDims = [0])
    (h24 : dS2.indexVectorDim = 1)
    (dS1 : ScatterDims (⟨1, ![1000]⟩ : Shape) (⟨2, ![50000, 1]⟩ : Shape) (⟨1, ![50000]⟩ : Shape))
    (h11 : dS1.updateWindowDims = []) (h12 : dS1.insertedWindowDims = [0]) (h13 : dS1.scatterDimsToOperandDims = [0])
    (h14 : dS1.indexVectorDim = 1)
    (hz2 : (⟨0, ![]⟩ : Shape).BroadcastsInDim ⟨2, ![1000, 128]⟩ ![])
    (ho : (⟨0, ![]⟩ : Shape).BroadcastsInDim ⟨1, ![50000]⟩ ![])
    (hz1 : (⟨0, ![]⟩ : Shape).BroadcastsInDim ⟨1, ![1000]⟩ ![])
    (hbc : (⟨1, ![1000]⟩ : Shape).BroadcastsInDim ⟨2, ![1000, 1]⟩ ![0])
    (hbb : (⟨2, ![1000, 1]⟩ : Shape).BroadcastsInDim ⟨2, ![1000, 128]⟩ ![0, 1])
    (bcol : IVec (⟨2, ![50000, 1]⟩ : Shape) 32) (x : (⟨2, ![50000, 128]⟩ : Shape).Idx → EReal) :
    Host.divf (F := Ideal) (φ := .f32)
        (Host.scatterAdd (F := Ideal) (φ := .f32) dS2
          (broadcastInDim ⟨2, ![1000, 128]⟩ ![] hz2 (constant (F := Ideal) (⟨0, ![]⟩ : Shape) .f32 0x00000000#32)) bcol x)
        (broadcastInDim ⟨2, ![1000, 128]⟩ ![0, 1] hbb
          (broadcastInDim ⟨2, ![1000, 1]⟩ ![0] hbc
            (maximumf (F := Ideal) (φ := .f32)
              (Host.scatterAdd (F := Ideal) (φ := .f32) dS1
                (broadcastInDim ⟨1, ![1000]⟩ ![] hz1 (constant (F := Ideal) (⟨0, ![]⟩ : Shape) .f32 0x00000000#32)) bcol
                (broadcastInDim ⟨1, ![50000]⟩ ![] ho (constant (F := Ideal) (⟨0, ![]⟩ : Shape) .f32 0x3F800000#32)))
              (broadcastInDim ⟨1, ![1000]⟩ ![] hz1 (constant (F := Ideal) (⟨0, ![]⟩ : Shape) .f32 0x3F800000#32)))))
      = pooledOf bcol x := by
  funext i
  obtain ⟨p, q, rfl⟩ : ∃ (p : Fin 1000) (q : Fin 128), i = ix2 p q := ⟨i 0, i 1, eq_ix2 i⟩
  rw [hostDivf_apply, broadcastInDim_a1_ab_apply, Cert.LibColRow.broadcastInDim_col_apply, maximumf_apply,
    scatterAdd_zeros_eq_segSum dS2 h21 h22 h23 h24 _ (fun i => bcast_zero_apply hz2 i),
    scatterAdd_zeros_eq_segSumVec dS1 h11 h12 h13 h14 _ (fun i => bcast_zero_apply hz1 i),
    bcast_one_apply hz1,
    show (broadcastInDim ⟨1, ![50000]⟩ ![] ho (constant (F := Ideal) (⟨0, ![]⟩ : Shape) .f32 0x3F800000#32)
        : (⟨1, ![50000]⟩ : Shape).Idx → EReal) = fun _ => (1 : EReal) from funext fun e => bcast_one_apply ho e]
  rfl

/-! ## The head -/

/-- Dimension numbers that contract the left operand's last axis with the right operand's first, with no batch
    axes, are the plain matrix product's. -/
theorem dot_eq_plain {n k m : ℕ} (D : DotDims (⟨2, ![n, k]⟩ : Shape) (⟨2, ![k, m]⟩ : Shape) (⟨2, ![n, m]⟩ : Shape))
    (h1 : D.lhsContracting = [1]) (h2 : D.rhsContracting = [0]) (h3 : D.lhsNonContracting = [0])
    (h4 : D.rhsNonContracting = [1]) (h5 : D.lhsBatch = []) (h6 : D.rhsBatch = []) : D = DotDims.plain n k m := by
  cases D
  simp only at h1 h2 h3 h4 h5 h6
  subst h1 h2 h3 h4 h5 h6
  rfl

/-- The head as the host operations spell it is `head` with the two bias vectors as rows. -/
theorem head_read
    (D1 : DotDims (⟨2, ![1000, 128]⟩ : Shape) (⟨2, ![128, 128]⟩ : Shape) (⟨2, ![1000, 128]⟩ : Shape))
    (h11 : D1.lhsContracting = [1]) (h12 : D1.rhsContracting = [0]) (h13 : D1.lhsNonContracting = [0])
    (h14 : D1.rhsNonContracting = [1]) (h15 : D1.lhsBatch = []) (h16 : D1.rhsBatch = [])
    (D2 : DotDims (⟨2, ![1000, 128]⟩ : Shape) (⟨2, ![128, 6]⟩ : Shape) (⟨2, ![1000, 6]⟩ : Shape))
    (h21 : D2.lhsContracting = [1]) (h22 : D2.rhsContracting = [0]) (h23 : D2.lhsNonContracting = [0])
    (h24 : D2.rhsNonContracting = [1]) (h25 : D2.lhsBatch = []) (h26 : D2.rhsBatch = [])
    (prec1 prec2 : Option ContractPrecision)
    (hr1 : (⟨1, ![128]⟩ : Shape).BroadcastsInDim ⟨2, ![1, 128]⟩ ![1])
    (hd1 : (⟨2, ![1, 128]⟩ : Shape).BroadcastsInDim ⟨2, ![1000, 128]⟩ ![0, 1])
    (hz : (⟨0, ![]⟩ : Shape).BroadcastsInDim ⟨2, ![1000, 128]⟩ ![])
    (hr2 : (⟨1, ![6]⟩ : Shape).BroadcastsInDim ⟨2, ![1, 6]⟩ ![1])
    (hd2 : (⟨2, ![1, 6]⟩ : Shape).BroadcastsInDim ⟨2, ![1000, 6]⟩ ![0, 1])
    (p : (⟨2, ![1000, 128]⟩ : Shape).Idx → EReal) (w1 : (⟨2, ![128, 128]⟩ : Shape).Idx → EReal)
    (b1 : (⟨1, ![128]⟩ : Shape).Idx → EReal) (w2 : (⟨2, ![128, 6]⟩ : Shape).Idx → EReal)
    (b2 : (⟨1, ![6]⟩ : Shape).Idx → EReal) :
    addf (F := Ideal) (φ := .f32)
        (Host.dotGeneral (F := Ideal) (φ₁ := .f32) (φ₂ := .f32) D2 prec2
          (maximumf (F := Ideal) (φ := .f32)
            (addf (F := Ideal) (φ := .f32) (Host.dotGeneral (F := Ideal) (φ₁ := .f32) (φ₂ := .f32) D1 prec1 p w1)
              (broadcastInDim ⟨2, ![1000, 128]⟩ ![0, 1] hd1 (broadcastInDim ⟨2, ![1, 128]⟩ ![1] hr1 b1)))
            (broadcastInDim ⟨2, ![1000, 128]⟩ ![] hz (constant (F := Ideal) (⟨0, ![]⟩ : Shape) .f32 0x00000000#32)))
          w2)
        (broadcastInDim ⟨2, ![1000, 6]⟩ ![0, 1] hd2 (broadcastInDim ⟨2, ![1, 6]⟩ ![1] hr2 b2))
      = head p w1 (rowOfVec b1) w2 (rowOfVec b2) := by
  obtain rfl := dot_eq_plain D1 h11 h12 h13 h14 h15 h16
  obtain rfl := dot_eq_plain D2 h21 h22 h23 h24 h25 h26
  funext i
  obtain ⟨r, q, rfl⟩ : ∃ (r : Fin 1000) (q : Fin 6), i = ix2 r q := ⟨i 0, i 1, eq_ix2 i⟩
  rw [addf_apply, StackMember.dotGeneral_plain_apply, broadcastInDim_1b_ab_apply, Cert.LibColRow.broadcastInDim_row_apply]
  show _ = (∑ c : Fin 128, max ((∑ d : Fin 128, p (ix2 r d) * w1 (ix2 d c)) + b1 (ix1 c)) 0 * w2 (ix2 c q)) + b2 (ix1 q)
  refine congrArg (· + b2 (ix1 q)) (Finset.sum_congr rfl fun c _ => congrArg (· * w2 (ix2 c q)) ?_)
  rw [maximumf_apply, addf_apply, StackMember.dotGeneral_plain_apply, broadcastInDim_1b_ab_apply,
    Cert.LibColRow.broadcastInDim_row_apply, bcast_zero_apply hz]

end Cert.GCN

end
-- ==== Proof.ChainTail.lean ====
/-
  The last stretch and the head region of the idealized kernel program: the whole program's result is the model
  network with the factored aggregation.

  The pooled array is the segment sum of the last layer's rows along the batch column divided by the clipped node
  counts; the bias vectors become rows; the head region applies the two-layer head.
-/
import proofs.«168746_j56882546868465_2_alg».proof.Proof.Gen.KernelIdeal.Frame
import proofs.«168746_j56882546868465_2_alg».proof.Proof.ChainL2
import proofs.«168746_j56882546868465_2_alg».proof.Proof.Region10
import proofs.«168746_j56882546868465_2_alg».proof.Proof.PoolHeadGlue

set_option maxRecDepth 16384

noncomputable section

namespace Cert.KernelIdeal.Chain

open Cert.KernelIdeal Cert.KernelIdeal.Gen Cert.KernelIdeal.RegionValue
open Idealize.ShloMosaic Idealize.ShloMosaic.TcCoe Idealize.ShloMosaic.StableHlo Idealize.SL.Sem Idealize.ShloMosaic.ValueIdx
open Cert.GCN

variable (m : (ℓ : Loc nD τ sig) → Buf (Elt Ideal) ℓ) (ρ : Dev nD → PrngReg) (c : Dev nD)

-- The `dis` column is never opened here: it is an inverse square root of a sum over all 800000 edges.
attribute [local irreducible] Cert.GCN.disColOf

set_option maxHeartbeats 4000000 in
/-- The pooled features. -/
theorem W21_v108 : (W21 (F := Ideal) m ρ c (Proc.devRef .tc main_v108) : S1000x128.Idx → EReal)
    = pooledOf (batchCol (A2 m c)) (X3 m c) := by
  dsimp only [W21]
  after_results
  rw [pooled_read _ rfl rfl rfl rfl _ rfl rfl rfl rfl, keep_main_arg2_0_20, W20_main_v96]
  exact congrArg (fun b => pooledOf b (X3 m c)) (batchCol_read (A2 m c) _)

set_option maxHeartbeats 4000000 in
/-- The two bias vectors of the head, as rows. -/
theorem W21_v109 : (W21 (F := Ideal) m ρ c (Proc.devRef .tc main_v109) : S1x128.Idx → EReal) = rowOfVec (A8 m c) := by
  dsimp only [W21]
  after_results
  rw [keep_main_arg8_0_20]
  exact rowOfVec_read (A8 m c) _
set_option maxHeartbeats 4000000 in
theorem W21_v110 : (W21 (F := Ideal) m ρ c (Proc.devRef .tc main_v110) : S1x6.Idx → EReal) = rowOfVec (A10 m c) := by
  dsimp only [W21]
  after_results
  rw [keep_main_arg10_0_20]
  exact rowOfVec_read (A10 m c) _

/-- THE RESULT of the idealized kernel program: the model network with the factored aggregation, of the launched
    arguments. -/
theorem W22_v111 : (W22 (F := Ideal) m ρ c (Proc.devRef .tc main_v111) : S1000x6.Idx → EReal)
    = netF (A0 m c) (A1 m c) (A2 m c) (A3 m c) (A4 m c) (A5 m c) (A6 m c) (A7 m c) (A8 m c) (A9 m c) (A10 m c) := by
  refine (W22_arr m ρ c 5).trans ?_
  rw [region10_out (V21 m ρ) c]
  show head (W21 m ρ c (Proc.devRef .tc main_v108)) (W21 m ρ c (Proc.devRef .tc main_arg7)) (W21 m ρ c (Proc.devRef .tc main_v109))
    (W21 m ρ c (Proc.devRef .tc main_arg9)) (W21 m ρ c (Proc.devRef .tc main_v110)) = _
  rw [W21_v108, keep_main_arg7_0_21, W21_v109, keep_main_arg9_0_21, W21_v110]
  rfl

end Cert.KernelIdeal.Chain

end
-- ==== Proof.LibLineRead.lean ====
/-
  A STRAIGHT LINE IN WHICH EVERY OPERATION WRITES ONE BUFFER, READ AT ONE BUFFER.

  `after l V` folds the operations `l` over the contents `V`.  When operation `k` of the line writes exactly the
  buffer `W[k]` (`WritesAre l W`), the fold at a buffer `r` is decided by the positions at which `r` occurs in `W`:
  * if `r` is not in `W` the line leaves it alone (`after_of_not_mem`);
  * if `r` is not written at or after position `k`, the whole line and its first `k` operations agree at `r`
    (`after_eq_take`);
  * if `r` is not written after position `k`, the line at `r` is operation `k`'s result over the first `k`
    operations' fold (`after_eq_result`).
  For the one-result builders this gives the line at an operation's result buffer as the operation's function of the
  line at its operand buffers (`after_nullary` … `after_reshape`), the side conditions being membership of literal
  references in a literal list.
-/
import Idealize.ShloMosaic.Lib.StableHlo.Run
import Idealize.ShloMosaic.Lib.Pipeline.Frame

noncomputable section

namespace Cert.Proof.LibLineRead

open Idealize.ShloMosaic Idealize.ShloMosaic.TcCoe Idealize.SL.Sem Idealize.ShloMosaic.StableHlo

variable {τ : Topo} {sig : RefSig} {Val : EltTy → Type}

/-- Operation `k` of `l` writes exactly the buffer of the reference `W[k]`, for every `k`. -/
def WritesAre (l : List (HloOp τ sig Val)) (W : List (Ref sig .tc)) : Prop :=
  List.Forall₂ (fun op r => op.writes = {Proc.devRef (τ := τ) .tc r}) l W

theorem WritesAre.nil : WritesAre ([] : List (HloOp τ sig Val)) [] := List.Forall₂.nil

theorem WritesAre.cons {op : HloOp τ sig Val} {r : Ref sig .tc} {l : List (HloOp τ sig Val)} {W : List (Ref sig .tc)}
    (h : op.writes = {Proc.devRef (τ := τ) .tc r}) (t : WritesAre l W) : WritesAre (op :: l) (r :: W) :=
  List.Forall₂.cons h t

theorem WritesAre.append {l₁ l₂ : List (HloOp τ sig Val)} {W₁ W₂ : List (Ref sig .tc)}
    (h₁ : WritesAre l₁ W₁) (h₂ : WritesAre l₂ W₂) : WritesAre (l₁ ++ l₂) (W₁ ++ W₂) := by
  induction h₁ with
  | nil => exact h₂
  | cons h _ ih => exact List.Forall₂.cons h ih

theorem WritesAre.drop {l : List (HloOp τ sig Val)} {W : List (Ref sig .tc)} (h : WritesAre l W) :
    ∀ k : Nat, WritesAre (l.drop k) (W.drop k) := by
  induction h with
  | nil => intro k; simpa using WritesAre.nil
  | cons hd tl ih =>
    intro k
    cases k with
    | zero => exact List.Forall₂.cons hd tl
    | succ k => simpa using ih k

/-- A buffer that no operation writes keeps its contents. -/
theorem after_of_not_mem {l : List (HloOp τ sig Val)} {W : List (Ref sig .tc)} (h : WritesAre l W)
    (V : Valuation τ sig Val) {r : Ref sig .tc} (hr : r ∉ W) :
    after l V (Proc.devRef .tc r) = V (Proc.devRef .tc r) := by
  induction h generalizing V with
  | nil => rfl
  | @cons op r' l W hd _ ih =>
    rw [after_cons, ih _ (fun hm => hr (List.mem_cons_of_mem _ hm))]
    refine op.result_of_not_mem V ?_
    rw [hd, Finset.mem_singleton]
    exact devRef_ne_of_ne (fun e => hr (e ▸ List.mem_cons_self))

/-- The line as its first `k` operations followed by the rest. -/
theorem after_take_drop (l : List (HloOp τ sig Val)) (V : Valuation τ sig Val) (k : Nat) :
    after l V = after (l.drop k) (after (l.take k) V) := by
  conv_lhs => rw [← List.take_append_drop k l]
  exact StableHlo.after_append _ _ _

/-- A buffer not written from position `k` on is, after the line, what the first `k` operations left. -/
theorem after_eq_take {l : List (HloOp τ sig Val)} {W : List (Ref sig .tc)} (h : WritesAre l W)
    (V : Valuation τ sig Val) (k : Nat) {r : Ref sig .tc} (hr : r ∉ W.drop k) :
    after l V (Proc.devRef .tc r) = after (l.take k) V (Proc.devRef .tc r) := by
  rw [after_take_drop l V k]
  exact after_of_not_mem (h.drop k) _ hr

/-- A buffer not written after position `k` is, after the line, what operation `k` left. -/
theorem after_eq_result {l : List (HloOp τ sig Val)} {W : List (Ref sig .tc)} (h : WritesAre l W)
    (V : Valuation τ sig Val) (k : Nat) {op : HloOp τ sig Val} (hk : l[k]? = some op) {r : Ref sig .tc}
    (hr : r ∉ W.drop (k + 1)) :
    after l V (Proc.devRef .tc r) = op.result (after (l.take k) V) (Proc.devRef .tc r) := by
  obtain ⟨hlt, rfl⟩ := List.getElem?_eq_some_iff.mp hk
  rw [after_take_drop l V k, List.drop_eq_getElem_cons hlt, after_cons]
  exact after_of_not_mem (h.drop (k + 1)) _ hr

section Builders

variable {l : List (HloOp τ sig Val)} {W : List (Ref sig .tc)}

theorem after_nullary (h : WritesAre l W) (V : Valuation τ sig Val) (k : Nat) (y : Ref sig .tc) (v : y.ty.Contents Val) (hy)
    (hk : l[k]? = some (nullary y v hy)) (hy' : y ∉ W.drop (k + 1)) :
    after l V (Proc.devRef .tc y) = v := by
  rw [after_eq_result h V k hk hy', nullary_result]

theorem after_unary (h : WritesAre l W) (V : Valuation τ sig Val) (k : Nat) (x y : Ref sig .tc) (f : x.ty.Contents Val → y.ty.Contents Val) (hx hy)
    (hk : l[k]? = some (unary x y f hx hy)) (hy' : y ∉ W.drop (k + 1)) (hx' : x ∉ W.drop k) :
    after l V (Proc.devRef .tc y) = f (after l V (Proc.devRef .tc x)) := by
  rw [after_eq_result h V k hk hy', unary_result, after_eq_take h V k hx']

theorem after_binary (h : WritesAre l W) (V : Valuation τ sig Val) (k : Nat) (a b y : Ref sig .tc) (f : a.ty.Contents Val → b.ty.Contents Val → y.ty.Contents Val) (ha hb hy)
    (hk : l[k]? = some (binary a b y f ha hb hy)) (hy' : y ∉ W.drop (k + 1)) (ha' : a ∉ W.drop k) (hb' : b ∉ W.drop k) :
    after l V (Proc.devRef .tc y) = f (after l V (Proc.devRef .tc a)) (after l V (Proc.devRef .tc b)) := by
  rw [after_eq_result h V k hk hy', binary_result, after_eq_take h V k ha', after_eq_take h V k hb']

theorem after_ternary (h : WritesAre l W) (V : Valuation τ sig Val) (k : Nat) (c a b y : Ref sig .tc)
    (f : c.ty.Contents Val → a.ty.Contents Val → b.ty.Contents Val → y.ty.Contents Val) (hc ha hb hy)
    (hk : l[k]? = some (ternary c a b y f hc ha hb hy)) (hy' : y ∉ W.drop (k + 1)) (hc' : c ∉ W.drop k)
    (ha' : a ∉ W.drop k) (hb' : b ∉ W.drop k) :
    after l V (Proc.devRef .tc y)
      = f (after l V (Proc.devRef .tc c)) (after l V (Proc.devRef .tc a)) (after l V (Proc.devRef .tc b)) := by
  rw [after_eq_result h V k hk hy', ternary_result, after_eq_take h V k hc', after_eq_take h V k ha',
    after_eq_take h V k hb']

theorem after_reshape (h : WritesAre l W) (V : Valuation τ sig Val) (k : Nat) (x y : Ref sig .tc) (he : x.ty.elt = y.ty.elt) (hn : x.ty.shape.ShapeCasts y.ty.shape) (hx hy)
    (hk : l[k]? = some (reshape x y he hn hx hy)) (hy' : y ∉ W.drop (k + 1)) (hx' : x ∉ W.drop k) :
    after l V (Proc.devRef .tc y) = fun i => he ▸ shapeCast y.ty.shape (after l V (Proc.devRef .tc x)) hn i := by
  rw [after_eq_result h V k hk hy', reshape_result, after_eq_take h V k hx']

end Builders

end Cert.Proof.LibLineRead

end
-- ==== Proof.RefRun.lean ====
/-
  The reference program's run.  @main of the reference is a straight line of host operations, seven of whose
  lines are calls: `_var` three times (each of which calls `_where`), `relu` three times and `relu_0` once.
  A call executes the callee's body on the operands, each value of the body in the buffer the call's record
  names, so @main is the straight line of 294 operations listed here: its own, in order, with each callee's
  operations in place of the call.  From that list the library's theorem on straight lines gives the run: every
  weakly fair execution terminates with every buffer at the fold of the operations over the launch contents.
  No operation writes an argument's buffer, hence the arguments end as they were launched.
-/
import proofs.«168746_j56882546868465_2_alg».proof.Proof.Gen.ReferenceIdeal
import Idealize.ShloMosaic.Lib.StableHlo.Run
import proofs.«168746_j56882546868465_2_alg».proof.Proof.LibLineRead

noncomputable section

namespace Cert.ReferenceIdeal.RefValue

open Cert.ReferenceIdeal Cert.ReferenceIdeal.Gen Idealize.ShloMosaic Idealize.ShloMosaic.TcCoe Idealize.SL.Sem Idealize.ShloMosaic.StableHlo Cert.Proof.LibLineRead

variable {F : FTy → Type} [FloatOps F]

/-- Statements 1 … 60 of @main: the two index rows of the edge list, the degree vector and its inverse square root, the edge weights, and the first layer up to its bias row. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (addf : (⟨S50000, .f32⟩ : BufTy).Contents (Elt F) → (⟨S50000, .f32⟩ : BufTy).Contents (Elt F) → (⟨S50000, .f32⟩ : BufTy).Contents (Elt F)),
    StableHlo.unary main_v9 main_v10 (Host.rsqrt : (⟨S50000, .f32⟩ : BufTy).Contents (Elt F) → (⟨S50000, .f32⟩ : BufTy).Contents (Elt F)),
    StableHlo.nullary main_c (constantI S_ 32 0#32),
    StableHlo.unary main_c main_v11 (broadcastInDim S800000 ![] bcast_S_S800000 : (⟨S_, .i32⟩ : BufTy).Contents (Elt F) → (⟨S800000, .i32⟩ : BufTy).Contents (Elt F)),
    StableHlo.binary main_v1 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v13 (broadcastInDim S800000 ![] bcast_S_S800000 : (⟨S_, .i32⟩ : BufTy).Contents (Elt F) → (⟨S800000, .i32⟩ : BufTy).Contents (Elt F)),
    StableHlo.binary main_v1 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_v10 main_v16 main_v17 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_3 (constantI S_ 32 0#32),
    StableHlo.unary main_c_3 main_v18 (broadcastInDim S800000 ![] bcast_S_S800000 : (⟨S_, .i32⟩ : BufTy).Contents (Elt F) → (⟨S800000, .i32⟩ : BufTy).Contents (Elt F)),
    StableHlo.binary main_v3 main_v18 main_v19 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v20 (broadcastInDim S800000 ![] bcast_S_S800000 : (⟨S_, .i32⟩ : BufTy).Contents (Elt F) → (⟨S800000, .i32⟩ : BufTy).Contents (Elt F)),
    StableHlo.binary main_v3 main_v20 main_v21 (addi : (⟨S800000, .i32⟩ : BufTy).Contents (Elt F) → (⟨S800000, .i32⟩ : BufTy).Contents (Elt F) → (⟨S800000, .i32⟩ : BufTy).Contents (Elt F)),
    StableHlo.ternary main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v22 main_v23 (broadcastInDim S800000x1 ![0] bcast_S800000_S800000x1_0 : (⟨S800000, .i32⟩ : BufTy).Contents (Elt F) → (⟨S800000x1, .i32⟩ : BufTy).Contents (Elt F)),
    StableHlo.binary main_v10 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v17 main_v24 main_v25 (mulf : (⟨S800000, .f32⟩ : BufTy).Contents (Elt F) → (⟨S800000, .f32⟩ : BufTy).Contents (Elt F) → (⟨S800000, .f32⟩ : BufTy).Contents (Elt F)),
    StableHlo.unary main_v25 main_v26 (broadcastInDim S800000x1 ![0] bcast_S800000_S800000x1_0 : (⟨S800000, .f32⟩ : BufTy).Contents (Elt F) → (⟨S800000x1, .f32⟩ : BufTy).Contents (Elt F)),
    StableHlo.binary main_v10 main_v10 main_v27 (mulf : (⟨S50000, .f32⟩ : BufTy).Contents (Elt F) → (⟨S50000, .f32⟩ : BufTy).Contents (Elt F) → (⟨S50000, .f32⟩ : BufTy).Contents (Elt F)),
    StableHlo.unary main_v27 main_v28 (broadcastInDim S50000x1 ![0] bcast_S50000_S50000x1_0 : (⟨S50000, .f32⟩ : BufTy).Contents (Elt F) → (⟨S50000x1, .f32⟩ : BufTy).Contents (Elt F)),
    StableHlo.unary main_arg3 main_v29 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v29 main_v30 rfl shapeCasts_S1x128x128_S128x128,
    StableHlo.binary main_arg0 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_5 (constantI S_ 32 0#32),
    StableHlo.unary main_c_5 main_v32 (broadcastInDim S800000 ![] bcast_S_S800000 : (⟨S_, .i32⟩ : BufTy).Contents (Elt F) → (⟨S800000, .i32⟩ : BufTy).Contents (Elt F)),
    StableHlo.binary main_v1 main_v32 main_v33 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v34 (broadcastInDim S800000 ![] bcast_S_S800000 : (⟨S_, .i32⟩ : BufTy).Contents (Elt F) → (⟨S800000, .i32⟩ : BufTy).Contents (Elt F)),
    StableHlo.binary main_v1 main_v34 main_v35 (addi : (⟨S800000, .i32⟩ : BufTy).Contents (Elt F) → (⟨S800000, .i32⟩ : BufTy).Contents (Elt F) → (⟨S800000, .i32⟩ : BufTy).Contents (Elt F)),
    StableHlo.ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v36 main_v37 (broadcastInDim S800000x1 ![0] bcast_S800000_S800000x1_0 : (⟨S800000, .i32⟩ : BufTy).Contents (Elt F) → (⟨S800000x1, .i32⟩ : BufTy).Contents (Elt F)),
    StableHlo.binary main_v31 main_v37 main_v38 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v26 main_v39 (broadcastInDim S800000x128 ![0, 1] bcast_S800000x1_S800000x128_0_1 : (⟨S800000x1, .f32⟩ : BufTy).Contents (Elt F) → (⟨S800000x128, .f32⟩ : BufTy).Contents (Elt F)),
    StableHlo.binary main_v38 main_v39 main_v40 (mulf : (⟨S800000x128, .f32⟩ : BufTy).Contents (Elt F) → (⟨S800000x128, .f32⟩ : BufTy).Contents (Elt F) → (⟨S800000x128, .f32⟩ : BufTy).Contents (Elt F)),
    StableHlo.nullary main_cst_7 (constant S_ .f32 0x00000000#32),
    StableHlo.unary main_cst_7 main_v41 (broadcastInDim S50000x128 ![] bcast_S_S50000x128 : (⟨S_, .f32⟩ : BufTy).Contents (Elt F) → (⟨S50000x128, .f32⟩ : BufTy).Contents (Elt F)),
    StableHlo.unary main_v3 main_v42 (broadcastInDim S800000x1 ![0] bcast_S800000_S800000x1_0 : (⟨S800000, .i32⟩ : BufTy).Contents (Elt F) → (⟨S800000x1, .i32⟩ : BufTy).Contents (Elt F)),
    StableHlo.ternary main_v41 main_v42 main_v40 main_v43 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v28 main_v44 (broadcastInDim S50000x128 ![0, 1] bcast_S50000x1_S50000x128_0_1 : (⟨S50000x1, .f32⟩ : BufTy).Contents (Elt F) → (⟨S50000x128, .f32⟩ : BufTy).Contents (Elt F)),
    StableHlo.binary main_v31 main_v44 main_v45 (mulf : (⟨S50000x128, .f32⟩ : BufTy).Contents (Elt F) → (⟨S50000x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.unary main_arg4 main_v47 ((extractStridedSlice S1x128 ![0, 0] · slices_S3x128_S1x128_0_0) : (⟨S3x128, .f32⟩ : BufTy).Contents (Elt F) → (⟨S1x128, .f32⟩ : BufTy).Contents (Elt F)),
    StableHlo.reshape main_v47 main_v48 rfl shapeCasts_S1x128_S128,
    StableHlo.unary main_v48 main_v49 (broadcastInDim S1x128 ![1] bcast_S128_S1x128_1 : (⟨S128, .f32⟩ : BufTy).Contents (Elt F) → (⟨S1x128, .f32⟩ : BufTy).Contents (Elt F)) ]

/-- Statements 61 … 120: the first layer's normalisation (the call of `_var` unfolded over `main_call0`, `_where` within it over `main_call0.call0`; `relu` over `main_call1`) and the second layer up to its mean. -/
abbrev ops1 : List (HloOp τ sig (Elt F)) :=
  [ StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v46 main_v50 main_v51 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v51 main_cst_8 main_v52 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v53 (broadcastInDim S128 ![] bcast_S_S128 : (⟨S_, .f32⟩ : BufTy).Contents (Elt F) → (⟨S128, .f32⟩ : BufTy).Contents (Elt F)),
    StableHlo.binary main_v52 main_v53 main_v54 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call0.cst (constant S_ .f32 0x00000000#32),
    StableHlo.TRef.binary (.of main_v51 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v51 : StableHlo.TRef sig ⟨S50000x128, .f32⟩) main_call0.v4 main_call0.v5 subf,
    StableHlo.TRef.binary main_call0.v5 main_call0.v5 main_call0.v6 mulf,
    StableHlo.TRef.unary (.of main_c_10 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v54 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v57 main_v58 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v59 (broadcastInDim S128 ![] bcast_S_S128 : (⟨S_, .f32⟩ : BufTy).Contents (Elt F) → (⟨S128, .f32⟩ : BufTy).Contents (Elt F)),
    StableHlo.binary main_v55 main_v59 main_v60 (addf : (⟨S128, .f32⟩ : BufTy).Contents (Elt F) → (⟨S128, .f32⟩ : BufTy).Contents (Elt F) → (⟨S128, .f32⟩ : BufTy).Contents (Elt F)),
    StableHlo.unary main_v60 main_v61 (Host.rsqrt : (⟨S128, .f32⟩ : BufTy).Contents (Elt F) → (⟨S128, .f32⟩ : BufTy).Contents (Elt F)),
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_arg5 main_v65 ((extractStridedSlice S1x128 ![0, 0] · slices_S3x128_S1x128_0_0) : (⟨S3x128, .f32⟩ : BufTy).Contents (Elt F) → (⟨S1x128, .f32⟩ : BufTy).Contents (Elt F)),
    StableHlo.reshape main_v65 main_v66 rfl shapeCasts_S1x128_S128,
    StableHlo.unary main_v66 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v68 main_v69 (mulf : (⟨S50000x128, .f32⟩ : BufTy).Contents (Elt F) → (⟨S50000x128, .f32⟩ : BufTy).Contents (Elt F) → (⟨S50000x128, .f32⟩ : BufTy).Contents (Elt F)),
    StableHlo.unary main_arg6 main_v70 ((extractStridedSlice S1x128 ![0, 0] · slices_S3x128_S1x128_0_0) : (⟨S3x128, .f32⟩ : BufTy).Contents (Elt F) → (⟨S1x128, .f32⟩ : BufTy).Contents (Elt F)),
    StableHlo.reshape main_v70 main_v71 rfl shapeCasts_S1x128_S128,
    StableHlo.unary main_v71 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v73 main_v74 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v74 : StableHlo.TRef sig ⟨S50000x128, .f32⟩) main_call1.v0 main_call1.v1 maximumf,
    StableHlo.unary main_arg3 main_v76 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v76 main_v77 rfl shapeCasts_S1x128x128_S128x128,
    StableHlo.binary main_v75 main_v77 main_v78 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_12 (constantI S_ 32 0#32),
    StableHlo.unary main_c_12 main_v79 (broadcastInDim S800000 ![] bcast_S_S800000 : (⟨S_, .i32⟩ : BufTy).Contents (Elt F) → (⟨S800000, .i32⟩ : BufTy).Contents (Elt F)),
    StableHlo.binary main_v1 main_v79 main_v80 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v81 (broadcastInDim S800000 ![] bcast_S_S800000 : (⟨S_, .i32⟩ : BufTy).Contents (Elt F) → (⟨S800000, .i32⟩ : BufTy).Contents (Elt F)),
    StableHlo.binary main_v1 main_v81 main_v82 (addi : (⟨S800000, .i32⟩ : BufTy).Contents (Elt F) → (⟨S800000, .i32⟩ : BufTy).Contents (Elt F) → (⟨S800000, .i32⟩ : BufTy).Contents (Elt F)),
    StableHlo.ternary main_v80 main_v82 main_v1 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v83 main_v84 (broadcastInDim S800000x1 ![0] bcast_S800000_S800000x1_0 : (⟨S800000, .i32⟩ : BufTy).Contents (Elt F) → (⟨S800000x1, .i32⟩ : BufTy).Contents (Elt F)),
    StableHlo.binary main_v78 main_v84 main_v85 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v26 main_v86 (broadcastInDim S800000x128 ![0, 1] bcast_S800000x1_S800000x128_0_1 : (⟨S800000x1, .f32⟩ : BufTy).Contents (Elt F) → (⟨S800000x128, .f32⟩ : BufTy).Contents (Elt F)),
    StableHlo.binary main_v85 main_v86 main_v87 (mulf : (⟨S800000x128, .f32⟩ : BufTy).Contents (Elt F) → (⟨S800000x128, .f32⟩ : BufTy).Contents (Elt F) → (⟨S800000x128, .f32⟩ : BufTy).Contents (Elt F)),
    StableHlo.nullary main_cst_14 (constant S_ .f32 0x00000000#32),
    StableHlo.unary main_cst_14 main_v88 (broadcastInDim S50000x128 ![] bcast_S_S50000x128 : (⟨S_, .f32⟩ : BufTy).Contents (Elt F) → (⟨S50000x128, .f32⟩ : BufTy).Contents (Elt F)),
    StableHlo.unary main_v3 main_v89 (broadcastInDim S800000x1 ![0] bcast_S800000_S800000x1_0 : (⟨S800000, .i32⟩ : BufTy).Contents (Elt F) → (⟨S800000x1, .i32⟩ : BufTy).Contents (Elt F)),
    StableHlo.ternary main_v88 main_v89 main_v87 main_v90 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v28 main_v91 (broadcastInDim S50000x128 ![0, 1] bcast_S50000x1_S50000x128_0_1 : (⟨S50000x1, .f32⟩ : BufTy).Contents (Elt F) → (⟨S50000x128, .f32⟩ : BufTy).Contents (Elt F)),
    StableHlo.binary main_v78 main_v91 main_v92 (mulf : (⟨S50000x128, .f32⟩ : BufTy).Contents (Elt F) → (⟨S50000x128, .f32⟩ : BufTy).Contents (Elt F) → (⟨S50000x128, .f32⟩ : BufTy).Contents (Elt F)),
    StableHlo.binary main_v90 main_v92 main_v93 (addf : (⟨S50000x128, .f32⟩ : BufTy).Contents (Elt F) → (⟨S50000x128, .f32⟩ : BufTy).Contents (Elt F) → (⟨S50000x128, .f32⟩ : BufTy).Contents (Elt F)),
    StableHlo.unary main_arg4 main_v94 ((extractStridedSlice S1x128 ![1, 0] · slices_S3x128_S1x128_1_0) : (⟨S3x128, .f32⟩ : BufTy).Contents (Elt F) → (⟨S1x128, .f32⟩ : BufTy).Contents (Elt F)),
    StableHlo.reshape main_v94 main_v95 rfl shapeCasts_S1x128_S128,
    StableHlo.unary main_v95 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S50000x128 ![0, 1] bcast_S1x128_S50000x128_0_1 : (⟨S1x128, .f32⟩ : BufTy).Contents (Elt F) → (⟨S50000x128, .f32⟩ : BufTy).Contents (Elt F)),
    StableHlo.binary main_v93 main_v97 main_v98 (addf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x00000000#32),
    StableHlo.binary main_v98 main_cst_15 main_v99 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v100 (broadcastInDim S128 ![] bcast_S_S128 : (⟨S_, .f32⟩ : BufTy).Contents (Elt F) → (⟨S128, .f32⟩ : BufTy).Contents (Elt F)) ]

/-- Statements 121 … 180: the second layer's normalisation (`_var` over `main_call2`, `relu` over `main_call3`) and the third layer up to its centred values (`_var` over `main_call4`). -/
abbrev ops2 : List (HloOp τ sig (Elt F)) :=
  [ StableHlo.binary main_v99 main_v100 main_v101 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call2.cst (constant S_ .f32 0x00000000#32),
    StableHlo.TRef.binary (.of main_v98 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v98 : StableHlo.TRef sig ⟨S50000x128, .f32⟩) main_call2.v4 main_call2.v5 subf,
    StableHlo.TRef.binary main_call2.v5 main_call2.v5 main_call2.v6 mulf,
    StableHlo.TRef.unary (.of main_c_17 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v101 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S50000x128 ![0, 1] bcast_S1x128_S50000x128_0_1 : (⟨S1x128, .f32⟩ : BufTy).Contents (Elt F) → (⟨S50000x128, .f32⟩ : BufTy).Contents (Elt F)),
    StableHlo.binary main_v98 main_v104 main_v105 (subf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v106 (broadcastInDim S128 ![] bcast_S_S128 : (⟨S_, .f32⟩ : BufTy).Contents (Elt F) → (⟨S128, .f32⟩ : BufTy).Contents (Elt F)),
    StableHlo.binary main_v102 main_v106 main_v107 (addf : (⟨S128, .f32⟩ : BufTy).Contents (Elt F) → (⟨S128, .f32⟩ : BufTy).Contents (Elt F) → (⟨S128, .f32⟩ : BufTy).Contents (Elt F)),
    StableHlo.unary main_v107 main_v108 (Host.rsqrt : (⟨S128, .f32⟩ : BufTy).Contents (Elt F) → (⟨S128, .f32⟩ : BufTy).Contents (Elt F)),
    StableHlo.unary main_v108 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v110 main_v111 (mulf : (⟨S50000x128, .f32⟩ : BufTy).Contents (Elt F) → (⟨S50000x128, .f32⟩ : BufTy).Contents (Elt F) → (⟨S50000x128, .f32⟩ : BufTy).Contents (Elt F)),
    StableHlo.unary main_arg5 main_v112 ((extractStridedSlice S1x128 ![1, 0] · slices_S3x128_S1x128_1_0) : (⟨S3x128, .f32⟩ : BufTy).Contents (Elt F) → (⟨S1x128, .f32⟩ : BufTy).Contents (Elt F)),
    StableHlo.reshape main_v112 main_v113 rfl shapeCasts_S1x128_S128,
    StableHlo.unary main_v113 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v115 main_v116 (mulf : (⟨S50000x128, .f32⟩ : BufTy).Contents (Elt F) → (⟨S50000x128, .f32⟩ : BufTy).Contents (Elt F) → (⟨S50000x128, .f32⟩ : BufTy).Contents (Elt F)),
    StableHlo.unary main_arg6 main_v117 ((extractStridedSlice S1x128 ![1, 0] · slices_S3x128_S1x128_1_0) : (⟨S3x128, .f32⟩ : BufTy).Contents (Elt F) → (⟨S1x128, .f32⟩ : BufTy).Contents (Elt F)),
    StableHlo.reshape main_v117 main_v118 rfl shapeCasts_S1x128_S128,
    StableHlo.unary main_v118 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S50000x128 ![0, 1] bcast_S1x128_S50000x128_0_1 : (⟨S1x128, .f32⟩ : BufTy).Contents (Elt F) → (⟨S50000x128, .f32⟩ : BufTy).Contents (Elt F)),
    StableHlo.binary main_v116 main_v120 main_v121 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v121 : StableHlo.TRef sig ⟨S50000x128, .f32⟩) main_call3.v0 main_call3.v1 maximumf,
    StableHlo.unary main_arg3 main_v123 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v123 main_v124 rfl shapeCasts_S1x128x128_S128x128,
    StableHlo.binary main_v122 main_v124 main_v125 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_19 (constantI S_ 32 0#32),
    StableHlo.unary main_c_19 main_v126 (broadcastInDim S800000 ![] bcast_S_S800000 : (⟨S_, .i32⟩ : BufTy).Contents (Elt F) → (⟨S800000, .i32⟩ : BufTy).Contents (Elt F)),
    StableHlo.binary main_v1 main_v126 main_v127 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v128 (broadcastInDim S800000 ![] bcast_S_S800000 : (⟨S_, .i32⟩ : BufTy).Contents (Elt F) → (⟨S800000, .i32⟩ : BufTy).Contents (Elt F)),
    StableHlo.binary main_v1 main_v128 main_v129 (addi : (⟨S800000, .i32⟩ : BufTy).Contents (Elt F) → (⟨S800000, .i32⟩ : BufTy).Contents (Elt F) → (⟨S800000, .i32⟩ : BufTy).Contents (Elt F)),
    StableHlo.ternary main_v127 main_v129 main_v1 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v130 main_v131 (broadcastInDim S800000x1 ![0] bcast_S800000_S800000x1_0 : (⟨S800000, .i32⟩ : BufTy).Contents (Elt F) → (⟨S800000x1, .i32⟩ : BufTy).Contents (Elt F)),
    StableHlo.binary main_v125 main_v131 main_v132 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v26 main_v133 (broadcastInDim S800000x128 ![0, 1] bcast_S800000x1_S800000x128_0_1 : (⟨S800000x1, .f32⟩ : BufTy).Contents (Elt F) → (⟨S800000x128, .f32⟩ : BufTy).Contents (Elt F)),
    StableHlo.binary main_v132 main_v133 main_v134 (mulf : (⟨S800000x128, .f32⟩ : BufTy).Contents (Elt F) → (⟨S800000x128, .f32⟩ : BufTy).Contents (Elt F) → (⟨S800000x128, .f32⟩ : BufTy).Contents (Elt F)),
    StableHlo.nullary main_cst_21 (constant S_ .f32 0x00000000#32),
    StableHlo.unary main_cst_21 main_v135 (broadcastInDim S50000x128 ![] bcast_S_S50000x128 : (⟨S_, .f32⟩ : BufTy).Contents (Elt F) → (⟨S50000x128, .f32⟩ : BufTy).Contents (Elt F)),
    StableHlo.unary main_v3 main_v136 (broadcastInDim S800000x1 ![0] bcast_S800000_S800000x1_0 : (⟨S800000, .i32⟩ : BufTy).Contents (Elt F) → (⟨S800000x1, .i32⟩ : BufTy).Contents (Elt F)),
    StableHlo.ternary main_v135 main_v136 main_v134 main_v137 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v28 main_v138 (broadcastInDim S50000x128 ![0, 1] bcast_S50000x1_S50000x128_0_1 : (⟨S50000x1, .f32⟩ : BufTy).Contents (Elt F) → (⟨S50000x128, .f32⟩ : BufTy).Contents (Elt F)),
    StableHlo.binary main_v125 main_v138 main_v139 (mulf : (⟨S50000x128, .f32⟩ : BufTy).Contents (Elt F) → (⟨S50000x128, .f32⟩ : BufTy).Contents (Elt F) → (⟨S50000x128, .f32⟩ : BufTy).Contents (Elt F)),
    StableHlo.binary main_v137 main_v139 main_v140 (addf : (⟨S50000x128, .f32⟩ : BufTy).Contents (Elt F) → (⟨S50000x128, .f32⟩ : BufTy).Contents (Elt F) → (⟨S50000x128, .f32⟩ : BufTy).Contents (Elt F)),
    StableHlo.unary main_arg4 main_v141 ((extractStridedSlice S1x128 ![2, 0] · slices_S3x128_S1x128_2_0) : (⟨S3x128, .f32⟩ : BufTy).Contents (Elt F) → (⟨S1x128, .f32⟩ : BufTy).Contents (Elt F)),
    StableHlo.reshape main_v141 main_v142 rfl shapeCasts_S1x128_S128,
    StableHlo.unary main_v142 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S50000x128 ![0, 1] bcast_S1x128_S50000x128_0_1 : (⟨S1x128, .f32⟩ : BufTy).Contents (Elt F) → (⟨S50000x128, .f32⟩ : BufTy).Contents (Elt F)),
    StableHlo.binary main_v140 main_v144 main_v145 (addf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x00000000#32),
    StableHlo.binary main_v145 main_cst_22 main_v146 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_23 (constant S_ .f32 0x47435000#32),
    StableHlo.unary main_cst_23 main_v147 (broadcastInDim S128 ![] bcast_S_S128 : (⟨S_, .f32⟩ : BufTy).Contents (Elt F) → (⟨S128, .f32⟩ : BufTy).Contents (Elt F)),
    StableHlo.binary main_v146 main_v147 main_v148 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call4.cst (constant S_ .f32 0x00000000#32),
    StableHlo.TRef.binary (.of main_v145 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v145 : StableHlo.TRef sig ⟨S50000x128, .f32⟩) main_call4.v4 main_call4.v5 subf,
    StableHlo.TRef.binary main_call4.v5 main_call4.v5 main_call4.v6 mulf,
    StableHlo.TRef.unary (.of main_c_24 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v148 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S50000x128 ![0, 1] bcast_S1x128_S50000x128_0_1 : (⟨S1x128, .f32⟩ : BufTy).Contents (Elt F) → (⟨S50000x128, .f32⟩ : BufTy).Contents (Elt F)),
    StableHlo.binary main_v145 main_v151 main_v152 (subf : (⟨S50000x128, .f32⟩ : BufTy).Contents (Elt F) → (⟨S50000x128, .f32⟩ : BufTy).Contents (Elt F) → (⟨S50000x128, .f32⟩ : BufTy).Contents (Elt F)) ]

/-- Statements 181 … 224: the third layer's scaling and `relu` (over `main_call5`), the pooling by graph, and the two-layer head (`relu_0` over `main_call6`). -/
abbrev ops3 : List (HloOp τ sig (Elt F)) :=
  [ StableHlo.nullary main_cst_25 (constant S_ .f32 0x3727C5AC#32),
    StableHlo.unary main_cst_25 main_v153 (broadcastInDim S128 ![] bcast_S_S128 : (⟨S_, .f32⟩ : BufTy).Contents (Elt F) → (⟨S128, .f32⟩ : BufTy).Contents (Elt F)),
    StableHlo.binary main_v149 main_v153 main_v154 (addf : (⟨S128, .f32⟩ : BufTy).Contents (Elt F) → (⟨S128, .f32⟩ : BufTy).Contents (Elt F) → (⟨S128, .f32⟩ : BufTy).Contents (Elt F)),
    StableHlo.unary main_v154 main_v155 (Host.rsqrt : (⟨S128, .f32⟩ : BufTy).Contents (Elt F) → (⟨S128, .f32⟩ : BufTy).Contents (Elt F)),
    StableHlo.unary main_v155 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S50000x128 ![0, 1] bcast_S1x128_S50000x128_0_1 : (⟨S1x128, .f32⟩ : BufTy).Contents (Elt F) → (⟨S50000x128, .f32⟩ : BufTy).Contents (Elt F)),
    StableHlo.binary main_v152 main_v157 main_v158 (mulf : (⟨S50000x128, .f32⟩ : BufTy).Contents (Elt F) → (⟨S50000x128, .f32⟩ : BufTy).Contents (Elt F) → (⟨S50000x128, .f32⟩ : BufTy).Contents (Elt F)),
    StableHlo.unary main_arg5 main_v159 ((extractStridedSlice S1x128 ![2, 0] · slices_S3x128_S1x128_2_0) : (⟨S3x128, .f32⟩ : BufTy).Contents (Elt F) → (⟨S1x128, .f32⟩ : BufTy).Contents (Elt F)),
    StableHlo.reshape main_v159 main_v160 rfl shapeCasts_S1x128_S128,
    StableHlo.unary main_v160 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S50000x128 ![0, 1] bcast_S1x128_S50000x128_0_1 : (⟨S1x128, .f32⟩ : BufTy).Contents (Elt F) → (⟨S50000x128, .f32⟩ : BufTy).Contents (Elt F)),
    StableHlo.binary main_v158 main_v162 main_v163 (mulf : (⟨S50000x128, .f32⟩ : BufTy).Contents (Elt F) → (⟨S50000x128, .f32⟩ : BufTy).Contents (Elt F) → (⟨S50000x128, .f32⟩ : BufTy).Contents (Elt F)),
    StableHlo.unary main_arg6 main_v164 ((extractStridedSlice S1x128 ![2, 0] · slices_S3x128_S1x128_2_0) : (⟨S3x128, .f32⟩ : BufTy).Contents (Elt F) → (⟨S1x128, .f32⟩ : BufTy).Contents (Elt F)),
    StableHlo.reshape main_v164 main_v165 rfl shapeCasts_S1x128_S128,
    StableHlo.unary main_v165 main_v166 (broadcastInDim S1x128 ![1] bcast_S128_S1x128_1 : (⟨S128, .f32⟩ : BufTy).Contents (Elt F) → (⟨S1x128, .f32⟩ : BufTy).Contents (Elt F)),
    StableHlo.unary main_v166 main_v167 (broadcastInDim S50000x128 ![0, 1] bcast_S1x128_S50000x128_0_1 : (⟨S1x128, .f32⟩ : BufTy).Contents (Elt F) → (⟨S50000x128, .f32⟩ : BufTy).Contents (Elt F)),
    StableHlo.binary main_v163 main_v167 main_v168 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v168 : StableHlo.TRef sig ⟨S50000x128, .f32⟩) main_call5.v0 main_call5.v1 maximumf,
    StableHlo.nullary main_cst_26 (constant S_ .f32 0x00000000#32),
    StableHlo.unary main_cst_26 main_v170 (broadcastInDim S1000x128 ![] bcast_S_S1000x128 : (⟨S_, .f32⟩ : BufTy).Contents (Elt F) → (⟨S1000x128, .f32⟩ : BufTy).Contents (Elt F)),
    StableHlo.unary main_arg2 main_v171 (broadcastInDim S50000x1 ![0] bcast_S50000_S50000x1_0 : (⟨S50000, .i32⟩ : BufTy).Contents (Elt F) → (⟨S50000x1, .i32⟩ : BufTy).Contents (Elt F)),
    StableHlo.ternary main_v170 main_v171 main_v169 main_v172 ((fun x i u => Host.scatterAdd scatter_S1000x128_S50000x1_S50000x128_1_0_0_1 x i u) : (⟨S1000x128, .f32⟩ : BufTy).Contents (Elt F) → (⟨S50000x1, .i32⟩ : BufTy).Contents (Elt F) → (⟨S50000x128, .f32⟩ : BufTy).Contents (Elt F) → (⟨S1000x128, .f32⟩ : BufTy).Contents (Elt F)),
    StableHlo.nullary main_cst_27 (constant S_ .f32 0x3F800000#32),
    StableHlo.unary main_cst_27 main_v173 (broadcastInDim S50000 ![] bcast_S_S50000 : (⟨S_, .f32⟩ : BufTy).Contents (Elt F) → (⟨S50000, .f32⟩ : BufTy).Contents (Elt F)),
    StableHlo.nullary main_cst_28 (constant S_ .f32 0x00000000#32),
    StableHlo.unary main_cst_28 main_v174 (broadcastInDim S1000 ![] bcast_S_S1000 : (⟨S_, .f32⟩ : BufTy).Contents (Elt F) → (⟨S1000, .f32⟩ : BufTy).Contents (Elt F)),
    StableHlo.unary main_arg2 main_v175 (broadcastInDim S50000x1 ![0] bcast_S50000_S50000x1_0 : (⟨S50000, .i32⟩ : BufTy).Contents (Elt F) → (⟨S50000x1, .i32⟩ : BufTy).Contents (Elt F)),
    StableHlo.ternary main_v174 main_v175 main_v173 main_v176 ((fun x i u => Host.scatterAdd scatter_S1000_S50000x1_S50000_n_0_0_1 x i u) : (⟨S1000, .f32⟩ : BufTy).Contents (Elt F) → (⟨S50000x1, .i32⟩ : BufTy).Contents (Elt F) → (⟨S50000, .f32⟩ : BufTy).Contents (Elt F) → (⟨S1000, .f32⟩ : BufTy).Contents (Elt F)),
    StableHlo.nullary main_cst_29 (constant S_ .f32 0x3F800000#32),
    StableHlo.unary main_cst_29 main_v177 (broadcastInDim S1000 ![] bcast_S_S1000 : (⟨S_, .f32⟩ : BufTy).Contents (Elt F) → (⟨S1000, .f32⟩ : BufTy).Contents (Elt F)),
    StableHlo.binary main_v176 main_v177 main_v178 (maximumf : (⟨S1000, .f32⟩ : BufTy).Contents (Elt F) → (⟨S1000, .f32⟩ : BufTy).Contents (Elt F) → (⟨S1000, .f32⟩ : BufTy).Contents (Elt F)),
    StableHlo.unary main_v178 main_v179 (broadcastInDim S1000x1 ![0] bcast_S1000_S1000x1_0 : (⟨S1000, .f32⟩ : BufTy).Contents (Elt F) → (⟨S1000x1, .f32⟩ : BufTy).Contents (Elt F)),
    StableHlo.unary main_v179 main_v180 (broadcastInDim S1000x128 ![0, 1] bcast_S1000x1_S1000x128_0_1 : (⟨S1000x1, .f32⟩ : BufTy).Contents (Elt F) → (⟨S1000x128, .f32⟩ : BufTy).Contents (Elt F)),
    StableHlo.binary main_v172 main_v180 main_v181 (Host.divf : (⟨S1000x128, .f32⟩ : BufTy).Contents (Elt F) → (⟨S1000x128, .f32⟩ : BufTy).Contents (Elt F) → (⟨S1000x128, .f32⟩ : BufTy).Contents (Elt F)),
    StableHlo.binary main_v181 main_arg7 main_v182 ((fun l r => Host.dotGeneral dot_S1000x128_S128x128_S1000x128_1_0_0_1_n_n none l r) : (⟨S1000x128, .f32⟩ : BufTy).Contents (Elt F) → (⟨S128x128, .f32⟩ : BufTy).Contents (Elt F) → (⟨S1000x128, .f32⟩ : BufTy).Contents (Elt F)),
    StableHlo.unary main_arg8 main_v183 (broadcastInDim S1x128 ![1] bcast_S128_S1x128_1 : (⟨S128, .f32⟩ : BufTy).Contents (Elt F) → (⟨S1x128, .f32⟩ : BufTy).Contents (Elt F)),
    StableHlo.unary main_v183 main_v184 (broadcastInDim S1000x128 ![0, 1] bcast_S1x128_S1000x128_0_1 : (⟨S1x128, .f32⟩ : BufTy).Contents (Elt F) → (⟨S1000x128, .f32⟩ : BufTy).Contents (Elt F)),
    StableHlo.binary main_v182 main_v184 main_v185 (addf : (⟨S1000x128, .f32⟩ : BufTy).Contents (Elt F) → (⟨S1000x128, .f32⟩ : BufTy).Contents (Elt F) → (⟨S1000x128, .f32⟩ : BufTy).Contents (Elt F)),
    StableHlo.TRef.nullary main_call6.cst (constant S_ .f32 0x00000000#32),
    StableHlo.TRef.unary main_call6.cst main_call6.v0 (broadcastInDim S1000x128 ![] bcast_S_S1000x128),
    StableHlo.TRef.binary (.of main_v185 : StableHlo.TRef sig ⟨S1000x128, .f32⟩) main_call6.v0 main_call6.v1 maximumf,
    StableHlo.binary main_v186 main_arg9 main_v187 ((fun l r => Host.dotGeneral dot_S1000x128_S128x6_S1000x6_1_0_0_1_n_n none l r) : (⟨S1000x128, .f32⟩ : BufTy).Contents (Elt F) → (⟨S128x6, .f32⟩ : BufTy).Contents (Elt F) → (⟨S1000x6, .f32⟩ : BufTy).Contents (Elt F)),
    StableHlo.unary main_arg10 main_v188 (broadcastInDim S1x6 ![1] bcast_S6_S1x6_1 : (⟨S6, .f32⟩ : BufTy).Contents (Elt F) → (⟨S1x6, .f32⟩ : BufTy).Contents (Elt F)),
    StableHlo.unary main_v188 main_v189 (broadcastInDim S1000x6 ![0, 1] bcast_S1x6_S1000x6_0_1 : (⟨S1x6, .f32⟩ : BufTy).Contents (Elt F) → (⟨S1000x6, .f32⟩ : BufTy).Contents (Elt F)),
    StableHlo.binary main_v187 main_v189 main_v190 (addf : (⟨S1000x6, .f32⟩ : BufTy).Contents (Elt F) → (⟨S1000x6, .f32⟩ : BufTy).Contents (Elt F) → (⟨S1000x6, .f32⟩ : BufTy).Contents (Elt F)) ]

/-- @main's operations in order, the callees' operations at their call sites. -/
abbrev ops : List (HloOp τ sig (Elt F)) := ops0 ++ (ops1 ++ (ops2 ++ ops3))

/-! ## @main is that line -/

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

set_option maxRecDepth 8192 in
set_option maxHeartbeats 4000000 in
theorem main_part3_eq (c : Dev nD) : main_part3 (F := F) c = seq ops3 := rfl

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub ..⟩

set_option maxRecDepth 8192 in
theorem ops1_sub : (ops1 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., nullary_bufs_sub .., binary_bufs_sub .., nullary_bufs_sub .., unary_bufs_sub ..⟩

set_option maxRecDepth 8192 in
theorem ops2_sub : (ops2 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub ..⟩

set_option maxRecDepth 8192 in
theorem ops3_sub : (ops3 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-! ## Which buffer each operation writes -/

/-- The buffers `ops0` writes, in order. -/
abbrev wr0 : List (Ref sig .tc) :=
  [ main_v0, main_v1, main_v2, main_v3, main_cst, main_v4, main_cst_0, main_v5, main_v6, main_v7,
    main_cst_1, main_v8, main_v9, main_v10, main_c, main_v11, main_v12, main_c_2, main_v13, main_v14,
    main_v15, main_v16, main_v17, main_c_3, main_v18, main_v19, main_c_4, main_v20, main_v21, main_v22,
    main_v23, main_v24, main_v25, main_v26, main_v27, main_v28, main_v29, main_v30, main_v31, main_c_5,
    main_v32, main_v33, main_c_6, main_v34, main_v35, main_v36, main_v37, main_v38, main_v39, main_v40,
    main_cst_7, main_v41, main_v42, main_v43, main_v44, main_v45, main_v46, main_v47, main_v48, main_v49 ]

/-- The buffers `ops1` writes, in order. -/
abbrev wr1 : List (Ref sig .tc) :=
  [ main_v50, main_v51, main_cst_8, main_v52, main_cst_9, main_v53, main_v54, main_c_10, main_call0_cst, main_call0_v0,
    main_call0_v1, main_call0_cst_0, main_call0_v2, main_call0_v3, main_call0_v4, main_call0_v5, main_call0_v6, main_call0_v7, main_call0_cst_1, main_call0_v8,
    main_call0_cst_2, main_call0_v9, main_call0_v10, main_call0_v11, main_call0_cst_3, main_call0_v12, main_call0_cst_4, main_call0_call0_v0, main_call0_call0_v1, main_v55,
    main_v56, main_v57, main_v58, main_cst_11, main_v59, main_v60, main_v61, main_v62, main_v63, main_v64,
    main_v65, main_v66, main_v67, main_v68, main_v69, main_v70, main_v71, main_v72, main_v73, main_v74,
    main_call1_cst, main_call1_v0, main_v75, main_v76, main_v77, main_v78, main_c_12, main_v79, main_v80, main_c_13,
    main_v81, main_v82, main_v83, main_v84, main_v85, main_v86, main_v87, main_cst_14, main_v88, main_v89,
    main_v90, main_v91, main_v92, main_v93, main_v94, main_v95, main_v96, main_v97, main_v98, main_cst_15,
    main_v99, main_cst_16, main_v100 ]

/-- The buffers `ops2` writes, in order. -/
abbrev wr2 : List (Ref sig .tc) :=
  [ main_v101, main_c_17, main_call2_cst, main_call2_v0, main_call2_v1, main_call2_cst_0, main_call2_v2, main_call2_v3, main_call2_v4, main_call2_v5,
    main_call2_v6, main_call2_v7, main_call2_cst_1, main_call2_v8, main_call2_cst_2, main_call2_v9, main_call2_v10, main_call2_v11, main_call2_cst_3, main_call2_v12,
    main_call2_cst_4, main_call2_call0_v0, main_call2_call0_v1, main_v102, main_v103, main_v104, main_v105, main_cst_18, main_v106, main_v107,
    main_v108, main_v109, main_v110, main_v111, main_v112, main_v113, main_v114, main_v115, main_v116, main_v117,
    main_v118, main_v119, main_v120, main_v121, main_call3_cst, main_call3_v0, main_v122, main_v123, main_v124, main_v125,
    main_c_19, main_v126, main_v127, main_c_20, main_v128, main_v129, main_v130, main_v131, main_v132, main_v133,
    main_v134, main_cst_21, main_v135, main_v136, main_v137, main_v138, main_v139, main_v140, main_v141, main_v142,
    main_v143, main_v144, main_v145, main_cst_22, main_v146, main_cst_23, main_v147, main_v148, main_c_24, main_call4_cst,
    main_call4_v0, main_call4_v1, main_call4_cst_0, main_call4_v2, main_call4_v3, main_call4_v4, main_call4_v5, main_call4_v6, main_call4_v7, main_call4_cst_1,
    main_call4_v8, main_call4_cst_2, main_call4_v9, main_call4_v10, main_call4_v11, main_call4_cst_3, main_call4_v12, main_call4_cst_4, main_call4_call0_v0, main_call4_call0_v1,
    main_v149, main_v150, main_v151, main_v152 ]

/-- The buffers `ops3` writes, in order. -/
abbrev wr3 : List (Ref sig .tc) :=
  [ main_cst_25, main_v153, main_v154, main_v155, main_v156, main_v157, main_v158, main_v159, main_v160, main_v161,
    main_v162, main_v163, main_v164, main_v165, main_v166, main_v167, main_v168, main_call5_cst, main_call5_v0, main_v169,
    main_cst_26, main_v170, main_v171, main_v172, main_cst_27, main_v173, main_cst_28, main_v174, main_v175, main_v176,
    main_cst_29, main_v177, main_v178, main_v179, main_v180, main_v181, main_v182, main_v183, main_v184, main_v185,
    main_call6_cst, main_call6_v0, main_v186, main_v187, main_v188, main_v189, main_v190 ]

/-- The buffers the line writes, in order: every value of @main and of the inlined bodies once, no argument. -/
abbrev wr : List (Ref sig .tc) := wr0 ++ (wr1 ++ (wr2 ++ wr3))

set_option maxRecDepth 8192 in
theorem ops0_writes : WritesAre (ops0 : List (HloOp τ sig (Elt F))) wr0 :=
  WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <| WritesAre.nil

set_option maxRecDepth 8192 in
theorem ops1_writes : WritesAre (ops1 : List (HloOp τ sig (Elt F))) wr1 :=
  WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <| WritesAre.nil

set_option maxRecDepth 8192 in
theorem ops2_writes : WritesAre (ops2 : List (HloOp τ sig (Elt F))) wr2 :=
  WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <| WritesAre.nil

set_option maxRecDepth 8192 in
theorem ops3_writes : WritesAre (ops3 : List (HloOp τ sig (Elt F))) wr3 :=
  WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <|
    WritesAre.cons rfl <| WritesAre.nil

/-- Operation `k` of the line writes exactly the buffer `wr[k]`. -/
theorem ops_writes : WritesAre (ops : List (HloOp τ sig (Elt F))) wr :=
  ops0_writes.append (ops1_writes.append (ops2_writes.append ops3_writes))

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation determines its results. -/
theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

/-! ## The run -/

/-- For any float values, from any memory with zero counters: every weakly fair execution of @main terminates, and
    every buffer `b` of every device ends at the fold of the operations over the device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- A buffer the line does not write ends as it was launched. -/
theorem kept (m : (ℓ : Loc nD τ sig) → Buf (Elt F) ℓ) (c : Dev nD) {r : Ref sig .tc} (hr : r ∉ wr) :
    after (ops (F := F)) (launchContents m c) (Proc.devRef .tc r) = m ((c.tc : Thread nD τ).loc r) :=
  after_of_not_mem ops_writes _ hr

/-- The reference runs, and its eleven arguments end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c main_arg0).trans (kept m c (by decide)),
     (h c main_arg1).trans (kept m c (by decide)),
     (h c main_arg2).trans (kept m c (by decide)),
     (h c main_arg3).trans (kept m c (by decide)),
     (h c main_arg4).trans (kept m c (by decide)),
     (h c main_arg5).trans (kept m c (by decide)),
     (h c main_arg6).trans (kept m c (by decide)),
     (h c main_arg7).trans (kept m c (by decide)),
     (h c main_arg8).trans (kept m c (by decide)),
     (h c main_arg9).trans (kept m c (by decide)),
     (h c main_arg10).trans (kept m c (by decide))⟩)
    (run_after m ρ)

end Cert.ReferenceIdeal.RefValue

end
-- ==== Proof.RefSteps.lean ====
/-
  The reference's line read one operation at a time.  Every buffer of the line is written once, by the operation
  at its position in the list; so after the whole line the buffer an operation writes holds the operation's function
  of what the whole line leaves in its operand buffers.  One equation per operation, in the order of the list, for
  any float values and any launch contents `V`; a reshape's equation is stated with the element type's identity
  cast already removed.
-/
import proofs.«168746_j56882546868465_2_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo Cert.Proof.LibLineRead

variable {F : FTy → Type} [FloatOps F] (V : Valuation τ sig (Elt F))

theorem step_main_v0 :
    after ops V (Proc.devRef .tc main_v0) = ((extractStridedSlice S1x800000 ![0, 0] · slices_S2x800000_S1x800000_0_0) : (⟨S2x800000, .i32⟩ : BufTy).Contents (Elt F) → (⟨S1x800000, .i32⟩ : BufTy).Contents (Elt F)) (after ops V (Proc.devRef .tc main_arg1)) :=
  after_unary ops_writes V 0 main_arg1 main_v0 ((extractStridedSlice S1x800000 ![0, 0] · slices_S2x800000_S1x800000_0_0) : (⟨S2x800000, .i32⟩ : BufTy).Contents (Elt F) → (⟨S1x800000, .i32⟩ : BufTy).Contents (Elt F)) ⟨by decide, rfl⟩ ⟨by decide, rfl⟩ rfl (by decide) (by decide)

theorem step_main_v1 :
    after ops V (Proc.devRef .tc main_v1) = shapeCast S800000 (after ops V (Proc.devRef .tc main_v0)) shapeCasts_S1x800000_S800000 :=
  after_reshape ops_writes V 1 main_v0 main_v1 rfl shapeCasts_S1x800000_S800000 ⟨by decide, rfl⟩ ⟨by decide, rfl⟩ rfl (by decide) (by decide)

theorem step_main_v2 :
    after ops V (Proc.devRef .tc main_v2) = ((extractStridedSlice S1x800000 ![1, 0] · slices_S2x800000_S1x800000_1_0) : (⟨S2x800000, .i32⟩ : BufTy).Contents (Elt F) → (⟨S1x800000, .i32⟩ : BufTy).Contents (Elt F)) (after ops V (Proc.devRef .tc main_arg1)) :=
  after_unary ops_writes V 2 main_arg1 main_v2 ((extractStridedSlice S1x800000 ![1, 0] · slices_S2x800000_S1x800000_1_0) : (⟨S2x800000, .i32⟩ : BufTy).Contents (Elt F) → (⟨S1x800000, .i32⟩ : BufTy).Contents (Elt F)) ⟨by decide, rfl⟩ ⟨by decide, rfl⟩ rfl (by decide) (by decide)

theorem step_main_v3 :
    after ops V (Proc.devRef .tc main_v3) = shapeCast S800000 (after ops V (Proc.devRef .tc main_v2)) shapeCasts_S1x800000_S800000 :=
  after_reshape ops_writes V 3 main_v2 main_v3 rfl shapeCasts_S1x800000_S800000 ⟨by decide, rfl⟩ ⟨by decide, rfl⟩ rfl (by decide) (by decide)

theorem step_main_cst :
    after ops V (Proc.devRef .tc main_cst) = (constant S_ .f32 0x3F800000#32) :=
  after_nullary ops_writes V 4 main_cst (constant S_ .f32 0x3F800000#32) ⟨by decide, rfl⟩ rfl (by decide)

theorem step_main_v4 :
    after ops V (Proc.devRef .tc main_v4) = (broadcastInDim S800000 ![] bcast_S_S800000 : (⟨S_, .f32⟩ : BufTy).Contents (Elt F) → (⟨S800000, .f32⟩ : BufTy).Contents (Elt F)) (after ops V (Proc.devRef .tc main_cst)) :=
  after_unary ops_writes V 5 main_cst main_v4 (broadcastInDim S800000 ![] bcast_S_S800000 : (⟨S_, .f32⟩ : BufTy).Contents (Elt F) → (⟨S800000, .f32⟩ : BufTy).Contents (Elt F)) ⟨by decide, rfl⟩ ⟨by decide, rfl⟩ rfl (by decide) (by decide)

theorem step_main_cst_0 :
    after ops V (Proc.devRef .tc main_cst_0) = (constant S_ .f32 0x00000000#32) :=
  after_nullary ops_writes V 6 main_cst_0 (constant S_ .f32 0x00000000#32) ⟨by decide, rfl⟩ rfl (by decide)

theorem step_main_v5 :
    after ops V (Proc.devRef .tc main_v5) = (broadcastInDim S50000 ![] bcast_S_S50000 : (⟨S_, .f32⟩ : BufTy).Contents (Elt F) → (⟨S50000, .f32⟩ : BufTy).Contents (Elt F)) (after ops V (Proc.devRef .tc main_cst_0)) :=
  after_unary ops_writes V 7 main_cst_0 main_v5 (broadcastInDim S50000 ![] bcast_S_S50000 : (⟨S_, .f32⟩ : BufTy).Contents (Elt F) → (⟨S50000, .f32⟩ : BufTy).Contents (Elt F)) ⟨by decide, rfl⟩ ⟨by decide, rfl⟩ rfl (by decide) (by decide)

theorem step_main_v6 :
    after ops V (Proc.devRef .tc main_v6) = (broadcastInDim S800000x1 ![0] bcast_S800000_S800000x1_0 : (⟨S800000, .i32⟩ : BufTy).Contents (Elt F) → (⟨S800000x1, .i32⟩ : BufTy).Contents (Elt F)) (after ops V (Proc.devRef .tc main_v3)) :=
  after_unary ops_writes V 8 main_v3 main_v6 (broadcastInDim S800000x1 ![0] bcast_S800000_S800000x1_0 : (⟨S800000, .i32⟩ : BufTy).Contents (Elt F) → (⟨S800000x1, .i32⟩ : BufTy).Contents (Elt F)) ⟨by decide, rfl⟩ ⟨by decide, rfl⟩ rfl (by decide) (by decide)

theorem step_main_v7 :
    after ops V (Proc.devRef .tc main_v7) = ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) (after ops V (Proc.devRef .tc main_v5)) (after ops V (Proc.devRef .tc main_v6)) (after ops V (Proc.devRef .tc main_v4)) :=
  after_ternary ops_writes V 9 main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ⟨by decide, rfl⟩ ⟨by decide, rfl⟩ ⟨by decide, rfl⟩ ⟨by decide, rfl⟩ rfl (by decide) (by decide) (by decide) (by decide)

theorem step_main_cst_1 :
    after ops V (Proc.devRef .tc main_cst_1) = (constant S_ .f32 0x3F800000#32) :=
  after_nullary ops_writes V 10 main_cst_1 (constant S_ .f32 0x3F800000#32) ⟨by decide, rfl⟩ rfl (by decide)

theorem step_main_v8 :
    after ops V (Proc.devRef .tc main_v8) = (broadcastInDim S50000 ![] bcast_S_S50000 : (⟨S_, .f32⟩ : BufTy).Contents (Elt F) → (⟨S50000, .f32⟩ : BufTy).Contents (Elt F)) (after ops V (Proc.devRef .tc main_cst_1)) :=
  after_unary ops_writes V 11 main_cst_1 main_v8 (broadcastInDim S50000 ![] bcast_S_S50000 : (⟨S_, .f32⟩ : BufTy).Contents (Elt F) → (⟨S50000, .f32⟩ : BufTy).Contents (Elt F)) ⟨by decide, rfl⟩ ⟨by decide, rfl⟩ rfl (by decide) (by decide)

theorem step_main_v9 :
    after ops V (Proc.devRef .tc main_v9) = (addf : (⟨S50000, .f32⟩ : BufTy).Contents (Elt F) → (⟨S50000, .f32⟩ : BufTy).Contents (Elt F) → (⟨S50000, .f32⟩ : BufTy).Contents (Elt F)) (after ops V (Proc.devRef .tc main_v7)) (after ops V (Proc.devRef .tc main_v8)) :=
  after_binary ops_writes V 12 main_v7 main_v8 main_v9 (addf : (⟨S50000, .f32⟩ : BufTy).Contents (Elt F) → (⟨S50000, .f32⟩ : BufTy).Contents (Elt F) → (⟨S50000, .f32⟩ : BufTy).Contents (Elt F)) ⟨by decide, rfl⟩ ⟨by decide, rfl⟩ ⟨by decide, rfl⟩ rfl (by decide) (by decide) (by decide)

theorem step_main_v10 :
    after ops V (Proc.devRef .tc main_v10) = (Host.rsqrt : (⟨S50000, .f32⟩ : BufTy).Contents (Elt F) → (⟨S50000, .f32⟩ : BufTy).Contents (Elt F)) (after ops V (Proc.devRef .tc main_v9)) :=
  after_unary ops_writes V 13 main_v9 main_v10 (Host.rsqrt : (⟨S50000, .f32⟩ : BufTy).Contents (Elt F) → (⟨S50000, .f32⟩ : BufTy).Contents (Elt F)) ⟨by decide, rfl⟩ ⟨by decide, rfl⟩ rfl (by decide) (by decide)

theorem step_main_c :
    after ops V (Proc.devRef .tc main_c) = (constantI S_ 32 0#32) :=
  after_nullary ops_writes V 14 main_c (constantI S_ 32 0#32) ⟨by decide, rfl⟩ rfl (by decide)

theorem step_main_v11 :
    after ops V (Proc.devRef .tc main_v11) = (broadcastInDim S800000 ![] bcast_S_S800000 : (⟨S_, .i32⟩ : BufTy).Contents (Elt F) → (⟨S800000, .i32⟩ : BufTy).Contents (Elt F)) (after ops V (Proc.devRef .tc main_c)) :=
  after_unary ops_writes V 15 main_c main_v11 (broadcastInDim S800000 ![] bcast_S_S800000 : (⟨S_, .i32⟩ : BufTy).Contents (Elt F) → (⟨S800000, .i32⟩ : BufTy).Contents (Elt F)) ⟨by decide, rfl⟩ ⟨by decide, rfl⟩ rfl (by decide) (by decide)

theorem step_main_v12 :
    after ops V (Proc.devRef .tc main_v12) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v11)) :=
  after_binary ops_writes V 16 main_v1 main_v11 main_v12 (cmpi .slt : (⟨S800000, .i32⟩ : BufTy).Contents (Elt F) → (⟨S800000, .i32⟩ : BufTy).Contents (Elt F) → (⟨S800000, .i1⟩ : BufTy).Contents (Elt F)) ⟨by decide, rfl⟩ ⟨by decide, rfl⟩ ⟨by decide, rfl⟩ rfl (by decide) (by decide) (by decide)

theorem step_main_c_2 :
    after ops V (Proc.devRef .tc main_c_2) = (constantI S_ 32 50000#32) :=
  after_nullary ops_writes V 17 main_c_2 (constantI S_ 32 50000#32) ⟨by decide, rfl⟩ rfl (by decide)

theorem step_main_v13 :
    after ops V (Proc.devRef .tc main_v13) = (broadcastInDim S800000 ![] bcast_S_S800000 : (⟨S_, .i32⟩ : BufTy).Contents (Elt F) → (⟨S800000, .i32⟩ : BufTy).Contents (Elt F)) (after ops V (Proc.devRef .tc main_c_2)) :=
  after_unary ops_writes V 18 main_c_2 main_v13 (broadcastInDim S800000 ![] bcast_S_S800000 : (⟨S_, .i32⟩ : BufTy).Contents (Elt F) → (⟨S800000, .i32⟩ : BufTy).Contents (Elt F)) ⟨by decide, rfl⟩ ⟨by decide, rfl⟩ rfl (by decide) (by decide)

theorem step_main_v14 :
    after ops V (Proc.devRef .tc main_v14) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v13)) :=
  after_binary ops_writes V 19 main_v1 main_v13 main_v14 (addi : (⟨S800000, .i32⟩ : BufTy).Contents (Elt F) → (⟨S800000, .i32⟩ : BufTy).Contents (Elt F) → (⟨S800000, .i32⟩ : BufTy).Contents (Elt F)) ⟨by decide, rfl⟩ ⟨by decide, rfl⟩ ⟨by decide, rfl⟩ rfl (by decide) (by decide) (by decide)

theorem step_main_v15 :
    after ops V (Proc.devRef .tc main_v15) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v12)) (after ops V (Proc.devRef .tc main_v14)) (after ops V (Proc.devRef .tc main_v1)) :=
  after_ternary ops_writes V 20 main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ⟨by decide, rfl⟩ ⟨by decide, rfl⟩ ⟨by decide, rfl⟩ ⟨by decide, rfl⟩ rfl (by decide) (by decide) (by decide) (by decide)

theorem step_main_v16 :
    after ops V (Proc.devRef .tc main_v16) = (broadcastInDim S800000x1 ![0] bcast_S800000_S800000x1_0 : (⟨S800000, .i32⟩ : BufTy).Contents (Elt F) → (⟨S800000x1, .i32⟩ : BufTy).Contents (Elt F)) (after ops V (Proc.devRef .tc main_v15)) :=
  after_unary ops_writes V 21 main_v15 main_v16 (broadcastInDim S800000x1 ![0] bcast_S800000_S800000x1_0 : (⟨S800000, .i32⟩ : BufTy).Contents (Elt F) → (⟨S800000x1, .i32⟩ : BufTy).Contents (Elt F)) ⟨by decide, rfl⟩ ⟨by decide, rfl⟩ rfl (by decide) (by decide)

theorem step_main_v17 :
    after ops V (Proc.devRef .tc main_v17) = ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (after ops V (Proc.devRef .tc main_v10)) (after ops V (Proc.devRef .tc main_v16)) :=
  after_binary ops_writes V 22 main_v10 main_v16 main_v17 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) ⟨by decide, rfl⟩ ⟨by decide, rfl⟩ ⟨by decide, rfl⟩ rfl (by decide) (by decide) (by decide)

theorem step_main_c_3 :
    after ops V (Proc.devRef .tc main_c_3) = (constantI S_ 32 0#32) :=
  after_nullary ops_writes V 23 main_c_3 (constantI S_ 32 0#32) ⟨by decide, rfl⟩ rfl (by decide)

theorem step_main_v18 :
    after ops V (Proc.devRef .tc main_v18) = (broadcastInDim S800000 ![] bcast_S_S800000 : (⟨S_, .i32⟩ : BufTy).Contents (Elt F) → (⟨S800000, .i32⟩ : BufTy).Contents (Elt F)) (after ops V (Proc.devRef .tc main_c_3)) :=
  after_unary ops_writes V 24 main_c_3 main_v18 (broadcastInDim S800000 ![] bcast_S_S800000 : (⟨S_, .i32⟩ : BufTy).Contents (Elt F) → (⟨S800000, .i32⟩ : BufTy).Contents (Elt F)) ⟨by decide, rfl⟩ ⟨by decide, rfl⟩ rfl (by decide) (by decide)

theorem step_main_v19 :
    after ops V (Proc.devRef .tc main_v19) = (cmpi .slt : (⟨S800000, .i32⟩ : BufTy).Contents (Elt F) → (⟨S800000, .i32⟩ : BufTy).Contents (Elt F) → (⟨S800000, .i1⟩ : BufTy).Contents (Elt F)) (after ops V (Proc.devRef .tc main_v3)) (after ops V (Proc.devRef .tc main_v18)) :=
  after_binary ops_writes V 25 main_v3 main_v18 main_v19 (cmpi .slt : (⟨S800000, .i32⟩ : BufTy).Contents (Elt F) → (⟨S800000, .i32⟩ : BufTy).Contents (Elt F) → (⟨S800000, .i1⟩ : BufTy).Contents (Elt F)) ⟨by decide, rfl⟩ ⟨by decide, rfl⟩ ⟨by decide, rfl⟩ rfl (by decide) (by decide) (by decide)

theorem step_main_c_4 :
    after ops V (Proc.devRef .tc main_c_4) = (constantI S_ 32 50000#32) :=
  after_nullary ops_writes V 26 main_c_4 (constantI S_ 32 50000#32) ⟨by decide, rfl⟩ rfl (by decide)

theorem step_main_v20 :
    after ops V (Proc.devRef .tc main_v20) = (broadcastInDim S800000 ![] bcast_S_S800000 : (⟨S_, .i32⟩ : BufTy).Contents (Elt F) → (⟨S800000, .i32⟩ : BufTy).Contents (Elt F)) (after ops V (Proc.devRef .tc main_c_4)) :=
  after_unary ops_writes V 27 main_c_4 main_v20 (broadcastInDim S800000 ![] bcast_S_S800000 : (⟨S_, .i32⟩ : BufTy).Contents (Elt F) → (⟨S800000, .i32⟩ : BufTy).Contents (Elt F)) ⟨by decide, rfl⟩ ⟨by decide, rfl⟩ rfl (by decide) (by decide)

theorem step_main_v21 :
    after ops V (Proc.devRef .tc main_v21) = (addi : (⟨S800000, .i32⟩ : BufTy).Contents (Elt F) → (⟨S800000, .i32⟩ : BufTy).Contents (Elt F) → (⟨S800000, .i32⟩ : BufTy).Contents (Elt F)) (after ops V (Proc.devRef .tc main_v3)) (after ops V (Proc.devRef .tc main_v20)) :=
  after_binary ops_writes V 28 main_v3 main_v20 main_v21 (addi : (⟨S800000, .i32⟩ : BufTy).Contents (Elt F) → (⟨S800000, .i32⟩ : BufTy).Contents (Elt F) → (⟨S800000, .i32⟩ : BufTy).Contents (Elt F)) ⟨by decide, rfl⟩ ⟨by decide, rfl⟩ ⟨by decide, rfl⟩ rfl (by decide) (by decide) (by decide)

theorem step_main_v22 :
    after ops V (Proc.devRef .tc main_v22) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v19)) (after ops V (Proc.devRef .tc main_v21)) (after ops V (Proc.devRef .tc main_v3)) :=
  after_ternary ops_writes V 29 main_v19 main_v21 main_v3 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ⟨by decide, rfl⟩ ⟨by decide, rfl⟩ ⟨by decide, rfl⟩ ⟨by decide, rfl⟩ rfl (by decide) (by decide) (by decide) (by decide)

theorem step_main_v23 :
    after ops V (Proc.devRef .tc main_v23) = (broadcastInDim S800000x1 ![0] bcast_S800000_S800000x1_0 : (⟨S800000, .i32⟩ : BufTy).Contents (Elt F) → (⟨S800000x1, .i32⟩ : BufTy).Contents (Elt F)) (after ops V (Proc.devRef .tc main_v22)) :=
  after_unary ops_writes V 30 main_v22 main_v23 (broadcastInDim S800000x1 ![0] bcast_S800000_S800000x1_0 : (⟨S800000, .i32⟩ : BufTy).Contents (Elt F) → (⟨S800000x1, .i32⟩ : BufTy).Contents (Elt F)) ⟨by decide, rfl⟩ ⟨by decide, rfl⟩ rfl (by decide) (by decide)

theorem step_main_v24 :
    after ops V (Proc.devRef .tc main_v24) = ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) (after ops V (Proc.devRef .tc main_v10)) (after ops V (Proc.devRef .tc main_v23)) :=
  after_binary ops_writes V 31 main_v10 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) ⟨by decide, rfl⟩ ⟨by decide, rfl⟩ ⟨by decide, rfl⟩ rfl (by decide) (by decide) (by decide)

theorem step_main_v25 :
    after ops V (Proc.devRef .tc main_v25) = (mulf : (⟨S800000, .f32⟩ : BufTy).Contents (Elt F) → (⟨S800000, .f32⟩ : BufTy).Contents (Elt F) → (⟨S800000, .f32⟩ : BufTy).Contents (Elt F)) (after ops V (Proc.devRef .tc main_v17)) (after ops V (Proc.devRef .tc main_v24)) :=
  after_binary ops_writes V 32 main_v17 main_v24 main_v25 (mulf : (⟨S800000, .f32⟩ : BufTy).Contents (Elt F) → (⟨S800000, .f32⟩ : BufTy).Contents (Elt F) → (⟨S800000, .f32⟩ : BufTy).Contents (Elt F)) ⟨by decide, rfl⟩ ⟨by decide, rfl⟩ ⟨by decide, rfl⟩ rfl (by decide) (by decide) (by decide)

theorem step_main_v26 :
    after ops V (Proc.devRef .tc main_v26) = (broadcastInDim S800000x1 ![0] bcast_S800000_S800000x1_0 : (⟨S800000, .f32⟩ : BufTy).Contents (Elt F) → (⟨S800000x1, .f32⟩ : BufTy).Contents (Elt F)) (after ops V (Proc.devRef .tc main_v25)) :=
  after_unary ops_writes V 33 main_v25 main_v26 (broadcastInDim S800000x1 ![0] bcast_S800000_S800000x1_0 : (⟨S800000, .f32⟩ : BufTy).Contents (Elt F) → (⟨S800000x1, .f32⟩ : BufTy).Contents (Elt F)) ⟨by decide, rfl⟩ ⟨by decide, rfl⟩ rfl (by decide) (by decide)

theorem step_main_v27 :
    after ops V (Proc.devRef .tc main_v27) = (mulf : (⟨S50000, .f32⟩ : BufTy).Contents (Elt F) → (⟨S50000, .f32⟩ : BufTy).Contents (Elt F) → (⟨S50000, .f32⟩ : BufTy).Contents (Elt F)) (after ops V (Proc.devRef .tc main_v10)) (after ops V (Proc.devRef .tc main_v10)) :=
  after_binary ops_writes V 34 main_v10 main_v10 main_v27 (mulf : (⟨S50000, .f32⟩ : BufTy).Contents (Elt F) → (⟨S50000, .f32⟩ : BufTy).Contents (Elt F) → (⟨S50000, .f32⟩ : BufTy).Contents (Elt F)) ⟨by decide, rfl⟩ ⟨by decide, rfl⟩ ⟨by decide, rfl⟩ rfl (by decide) (by decide) (by decide)

theorem step_main_v28 :
    after ops V (Proc.devRef .tc main_v28) = (broadcastInDim S50000x1 ![0] bcast_S50000_S50000x1_0 : (⟨S50000, .f32⟩ : BufTy).Contents (Elt F) → (⟨S50000x1, .f32⟩ : BufTy).Contents (Elt F)) (after ops V (Proc.devRef .tc main_v27)) :=
  after_unary ops_writes V 35 main_v27 main_v28 (broadcastInDim S50000x1 ![0] bcast_S50000_S50000x1_0 : (⟨S50000, .f32⟩ : BufTy).Contents (Elt F) → (⟨S50000x1, .f32⟩ : BufTy).Contents (Elt F)) ⟨by decide, rfl⟩ ⟨by decide, rfl⟩ rfl (by decide) (by decide)

theorem step_main_v29 :
    after ops V (Proc.devRef .tc main_v29) = ((extractStridedSlice S1x128x128 ![0, 0, 0] · slices_S3x128x128_S1x128x128_0_0_0) : (⟨S3x128x128, .f32⟩ : BufTy).Contents (Elt F) → (⟨S1x128x128, .f32⟩ : BufTy).Contents (Elt F)) (after ops V (Proc.devRef .tc main_arg3)) :=
  after_unary ops_writes V 36 main_arg3 main_v29 ((extractStridedSlice S1x128x128 ![0, 0, 0] · slices_S3x128x128_S1x128x128_0_0_0) : (⟨S3x128x128, .f32⟩ : BufTy).Contents (Elt F) → (⟨S1x128x128, .f32⟩ : BufTy).Contents (Elt F)) ⟨by decide, rfl⟩ ⟨by decide, rfl⟩ rfl (by decide) (by decide)

theorem step_main_v30 :
    after ops V (Proc.devRef .tc main_v30) = shapeCast S128x128 (after ops V (Proc.devRef .tc main_v29)) shapeCasts_S1x128x128_S128x128 :=
  after_reshape ops_writes V 37 main_v29 main_v30 rfl shapeCasts_S1x128x128_S128x128 ⟨by decide, rfl⟩ ⟨by decide, rfl⟩ rfl (by decide) (by decide)

theorem step_main_v31 :
    after ops V (Proc.devRef .tc main_v31) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (after ops V (Proc.devRef .tc main_arg0)) (after ops V (Proc.devRef .tc main_v30)) :=
  after_binary ops_writes V 38 main_arg0 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_c_5 :
    after ops V (Proc.devRef .tc main_c_5) = (constantI S_ 32 0#32) :=
  after_nullary ops_writes V 39 main_c_5 (constantI S_ 32 0#32) ⟨by decide, rfl⟩ rfl (by decide)

theorem step_main_v32 :
    after ops V (Proc.devRef .tc main_v32) = (broadcastInDim S800000 ![] bcast_S_S800000 : (⟨S_, .i32⟩ : BufTy).Contents (Elt F) → (⟨S800000, .i32⟩ : BufTy).Contents (Elt F)) (after ops V (Proc.devRef .tc main_c_5)) :=
  after_unary ops_writes V 40 main_c_5 main_v32 (broadcastInDim S800000 ![] bcast_S_S800000 : (⟨S_, .i32⟩ : BufTy).Contents (Elt F) → (⟨S800000, .i32⟩ : BufTy).Contents (Elt F)) ⟨by decide, rfl⟩ ⟨by decide, rfl⟩ rfl (by decide) (by decide)

theorem step_main_v33 :
    after ops V (Proc.devRef .tc main_v33) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v32)) :=
  after_binary ops_writes V 41 main_v1 main_v32 main_v33 (cmpi .slt : (⟨S800000, .i32⟩ : BufTy).Contents (Elt F) → (⟨S800000, .i32⟩ : BufTy).Contents (Elt F) → (⟨S800000, .i1⟩ : BufTy).Contents (Elt F)) ⟨by decide, rfl⟩ ⟨by decide, rfl⟩ ⟨by decide, rfl⟩ rfl (by decide) (by decide) (by decide)

theorem step_main_c_6 :
    after ops V (Proc.devRef .tc main_c_6) = (constantI S_ 32 50000#32) :=
  after_nullary ops_writes V 42 main_c_6 (constantI S_ 32 50000#32) ⟨by decide, rfl⟩ rfl (by decide)

theorem step_main_v34 :
    after ops V (Proc.devRef .tc main_v34) = (broadcastInDim S800000 ![] bcast_S_S800000 : (⟨S_, .i32⟩ : BufTy).Contents (Elt F) → (⟨S800000, .i32⟩ : BufTy).Contents (Elt F)) (after ops V (Proc.devRef .tc main_c_6)) :=
  after_unary ops_writes V 43 main_c_6 main_v34 (broadcastInDim S800000 ![] bcast_S_S800000 : (⟨S_, .i32⟩ : BufTy).Contents (Elt F) → (⟨S800000, .i32⟩ : BufTy).Contents (Elt F)) ⟨by decide, rfl⟩ ⟨by decide, rfl⟩ rfl (by decide) (by decide)

theorem step_main_v35 :
    after ops V (Proc.devRef .tc main_v35) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v34)) :=
  after_binary ops_writes V 44 main_v1 main_v34 main_v35 (addi : (⟨S800000, .i32⟩ : BufTy).Contents (Elt F) → (⟨S800000, .i32⟩ : BufTy).Contents (Elt F) → (⟨S800000, .i32⟩ : BufTy).Contents (Elt F)) ⟨by decide, rfl⟩ ⟨by decide, rfl⟩ ⟨by decide, rfl⟩ rfl (by decide) (by decide) (by decide)

theorem step_main_v36 :
    after ops V (Proc.devRef .tc main_v36) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v33)) (after ops V (Proc.devRef .tc main_v35)) (after ops V (Proc.devRef .tc main_v1)) :=
  after_ternary ops_writes V 45 main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ⟨by decide, rfl⟩ ⟨by decide, rfl⟩ ⟨by decide, rfl⟩ ⟨by decide, rfl⟩ rfl (by decide) (by decide) (by decide) (by decide)

theorem step_main_v37 :
    after ops V (Proc.devRef .tc main_v37) = (broadcastInDim S800000x1 ![0] bcast_S800000_S800000x1_0 : (⟨S800000, .i32⟩ : BufTy).Contents (Elt F) → (⟨S800000x1, .i32⟩ : BufTy).Contents (Elt F)) (after ops V (Proc.devRef .tc main_v36)) :=
  after_unary ops_writes V 46 main_v36 main_v37 (broadcastInDim S800000x1 ![0] bcast_S800000_S800000x1_0 : (⟨S800000, .i32⟩ : BufTy).Contents (Elt F) → (⟨S800000x1, .i32⟩ : BufTy).Contents (Elt F)) ⟨by decide, rfl⟩ ⟨by decide, rfl⟩ rfl (by decide) (by decide)

theorem step_main_v38 :
    after ops V (Proc.devRef .tc main_v38) = ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) (after ops V (Proc.devRef .tc main_v31)) (after ops V (Proc.devRef .tc main_v37)) :=
  after_binary ops_writes V 47 main_v31 main_v37 main_v38 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ⟨by decide, rfl⟩ ⟨by decide, rfl⟩ ⟨by decide, rfl⟩ rfl (by decide) (by decide) (by decide)

theorem step_main_v39 :
    after ops V (Proc.devRef .tc main_v39) = (broadcastInDim S800000x128 ![0, 1] bcast_S800000x1_S800000x128_0_1 : (⟨S800000x1, .f32⟩ : BufTy).Contents (Elt F) → (⟨S800000x128, .f32⟩ : BufTy).Contents (Elt F)) (after ops V (Proc.devRef .tc main_v26)) :=
  after_unary ops_writes V 48 main_v26 main_v39 (broadcastInDim S800000x128 ![0, 1] bcast_S800000x1_S800000x128_0_1 : (⟨S800000x1, .f32⟩ : BufTy).Contents (Elt F) → (⟨S800000x128, .f32⟩ : BufTy).Contents (Elt F)) ⟨by decide, rfl⟩ ⟨by decide, rfl⟩ rfl (by decide) (by decide)

theorem step_main_v40 :
    after ops V (Proc.devRef .tc main_v40) = (mulf : (⟨S800000x128, .f32⟩ : BufTy).Contents (Elt F) → (⟨S800000x128, .f32⟩ : BufTy).Contents (Elt F) → (⟨S800000x128, .f32⟩ : BufTy).Contents (Elt F)) (after ops V (Proc.devRef .tc main_v38)) (after ops V (Proc.devRef .tc main_v39)) :=
  after_binary ops_writes V 49 main_v38 main_v39 main_v40 (mulf : (⟨S800000x128, .f32⟩ : BufTy).Contents (Elt F) → (⟨S800000x128, .f32⟩ : BufTy).Contents (Elt F) → (⟨S800000x128, .f32⟩ : BufTy).Contents (Elt F)) ⟨by decide, rfl⟩ ⟨by decide, rfl⟩ ⟨by decide, rfl⟩ rfl (by decide) (by decide) (by decide)

theorem step_main_cst_7 :
    after ops V (Proc.devRef .tc main_cst_7) = (constant S_ .f32 0x00000000#32) :=
  after_nullary ops_writes V 50 main_cst_7 (constant S_ .f32 0x00000000#32) ⟨by decide, rfl⟩ rfl (by decide)

theorem step_main_v41 :
    after ops V (Proc.devRef .tc main_v41) = (broadcastInDim S50000x128 ![] bcast_S_S50000x128 : (⟨S_, .f32⟩ : BufTy).Contents (Elt F) → (⟨S50000x128, .f32⟩ : BufTy).Contents (Elt F)) (after ops V (Proc.devRef .tc main_cst_7)) :=
  after_unary ops_writes V 51 main_cst_7 main_v41 (broadcastInDim S50000x128 ![] bcast_S_S50000x128 : (⟨S_, .f32⟩ : BufTy).Contents (Elt F) → (⟨S50000x128, .f32⟩ : BufTy).Contents (Elt F)) ⟨by decide, rfl⟩ ⟨by decide, rfl⟩ rfl (by decide) (by decide)

theorem step_main_v42 :
    after ops V (Proc.devRef .tc main_v42) = (broadcastInDim S800000x1 ![0] bcast_S800000_S800000x1_0 : (⟨S800000, .i32⟩ : BufTy).Contents (Elt F) → (⟨S800000x1, .i32⟩ : BufTy).Contents (Elt F)) (after ops V (Proc.devRef .tc main_v3)) :=
  after_unary ops_writes V 52 main_v3 main_v42 (broadcastInDim S800000x1 ![0] bcast_S800000_S800000x1_0 : (⟨S800000, .i32⟩ : BufTy).Contents (Elt F) → (⟨S800000x1, .i32⟩ : BufTy).Contents (Elt F)) ⟨by decide, rfl⟩ ⟨by decide, rfl⟩ rfl (by decide) (by decide)

theorem step_main_v43 :
    after ops V (Proc.devRef .tc main_v43) = ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) (after ops V (Proc.devRef .tc main_v41)) (after ops V (Proc.devRef .tc main_v42)) (after ops V (Proc.devRef .tc main_v40)) :=
  after_ternary ops_writes V 53 main_v41 main_v42 main_v40 main_v43 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ⟨by decide, rfl⟩ ⟨by decide, rfl⟩ ⟨by decide, rfl⟩ ⟨by decide, rfl⟩ rfl (by decide) (by decide) (by decide) (by decide)

theorem step_main_v44 :
    after ops V (Proc.devRef .tc main_v44) = (broadcastInDim S50000x128 ![0, 1] bcast_S50000x1_S50000x128_0_1 : (⟨S50000x1, .f32⟩ : BufTy).Contents (Elt F) → (⟨S50000x128, .f32⟩ : BufTy).Contents (Elt F)) (after ops V (Proc.devRef .tc main_v28)) :=
  after_unary ops_writes V 54 main_v28 main_v44 (broadcastInDim S50000x128 ![0, 1] bcast_S50000x1_S50000x128_0_1 : (⟨S50000x1, .f32⟩ : BufTy).Contents (Elt F) → (⟨S50000x128, .f32⟩ : BufTy).Contents (Elt F)) ⟨by decide, rfl⟩ ⟨by decide, rfl⟩ rfl (by decide) (by decide)

theorem step_main_v45 :
    after ops V (Proc.devRef .tc main_v45) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v31)) (after ops V (Proc.devRef .tc main_v44)) :=
  after_binary ops_writes V 55 main_v31 main_v44 main_v45 (mulf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v46 :
    after ops V (Proc.devRef .tc main_v46) = (addf : (⟨S50000x128, .f32⟩ : BufTy).Contents (Elt F) → (⟨S50000x128, .f32⟩ : BufTy).Contents (Elt F) → (⟨S50000x128, .f32⟩ : BufTy).Contents (Elt F)) (after ops V (Proc.devRef .tc main_v43)) (after ops V (Proc.devRef .tc main_v45)) :=
  after_binary ops_writes V 56 main_v43 main_v45 main_v46 (addf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v47 :
    after ops V (Proc.devRef .tc main_v47) = ((extractStridedSlice S1x128 ![0, 0] · slices_S3x128_S1x128_0_0) : (⟨S3x128, .f32⟩ : BufTy).Contents (Elt F) → (⟨S1x128, .f32⟩ : BufTy).Contents (Elt F)) (after ops V (Proc.devRef .tc main_arg4)) :=
  after_unary ops_writes V 57 main_arg4 main_v47 ((extractStridedSlice S1x128 ![0, 0] · slices_S3x128_S1x128_0_0) : (⟨S3x128, .f32⟩ : BufTy).Contents (Elt F) → (⟨S1x128, .f32⟩ : BufTy).Contents (Elt F)) ⟨by decide, rfl⟩ ⟨by decide, rfl⟩ rfl (by decide) (by decide)

theorem step_main_v48 :
    after ops V (Proc.devRef .tc main_v48) = shapeCast S128 (after ops V (Proc.devRef .tc main_v47)) shapeCasts_S1x128_S128 :=
  after_reshape ops_writes V 58 main_v47 main_v48 rfl shapeCasts_S1x128_S128 ⟨by decide, rfl⟩ ⟨by decide, rfl⟩ rfl (by decide) (by decide)

theorem step_main_v49 :
    after ops V (Proc.devRef .tc main_v49) = (broadcastInDim S1x128 ![1] bcast_S128_S1x128_1 : (⟨S128, .f32⟩ : BufTy).Contents (Elt F) → (⟨S1x128, .f32⟩ : BufTy).Contents (Elt F)) (after ops V (Proc.devRef .tc main_v48)) :=
  after_unary ops_writes V 59 main_v48 main_v49 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v50 :
    after ops V (Proc.devRef .tc main_v50) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v49)) :=
  after_unary ops_writes V 60 main_v49 main_v50 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v51 :
    after ops V (Proc.devRef .tc main_v51) = (addf : (⟨S50000x128, .f32⟩ : BufTy).Contents (Elt F) → (⟨S50000x128, .f32⟩ : BufTy).Contents (Elt F) → (⟨S50000x128, .f32⟩ : BufTy).Contents (Elt F)) (after ops V (Proc.devRef .tc main_v46)) (after ops V (Proc.devRef .tc main_v50)) :=
  after_binary ops_writes V 61 main_v46 main_v50 main_v51 (addf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_cst_8 :
    after ops V (Proc.devRef .tc main_cst_8) = (constant S_ .f32 0x00000000#32) :=
  after_nullary ops_writes V 62 main_cst_8 (constant S_ .f32 0x00000000#32) ⟨by decide, rfl⟩ rfl (by decide)

theorem step_main_v52 :
    after ops V (Proc.devRef .tc main_v52) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (Proc.devRef .tc main_v51)) (after ops V (Proc.devRef .tc main_cst_8)) :=
  after_binary ops_writes V 63 main_v51 main_cst_8 main_v52 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_cst_9 :
    after ops V (Proc.devRef .tc main_cst_9) = (constant S_ .f32 0x47435000#32) :=
  after_nullary ops_writes V 64 main_cst_9 (constant S_ .f32 0x47435000#32) ⟨by decide, rfl⟩ rfl (by decide)

theorem step_main_v53 :
    after ops V (Proc.devRef .tc main_v53) = (broadcastInDim S128 ![] bcast_S_S128 : (⟨S_, .f32⟩ : BufTy).Contents (Elt F) → (⟨S128, .f32⟩ : BufTy).Contents (Elt F)) (after ops V (Proc.devRef .tc main_cst_9)) :=
  after_unary ops_writes V 65 main_cst_9 main_v53 (broadcastInDim S128 ![] bcast_S_S128 : (⟨S_, .f32⟩ : BufTy).Contents (Elt F) → (⟨S128, .f32⟩ : BufTy).Contents (Elt F)) ⟨by decide, rfl⟩ ⟨by decide, rfl⟩ rfl (by decide) (by decide)

theorem step_main_v54 :
    after ops V (Proc.devRef .tc main_v54) = (Host.divf : (⟨S128, .f32⟩ : BufTy).Contents (Elt F) → (⟨S128, .f32⟩ : BufTy).Contents (Elt F) → (⟨S128, .f32⟩ : BufTy).Contents (Elt F)) (after ops V (Proc.devRef .tc main_v52)) (after ops V (Proc.devRef .tc main_v53)) :=
  after_binary ops_writes V 66 main_v52 main_v53 main_v54 (Host.divf : (⟨S128, .f32⟩ : BufTy).Contents (Elt F) → (⟨S128, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_c_10 :
    after ops V (Proc.devRef .tc main_c_10) = (constantI S_ 32 0#32) :=
  after_nullary ops_writes V 67 main_c_10 (constantI S_ 32 0#32) ⟨by decide, rfl⟩ rfl (by decide)

theorem step_main_call0_cst :
    after ops V (Proc.devRef .tc main_call0_cst) = ((constant S_ .f32 0x00000000#32) : (⟨S_, .f32⟩ : BufTy).Contents (Elt F)) :=
  after_nullary ops_writes V 68 main_call0_cst ((constant S_ .f32 0x00000000#32) : (⟨S_, .f32⟩ : BufTy).Contents (Elt F)) ⟨by decide, rfl⟩ rfl (by decide)

theorem step_main_call0_v0 :
    after ops V (Proc.devRef .tc main_call0_v0) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (Proc.devRef .tc main_v51)) (after ops V (Proc.devRef .tc main_call0_cst)) :=
  after_binary ops_writes V 69 main_v51 main_call0_cst main_call0_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_call0_v1 :
    after ops V (Proc.devRef .tc main_call0_v1) = ((broadcastInDim S1x128 ![1] bcast_S128_S1x128_1) : (⟨S128, .f32⟩ : BufTy).Contents (Elt F) → (⟨S1x128, .f32⟩ : BufTy).Contents (Elt F)) (after ops V (Proc.devRef .tc main_call0_v0)) :=
  after_unary ops_writes V 70 main_call0_v0 main_call0_v1 ((broadcastInDim S1x128 ![1] bcast_S128_S1x128_1) : (⟨S128, .f32⟩ : BufTy).Contents (Elt F) → (⟨S1x128, .f32⟩ : BufTy).Contents (Elt F)) ⟨by decide, rfl⟩ ⟨by decide, rfl⟩ rfl (by decide) (by decide)

theorem step_main_call0_cst_0 :
    after ops V (Proc.devRef .tc main_call0_cst_0) = ((constant S_ .f32 0x47435000#32) : (⟨S_, .f32⟩ : BufTy).Contents (Elt F)) :=
  after_nullary ops_writes V 71 main_call0_cst_0 ((constant S_ .f32 0x47435000#32) : (⟨S_, .f32⟩ : BufTy).Contents (Elt F)) ⟨by decide, rfl⟩ rfl (by decide)

theorem step_main_call0_v2 :
    after ops V (Proc.devRef .tc main_call0_v2) = ((broadcastInDim S1x128 ![] bcast_S_S1x128) : (⟨S_, .f32⟩ : BufTy).Contents (Elt F) → (⟨S1x128, .f32⟩ : BufTy).Contents (Elt F)) (after ops V (Proc.devRef .tc main_call0_cst_0)) :=
  after_unary ops_writes V 72 main_call0_cst_0 main_call0_v2 ((broadcastInDim S1x128 ![] bcast_S_S1x128) : (⟨S_, .f32⟩ : BufTy).Contents (Elt F) → (⟨S1x128, .f32⟩ : BufTy).Contents (Elt F)) ⟨by decide, rfl⟩ ⟨by decide, rfl⟩ rfl (by decide) (by decide)

theorem step_main_call0_v3 :
    after ops V (Proc.devRef .tc main_call0_v3) = (Host.divf : (⟨S1x128, .f32⟩ : BufTy).Contents (Elt F) → (⟨S1x128, .f32⟩ : BufTy).Contents (Elt F) → (⟨S1x128, .f32⟩ : BufTy).Contents (Elt F)) (after ops V (Proc.devRef .tc main_call0_v1)) (after ops V (Proc.devRef .tc main_call0_v2)) :=
  after_binary ops_writes V 73 main_call0_v1 main_call0_v2 main_call0_v3 (Host.divf : (⟨S1x128, .f32⟩ : BufTy).Contents (Elt F) → (⟨S1x128, .f32⟩ : BufTy).Contents (Elt F) → (⟨S1x128, .f32⟩ : BufTy).Contents (Elt F)) ⟨by decide, rfl⟩ ⟨by decide, rfl⟩ ⟨by decide, rfl⟩ rfl (by decide) (by decide) (by decide)

theorem step_main_call0_v4 :
    after ops V (Proc.devRef .tc main_call0_v4) = ((broadcastInDim S50000x128 ![0, 1] bcast_S1x128_S50000x128_0_1) : (⟨S1x128, .f32⟩ : BufTy).Contents (Elt F) → (⟨S50000x128, .f32⟩ : BufTy).Contents (Elt F)) (after ops V (Proc.devRef .tc main_call0_v3)) :=
  after_unary ops_writes V 74 main_call0_v3 main_call0_v4 ((broadcastInDim S50000x128 ![0, 1] bcast_S1x128_S50000x128_0_1) : (⟨S1x128, .f32⟩ : BufTy).Contents (Elt F) → (⟨S50000x128, .f32⟩ : BufTy).Contents (Elt F)) ⟨by decide, rfl⟩ ⟨by decide, rfl⟩ rfl (by decide) (by decide)

theorem step_main_call0_v5 :
    after ops V (Proc.devRef .tc main_call0_v5) = (subf : (⟨S50000x128, .f32⟩ : BufTy).Contents (Elt F) → (⟨S50000x128, .f32⟩ : BufTy).Contents (Elt F) → (⟨S50000x128, .f32⟩ : BufTy).Contents (Elt F)) (after ops V (Proc.devRef .tc main_v51)) (after ops V (Proc.devRef .tc main_call0_v4)) :=
  after_binary ops_writes V 75 main_v51 main_call0_v4 main_call0_v5 (subf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_call0_v6 :
    after ops V (Proc.devRef .tc main_call0_v6) = (mulf : (⟨S50000x128, .f32⟩ : BufTy).Contents (Elt F) → (⟨S50000x128, .f32⟩ : BufTy).Contents (Elt F) → (⟨S50000x128, .f32⟩ : BufTy).Contents (Elt F)) (after ops V (Proc.devRef .tc main_call0_v5)) (after ops V (Proc.devRef .tc main_call0_v5)) :=
  after_binary ops_writes V 76 main_call0_v5 main_call0_v5 main_call0_v6 (mulf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_call0_v7 :
    after ops V (Proc.devRef .tc main_call0_v7) = ((sitofp .f32) : (⟨S_, .i32⟩ : BufTy).Contents (Elt F) → (⟨S_, .f32⟩ : BufTy).Contents (Elt F)) (after ops V (Proc.devRef .tc main_c_10)) :=
  after_unary ops_writes V 77 main_c_10 main_call0_v7 ((sitofp .f32) : (⟨S_, .i32⟩ : BufTy).Contents (Elt F) → (⟨S_, .f32⟩ : BufTy).Contents (Elt F)) ⟨by decide, rfl⟩ ⟨by decide, rfl⟩ rfl (by decide) (by decide)

theorem step_main_call0_cst_1 :
    after ops V (Proc.devRef .tc main_call0_cst_1) = ((constant S_ .f32 0x47435000#32) : (⟨S_, .f32⟩ : BufTy).Contents (Elt F)) :=
  after_nullary ops_writes V 78 main_call0_cst_1 ((constant S_ .f32 0x47435000#32) : (⟨S_, .f32⟩ : BufTy).Contents (Elt F)) ⟨by decide, rfl⟩ rfl (by decide)

theorem step_main_call0_v8 :
    after ops V (Proc.devRef .tc main_call0_v8) = (subf : (⟨S_, .f32⟩ : BufTy).Contents (Elt F) → (⟨S_, .f32⟩ : BufTy).Contents (Elt F) → (⟨S_, .f32⟩ : BufTy).Contents (Elt F)) (after ops V (Proc.devRef .tc main_call0_cst_1)) (after ops V (Proc.devRef .tc main_call0_v7)) :=
  after_binary ops_writes V 79 main_call0_cst_1 main_call0_v7 main_call0_v8 (subf : (⟨S_, .f32⟩ : BufTy).Contents (Elt F) → (⟨S_, .f32⟩ : BufTy).Contents (Elt F) → (⟨S_, .f32⟩ : BufTy).Contents (Elt F)) ⟨by decide, rfl⟩ ⟨by decide, rfl⟩ ⟨by decide, rfl⟩ rfl (by decide) (by decide) (by decide)

theorem step_main_call0_cst_2 :
    after ops V (Proc.devRef .tc main_call0_cst_2) = ((constant S_ .f32 0x00000000#32) : (⟨S_, .f32⟩ : BufTy).Contents (Elt F)) :=
  after_nullary ops_writes V 80 main_call0_cst_2 ((constant S_ .f32 0x00000000#32) : (⟨S_, .f32⟩ : BufTy).Contents (Elt F)) ⟨by decide, rfl⟩ rfl (by decide)

theorem step_main_call0_v9 :
    after ops V (Proc.devRef .tc main_call0_v9) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (Proc.devRef .tc main_call0_v6)) (after ops V (Proc.devRef .tc main_call0_cst_2)) :=
  after_binary ops_writes V 81 main_call0_v6 main_call0_cst_2 main_call0_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_call0_v10 :
    after ops V (Proc.devRef .tc main_call0_v10) = ((broadcastInDim S128 ![] bcast_S_S128) : (⟨S_, .f32⟩ : BufTy).Contents (Elt F) → (⟨S128, .f32⟩ : BufTy).Contents (Elt F)) (after ops V (Proc.devRef .tc main_call0_v8)) :=
  after_unary ops_writes V 82 main_call0_v8 main_call0_v10 ((broadcastInDim S128 ![] bcast_S_S128) : (⟨S_, .f32⟩ : BufTy).Contents (Elt F) → (⟨S128, .f32⟩ : BufTy).Contents (Elt F)) ⟨by decide, rfl⟩ ⟨by decide, rfl⟩ rfl (by decide) (by decide)

theorem step_main_call0_v11 :
    after ops V (Proc.devRef .tc main_call0_v11) = (Host.divf : (⟨S128, .f32⟩ : BufTy).Contents (Elt F) → (⟨S128, .f32⟩ : BufTy).Contents (Elt F) → (⟨S128, .f32⟩ : BufTy).Contents (Elt F)) (after ops V (Proc.devRef .tc main_call0_v9)) (after ops V (Proc.devRef .tc main_call0_v10)) :=
  after_binary ops_writes V 83 main_call0_v9 main_call0_v10 main_call0_v11 (Host.divf : (⟨S128, .f32⟩ : BufTy).Contents (Elt F) → (⟨S128, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_call0_cst_3 :
    after ops V (Proc.devRef .tc main_call0_cst_3) = ((constant S_ .f32 0x00000000#32) : (⟨S_, .f32⟩ : BufTy).Contents (Elt F)) :=
  after_nullary ops_writes V 84 main_call0_cst_3 ((constant S_ .f32 0x00000000#32) : (⟨S_, .f32⟩ : BufTy).Contents (Elt F)) ⟨by decide, rfl⟩ rfl (by decide)

theorem step_main_call0_v12 :
    after ops V (Proc.devRef .tc main_call0_v12) = ((cmpf .ogt) : (⟨S_, .f32⟩ : BufTy).Contents (Elt F) → (⟨S_, .f32⟩ : BufTy).Contents (Elt F) → (⟨S_, .i1⟩ : BufTy).Contents (Elt F)) (after ops V (Proc.devRef .tc main_call0_v8)) (after ops V (Proc.devRef .tc main_call0_cst_3)) :=
  after_binary ops_writes V 85 main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)) ⟨by decide, rfl⟩ ⟨by decide, rfl⟩ ⟨by decide, rfl⟩ rfl (by decide) (by decide) (by decide)

theorem step_main_call0_cst_4 :
    after ops V (Proc.devRef .tc main_call0_cst_4) = ((constant S_ .f32 0x7FC00000#32) : (⟨S_, .f32⟩ : BufTy).Contents (Elt F)) :=
  after_nullary ops_writes V 86 main_call0_cst_4 ((constant S_ .f32 0x7FC00000#32) : (⟨S_, .f32⟩ : BufTy).Contents (Elt F)) ⟨by decide, rfl⟩ rfl (by decide)

theorem step_main_call0_call0_v0 :
    after ops V (Proc.devRef .tc main_call0_call0_v0) = (id : (⟨S_, .f32⟩ : BufTy).Contents (Elt F) → (⟨S_, .f32⟩ : BufTy).Contents (Elt F)) (after ops V (Proc.devRef .tc main_call0_cst_4)) :=
  after_unary ops_writes V 87 main_call0_cst_4 main_call0_call0_v0 (id : (⟨S_, .f32⟩ : BufTy).Contents (Elt F) → (⟨S_, .f32⟩ : BufTy).Contents (Elt F)) ⟨by decide, rfl⟩ ⟨by decide, rfl⟩ rfl (by decide) (by decide)

theorem step_main_call0_call0_v1 :
    after ops V (Proc.devRef .tc main_call0_call0_v1) = ((broadcastInDim S128 ![] bcast_S_S128) : (⟨S_, .f32⟩ : BufTy).Contents (Elt F) → (⟨S128, .f32⟩ : BufTy).Contents (Elt F)) (after ops V (Proc.devRef .tc main_call0_call0_v0)) :=
  after_unary ops_writes V 88 main_call0_call0_v0 main_call0_call0_v1 ((broadcastInDim S128 ![] bcast_S_S128) : (⟨S_, .f32⟩ : BufTy).Contents (Elt F) → (⟨S128, .f32⟩ : BufTy).Contents (Elt F)) ⟨by decide, rfl⟩ ⟨by decide, rfl⟩ rfl (by decide) (by decide)

theorem step_main_v55 :
    after ops V (Proc.devRef .tc main_v55) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops V (Proc.devRef .tc main_call0_v12)) (after ops V (Proc.devRef .tc main_call0_v11)) (after ops V (Proc.devRef .tc main_call0_call0_v1)) :=
  after_ternary ops_writes V 89 main_call0_v12 main_call0_v11 main_call0_call0_v1 main_v55 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ⟨by decide, rfl⟩ ⟨by decide, rfl⟩ ⟨by decide, rfl⟩ ⟨by decide, rfl⟩ rfl (by decide) (by decide) (by decide) (by decide)

theorem step_main_v56 :
    after ops V (Proc.devRef .tc main_v56) = (broadcastInDim S1x128 ![1] bcast_S128_S1x128_1 : (⟨S128, .f32⟩ : BufTy).Contents (Elt F) → (⟨S1x128, .f32⟩ : BufTy).Contents (Elt F)) (after ops V (Proc.devRef .tc main_v54)) :=
  after_unary ops_writes V 90 main_v54 main_v56 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v57 :
    after ops V (Proc.devRef .tc main_v57) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v56)) :=
  after_unary ops_writes V 91 main_v56 main_v57 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v58 :
    after ops V (Proc.devRef .tc main_v58) = (subf : (⟨S50000x128, .f32⟩ : BufTy).Contents (Elt F) → (⟨S50000x128, .f32⟩ : BufTy).Contents (Elt F) → (⟨S50000x128, .f32⟩ : BufTy).Contents (Elt F)) (after ops V (Proc.devRef .tc main_v51)) (after ops V (Proc.devRef .tc main_v57)) :=
  after_binary ops_writes V 92 main_v51 main_v57 main_v58 (subf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_cst_11 :
    after ops V (Proc.devRef .tc main_cst_11) = (constant S_ .f32 0x3727C5AC#32) :=
  after_nullary ops_writes V 93 main_cst_11 (constant S_ .f32 0x3727C5AC#32) ⟨by decide, rfl⟩ rfl (by decide)

theorem step_main_v59 :
    after ops V (Proc.devRef .tc main_v59) = (broadcastInDim S128 ![] bcast_S_S128 : (⟨S_, .f32⟩ : BufTy).Contents (Elt F) → (⟨S128, .f32⟩ : BufTy).Contents (Elt F)) (after ops V (Proc.devRef .tc main_cst_11)) :=
  after_unary ops_writes V 94 main_cst_11 main_v59 (broadcastInDim S128 ![] bcast_S_S128 : (⟨S_, .f32⟩ : BufTy).Contents (Elt F) → (⟨S128, .f32⟩ : BufTy).Contents (Elt F)) ⟨by decide, rfl⟩ ⟨by decide, rfl⟩ rfl (by decide) (by decide)

theorem step_main_v60 :
    after ops V (Proc.devRef .tc main_v60) = (addf : (⟨S128, .f32⟩ : BufTy).Contents (Elt F) → (⟨S128, .f32⟩ : BufTy).Contents (Elt F) → (⟨S128, .f32⟩ : BufTy).Contents (Elt F)) (after ops V (Proc.devRef .tc main_v55)) (after ops V (Proc.devRef .tc main_v59)) :=
  after_binary ops_writes V 95 main_v55 main_v59 main_v60 (addf : (⟨S128, .f32⟩ : BufTy).Contents (Elt F) → (⟨S128, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_v61 :
    after ops V (Proc.devRef .tc main_v61) = (Host.rsqrt : (⟨S128, .f32⟩ : BufTy).Contents (Elt F) → (⟨S128, .f32⟩ : BufTy).Contents (Elt F)) (after ops V (Proc.devRef .tc main_v60)) :=
  after_unary ops_writes V 96 main_v60 main_v61 (Host.rsqrt : (⟨S128, .f32⟩ : BufTy).Contents (Elt F) → (⟨S128, .f32⟩ : BufTy).Contents (Elt F)) ⟨by decide, rfl⟩ ⟨by decide, rfl⟩ rfl (by decide) (by decide)

theorem step_main_v62 :
    after ops V (Proc.devRef .tc main_v62) = (broadcastInDim S1x128 ![1] bcast_S128_S1x128_1 : (⟨S128, .f32⟩ : BufTy).Contents (Elt F) → (⟨S1x128, .f32⟩ : BufTy).Contents (Elt F)) (after ops V (Proc.devRef .tc main_v61)) :=
  after_unary ops_writes V 97 main_v61 main_v62 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v63 :
    after ops V (Proc.devRef .tc main_v63) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v62)) :=
  after_unary ops_writes V 98 main_v62 main_v63 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v64 :
    after ops V (Proc.devRef .tc main_v64) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v58)) (after ops V (Proc.devRef .tc main_v63)) :=
  after_binary ops_writes V 99 main_v58 main_v63 main_v64 (mulf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v65 :
    after ops V (Proc.devRef .tc main_v65) = ((extractStridedSlice S1x128 ![0, 0] · slices_S3x128_S1x128_0_0) : (⟨S3x128, .f32⟩ : BufTy).Contents (Elt F) → (⟨S1x128, .f32⟩ : BufTy).Contents (Elt F)) (after ops V (Proc.devRef .tc main_arg5)) :=
  after_unary ops_writes V 100 main_arg5 main_v65 ((extractStridedSlice S1x128 ![0, 0] · slices_S3x128_S1x128_0_0) : (⟨S3x128, .f32⟩ : BufTy).Contents (Elt F) → (⟨S1x128, .f32⟩ : BufTy).Contents (Elt F)) ⟨by decide, rfl⟩ ⟨by decide, rfl⟩ rfl (by decide) (by decide)

theorem step_main_v66 :
    after ops V (Proc.devRef .tc main_v66) = shapeCast S128 (after ops V (Proc.devRef .tc main_v65)) shapeCasts_S1x128_S128 :=
  after_reshape ops_writes V 101 main_v65 main_v66 rfl shapeCasts_S1x128_S128 ⟨by decide, rfl⟩ ⟨by decide, rfl⟩ rfl (by decide) (by decide)

theorem step_main_v67 :
    after ops V (Proc.devRef .tc main_v67) = (broadcastInDim S1x128 ![1] bcast_S128_S1x128_1 : (⟨S128, .f32⟩ : BufTy).Contents (Elt F) → (⟨S1x128, .f32⟩ : BufTy).Contents (Elt F)) (after ops V (Proc.devRef .tc main_v66)) :=
  after_unary ops_writes V 102 main_v66 main_v67 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v68 :
    after ops V (Proc.devRef .tc main_v68) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v67)) :=
  after_unary ops_writes V 103 main_v67 main_v68 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v69 :
    after ops V (Proc.devRef .tc main_v69) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v64)) (after ops V (Proc.devRef .tc main_v68)) :=
  after_binary ops_writes V 104 main_v64 main_v68 main_v69 (mulf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v70 :
    after ops V (Proc.devRef .tc main_v70) = ((extractStridedSlice S1x128 ![0, 0] · slices_S3x128_S1x128_0_0) : (⟨S3x128, .f32⟩ : BufTy).Contents (Elt F) → (⟨S1x128, .f32⟩ : BufTy).Contents (Elt F)) (after ops V (Proc.devRef .tc main_arg6)) :=
  after_unary ops_writes V 105 main_arg6 main_v70 ((extractStridedSlice S1x128 ![0, 0] · slices_S3x128_S1x128_0_0) : (⟨S3x128, .f32⟩ : BufTy).Contents (Elt F) → (⟨S1x128, .f32⟩ : BufTy).Contents (Elt F)) ⟨by decide, rfl⟩ ⟨by decide, rfl⟩ rfl (by decide) (by decide)

theorem step_main_v71 :
    after ops V (Proc.devRef .tc main_v71) = shapeCast S128 (after ops V (Proc.devRef .tc main_v70)) shapeCasts_S1x128_S128 :=
  after_reshape ops_writes V 106 main_v70 main_v71 rfl shapeCasts_S1x128_S128 ⟨by decide, rfl⟩ ⟨by decide, rfl⟩ rfl (by decide) (by decide)

theorem step_main_v72 :
    after ops V (Proc.devRef .tc main_v72) = (broadcastInDim S1x128 ![1] bcast_S128_S1x128_1 : (⟨S128, .f32⟩ : BufTy).Contents (Elt F) → (⟨S1x128, .f32⟩ : BufTy).Contents (Elt F)) (after ops V (Proc.devRef .tc main_v71)) :=
  after_unary ops_writes V 107 main_v71 main_v72 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v73 :
    after ops V (Proc.devRef .tc main_v73) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v72)) :=
  after_unary ops_writes V 108 main_v72 main_v73 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v74 :
    after ops V (Proc.devRef .tc main_v74) = (addf : (⟨S50000x128, .f32⟩ : BufTy).Contents (Elt F) → (⟨S50000x128, .f32⟩ : BufTy).Contents (Elt F) → (⟨S50000x128, .f32⟩ : BufTy).Contents (Elt F)) (after ops V (Proc.devRef .tc main_v69)) (after ops V (Proc.devRef .tc main_v73)) :=
  after_binary ops_writes V 109 main_v69 main_v73 main_v74 (addf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_call1_cst :
    after ops V (Proc.devRef .tc main_call1_cst) = ((constant S_ .f32 0x00000000#32) : (⟨S_, .f32⟩ : BufTy).Contents (Elt F)) :=
  after_nullary ops_writes V 110 main_call1_cst ((constant S_ .f32 0x00000000#32) : (⟨S_, .f32⟩ : BufTy).Contents (Elt F)) ⟨by decide, rfl⟩ rfl (by decide)

theorem step_main_call1_v0 :
    after ops V (Proc.devRef .tc main_call1_v0) = ((broadcastInDim S50000x128 ![] bcast_S_S50000x128) : (⟨S_, .f32⟩ : BufTy).Contents (Elt F) → (⟨S50000x128, .f32⟩ : BufTy).Contents (Elt F)) (after ops V (Proc.devRef .tc main_call1_cst)) :=
  after_unary ops_writes V 111 main_call1_cst main_call1_v0 ((broadcastInDim S50000x128 ![] bcast_S_S50000x128) : (⟨S_, .f32⟩ : BufTy).Contents (Elt F) → (⟨S50000x128, .f32⟩ : BufTy).Contents (Elt F)) ⟨by decide, rfl⟩ ⟨by decide, rfl⟩ rfl (by decide) (by decide)

theorem step_main_v75 :
    after ops V (Proc.devRef .tc main_v75) = (maximumf : (⟨S50000x128, .f32⟩ : BufTy).Contents (Elt F) → (⟨S50000x128, .f32⟩ : BufTy).Contents (Elt F) → (⟨S50000x128, .f32⟩ : BufTy).Contents (Elt F)) (after ops V (Proc.devRef .tc main_v74)) (after ops V (Proc.devRef .tc main_call1_v0)) :=
  after_binary ops_writes V 112 main_v74 main_call1_v0 main_v75 (maximumf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v76 :
    after ops V (Proc.devRef .tc main_v76) = ((extractStridedSlice S1x128x128 ![1, 0, 0] · slices_S3x128x128_S1x128x128_1_0_0) : (⟨S3x128x128, .f32⟩ : BufTy).Contents (Elt F) → (⟨S1x128x128, .f32⟩ : BufTy).Contents (Elt F)) (after ops V (Proc.devRef .tc main_arg3)) :=
  after_unary ops_writes V 113 main_arg3 main_v76 ((extractStridedSlice S1x128x128 ![1, 0, 0] · slices_S3x128x128_S1x128x128_1_0_0) : (⟨S3x128x128, .f32⟩ : BufTy).Contents (Elt F) → (⟨S1x128x128, .f32⟩ : BufTy).Contents (Elt F)) ⟨by decide, rfl⟩ ⟨by decide, rfl⟩ rfl (by decide) (by decide)

theorem step_main_v77 :
    after ops V (Proc.devRef .tc main_v77) = shapeCast S128x128 (after ops V (Proc.devRef .tc main_v76)) shapeCasts_S1x128x128_S128x128 :=
  after_reshape ops_writes V 114 main_v76 main_v77 rfl shapeCasts_S1x128x128_S128x128 ⟨by decide, rfl⟩ ⟨by decide, rfl⟩ rfl (by decide) (by decide)

theorem step_main_v78 :
    after ops V (Proc.devRef .tc main_v78) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (after ops V (Proc.devRef .tc main_v75)) (after ops V (Proc.devRef .tc main_v77)) :=
  after_binary ops_writes V 115 main_v75 main_v77 main_v78 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_c_12 :
    after ops V (Proc.devRef .tc main_c_12) = (constantI S_ 32 0#32) :=
  after_nullary ops_writes V 116 main_c_12 (constantI S_ 32 0#32) ⟨by decide, rfl⟩ rfl (by decide)

theorem step_main_v79 :
    after ops V (Proc.devRef .tc main_v79) = (broadcastInDim S800000 ![] bcast_S_S800000 : (⟨S_, .i32⟩ : BufTy).Contents (Elt F) → (⟨S800000, .i32⟩ : BufTy).Contents (Elt F)) (after ops V (Proc.devRef .tc main_c_12)) :=
  after_unary ops_writes V 117 main_c_12 main_v79 (broadcastInDim S800000 ![] bcast_S_S800000 : (⟨S_, .i32⟩ : BufTy).Contents (Elt F) → (⟨S800000, .i32⟩ : BufTy).Contents (Elt F)) ⟨by decide, rfl⟩ ⟨by decide, rfl⟩ rfl (by decide) (by decide)

theorem step_main_v80 :
    after ops V (Proc.devRef .tc main_v80) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v79)) :=
  after_binary ops_writes V 118 main_v1 main_v79 main_v80 (cmpi .slt : (⟨S800000, .i32⟩ : BufTy).Contents (Elt F) → (⟨S800000, .i32⟩ : BufTy).Contents (Elt F) → (⟨S800000, .i1⟩ : BufTy).Contents (Elt F)) ⟨by decide, rfl⟩ ⟨by decide, rfl⟩ ⟨by decide, rfl⟩ rfl (by decide) (by decide) (by decide)

theorem step_main_c_13 :
    after ops V (Proc.devRef .tc main_c_13) = (constantI S_ 32 50000#32) :=
  after_nullary ops_writes V 119 main_c_13 (constantI S_ 32 50000#32) ⟨by decide, rfl⟩ rfl (by decide)

theorem step_main_v81 :
    after ops V (Proc.devRef .tc main_v81) = (broadcastInDim S800000 ![] bcast_S_S800000 : (⟨S_, .i32⟩ : BufTy).Contents (Elt F) → (⟨S800000, .i32⟩ : BufTy).Contents (Elt F)) (after ops V (Proc.devRef .tc main_c_13)) :=
  after_unary ops_writes V 120 main_c_13 main_v81 (broadcastInDim S800000 ![] bcast_S_S800000 : (⟨S_, .i32⟩ : BufTy).Contents (Elt F) → (⟨S800000, .i32⟩ : BufTy).Contents (Elt F)) ⟨by decide, rfl⟩ ⟨by decide, rfl⟩ rfl (by decide) (by decide)

theorem step_main_v82 :
    after ops V (Proc.devRef .tc main_v82) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v81)) :=
  after_binary ops_writes V 121 main_v1 main_v81 main_v82 (addi : (⟨S800000, .i32⟩ : BufTy).Contents (Elt F) → (⟨S800000, .i32⟩ : BufTy).Contents (Elt F) → (⟨S800000, .i32⟩ : BufTy).Contents (Elt F)) ⟨by decide, rfl⟩ ⟨by decide, rfl⟩ ⟨by decide, rfl⟩ rfl (by decide) (by decide) (by decide)

theorem step_main_v83 :
    after ops V (Proc.devRef .tc main_v83) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v80)) (after ops V (Proc.devRef .tc main_v82)) (after ops V (Proc.devRef .tc main_v1)) :=
  after_ternary ops_writes V 122 main_v80 main_v82 main_v1 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ⟨by decide, rfl⟩ ⟨by decide, rfl⟩ ⟨by decide, rfl⟩ ⟨by decide, rfl⟩ rfl (by decide) (by decide) (by decide) (by decide)

theorem step_main_v84 :
    after ops V (Proc.devRef .tc main_v84) = (broadcastInDim S800000x1 ![0] bcast_S800000_S800000x1_0 : (⟨S800000, .i32⟩ : BufTy).Contents (Elt F) → (⟨S800000x1, .i32⟩ : BufTy).Contents (Elt F)) (after ops V (Proc.devRef .tc main_v83)) :=
  after_unary ops_writes V 123 main_v83 main_v84 (broadcastInDim S800000x1 ![0] bcast_S800000_S800000x1_0 : (⟨S800000, .i32⟩ : BufTy).Contents (Elt F) → (⟨S800000x1, .i32⟩ : BufTy).Contents (Elt F)) ⟨by decide, rfl⟩ ⟨by decide, rfl⟩ rfl (by decide) (by decide)

theorem step_main_v85 :
    after ops V (Proc.devRef .tc main_v85) = ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) (after ops V (Proc.devRef .tc main_v78)) (after ops V (Proc.devRef .tc main_v84)) :=
  after_binary ops_writes V 124 main_v78 main_v84 main_v85 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ⟨by decide, rfl⟩ ⟨by decide, rfl⟩ ⟨by decide, rfl⟩ rfl (by decide) (by decide) (by decide)

theorem step_main_v86 :
    after ops V (Proc.devRef .tc main_v86) = (broadcastInDim S800000x128 ![0, 1] bcast_S800000x1_S800000x128_0_1 : (⟨S800000x1, .f32⟩ : BufTy).Contents (Elt F) → (⟨S800000x128, .f32⟩ : BufTy).Contents (Elt F)) (after ops V (Proc.devRef .tc main_v26)) :=
  after_unary ops_writes V 125 main_v26 main_v86 (broadcastInDim S800000x128 ![0, 1] bcast_S800000x1_S800000x128_0_1 : (⟨S800000x1, .f32⟩ : BufTy).Contents (Elt F) → (⟨S800000x128, .f32⟩ : BufTy).Contents (Elt F)) ⟨by decide, rfl⟩ ⟨by decide, rfl⟩ rfl (by decide) (by decide)

theorem step_main_v87 :
    after ops V (Proc.devRef .tc main_v87) = (mulf : (⟨S800000x128, .f32⟩ : BufTy).Contents (Elt F) → (⟨S800000x128, .f32⟩ : BufTy).Contents (Elt F) → (⟨S800000x128, .f32⟩ : BufTy).Contents (Elt F)) (after ops V (Proc.devRef .tc main_v85)) (after ops V (Proc.devRef .tc main_v86)) :=
  after_binary ops_writes V 126 main_v85 main_v86 main_v87 (mulf : (⟨S800000x128, .f32⟩ : BufTy).Contents (Elt F) → (⟨S800000x128, .f32⟩ : BufTy).Contents (Elt F) → (⟨S800000x128, .f32⟩ : BufTy).Contents (Elt F)) ⟨by decide, rfl⟩ ⟨by decide, rfl⟩ ⟨by decide, rfl⟩ rfl (by decide) (by decide) (by decide)

theorem step_main_cst_14 :
    after ops V (Proc.devRef .tc main_cst_14) = (constant S_ .f32 0x00000000#32) :=
  after_nullary ops_writes V 127 main_cst_14 (constant S_ .f32 0x00000000#32) ⟨by decide, rfl⟩ rfl (by decide)

theorem step_main_v88 :
    after ops V (Proc.devRef .tc main_v88) = (broadcastInDim S50000x128 ![] bcast_S_S50000x128 : (⟨S_, .f32⟩ : BufTy).Contents (Elt F) → (⟨S50000x128, .f32⟩ : BufTy).Contents (Elt F)) (after ops V (Proc.devRef .tc main_cst_14)) :=
  after_unary ops_writes V 128 main_cst_14 main_v88 (broadcastInDim S50000x128 ![] bcast_S_S50000x128 : (⟨S_, .f32⟩ : BufTy).Contents (Elt F) → (⟨S50000x128, .f32⟩ : BufTy).Contents (Elt F)) ⟨by decide, rfl⟩ ⟨by decide, rfl⟩ rfl (by decide) (by decide)

theorem step_main_v89 :
    after ops V (Proc.devRef .tc main_v89) = (broadcastInDim S800000x1 ![0] bcast_S800000_S800000x1_0 : (⟨S800000, .i32⟩ : BufTy).Contents (Elt F) → (⟨S800000x1, .i32⟩ : BufTy).Contents (Elt F)) (after ops V (Proc.devRef .tc main_v3)) :=
  after_unary ops_writes V 129 main_v3 main_v89 (broadcastInDim S800000x1 ![0] bcast_S800000_S800000x1_0 : (⟨S800000, .i32⟩ : BufTy).Contents (Elt F) → (⟨S800000x1, .i32⟩ : BufTy).Contents (Elt F)) ⟨by decide, rfl⟩ ⟨by decide, rfl⟩ rfl (by decide) (by decide)

theorem step_main_v90 :
    after ops V (Proc.devRef .tc main_v90) = ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) (after ops V (Proc.devRef .tc main_v88)) (after ops V (Proc.devRef .tc main_v89)) (after ops V (Proc.devRef .tc main_v87)) :=
  after_ternary ops_writes V 130 main_v88 main_v89 main_v87 main_v90 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ⟨by decide, rfl⟩ ⟨by decide, rfl⟩ ⟨by decide, rfl⟩ ⟨by decide, rfl⟩ rfl (by decide) (by decide) (by decide) (by decide)

theorem step_main_v91 :
    after ops V (Proc.devRef .tc main_v91) = (broadcastInDim S50000x128 ![0, 1] bcast_S50000x1_S50000x128_0_1 : (⟨S50000x1, .f32⟩ : BufTy).Contents (Elt F) → (⟨S50000x128, .f32⟩ : BufTy).Contents (Elt F)) (after ops V (Proc.devRef .tc main_v28)) :=
  after_unary ops_writes V 131 main_v28 main_v91 (broadcastInDim S50000x128 ![0, 1] bcast_S50000x1_S50000x128_0_1 : (⟨S50000x1, .f32⟩ : BufTy).Contents (Elt F) → (⟨S50000x128, .f32⟩ : BufTy).Contents (Elt F)) ⟨by decide, rfl⟩ ⟨by decide, rfl⟩ rfl (by decide) (by decide)

theorem step_main_v92 :
    after ops V (Proc.devRef .tc main_v92) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v78)) (after ops V (Proc.devRef .tc main_v91)) :=
  after_binary ops_writes V 132 main_v78 main_v91 main_v92 (mulf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v93 :
    after ops V (Proc.devRef .tc main_v93) = (addf : (⟨S50000x128, .f32⟩ : BufTy).Contents (Elt F) → (⟨S50000x128, .f32⟩ : BufTy).Contents (Elt F) → (⟨S50000x128, .f32⟩ : BufTy).Contents (Elt F)) (after ops V (Proc.devRef .tc main_v90)) (after ops V (Proc.devRef .tc main_v92)) :=
  after_binary ops_writes V 133 main_v90 main_v92 main_v93 (addf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v94 :
    after ops V (Proc.devRef .tc main_v94) = ((extractStridedSlice S1x128 ![1, 0] · slices_S3x128_S1x128_1_0) : (⟨S3x128, .f32⟩ : BufTy).Contents (Elt F) → (⟨S1x128, .f32⟩ : BufTy).Contents (Elt F)) (after ops V (Proc.devRef .tc main_arg4)) :=
  after_unary ops_writes V 134 main_arg4 main_v94 ((extractStridedSlice S1x128 ![1, 0] · slices_S3x128_S1x128_1_0) : (⟨S3x128, .f32⟩ : BufTy).Contents (Elt F) → (⟨S1x128, .f32⟩ : BufTy).Contents (Elt F)) ⟨by decide, rfl⟩ ⟨by decide, rfl⟩ rfl (by decide) (by decide)

theorem step_main_v95 :
    after ops V (Proc.devRef .tc main_v95) = shapeCast S128 (after ops V (Proc.devRef .tc main_v94)) shapeCasts_S1x128_S128 :=
  after_reshape ops_writes V 135 main_v94 main_v95 rfl shapeCasts_S1x128_S128 ⟨by decide, rfl⟩ ⟨by decide, rfl⟩ rfl (by decide) (by decide)

theorem step_main_v96 :
    after ops V (Proc.devRef .tc main_v96) = (broadcastInDim S1x128 ![1] bcast_S128_S1x128_1 : (⟨S128, .f32⟩ : BufTy).Contents (Elt F) → (⟨S1x128, .f32⟩ : BufTy).Contents (Elt F)) (after ops V (Proc.devRef .tc main_v95)) :=
  after_unary ops_writes V 136 main_v95 main_v96 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v97 :
    after ops V (Proc.devRef .tc main_v97) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v96)) :=
  after_unary ops_writes V 137 main_v96 main_v97 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v98 :
    after ops V (Proc.devRef .tc main_v98) = (addf : (⟨S50000x128, .f32⟩ : BufTy).Contents (Elt F) → (⟨S50000x128, .f32⟩ : BufTy).Contents (Elt F) → (⟨S50000x128, .f32⟩ : BufTy).Contents (Elt F)) (after ops V (Proc.devRef .tc main_v93)) (after ops V (Proc.devRef .tc main_v97)) :=
  after_binary ops_writes V 138 main_v93 main_v97 main_v98 (addf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_cst_15 :
    after ops V (Proc.devRef .tc main_cst_15) = (constant S_ .f32 0x00000000#32) :=
  after_nullary ops_writes V 139 main_cst_15 (constant S_ .f32 0x00000000#32) ⟨by decide, rfl⟩ rfl (by decide)

theorem step_main_v99 :
    after ops V (Proc.devRef .tc main_v99) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (Proc.devRef .tc main_v98)) (after ops V (Proc.devRef .tc main_cst_15)) :=
  after_binary ops_writes V 140 main_v98 main_cst_15 main_v99 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_cst_16 :
    after ops V (Proc.devRef .tc main_cst_16) = (constant S_ .f32 0x47435000#32) :=
  after_nullary ops_writes V 141 main_cst_16 (constant S_ .f32 0x47435000#32) ⟨by decide, rfl⟩ rfl (by decide)

theorem step_main_v100 :
    after ops V (Proc.devRef .tc main_v100) = (broadcastInDim S128 ![] bcast_S_S128 : (⟨S_, .f32⟩ : BufTy).Contents (Elt F) → (⟨S128, .f32⟩ : BufTy).Contents (Elt F)) (after ops V (Proc.devRef .tc main_cst_16)) :=
  after_unary ops_writes V 142 main_cst_16 main_v100 (broadcastInDim S128 ![] bcast_S_S128 : (⟨S_, .f32⟩ : BufTy).Contents (Elt F) → (⟨S128, .f32⟩ : BufTy).Contents (Elt F)) ⟨by decide, rfl⟩ ⟨by decide, rfl⟩ rfl (by decide) (by decide)

theorem step_main_v101 :
    after ops V (Proc.devRef .tc main_v101) = (Host.divf : (⟨S128, .f32⟩ : BufTy).Contents (Elt F) → (⟨S128, .f32⟩ : BufTy).Contents (Elt F) → (⟨S128, .f32⟩ : BufTy).Contents (Elt F)) (after ops V (Proc.devRef .tc main_v99)) (after ops V (Proc.devRef .tc main_v100)) :=
  after_binary ops_writes V 143 main_v99 main_v100 main_v101 (Host.divf : (⟨S128, .f32⟩ : BufTy).Contents (Elt F) → (⟨S128, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_c_17 :
    after ops V (Proc.devRef .tc main_c_17) = (constantI S_ 32 0#32) :=
  after_nullary ops_writes V 144 main_c_17 (constantI S_ 32 0#32) ⟨by decide, rfl⟩ rfl (by decide)

theorem step_main_call2_cst :
    after ops V (Proc.devRef .tc main_call2_cst) = ((constant S_ .f32 0x00000000#32) : (⟨S_, .f32⟩ : BufTy).Contents (Elt F)) :=
  after_nullary ops_writes V 145 main_call2_cst ((constant S_ .f32 0x00000000#32) : (⟨S_, .f32⟩ : BufTy).Contents (Elt F)) ⟨by decide, rfl⟩ rfl (by decide)

theorem step_main_call2_v0 :
    after ops V (Proc.devRef .tc main_call2_v0) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (Proc.devRef .tc main_v98)) (after ops V (Proc.devRef .tc main_call2_cst)) :=
  after_binary ops_writes V 146 main_v98 main_call2_cst main_call2_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_call2_v1 :
    after ops V (Proc.devRef .tc main_call2_v1) = ((broadcastInDim S1x128 ![1] bcast_S128_S1x128_1) : (⟨S128, .f32⟩ : BufTy).Contents (Elt F) → (⟨S1x128, .f32⟩ : BufTy).Contents (Elt F)) (after ops V (Proc.devRef .tc main_call2_v0)) :=
  after_unary ops_writes V 147 main_call2_v0 main_call2_v1 ((broadcastInDim S1x128 ![1] bcast_S128_S1x128_1) : (⟨S128, .f32⟩ : BufTy).Contents (Elt F) → (⟨S1x128, .f32⟩ : BufTy).Contents (Elt F)) ⟨by decide, rfl⟩ ⟨by decide, rfl⟩ rfl (by decide) (by decide)

theorem step_main_call2_cst_0 :
    after ops V (Proc.devRef .tc main_call2_cst_0) = ((constant S_ .f32 0x47435000#32) : (⟨S_, .f32⟩ : BufTy).Contents (Elt F)) :=
  after_nullary ops_writes V 148 main_call2_cst_0 ((constant S_ .f32 0x47435000#32) : (⟨S_, .f32⟩ : BufTy).Contents (Elt F)) ⟨by decide, rfl⟩ rfl (by decide)

theorem step_main_call2_v2 :
    after ops V (Proc.devRef .tc main_call2_v2) = ((broadcastInDim S1x128 ![] bcast_S_S1x128) : (⟨S_, .f32⟩ : BufTy).Contents (Elt F) → (⟨S1x128, .f32⟩ : BufTy).Contents (Elt F)) (after ops V (Proc.devRef .tc main_call2_cst_0)) :=
  after_unary ops_writes V 149 main_call2_cst_0 main_call2_v2 ((broadcastInDim S1x128 ![] bcast_S_S1x128) : (⟨S_, .f32⟩ : BufTy).Contents (Elt F) → (⟨S1x128, .f32⟩ : BufTy).Contents (Elt F)) ⟨by decide, rfl⟩ ⟨by decide, rfl⟩ rfl (by decide) (by decide)

theorem step_main_call2_v3 :
    after ops V (Proc.devRef .tc main_call2_v3) = (Host.divf : (⟨S1x128, .f32⟩ : BufTy).Contents (Elt F) → (⟨S1x128, .f32⟩ : BufTy).Contents (Elt F) → (⟨S1x128, .f32⟩ : BufTy).Contents (Elt F)) (after ops V (Proc.devRef .tc main_call2_v1)) (after ops V (Proc.devRef .tc main_call2_v2)) :=
  after_binary ops_writes V 150 main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)) ⟨by decide, rfl⟩ ⟨by decide, rfl⟩ ⟨by decide, rfl⟩ rfl (by decide) (by decide) (by decide)

theorem step_main_call2_v4 :
    after ops V (Proc.devRef .tc main_call2_v4) = ((broadcastInDim S50000x128 ![0, 1] bcast_S1x128_S50000x128_0_1) : (⟨S1x128, .f32⟩ : BufTy).Contents (Elt F) → (⟨S50000x128, .f32⟩ : BufTy).Contents (Elt F)) (after ops V (Proc.devRef .tc main_call2_v3)) :=
  after_unary ops_writes V 151 main_call2_v3 main_call2_v4 ((broadcastInDim S50000x128 ![0, 1] bcast_S1x128_S50000x128_0_1) : (⟨S1x128, .f32⟩ : BufTy).Contents (Elt F) → (⟨S50000x128, .f32⟩ : BufTy).Contents (Elt F)) ⟨by decide, rfl⟩ ⟨by decide, rfl⟩ rfl (by decide) (by decide)

theorem step_main_call2_v5 :
    after ops V (Proc.devRef .tc main_call2_v5) = (subf : (⟨S50000x128, .f32⟩ : BufTy).Contents (Elt F) → (⟨S50000x128, .f32⟩ : BufTy).Contents (Elt F) → (⟨S50000x128, .f32⟩ : BufTy).Contents (Elt F)) (after ops V (Proc.devRef .tc main_v98)) (after ops V (Proc.devRef .tc main_call2_v4)) :=
  after_binary ops_writes V 152 main_v98 main_call2_v4 main_call2_v5 (subf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_call2_v6 :
    after ops V (Proc.devRef .tc main_call2_v6) = (mulf : (⟨S50000x128, .f32⟩ : BufTy).Contents (Elt F) → (⟨S50000x128, .f32⟩ : BufTy).Contents (Elt F) → (⟨S50000x128, .f32⟩ : BufTy).Contents (Elt F)) (after ops V (Proc.devRef .tc main_call2_v5)) (after ops V (Proc.devRef .tc main_call2_v5)) :=
  after_binary ops_writes V 153 main_call2_v5 main_call2_v5 main_call2_v6 (mulf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_call2_v7 :
    after ops V (Proc.devRef .tc main_call2_v7) = ((sitofp .f32) : (⟨S_, .i32⟩ : BufTy).Contents (Elt F) → (⟨S_, .f32⟩ : BufTy).Contents (Elt F)) (after ops V (Proc.devRef .tc main_c_17)) :=
  after_unary ops_writes V 154 main_c_17 main_call2_v7 ((sitofp .f32) : (⟨S_, .i32⟩ : BufTy).Contents (Elt F) → (⟨S_, .f32⟩ : BufTy).Contents (Elt F)) ⟨by decide, rfl⟩ ⟨by decide, rfl⟩ rfl (by decide) (by decide)

theorem step_main_call2_cst_1 :
    after ops V (Proc.devRef .tc main_call2_cst_1) = ((constant S_ .f32 0x47435000#32) : (⟨S_, .f32⟩ : BufTy).Contents (Elt F)) :=
  after_nullary ops_writes V 155 main_call2_cst_1 ((constant S_ .f32 0x47435000#32) : (⟨S_, .f32⟩ : BufTy).Contents (Elt F)) ⟨by decide, rfl⟩ rfl (by decide)

theorem step_main_call2_v8 :
    after ops V (Proc.devRef .tc main_call2_v8) = (subf : (⟨S_, .f32⟩ : BufTy).Contents (Elt F) → (⟨S_, .f32⟩ : BufTy).Contents (Elt F) → (⟨S_, .f32⟩ : BufTy).Contents (Elt F)) (after ops V (Proc.devRef .tc main_call2_cst_1)) (after ops V (Proc.devRef .tc main_call2_v7)) :=
  after_binary ops_writes V 156 main_call2_cst_1 main_call2_v7 main_call2_v8 (subf : (⟨S_, .f32⟩ : BufTy).Contents (Elt F) → (⟨S_, .f32⟩ : BufTy).Contents (Elt F) → (⟨S_, .f32⟩ : BufTy).Contents (Elt F)) ⟨by decide, rfl⟩ ⟨by decide, rfl⟩ ⟨by decide, rfl⟩ rfl (by decide) (by decide) (by decide)

theorem step_main_call2_cst_2 :
    after ops V (Proc.devRef .tc main_call2_cst_2) = ((constant S_ .f32 0x00000000#32) : (⟨S_, .f32⟩ : BufTy).Contents (Elt F)) :=
  after_nullary ops_writes V 157 main_call2_cst_2 ((constant S_ .f32 0x00000000#32) : (⟨S_, .f32⟩ : BufTy).Contents (Elt F)) ⟨by decide, rfl⟩ rfl (by decide)

theorem step_main_call2_v9 :
    after ops V (Proc.devRef .tc main_call2_v9) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (Proc.devRef .tc main_call2_v6)) (after ops V (Proc.devRef .tc main_call2_cst_2)) :=
  after_binary ops_writes V 158 main_call2_v6 main_call2_cst_2 main_call2_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_call2_v10 :
    after ops V (Proc.devRef .tc main_call2_v10) = ((broadcastInDim S128 ![] bcast_S_S128) : (⟨S_, .f32⟩ : BufTy).Contents (Elt F) → (⟨S128, .f32⟩ : BufTy).Contents (Elt F)) (after ops V (Proc.devRef .tc main_call2_v8)) :=
  after_unary ops_writes V 159 main_call2_v8 main_call2_v10 ((broadcastInDim S128 ![] bcast_S_S128) : (⟨S_, .f32⟩ : BufTy).Contents (Elt F) → (⟨S128, .f32⟩ : BufTy).Contents (Elt F)) ⟨by decide, rfl⟩ ⟨by decide, rfl⟩ rfl (by decide) (by decide)

theorem step_main_call2_v11 :
    after ops V (Proc.devRef .tc main_call2_v11) = (Host.divf : (⟨S128, .f32⟩ : BufTy).Contents (Elt F) → (⟨S128, .f32⟩ : BufTy).Contents (Elt F) → (⟨S128, .f32⟩ : BufTy).Contents (Elt F)) (after ops V (Proc.devRef .tc main_call2_v9)) (after ops V (Proc.devRef .tc main_call2_v10)) :=
  after_binary ops_writes V 160 main_call2_v9 main_call2_v10 main_call2_v11 (Host.divf : (⟨S128, .f32⟩ : BufTy).Contents (Elt F) → (⟨S128, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_call2_cst_3 :
    after ops V (Proc.devRef .tc main_call2_cst_3) = ((constant S_ .f32 0x00000000#32) : (⟨S_, .f32⟩ : BufTy).Contents (Elt F)) :=
  after_nullary ops_writes V 161 main_call2_cst_3 ((constant S_ .f32 0x00000000#32) : (⟨S_, .f32⟩ : BufTy).Contents (Elt F)) ⟨by decide, rfl⟩ rfl (by decide)

theorem step_main_call2_v12 :
    after ops V (Proc.devRef .tc main_call2_v12) = ((cmpf .ogt) : (⟨S_, .f32⟩ : BufTy).Contents (Elt F) → (⟨S_, .f32⟩ : BufTy).Contents (Elt F) → (⟨S_, .i1⟩ : BufTy).Contents (Elt F)) (after ops V (Proc.devRef .tc main_call2_v8)) (after ops V (Proc.devRef .tc main_call2_cst_3)) :=
  after_binary ops_writes V 162 main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)) ⟨by decide, rfl⟩ ⟨by decide, rfl⟩ ⟨by decide, rfl⟩ rfl (by decide) (by decide) (by decide)

theorem step_main_call2_cst_4 :
    after ops V (Proc.devRef .tc main_call2_cst_4) = ((constant S_ .f32 0x7FC00000#32) : (⟨S_, .f32⟩ : BufTy).Contents (Elt F)) :=
  after_nullary ops_writes V 163 main_call2_cst_4 ((constant S_ .f32 0x7FC00000#32) : (⟨S_, .f32⟩ : BufTy).Contents (Elt F)) ⟨by decide, rfl⟩ rfl (by decide)

theorem step_main_call2_call0_v0 :
    after ops V (Proc.devRef .tc main_call2_call0_v0) = (id : (⟨S_, .f32⟩ : BufTy).Contents (Elt F) → (⟨S_, .f32⟩ : BufTy).Contents (Elt F)) (after ops V (Proc.devRef .tc main_call2_cst_4)) :=
  after_unary ops_writes V 164 main_call2_cst_4 main_call2_call0_v0 (id : (⟨S_, .f32⟩ : BufTy).Contents (Elt F) → (⟨S_, .f32⟩ : BufTy).Contents (Elt F)) ⟨by decide, rfl⟩ ⟨by decide, rfl⟩ rfl (by decide) (by decide)

theorem step_main_call2_call0_v1 :
    after ops V (Proc.devRef .tc main_call2_call0_v1) = ((broadcastInDim S128 ![] bcast_S_S128) : (⟨S_, .f32⟩ : BufTy).Contents (Elt F) → (⟨S128, .f32⟩ : BufTy).Contents (Elt F)) (after ops V (Proc.devRef .tc main_call2_call0_v0)) :=
  after_unary ops_writes V 165 main_call2_call0_v0 main_call2_call0_v1 ((broadcastInDim S128 ![] bcast_S_S128) : (⟨S_, .f32⟩ : BufTy).Contents (Elt F) → (⟨S128, .f32⟩ : BufTy).Contents (Elt F)) ⟨by decide, rfl⟩ ⟨by decide, rfl⟩ rfl (by decide) (by decide)

theorem step_main_v102 :
    after ops V (Proc.devRef .tc main_v102) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops V (Proc.devRef .tc main_call2_v12)) (after ops V (Proc.devRef .tc main_call2_v11)) (after ops V (Proc.devRef .tc main_call2_call0_v1)) :=
  after_ternary ops_writes V 166 main_call2_v12 main_call2_v11 main_call2_call0_v1 main_v102 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ⟨by decide, rfl⟩ ⟨by decide, rfl⟩ ⟨by decide, rfl⟩ ⟨by decide, rfl⟩ rfl (by decide) (by decide) (by decide) (by decide)

theorem step_main_v103 :
    after ops V (Proc.devRef .tc main_v103) = (broadcastInDim S1x128 ![1] bcast_S128_S1x128_1 : (⟨S128, .f32⟩ : BufTy).Contents (Elt F) → (⟨S1x128, .f32⟩ : BufTy).Contents (Elt F)) (after ops V (Proc.devRef .tc main_v101)) :=
  after_unary ops_writes V 167 main_v101 main_v103 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v104 :
    after ops V (Proc.devRef .tc main_v104) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v103)) :=
  after_unary ops_writes V 168 main_v103 main_v104 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v105 :
    after ops V (Proc.devRef .tc main_v105) = (subf : (⟨S50000x128, .f32⟩ : BufTy).Contents (Elt F) → (⟨S50000x128, .f32⟩ : BufTy).Contents (Elt F) → (⟨S50000x128, .f32⟩ : BufTy).Contents (Elt F)) (after ops V (Proc.devRef .tc main_v98)) (after ops V (Proc.devRef .tc main_v104)) :=
  after_binary ops_writes V 169 main_v98 main_v104 main_v105 (subf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_cst_18 :
    after ops V (Proc.devRef .tc main_cst_18) = (constant S_ .f32 0x3727C5AC#32) :=
  after_nullary ops_writes V 170 main_cst_18 (constant S_ .f32 0x3727C5AC#32) ⟨by decide, rfl⟩ rfl (by decide)

theorem step_main_v106 :
    after ops V (Proc.devRef .tc main_v106) = (broadcastInDim S128 ![] bcast_S_S128 : (⟨S_, .f32⟩ : BufTy).Contents (Elt F) → (⟨S128, .f32⟩ : BufTy).Contents (Elt F)) (after ops V (Proc.devRef .tc main_cst_18)) :=
  after_unary ops_writes V 171 main_cst_18 main_v106 (broadcastInDim S128 ![] bcast_S_S128 : (⟨S_, .f32⟩ : BufTy).Contents (Elt F) → (⟨S128, .f32⟩ : BufTy).Contents (Elt F)) ⟨by decide, rfl⟩ ⟨by decide, rfl⟩ rfl (by decide) (by decide)

theorem step_main_v107 :
    after ops V (Proc.devRef .tc main_v107) = (addf : (⟨S128, .f32⟩ : BufTy).Contents (Elt F) → (⟨S128, .f32⟩ : BufTy).Contents (Elt F) → (⟨S128, .f32⟩ : BufTy).Contents (Elt F)) (after ops V (Proc.devRef .tc main_v102)) (after ops V (Proc.devRef .tc main_v106)) :=
  after_binary ops_writes V 172 main_v102 main_v106 main_v107 (addf : (⟨S128, .f32⟩ : BufTy).Contents (Elt F) → (⟨S128, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_v108 :
    after ops V (Proc.devRef .tc main_v108) = (Host.rsqrt : (⟨S128, .f32⟩ : BufTy).Contents (Elt F) → (⟨S128, .f32⟩ : BufTy).Contents (Elt F)) (after ops V (Proc.devRef .tc main_v107)) :=
  after_unary ops_writes V 173 main_v107 main_v108 (Host.rsqrt : (⟨S128, .f32⟩ : BufTy).Contents (Elt F) → (⟨S128, .f32⟩ : BufTy).Contents (Elt F)) ⟨by decide, rfl⟩ ⟨by decide, rfl⟩ rfl (by decide) (by decide)

theorem step_main_v109 :
    after ops V (Proc.devRef .tc main_v109) = (broadcastInDim S1x128 ![1] bcast_S128_S1x128_1 : (⟨S128, .f32⟩ : BufTy).Contents (Elt F) → (⟨S1x128, .f32⟩ : BufTy).Contents (Elt F)) (after ops V (Proc.devRef .tc main_v108)) :=
  after_unary ops_writes V 174 main_v108 main_v109 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v110 :
    after ops V (Proc.devRef .tc main_v110) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v109)) :=
  after_unary ops_writes V 175 main_v109 main_v110 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v111 :
    after ops V (Proc.devRef .tc main_v111) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v105)) (after ops V (Proc.devRef .tc main_v110)) :=
  after_binary ops_writes V 176 main_v105 main_v110 main_v111 (mulf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v112 :
    after ops V (Proc.devRef .tc main_v112) = ((extractStridedSlice S1x128 ![1, 0] · slices_S3x128_S1x128_1_0) : (⟨S3x128, .f32⟩ : BufTy).Contents (Elt F) → (⟨S1x128, .f32⟩ : BufTy).Contents (Elt F)) (after ops V (Proc.devRef .tc main_arg5)) :=
  after_unary ops_writes V 177 main_arg5 main_v112 ((extractStridedSlice S1x128 ![1, 0] · slices_S3x128_S1x128_1_0) : (⟨S3x128, .f32⟩ : BufTy).Contents (Elt F) → (⟨S1x128, .f32⟩ : BufTy).Contents (Elt F)) ⟨by decide, rfl⟩ ⟨by decide, rfl⟩ rfl (by decide) (by decide)

theorem step_main_v113 :
    after ops V (Proc.devRef .tc main_v113) = shapeCast S128 (after ops V (Proc.devRef .tc main_v112)) shapeCasts_S1x128_S128 :=
  after_reshape ops_writes V 178 main_v112 main_v113 rfl shapeCasts_S1x128_S128 ⟨by decide, rfl⟩ ⟨by decide, rfl⟩ rfl (by decide) (by decide)

theorem step_main_v114 :
    after ops V (Proc.devRef .tc main_v114) = (broadcastInDim S1x128 ![1] bcast_S128_S1x128_1 : (⟨S128, .f32⟩ : BufTy).Contents (Elt F) → (⟨S1x128, .f32⟩ : BufTy).Contents (Elt F)) (after ops V (Proc.devRef .tc main_v113)) :=
  after_unary ops_writes V 179 main_v113 main_v114 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v115 :
    after ops V (Proc.devRef .tc main_v115) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v114)) :=
  after_unary ops_writes V 180 main_v114 main_v115 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v116 :
    after ops V (Proc.devRef .tc main_v116) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v111)) (after ops V (Proc.devRef .tc main_v115)) :=
  after_binary ops_writes V 181 main_v111 main_v115 main_v116 (mulf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v117 :
    after ops V (Proc.devRef .tc main_v117) = ((extractStridedSlice S1x128 ![1, 0] · slices_S3x128_S1x128_1_0) : (⟨S3x128, .f32⟩ : BufTy).Contents (Elt F) → (⟨S1x128, .f32⟩ : BufTy).Contents (Elt F)) (after ops V (Proc.devRef .tc main_arg6)) :=
  after_unary ops_writes V 182 main_arg6 main_v117 ((extractStridedSlice S1x128 ![1, 0] · slices_S3x128_S1x128_1_0) : (⟨S3x128, .f32⟩ : BufTy).Contents (Elt F) → (⟨S1x128, .f32⟩ : BufTy).Contents (Elt F)) ⟨by decide, rfl⟩ ⟨by decide, rfl⟩ rfl (by decide) (by decide)

theorem step_main_v118 :
    after ops V (Proc.devRef .tc main_v118) = shapeCast S128 (after ops V (Proc.devRef .tc main_v117)) shapeCasts_S1x128_S128 :=
  after_reshape ops_writes V 183 main_v117 main_v118 rfl shapeCasts_S1x128_S128 ⟨by decide, rfl⟩ ⟨by decide, rfl⟩ rfl (by decide) (by decide)

theorem step_main_v119 :
    after ops V (Proc.devRef .tc main_v119) = (broadcastInDim S1x128 ![1] bcast_S128_S1x128_1 : (⟨S128, .f32⟩ : BufTy).Contents (Elt F) → (⟨S1x128, .f32⟩ : BufTy).Contents (Elt F)) (after ops V (Proc.devRef .tc main_v118)) :=
  after_unary ops_writes V 184 main_v118 main_v119 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v120 :
    after ops V (Proc.devRef .tc main_v120) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v119)) :=
  after_unary ops_writes V 185 main_v119 main_v120 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v121 :
    after ops V (Proc.devRef .tc main_v121) = (addf : (⟨S50000x128, .f32⟩ : BufTy).Contents (Elt F) → (⟨S50000x128, .f32⟩ : BufTy).Contents (Elt F) → (⟨S50000x128, .f32⟩ : BufTy).Contents (Elt F)) (after ops V (Proc.devRef .tc main_v116)) (after ops V (Proc.devRef .tc main_v120)) :=
  after_binary ops_writes V 186 main_v116 main_v120 main_v121 (addf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_call3_cst :
    after ops V (Proc.devRef .tc main_call3_cst) = ((constant S_ .f32 0x00000000#32) : (⟨S_, .f32⟩ : BufTy).Contents (Elt F)) :=
  after_nullary ops_writes V 187 main_call3_cst ((constant S_ .f32 0x00000000#32) : (⟨S_, .f32⟩ : BufTy).Contents (Elt F)) ⟨by decide, rfl⟩ rfl (by decide)

theorem step_main_call3_v0 :
    after ops V (Proc.devRef .tc main_call3_v0) = ((broadcastInDim S50000x128 ![] bcast_S_S50000x128) : (⟨S_, .f32⟩ : BufTy).Contents (Elt F) → (⟨S50000x128, .f32⟩ : BufTy).Contents (Elt F)) (after ops V (Proc.devRef .tc main_call3_cst)) :=
  after_unary ops_writes V 188 main_call3_cst main_call3_v0 ((broadcastInDim S50000x128 ![] bcast_S_S50000x128) : (⟨S_, .f32⟩ : BufTy).Contents (Elt F) → (⟨S50000x128, .f32⟩ : BufTy).Contents (Elt F)) ⟨by decide, rfl⟩ ⟨by decide, rfl⟩ rfl (by decide) (by decide)

theorem step_main_v122 :
    after ops V (Proc.devRef .tc main_v122) = (maximumf : (⟨S50000x128, .f32⟩ : BufTy).Contents (Elt F) → (⟨S50000x128, .f32⟩ : BufTy).Contents (Elt F) → (⟨S50000x128, .f32⟩ : BufTy).Contents (Elt F)) (after ops V (Proc.devRef .tc main_v121)) (after ops V (Proc.devRef .tc main_call3_v0)) :=
  after_binary ops_writes V 189 main_v121 main_call3_v0 main_v122 (maximumf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v123 :
    after ops V (Proc.devRef .tc main_v123) = ((extractStridedSlice S1x128x128 ![2, 0, 0] · slices_S3x128x128_S1x128x128_2_0_0) : (⟨S3x128x128, .f32⟩ : BufTy).Contents (Elt F) → (⟨S1x128x128, .f32⟩ : BufTy).Contents (Elt F)) (after ops V (Proc.devRef .tc main_arg3)) :=
  after_unary ops_writes V 190 main_arg3 main_v123 ((extractStridedSlice S1x128x128 ![2, 0, 0] · slices_S3x128x128_S1x128x128_2_0_0) : (⟨S3x128x128, .f32⟩ : BufTy).Contents (Elt F) → (⟨S1x128x128, .f32⟩ : BufTy).Contents (Elt F)) ⟨by decide, rfl⟩ ⟨by decide, rfl⟩ rfl (by decide) (by decide)

theorem step_main_v124 :
    after ops V (Proc.devRef .tc main_v124) = shapeCast S128x128 (after ops V (Proc.devRef .tc main_v123)) shapeCasts_S1x128x128_S128x128 :=
  after_reshape ops_writes V 191 main_v123 main_v124 rfl shapeCasts_S1x128x128_S128x128 ⟨by decide, rfl⟩ ⟨by decide, rfl⟩ rfl (by decide) (by decide)

theorem step_main_v125 :
    after ops V (Proc.devRef .tc main_v125) = ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) (after ops V (Proc.devRef .tc main_v122)) (after ops V (Proc.devRef .tc main_v124)) :=
  after_binary ops_writes V 192 main_v122 main_v124 main_v125 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_c_19 :
    after ops V (Proc.devRef .tc main_c_19) = (constantI S_ 32 0#32) :=
  after_nullary ops_writes V 193 main_c_19 (constantI S_ 32 0#32) ⟨by decide, rfl⟩ rfl (by decide)

theorem step_main_v126 :
    after ops V (Proc.devRef .tc main_v126) = (broadcastInDim S800000 ![] bcast_S_S800000 : (⟨S_, .i32⟩ : BufTy).Contents (Elt F) → (⟨S800000, .i32⟩ : BufTy).Contents (Elt F)) (after ops V (Proc.devRef .tc main_c_19)) :=
  after_unary ops_writes V 194 main_c_19 main_v126 (broadcastInDim S800000 ![] bcast_S_S800000 : (⟨S_, .i32⟩ : BufTy).Contents (Elt F) → (⟨S800000, .i32⟩ : BufTy).Contents (Elt F)) ⟨by decide, rfl⟩ ⟨by decide, rfl⟩ rfl (by decide) (by decide)

theorem step_main_v127 :
    after ops V (Proc.devRef .tc main_v127) = (cmpi .slt : (⟨S800000, .i32⟩ : BufTy).Contents (Elt F) → (⟨S800000, .i32⟩ : BufTy).Contents (Elt F) → (⟨S800000, .i1⟩ : BufTy).Contents (Elt F)) (after ops V (Proc.devRef .tc main_v1)) (after ops V (Proc.devRef .tc main_v126)) :=
  after_binary ops_writes V 195 main_v1 main_v126 main_v127 (cmpi .slt : (⟨S800000, .i32⟩ : BufTy).Contents (Elt F) → (⟨S800000, .i32⟩ : BufTy).Contents (Elt F) → (⟨S800000, .i1⟩ : BufTy).Contents (Elt F)) ⟨by decide, rfl⟩ ⟨by decide, rfl⟩ ⟨by decide, rfl⟩ rfl (by decide) (by decide) (by decide)

theorem step_main_c_20 :
    after ops V (Proc.devRef .tc main_c_20) = (constantI S_ 32 50000#32) :=
  after_nullary ops_writes V 196 main_c_20 (constantI S_ 32 50000#32) ⟨by decide, rfl⟩ rfl (by decide)

theorem step_main_v128 :
    after ops V (Proc.devRef .tc main_v128) = (broadcastInDim S800000 ![] bcast_S_S800000 : (⟨S_, .i32⟩ : BufTy).Contents (Elt F) → (⟨S800000, .i32⟩ : BufTy).Contents (Elt F)) (after ops V (Proc.devRef .tc main_c_20)) :=
  after_unary ops_writes V 197 main_c_20 main_v128 (broadcastInDim S800000 ![] bcast_S_S800000 : (⟨S_, .i32⟩ : BufTy).Contents (Elt F) → (⟨S800000, .i32⟩ : BufTy).Contents (Elt F)) ⟨by decide, rfl⟩ ⟨by decide, rfl⟩ rfl (by decide) (by decide)

theorem step_main_v129 :
    after ops V (Proc.devRef .tc main_v129) = (addi : (⟨S800000, .i32⟩ : BufTy).Contents (Elt F) → (⟨S800000, .i32⟩ : BufTy).Contents (Elt F) → (⟨S800000, .i32⟩ : BufTy).Contents (Elt F)) (after ops V (Proc.devRef .tc main_v1)) (after ops V (Proc.devRef .tc main_v128)) :=
  after_binary ops_writes V 198 main_v1 main_v128 main_v129 (addi : (⟨S800000, .i32⟩ : BufTy).Contents (Elt F) → (⟨S800000, .i32⟩ : BufTy).Contents (Elt F) → (⟨S800000, .i32⟩ : BufTy).Contents (Elt F)) ⟨by decide, rfl⟩ ⟨by decide, rfl⟩ ⟨by decide, rfl⟩ rfl (by decide) (by decide) (by decide)

theorem step_main_v130 :
    after ops V (Proc.devRef .tc main_v130) = (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) (after ops V (Proc.devRef .tc main_v127)) (after ops V (Proc.devRef .tc main_v129)) (after ops V (Proc.devRef .tc main_v1)) :=
  after_ternary ops_writes V 199 main_v127 main_v129 main_v1 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ⟨by decide, rfl⟩ ⟨by decide, rfl⟩ ⟨by decide, rfl⟩ ⟨by decide, rfl⟩ rfl (by decide) (by decide) (by decide) (by decide)

theorem step_main_v131 :
    after ops V (Proc.devRef .tc main_v131) = (broadcastInDim S800000x1 ![0] bcast_S800000_S800000x1_0 : (⟨S800000, .i32⟩ : BufTy).Contents (Elt F) → (⟨S800000x1, .i32⟩ : BufTy).Contents (Elt F)) (after ops V (Proc.devRef .tc main_v130)) :=
  after_unary ops_writes V 200 main_v130 main_v131 (broadcastInDim S800000x1 ![0] bcast_S800000_S800000x1_0 : (⟨S800000, .i32⟩ : BufTy).Contents (Elt F) → (⟨S800000x1, .i32⟩ : BufTy).Contents (Elt F)) ⟨by decide, rfl⟩ ⟨by decide, rfl⟩ rfl (by decide) (by decide)

theorem step_main_v132 :
    after ops V (Proc.devRef .tc main_v132) = ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) (after ops V (Proc.devRef .tc main_v125)) (after ops V (Proc.devRef .tc main_v131)) :=
  after_binary ops_writes V 201 main_v125 main_v131 main_v132 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ⟨by decide, rfl⟩ ⟨by decide, rfl⟩ ⟨by decide, rfl⟩ rfl (by decide) (by decide) (by decide)

theorem step_main_v133 :
    after ops V (Proc.devRef .tc main_v133) = (broadcastInDim S800000x128 ![0, 1] bcast_S800000x1_S800000x128_0_1 : (⟨S800000x1, .f32⟩ : BufTy).Contents (Elt F) → (⟨S800000x128, .f32⟩ : BufTy).Contents (Elt F)) (after ops V (Proc.devRef .tc main_v26)) :=
  after_unary ops_writes V 202 main_v26 main_v133 (broadcastInDim S800000x128 ![0, 1] bcast_S800000x1_S800000x128_0_1 : (⟨S800000x1, .f32⟩ : BufTy).Contents (Elt F) → (⟨S800000x128, .f32⟩ : BufTy).Contents (Elt F)) ⟨by decide, rfl⟩ ⟨by decide, rfl⟩ rfl (by decide) (by decide)

theorem step_main_v134 :
    after ops V (Proc.devRef .tc main_v134) = (mulf : (⟨S800000x128, .f32⟩ : BufTy).Contents (Elt F) → (⟨S800000x128, .f32⟩ : BufTy).Contents (Elt F) → (⟨S800000x128, .f32⟩ : BufTy).Contents (Elt F)) (after ops V (Proc.devRef .tc main_v132)) (after ops V (Proc.devRef .tc main_v133)) :=
  after_binary ops_writes V 203 main_v132 main_v133 main_v134 (mulf : (⟨S800000x128, .f32⟩ : BufTy).Contents (Elt F) → (⟨S800000x128, .f32⟩ : BufTy).Contents (Elt F) → (⟨S800000x128, .f32⟩ : BufTy).Contents (Elt F)) ⟨by decide, rfl⟩ ⟨by decide, rfl⟩ ⟨by decide, rfl⟩ rfl (by decide) (by decide) (by decide)

theorem step_main_cst_21 :
    after ops V (Proc.devRef .tc main_cst_21) = (constant S_ .f32 0x00000000#32) :=
  after_nullary ops_writes V 204 main_cst_21 (constant S_ .f32 0x00000000#32) ⟨by decide, rfl⟩ rfl (by decide)

theorem step_main_v135 :
    after ops V (Proc.devRef .tc main_v135) = (broadcastInDim S50000x128 ![] bcast_S_S50000x128 : (⟨S_, .f32⟩ : BufTy).Contents (Elt F) → (⟨S50000x128, .f32⟩ : BufTy).Contents (Elt F)) (after ops V (Proc.devRef .tc main_cst_21)) :=
  after_unary ops_writes V 205 main_cst_21 main_v135 (broadcastInDim S50000x128 ![] bcast_S_S50000x128 : (⟨S_, .f32⟩ : BufTy).Contents (Elt F) → (⟨S50000x128, .f32⟩ : BufTy).Contents (Elt F)) ⟨by decide, rfl⟩ ⟨by decide, rfl⟩ rfl (by decide) (by decide)

theorem step_main_v136 :
    after ops V (Proc.devRef .tc main_v136) = (broadcastInDim S800000x1 ![0] bcast_S800000_S800000x1_0 : (⟨S800000, .i32⟩ : BufTy).Contents (Elt F) → (⟨S800000x1, .i32⟩ : BufTy).Contents (Elt F)) (after ops V (Proc.devRef .tc main_v3)) :=
  after_unary ops_writes V 206 main_v3 main_v136 (broadcastInDim S800000x1 ![0] bcast_S800000_S800000x1_0 : (⟨S800000, .i32⟩ : BufTy).Contents (Elt F) → (⟨S800000x1, .i32⟩ : BufTy).Contents (Elt F)) ⟨by decide, rfl⟩ ⟨by decide, rfl⟩ rfl (by decide) (by decide)

theorem step_main_v137 :
    after ops V (Proc.devRef .tc main_v137) = ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) (after ops V (Proc.devRef .tc main_v135)) (after ops V (Proc.devRef .tc main_v136)) (after ops V (Proc.devRef .tc main_v134)) :=
  after_ternary ops_writes V 207 main_v135 main_v136 main_v134 main_v137 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ⟨by decide, rfl⟩ ⟨by decide, rfl⟩ ⟨by decide, rfl⟩ ⟨by decide, rfl⟩ rfl (by decide) (by decide) (by decide) (by decide)

theorem step_main_v138 :
    after ops V (Proc.devRef .tc main_v138) = (broadcastInDim S50000x128 ![0, 1] bcast_S50000x1_S50000x128_0_1 : (⟨S50000x1, .f32⟩ : BufTy).Contents (Elt F) → (⟨S50000x128, .f32⟩ : BufTy).Contents (Elt F)) (after ops V (Proc.devRef .tc main_v28)) :=
  after_unary ops_writes V 208 main_v28 main_v138 (broadcastInDim S50000x128 ![0, 1] bcast_S50000x1_S50000x128_0_1 : (⟨S50000x1, .f32⟩ : BufTy).Contents (Elt F) → (⟨S50000x128, .f32⟩ : BufTy).Contents (Elt F)) ⟨by decide, rfl⟩ ⟨by decide, rfl⟩ rfl (by decide) (by decide)

theorem step_main_v139 :
    after ops V (Proc.devRef .tc main_v139) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v125)) (after ops V (Proc.devRef .tc main_v138)) :=
  after_binary ops_writes V 209 main_v125 main_v138 main_v139 (mulf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v140 :
    after ops V (Proc.devRef .tc main_v140) = (addf : (⟨S50000x128, .f32⟩ : BufTy).Contents (Elt F) → (⟨S50000x128, .f32⟩ : BufTy).Contents (Elt F) → (⟨S50000x128, .f32⟩ : BufTy).Contents (Elt F)) (after ops V (Proc.devRef .tc main_v137)) (after ops V (Proc.devRef .tc main_v139)) :=
  after_binary ops_writes V 210 main_v137 main_v139 main_v140 (addf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v141 :
    after ops V (Proc.devRef .tc main_v141) = ((extractStridedSlice S1x128 ![2, 0] · slices_S3x128_S1x128_2_0) : (⟨S3x128, .f32⟩ : BufTy).Contents (Elt F) → (⟨S1x128, .f32⟩ : BufTy).Contents (Elt F)) (after ops V (Proc.devRef .tc main_arg4)) :=
  after_unary ops_writes V 211 main_arg4 main_v141 ((extractStridedSlice S1x128 ![2, 0] · slices_S3x128_S1x128_2_0) : (⟨S3x128, .f32⟩ : BufTy).Contents (Elt F) → (⟨S1x128, .f32⟩ : BufTy).Contents (Elt F)) ⟨by decide, rfl⟩ ⟨by decide, rfl⟩ rfl (by decide) (by decide)

theorem step_main_v142 :
    after ops V (Proc.devRef .tc main_v142) = shapeCast S128 (after ops V (Proc.devRef .tc main_v141)) shapeCasts_S1x128_S128 :=
  after_reshape ops_writes V 212 main_v141 main_v142 rfl shapeCasts_S1x128_S128 ⟨by decide, rfl⟩ ⟨by decide, rfl⟩ rfl (by decide) (by decide)

theorem step_main_v143 :
    after ops V (Proc.devRef .tc main_v143) = (broadcastInDim S1x128 ![1] bcast_S128_S1x128_1 : (⟨S128, .f32⟩ : BufTy).Contents (Elt F) → (⟨S1x128, .f32⟩ : BufTy).Contents (Elt F)) (after ops V (Proc.devRef .tc main_v142)) :=
  after_unary ops_writes V 213 main_v142 main_v143 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v144 :
    after ops V (Proc.devRef .tc main_v144) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v143)) :=
  after_unary ops_writes V 214 main_v143 main_v144 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v145 :
    after ops V (Proc.devRef .tc main_v145) = (addf : (⟨S50000x128, .f32⟩ : BufTy).Contents (Elt F) → (⟨S50000x128, .f32⟩ : BufTy).Contents (Elt F) → (⟨S50000x128, .f32⟩ : BufTy).Contents (Elt F)) (after ops V (Proc.devRef .tc main_v140)) (after ops V (Proc.devRef .tc main_v144)) :=
  after_binary ops_writes V 215 main_v140 main_v144 main_v145 (addf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_cst_22 :
    after ops V (Proc.devRef .tc main_cst_22) = (constant S_ .f32 0x00000000#32) :=
  after_nullary ops_writes V 216 main_cst_22 (constant S_ .f32 0x00000000#32) ⟨by decide, rfl⟩ rfl (by decide)

theorem step_main_v146 :
    after ops V (Proc.devRef .tc main_v146) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (Proc.devRef .tc main_v145)) (after ops V (Proc.devRef .tc main_cst_22)) :=
  after_binary ops_writes V 217 main_v145 main_cst_22 main_v146 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_cst_23 :
    after ops V (Proc.devRef .tc main_cst_23) = (constant S_ .f32 0x47435000#32) :=
  after_nullary ops_writes V 218 main_cst_23 (constant S_ .f32 0x47435000#32) ⟨by decide, rfl⟩ rfl (by decide)

theorem step_main_v147 :
    after ops V (Proc.devRef .tc main_v147) = (broadcastInDim S128 ![] bcast_S_S128 : (⟨S_, .f32⟩ : BufTy).Contents (Elt F) → (⟨S128, .f32⟩ : BufTy).Contents (Elt F)) (after ops V (Proc.devRef .tc main_cst_23)) :=
  after_unary ops_writes V 219 main_cst_23 main_v147 (broadcastInDim S128 ![] bcast_S_S128 : (⟨S_, .f32⟩ : BufTy).Contents (Elt F) → (⟨S128, .f32⟩ : BufTy).Contents (Elt F)) ⟨by decide, rfl⟩ ⟨by decide, rfl⟩ rfl (by decide) (by decide)

theorem step_main_v148 :
    after ops V (Proc.devRef .tc main_v148) = (Host.divf : (⟨S128, .f32⟩ : BufTy).Contents (Elt F) → (⟨S128, .f32⟩ : BufTy).Contents (Elt F) → (⟨S128, .f32⟩ : BufTy).Contents (Elt F)) (after ops V (Proc.devRef .tc main_v146)) (after ops V (Proc.devRef .tc main_v147)) :=
  after_binary ops_writes V 220 main_v146 main_v147 main_v148 (Host.divf : (⟨S128, .f32⟩ : BufTy).Contents (Elt F) → (⟨S128, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_c_24 :
    after ops V (Proc.devRef .tc main_c_24) = (constantI S_ 32 0#32) :=
  after_nullary ops_writes V 221 main_c_24 (constantI S_ 32 0#32) ⟨by decide, rfl⟩ rfl (by decide)

theorem step_main_call4_cst :
    after ops V (Proc.devRef .tc main_call4_cst) = ((constant S_ .f32 0x00000000#32) : (⟨S_, .f32⟩ : BufTy).Contents (Elt F)) :=
  after_nullary ops_writes V 222 main_call4_cst ((constant S_ .f32 0x00000000#32) : (⟨S_, .f32⟩ : BufTy).Contents (Elt F)) ⟨by decide, rfl⟩ rfl (by decide)

theorem step_main_call4_v0 :
    after ops V (Proc.devRef .tc main_call4_v0) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (Proc.devRef .tc main_v145)) (after ops V (Proc.devRef .tc main_call4_cst)) :=
  after_binary ops_writes V 223 main_v145 main_call4_cst main_call4_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_call4_v1 :
    after ops V (Proc.devRef .tc main_call4_v1) = ((broadcastInDim S1x128 ![1] bcast_S128_S1x128_1) : (⟨S128, .f32⟩ : BufTy).Contents (Elt F) → (⟨S1x128, .f32⟩ : BufTy).Contents (Elt F)) (after ops V (Proc.devRef .tc main_call4_v0)) :=
  after_unary ops_writes V 224 main_call4_v0 main_call4_v1 ((broadcastInDim S1x128 ![1] bcast_S128_S1x128_1) : (⟨S128, .f32⟩ : BufTy).Contents (Elt F) → (⟨S1x128, .f32⟩ : BufTy).Contents (Elt F)) ⟨by decide, rfl⟩ ⟨by decide, rfl⟩ rfl (by decide) (by decide)

theorem step_main_call4_cst_0 :
    after ops V (Proc.devRef .tc main_call4_cst_0) = ((constant S_ .f32 0x47435000#32) : (⟨S_, .f32⟩ : BufTy).Contents (Elt F)) :=
  after_nullary ops_writes V 225 main_call4_cst_0 ((constant S_ .f32 0x47435000#32) : (⟨S_, .f32⟩ : BufTy).Contents (Elt F)) ⟨by decide, rfl⟩ rfl (by decide)

theorem step_main_call4_v2 :
    after ops V (Proc.devRef .tc main_call4_v2) = ((broadcastInDim S1x128 ![] bcast_S_S1x128) : (⟨S_, .f32⟩ : BufTy).Contents (Elt F) → (⟨S1x128, .f32⟩ : BufTy).Contents (Elt F)) (after ops V (Proc.devRef .tc main_call4_cst_0)) :=
  after_unary ops_writes V 226 main_call4_cst_0 main_call4_v2 ((broadcastInDim S1x128 ![] bcast_S_S1x128) : (⟨S_, .f32⟩ : BufTy).Contents (Elt F) → (⟨S1x128, .f32⟩ : BufTy).Contents (Elt F)) ⟨by decide, rfl⟩ ⟨by decide, rfl⟩ rfl (by decide) (by decide)

theorem step_main_call4_v3 :
    after ops V (Proc.devRef .tc main_call4_v3) = (Host.divf : (⟨S1x128, .f32⟩ : BufTy).Contents (Elt F) → (⟨S1x128, .f32⟩ : BufTy).Contents (Elt F) → (⟨S1x128, .f32⟩ : BufTy).Contents (Elt F)) (after ops V (Proc.devRef .tc main_call4_v1)) (after ops V (Proc.devRef .tc main_call4_v2)) :=
  after_binary ops_writes V 227 main_call4_v1 main_call4_v2 main_call4_v3 (Host.divf : (⟨S1x128, .f32⟩ : BufTy).Contents (Elt F) → (⟨S1x128, .f32⟩ : BufTy).Contents (Elt F) → (⟨S1x128, .f32⟩ : BufTy).Contents (Elt F)) ⟨by decide, rfl⟩ ⟨by decide, rfl⟩ ⟨by decide, rfl⟩ rfl (by decide) (by decide) (by decide)

theorem step_main_call4_v4 :
    after ops V (Proc.devRef .tc main_call4_v4) = ((broadcastInDim S50000x128 ![0, 1] bcast_S1x128_S50000x128_0_1) : (⟨S1x128, .f32⟩ : BufTy).Contents (Elt F) → (⟨S50000x128, .f32⟩ : BufTy).Contents (Elt F)) (after ops V (Proc.devRef .tc main_call4_v3)) :=
  after_unary ops_writes V 228 main_call4_v3 main_call4_v4 ((broadcastInDim S50000x128 ![0, 1] bcast_S1x128_S50000x128_0_1) : (⟨S1x128, .f32⟩ : BufTy).Contents (Elt F) → (⟨S50000x128, .f32⟩ : BufTy).Contents (Elt F)) ⟨by decide, rfl⟩ ⟨by decide, rfl⟩ rfl (by decide) (by decide)

theorem step_main_call4_v5 :
    after ops V (Proc.devRef .tc main_call4_v5) = (subf : (⟨S50000x128, .f32⟩ : BufTy).Contents (Elt F) → (⟨S50000x128, .f32⟩ : BufTy).Contents (Elt F) → (⟨S50000x128, .f32⟩ : BufTy).Contents (Elt F)) (after ops V (Proc.devRef .tc main_v145)) (after ops V (Proc.devRef .tc main_call4_v4)) :=
  after_binary ops_writes V 229 main_v145 main_call4_v4 main_call4_v5 (subf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_call4_v6 :
    after ops V (Proc.devRef .tc main_call4_v6) = (mulf : (⟨S50000x128, .f32⟩ : BufTy).Contents (Elt F) → (⟨S50000x128, .f32⟩ : BufTy).Contents (Elt F) → (⟨S50000x128, .f32⟩ : BufTy).Contents (Elt F)) (after ops V (Proc.devRef .tc main_call4_v5)) (after ops V (Proc.devRef .tc main_call4_v5)) :=
  after_binary ops_writes V 230 main_call4_v5 main_call4_v5 main_call4_v6 (mulf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_call4_v7 :
    after ops V (Proc.devRef .tc main_call4_v7) = ((sitofp .f32) : (⟨S_, .i32⟩ : BufTy).Contents (Elt F) → (⟨S_, .f32⟩ : BufTy).Contents (Elt F)) (after ops V (Proc.devRef .tc main_c_24)) :=
  after_unary ops_writes V 231 main_c_24 main_call4_v7 ((sitofp .f32) : (⟨S_, .i32⟩ : BufTy).Contents (Elt F) → (⟨S_, .f32⟩ : BufTy).Contents (Elt F)) ⟨by decide, rfl⟩ ⟨by decide, rfl⟩ rfl (by decide) (by decide)

theorem step_main_call4_cst_1 :
    after ops V (Proc.devRef .tc main_call4_cst_1) = ((constant S_ .f32 0x47435000#32) : (⟨S_, .f32⟩ : BufTy).Contents (Elt F)) :=
  after_nullary ops_writes V 232 main_call4_cst_1 ((constant S_ .f32 0x47435000#32) : (⟨S_, .f32⟩ : BufTy).Contents (Elt F)) ⟨by decide, rfl⟩ rfl (by decide)

theorem step_main_call4_v8 :
    after ops V (Proc.devRef .tc main_call4_v8) = (subf : (⟨S_, .f32⟩ : BufTy).Contents (Elt F) → (⟨S_, .f32⟩ : BufTy).Contents (Elt F) → (⟨S_, .f32⟩ : BufTy).Contents (Elt F)) (after ops V (Proc.devRef .tc main_call4_cst_1)) (after ops V (Proc.devRef .tc main_call4_v7)) :=
  after_binary ops_writes V 233 main_call4_cst_1 main_call4_v7 main_call4_v8 (subf : (⟨S_, .f32⟩ : BufTy).Contents (Elt F) → (⟨S_, .f32⟩ : BufTy).Contents (Elt F) → (⟨S_, .f32⟩ : BufTy).Contents (Elt F)) ⟨by decide, rfl⟩ ⟨by decide, rfl⟩ ⟨by decide, rfl⟩ rfl (by decide) (by decide) (by decide)

theorem step_main_call4_cst_2 :
    after ops V (Proc.devRef .tc main_call4_cst_2) = ((constant S_ .f32 0x00000000#32) : (⟨S_, .f32⟩ : BufTy).Contents (Elt F)) :=
  after_nullary ops_writes V 234 main_call4_cst_2 ((constant S_ .f32 0x00000000#32) : (⟨S_, .f32⟩ : BufTy).Contents (Elt F)) ⟨by decide, rfl⟩ rfl (by decide)

theorem step_main_call4_v9 :
    after ops V (Proc.devRef .tc main_call4_v9) = ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) (after ops V (Proc.devRef .tc main_call4_v6)) (after ops V (Proc.devRef .tc main_call4_cst_2)) :=
  after_binary ops_writes V 235 main_call4_v6 main_call4_cst_2 main_call4_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_call4_v10 :
    after ops V (Proc.devRef .tc main_call4_v10) = ((broadcastInDim S128 ![] bcast_S_S128) : (⟨S_, .f32⟩ : BufTy).Contents (Elt F) → (⟨S128, .f32⟩ : BufTy).Contents (Elt F)) (after ops V (Proc.devRef .tc main_call4_v8)) :=
  after_unary ops_writes V 236 main_call4_v8 main_call4_v10 ((broadcastInDim S128 ![] bcast_S_S128) : (⟨S_, .f32⟩ : BufTy).Contents (Elt F) → (⟨S128, .f32⟩ : BufTy).Contents (Elt F)) ⟨by decide, rfl⟩ ⟨by decide, rfl⟩ rfl (by decide) (by decide)

theorem step_main_call4_v11 :
    after ops V (Proc.devRef .tc main_call4_v11) = (Host.divf : (⟨S128, .f32⟩ : BufTy).Contents (Elt F) → (⟨S128, .f32⟩ : BufTy).Contents (Elt F) → (⟨S128, .f32⟩ : BufTy).Contents (Elt F)) (after ops V (Proc.devRef .tc main_call4_v9)) (after ops V (Proc.devRef .tc main_call4_v10)) :=
  after_binary ops_writes V 237 main_call4_v9 main_call4_v10 main_call4_v11 (Host.divf : (⟨S128, .f32⟩ : BufTy).Contents (Elt F) → (⟨S128, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_call4_cst_3 :
    after ops V (Proc.devRef .tc main_call4_cst_3) = ((constant S_ .f32 0x00000000#32) : (⟨S_, .f32⟩ : BufTy).Contents (Elt F)) :=
  after_nullary ops_writes V 238 main_call4_cst_3 ((constant S_ .f32 0x00000000#32) : (⟨S_, .f32⟩ : BufTy).Contents (Elt F)) ⟨by decide, rfl⟩ rfl (by decide)

theorem step_main_call4_v12 :
    after ops V (Proc.devRef .tc main_call4_v12) = ((cmpf .ogt) : (⟨S_, .f32⟩ : BufTy).Contents (Elt F) → (⟨S_, .f32⟩ : BufTy).Contents (Elt F) → (⟨S_, .i1⟩ : BufTy).Contents (Elt F)) (after ops V (Proc.devRef .tc main_call4_v8)) (after ops V (Proc.devRef .tc main_call4_cst_3)) :=
  after_binary ops_writes V 239 main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)) ⟨by decide, rfl⟩ ⟨by decide, rfl⟩ ⟨by decide, rfl⟩ rfl (by decide) (by decide) (by decide)

theorem step_main_call4_cst_4 :
    after ops V (Proc.devRef .tc main_call4_cst_4) = ((constant S_ .f32 0x7FC00000#32) : (⟨S_, .f32⟩ : BufTy).Contents (Elt F)) :=
  after_nullary ops_writes V 240 main_call4_cst_4 ((constant S_ .f32 0x7FC00000#32) : (⟨S_, .f32⟩ : BufTy).Contents (Elt F)) ⟨by decide, rfl⟩ rfl (by decide)

theorem step_main_call4_call0_v0 :
    after ops V (Proc.devRef .tc main_call4_call0_v0) = (id : (⟨S_, .f32⟩ : BufTy).Contents (Elt F) → (⟨S_, .f32⟩ : BufTy).Contents (Elt F)) (after ops V (Proc.devRef .tc main_call4_cst_4)) :=
  after_unary ops_writes V 241 main_call4_cst_4 main_call4_call0_v0 (id : (⟨S_, .f32⟩ : BufTy).Contents (Elt F) → (⟨S_, .f32⟩ : BufTy).Contents (Elt F)) ⟨by decide, rfl⟩ ⟨by decide, rfl⟩ rfl (by decide) (by decide)

theorem step_main_call4_call0_v1 :
    after ops V (Proc.devRef .tc main_call4_call0_v1) = ((broadcastInDim S128 ![] bcast_S_S128) : (⟨S_, .f32⟩ : BufTy).Contents (Elt F) → (⟨S128, .f32⟩ : BufTy).Contents (Elt F)) (after ops V (Proc.devRef .tc main_call4_call0_v0)) :=
  after_unary ops_writes V 242 main_call4_call0_v0 main_call4_call0_v1 ((broadcastInDim S128 ![] bcast_S_S128) : (⟨S_, .f32⟩ : BufTy).Contents (Elt F) → (⟨S128, .f32⟩ : BufTy).Contents (Elt F)) ⟨by decide, rfl⟩ ⟨by decide, rfl⟩ rfl (by decide) (by decide)

theorem step_main_v149 :
    after ops V (Proc.devRef .tc main_v149) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (after ops V (Proc.devRef .tc main_call4_v12)) (after ops V (Proc.devRef .tc main_call4_v11)) (after ops V (Proc.devRef .tc main_call4_call0_v1)) :=
  after_ternary ops_writes V 243 main_call4_v12 main_call4_v11 main_call4_call0_v1 main_v149 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ⟨by decide, rfl⟩ ⟨by decide, rfl⟩ ⟨by decide, rfl⟩ ⟨by decide, rfl⟩ rfl (by decide) (by decide) (by decide) (by decide)

theorem step_main_v150 :
    after ops V (Proc.devRef .tc main_v150) = (broadcastInDim S1x128 ![1] bcast_S128_S1x128_1 : (⟨S128, .f32⟩ : BufTy).Contents (Elt F) → (⟨S1x128, .f32⟩ : BufTy).Contents (Elt F)) (after ops V (Proc.devRef .tc main_v148)) :=
  after_unary ops_writes V 244 main_v148 main_v150 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v151 :
    after ops V (Proc.devRef .tc main_v151) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v150)) :=
  after_unary ops_writes V 245 main_v150 main_v151 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v152 :
    after ops V (Proc.devRef .tc main_v152) = (subf : (⟨S50000x128, .f32⟩ : BufTy).Contents (Elt F) → (⟨S50000x128, .f32⟩ : BufTy).Contents (Elt F) → (⟨S50000x128, .f32⟩ : BufTy).Contents (Elt F)) (after ops V (Proc.devRef .tc main_v145)) (after ops V (Proc.devRef .tc main_v151)) :=
  after_binary ops_writes V 246 main_v145 main_v151 main_v152 (subf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_cst_25 :
    after ops V (Proc.devRef .tc main_cst_25) = (constant S_ .f32 0x3727C5AC#32) :=
  after_nullary ops_writes V 247 main_cst_25 (constant S_ .f32 0x3727C5AC#32) ⟨by decide, rfl⟩ rfl (by decide)

theorem step_main_v153 :
    after ops V (Proc.devRef .tc main_v153) = (broadcastInDim S128 ![] bcast_S_S128 : (⟨S_, .f32⟩ : BufTy).Contents (Elt F) → (⟨S128, .f32⟩ : BufTy).Contents (Elt F)) (after ops V (Proc.devRef .tc main_cst_25)) :=
  after_unary ops_writes V 248 main_cst_25 main_v153 (broadcastInDim S128 ![] bcast_S_S128 : (⟨S_, .f32⟩ : BufTy).Contents (Elt F) → (⟨S128, .f32⟩ : BufTy).Contents (Elt F)) ⟨by decide, rfl⟩ ⟨by decide, rfl⟩ rfl (by decide) (by decide)

theorem step_main_v154 :
    after ops V (Proc.devRef .tc main_v154) = (addf : (⟨S128, .f32⟩ : BufTy).Contents (Elt F) → (⟨S128, .f32⟩ : BufTy).Contents (Elt F) → (⟨S128, .f32⟩ : BufTy).Contents (Elt F)) (after ops V (Proc.devRef .tc main_v149)) (after ops V (Proc.devRef .tc main_v153)) :=
  after_binary ops_writes V 249 main_v149 main_v153 main_v154 (addf : (⟨S128, .f32⟩ : BufTy).Contents (Elt F) → (⟨S128, .f32⟩ : BufTy).Contents (Elt F) → (⟨S128, .f32⟩ : BufTy).Contents (Elt F)) ⟨by decide, rfl⟩ ⟨by decide, rfl⟩ ⟨by decide, rfl⟩ rfl (by decide) (by decide) (by decide)

theorem step_main_v155 :
    after ops V (Proc.devRef .tc main_v155) = (Host.rsqrt : (⟨S128, .f32⟩ : BufTy).Contents (Elt F) → (⟨S128, .f32⟩ : BufTy).Contents (Elt F)) (after ops V (Proc.devRef .tc main_v154)) :=
  after_unary ops_writes V 250 main_v154 main_v155 (Host.rsqrt : (⟨S128, .f32⟩ : BufTy).Contents (Elt F) → (⟨S128, .f32⟩ : BufTy).Contents (Elt F)) ⟨by decide, rfl⟩ ⟨by decide, rfl⟩ rfl (by decide) (by decide)

theorem step_main_v156 :
    after ops V (Proc.devRef .tc main_v156) = (broadcastInDim S1x128 ![1] bcast_S128_S1x128_1 : (⟨S128, .f32⟩ : BufTy).Contents (Elt F) → (⟨S1x128, .f32⟩ : BufTy).Contents (Elt F)) (after ops V (Proc.devRef .tc main_v155)) :=
  after_unary ops_writes V 251 main_v155 main_v156 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v157 :
    after ops V (Proc.devRef .tc main_v157) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v156)) :=
  after_unary ops_writes V 252 main_v156 main_v157 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v158 :
    after ops V (Proc.devRef .tc main_v158) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v152)) (after ops V (Proc.devRef .tc main_v157)) :=
  after_binary ops_writes V 253 main_v152 main_v157 main_v158 (mulf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v159 :
    after ops V (Proc.devRef .tc main_v159) = ((extractStridedSlice S1x128 ![2, 0] · slices_S3x128_S1x128_2_0) : (⟨S3x128, .f32⟩ : BufTy).Contents (Elt F) → (⟨S1x128, .f32⟩ : BufTy).Contents (Elt F)) (after ops V (Proc.devRef .tc main_arg5)) :=
  after_unary ops_writes V 254 main_arg5 main_v159 ((extractStridedSlice S1x128 ![2, 0] · slices_S3x128_S1x128_2_0) : (⟨S3x128, .f32⟩ : BufTy).Contents (Elt F) → (⟨S1x128, .f32⟩ : BufTy).Contents (Elt F)) ⟨by decide, rfl⟩ ⟨by decide, rfl⟩ rfl (by decide) (by decide)

theorem step_main_v160 :
    after ops V (Proc.devRef .tc main_v160) = shapeCast S128 (after ops V (Proc.devRef .tc main_v159)) shapeCasts_S1x128_S128 :=
  after_reshape ops_writes V 255 main_v159 main_v160 rfl shapeCasts_S1x128_S128 ⟨by decide, rfl⟩ ⟨by decide, rfl⟩ rfl (by decide) (by decide)

theorem step_main_v161 :
    after ops V (Proc.devRef .tc main_v161) = (broadcastInDim S1x128 ![1] bcast_S128_S1x128_1 : (⟨S128, .f32⟩ : BufTy).Contents (Elt F) → (⟨S1x128, .f32⟩ : BufTy).Contents (Elt F)) (after ops V (Proc.devRef .tc main_v160)) :=
  after_unary ops_writes V 256 main_v160 main_v161 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v162 :
    after ops V (Proc.devRef .tc main_v162) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v161)) :=
  after_unary ops_writes V 257 main_v161 main_v162 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v163 :
    after ops V (Proc.devRef .tc main_v163) = (mulf : (⟨S50000x128, .f32⟩ : BufTy).Contents (Elt F) → (⟨S50000x128, .f32⟩ : BufTy).Contents (Elt F) → (⟨S50000x128, .f32⟩ : BufTy).Contents (Elt F)) (after ops V (Proc.devRef .tc main_v158)) (after ops V (Proc.devRef .tc main_v162)) :=
  after_binary ops_writes V 258 main_v158 main_v162 main_v163 (mulf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_v164 :
    after ops V (Proc.devRef .tc main_v164) = ((extractStridedSlice S1x128 ![2, 0] · slices_S3x128_S1x128_2_0) : (⟨S3x128, .f32⟩ : BufTy).Contents (Elt F) → (⟨S1x128, .f32⟩ : BufTy).Contents (Elt F)) (after ops V (Proc.devRef .tc main_arg6)) :=
  after_unary ops_writes V 259 main_arg6 main_v164 ((extractStridedSlice S1x128 ![2, 0] · slices_S3x128_S1x128_2_0) : (⟨S3x128, .f32⟩ : BufTy).Contents (Elt F) → (⟨S1x128, .f32⟩ : BufTy).Contents (Elt F)) ⟨by decide, rfl⟩ ⟨by decide, rfl⟩ rfl (by decide) (by decide)

theorem step_main_v165 :
    after ops V (Proc.devRef .tc main_v165) = shapeCast S128 (after ops V (Proc.devRef .tc main_v164)) shapeCasts_S1x128_S128 :=
  after_reshape ops_writes V 260 main_v164 main_v165 rfl shapeCasts_S1x128_S128 ⟨by decide, rfl⟩ ⟨by decide, rfl⟩ rfl (by decide) (by decide)

theorem step_main_v166 :
    after ops V (Proc.devRef .tc main_v166) = (broadcastInDim S1x128 ![1] bcast_S128_S1x128_1 : (⟨S128, .f32⟩ : BufTy).Contents (Elt F) → (⟨S1x128, .f32⟩ : BufTy).Contents (Elt F)) (after ops V (Proc.devRef .tc main_v165)) :=
  after_unary ops_writes V 261 main_v165 main_v166 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v167 :
    after ops V (Proc.devRef .tc main_v167) = (broadcastInDim S50000x128 ![0, 1] bcast_S1x128_S50000x128_0_1 : (⟨S1x128, .f32⟩ : BufTy).Contents (Elt F) → (⟨S50000x128, .f32⟩ : BufTy).Contents (Elt F)) (after ops V (Proc.devRef .tc main_v166)) :=
  after_unary ops_writes V 262 main_v166 main_v167 (broadcastInDim S50000x128 ![0, 1] bcast_S1x128_S50000x128_0_1 : (⟨S1x128, .f32⟩ : BufTy).Contents (Elt F) → (⟨S50000x128, .f32⟩ : BufTy).Contents (Elt F)) ⟨by decide, rfl⟩ ⟨by decide, rfl⟩ rfl (by decide) (by decide)

theorem step_main_v168 :
    after ops V (Proc.devRef .tc main_v168) = (addf : (⟨S50000x128, .f32⟩ : BufTy).Contents (Elt F) → (⟨S50000x128, .f32⟩ : BufTy).Contents (Elt F) → (⟨S50000x128, .f32⟩ : BufTy).Contents (Elt F)) (after ops V (Proc.devRef .tc main_v163)) (after ops V (Proc.devRef .tc main_v167)) :=
  after_binary ops_writes V 263 main_v163 main_v167 main_v168 (addf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_call5_cst :
    after ops V (Proc.devRef .tc main_call5_cst) = ((constant S_ .f32 0x00000000#32) : (⟨S_, .f32⟩ : BufTy).Contents (Elt F)) :=
  after_nullary ops_writes V 264 main_call5_cst ((constant S_ .f32 0x00000000#32) : (⟨S_, .f32⟩ : BufTy).Contents (Elt F)) ⟨by decide, rfl⟩ rfl (by decide)

theorem step_main_call5_v0 :
    after ops V (Proc.devRef .tc main_call5_v0) = ((broadcastInDim S50000x128 ![] bcast_S_S50000x128) : (⟨S_, .f32⟩ : BufTy).Contents (Elt F) → (⟨S50000x128, .f32⟩ : BufTy).Contents (Elt F)) (after ops V (Proc.devRef .tc main_call5_cst)) :=
  after_unary ops_writes V 265 main_call5_cst main_call5_v0 ((broadcastInDim S50000x128 ![] bcast_S_S50000x128) : (⟨S_, .f32⟩ : BufTy).Contents (Elt F) → (⟨S50000x128, .f32⟩ : BufTy).Contents (Elt F)) ⟨by decide, rfl⟩ ⟨by decide, rfl⟩ rfl (by decide) (by decide)

theorem step_main_v169 :
    after ops V (Proc.devRef .tc main_v169) = (maximumf : (⟨S50000x128, .f32⟩ : BufTy).Contents (Elt F) → (⟨S50000x128, .f32⟩ : BufTy).Contents (Elt F) → (⟨S50000x128, .f32⟩ : BufTy).Contents (Elt F)) (after ops V (Proc.devRef .tc main_v168)) (after ops V (Proc.devRef .tc main_call5_v0)) :=
  after_binary ops_writes V 266 main_v168 main_call5_v0 main_v169 (maximumf : (⟨S50000x128, .f32⟩ : BufTy).Contents (Elt F) → (⟨S50000x128, .f32⟩ : BufTy).Contents (Elt F) → (⟨S50000x128, .f32⟩ : BufTy).Contents (Elt F)) ⟨by decide, rfl⟩ ⟨by decide, rfl⟩ ⟨by decide, rfl⟩ rfl (by decide) (by decide) (by decide)

theorem step_main_cst_26 :
    after ops V (Proc.devRef .tc main_cst_26) = (constant S_ .f32 0x00000000#32) :=
  after_nullary ops_writes V 267 main_cst_26 (constant S_ .f32 0x00000000#32) ⟨by decide, rfl⟩ rfl (by decide)

theorem step_main_v170 :
    after ops V (Proc.devRef .tc main_v170) = (broadcastInDim S1000x128 ![] bcast_S_S1000x128 : (⟨S_, .f32⟩ : BufTy).Contents (Elt F) → (⟨S1000x128, .f32⟩ : BufTy).Contents (Elt F)) (after ops V (Proc.devRef .tc main_cst_26)) :=
  after_unary ops_writes V 268 main_cst_26 main_v170 (broadcastInDim S1000x128 ![] bcast_S_S1000x128 : (⟨S_, .f32⟩ : BufTy).Contents (Elt F) → (⟨S1000x128, .f32⟩ : BufTy).Contents (Elt F)) ⟨by decide, rfl⟩ ⟨by decide, rfl⟩ rfl (by decide) (by decide)

theorem step_main_v171 :
    after ops V (Proc.devRef .tc main_v171) = (broadcastInDim S50000x1 ![0] bcast_S50000_S50000x1_0 : (⟨S50000, .i32⟩ : BufTy).Contents (Elt F) → (⟨S50000x1, .i32⟩ : BufTy).Contents (Elt F)) (after ops V (Proc.devRef .tc main_arg2)) :=
  after_unary ops_writes V 269 main_arg2 main_v171 (broadcastInDim S50000x1 ![0] bcast_S50000_S50000x1_0 : (⟨S50000, .i32⟩ : BufTy).Contents (Elt F) → (⟨S50000x1, .i32⟩ : BufTy).Contents (Elt F)) ⟨by decide, rfl⟩ ⟨by decide, rfl⟩ rfl (by decide) (by decide)

theorem step_main_v172 :
    after ops V (Proc.devRef .tc main_v172) = ((fun x i u => Host.scatterAdd scatter_S1000x128_S50000x1_S50000x128_1_0_0_1 x i u) : (⟨S1000x128, .f32⟩ : BufTy).Contents (Elt F) → (⟨S50000x1, .i32⟩ : BufTy).Contents (Elt F) → (⟨S50000x128, .f32⟩ : BufTy).Contents (Elt F) → (⟨S1000x128, .f32⟩ : BufTy).Contents (Elt F)) (after ops V (Proc.devRef .tc main_v170)) (after ops V (Proc.devRef .tc main_v171)) (after ops V (Proc.devRef .tc main_v169)) :=
  after_ternary ops_writes V 270 main_v170 main_v171 main_v169 main_v172 ((fun x i u => Host.scatterAdd scatter_S1000x128_S50000x1_S50000x128_1_0_0_1 x i u) : (⟨S1000x128, .f32⟩ : BufTy).Contents (Elt F) → (⟨S50000x1, .i32⟩ : BufTy).Contents (Elt F) → (⟨S50000x128, .f32⟩ : BufTy).Contents (Elt F) → (⟨S1000x128, .f32⟩ : BufTy).Contents (Elt F)) ⟨by decide, rfl⟩ ⟨by decide, rfl⟩ ⟨by decide, rfl⟩ ⟨by decide, rfl⟩ rfl (by decide) (by decide) (by decide) (by decide)

theorem step_main_cst_27 :
    after ops V (Proc.devRef .tc main_cst_27) = (constant S_ .f32 0x3F800000#32) :=
  after_nullary ops_writes V 271 main_cst_27 (constant S_ .f32 0x3F800000#32) ⟨by decide, rfl⟩ rfl (by decide)

theorem step_main_v173 :
    after ops V (Proc.devRef .tc main_v173) = (broadcastInDim S50000 ![] bcast_S_S50000 : (⟨S_, .f32⟩ : BufTy).Contents (Elt F) → (⟨S50000, .f32⟩ : BufTy).Contents (Elt F)) (after ops V (Proc.devRef .tc main_cst_27)) :=
  after_unary ops_writes V 272 main_cst_27 main_v173 (broadcastInDim S50000 ![] bcast_S_S50000 : (⟨S_, .f32⟩ : BufTy).Contents (Elt F) → (⟨S50000, .f32⟩ : BufTy).Contents (Elt F)) ⟨by decide, rfl⟩ ⟨by decide, rfl⟩ rfl (by decide) (by decide)

theorem step_main_cst_28 :
    after ops V (Proc.devRef .tc main_cst_28) = (constant S_ .f32 0x00000000#32) :=
  after_nullary ops_writes V 273 main_cst_28 (constant S_ .f32 0x00000000#32) ⟨by decide, rfl⟩ rfl (by decide)

theorem step_main_v174 :
    after ops V (Proc.devRef .tc main_v174) = (broadcastInDim S1000 ![] bcast_S_S1000 : (⟨S_, .f32⟩ : BufTy).Contents (Elt F) → (⟨S1000, .f32⟩ : BufTy).Contents (Elt F)) (after ops V (Proc.devRef .tc main_cst_28)) :=
  after_unary ops_writes V 274 main_cst_28 main_v174 (broadcastInDim S1000 ![] bcast_S_S1000 : (⟨S_, .f32⟩ : BufTy).Contents (Elt F) → (⟨S1000, .f32⟩ : BufTy).Contents (Elt F)) ⟨by decide, rfl⟩ ⟨by decide, rfl⟩ rfl (by decide) (by decide)

theorem step_main_v175 :
    after ops V (Proc.devRef .tc main_v175) = (broadcastInDim S50000x1 ![0] bcast_S50000_S50000x1_0 : (⟨S50000, .i32⟩ : BufTy).Contents (Elt F) → (⟨S50000x1, .i32⟩ : BufTy).Contents (Elt F)) (after ops V (Proc.devRef .tc main_arg2)) :=
  after_unary ops_writes V 275 main_arg2 main_v175 (broadcastInDim S50000x1 ![0] bcast_S50000_S50000x1_0 : (⟨S50000, .i32⟩ : BufTy).Contents (Elt F) → (⟨S50000x1, .i32⟩ : BufTy).Contents (Elt F)) ⟨by decide, rfl⟩ ⟨by decide, rfl⟩ rfl (by decide) (by decide)

theorem step_main_v176 :
    after ops V (Proc.devRef .tc main_v176) = ((fun x i u => Host.scatterAdd scatter_S1000_S50000x1_S50000_n_0_0_1 x i u) : (⟨S1000, .f32⟩ : BufTy).Contents (Elt F) → (⟨S50000x1, .i32⟩ : BufTy).Contents (Elt F) → (⟨S50000, .f32⟩ : BufTy).Contents (Elt F) → (⟨S1000, .f32⟩ : BufTy).Contents (Elt F)) (after ops V (Proc.devRef .tc main_v174)) (after ops V (Proc.devRef .tc main_v175)) (after ops V (Proc.devRef .tc main_v173)) :=
  after_ternary ops_writes V 276 main_v174 main_v175 main_v173 main_v176 ((fun x i u => Host.scatterAdd scatter_S1000_S50000x1_S50000_n_0_0_1 x i u) : (⟨S1000, .f32⟩ : BufTy).Contents (Elt F) → (⟨S50000x1, .i32⟩ : BufTy).Contents (Elt F) → (⟨S50000, .f32⟩ : BufTy).Contents (Elt F) → (⟨S1000, .f32⟩ : BufTy).Contents (Elt F)) ⟨by decide, rfl⟩ ⟨by decide, rfl⟩ ⟨by decide, rfl⟩ ⟨by decide, rfl⟩ rfl (by decide) (by decide) (by decide) (by decide)

theorem step_main_cst_29 :
    after ops V (Proc.devRef .tc main_cst_29) = (constant S_ .f32 0x3F800000#32) :=
  after_nullary ops_writes V 277 main_cst_29 (constant S_ .f32 0x3F800000#32) ⟨by decide, rfl⟩ rfl (by decide)

theorem step_main_v177 :
    after ops V (Proc.devRef .tc main_v177) = (broadcastInDim S1000 ![] bcast_S_S1000 : (⟨S_, .f32⟩ : BufTy).Contents (Elt F) → (⟨S1000, .f32⟩ : BufTy).Contents (Elt F)) (after ops V (Proc.devRef .tc main_cst_29)) :=
  after_unary ops_writes V 278 main_cst_29 main_v177 (broadcastInDim S1000 ![] bcast_S_S1000 : (⟨S_, .f32⟩ : BufTy).Contents (Elt F) → (⟨S1000, .f32⟩ : BufTy).Contents (Elt F)) ⟨by decide, rfl⟩ ⟨by decide, rfl⟩ rfl (by decide) (by decide)

theorem step_main_v178 :
    after ops V (Proc.devRef .tc main_v178) = (maximumf : (⟨S1000, .f32⟩ : BufTy).Contents (Elt F) → (⟨S1000, .f32⟩ : BufTy).Contents (Elt F) → (⟨S1000, .f32⟩ : BufTy).Contents (Elt F)) (after ops V (Proc.devRef .tc main_v176)) (after ops V (Proc.devRef .tc main_v177)) :=
  after_binary ops_writes V 279 main_v176 main_v177 main_v178 (maximumf : (⟨S1000, .f32⟩ : BufTy).Contents (Elt F) → (⟨S1000, .f32⟩ : BufTy).Contents (Elt F) → (⟨S1000, .f32⟩ : BufTy).Contents (Elt F)) ⟨by decide, rfl⟩ ⟨by decide, rfl⟩ ⟨by decide, rfl⟩ rfl (by decide) (by decide) (by decide)

theorem step_main_v179 :
    after ops V (Proc.devRef .tc main_v179) = (broadcastInDim S1000x1 ![0] bcast_S1000_S1000x1_0 : (⟨S1000, .f32⟩ : BufTy).Contents (Elt F) → (⟨S1000x1, .f32⟩ : BufTy).Contents (Elt F)) (after ops V (Proc.devRef .tc main_v178)) :=
  after_unary ops_writes V 280 main_v178 main_v179 (broadcastInDim S1000x1 ![0] bcast_S1000_S1000x1_0 : (⟨S1000, .f32⟩ : BufTy).Contents (Elt F) → (⟨S1000x1, .f32⟩ : BufTy).Contents (Elt F)) ⟨by decide, rfl⟩ ⟨by decide, rfl⟩ rfl (by decide) (by decide)

theorem step_main_v180 :
    after ops V (Proc.devRef .tc main_v180) = (broadcastInDim S1000x128 ![0, 1] bcast_S1000x1_S1000x128_0_1 : (⟨S1000x1, .f32⟩ : BufTy).Contents (Elt F) → (⟨S1000x128, .f32⟩ : BufTy).Contents (Elt F)) (after ops V (Proc.devRef .tc main_v179)) :=
  after_unary ops_writes V 281 main_v179 main_v180 (broadcastInDim S1000x128 ![0, 1] bcast_S1000x1_S1000x128_0_1 : (⟨S1000x1, .f32⟩ : BufTy).Contents (Elt F) → (⟨S1000x128, .f32⟩ : BufTy).Contents (Elt F)) ⟨by decide, rfl⟩ ⟨by decide, rfl⟩ rfl (by decide) (by decide)

theorem step_main_v181 :
    after ops V (Proc.devRef .tc main_v181) = (Host.divf : (⟨S1000x128, .f32⟩ : BufTy).Contents (Elt F) → (⟨S1000x128, .f32⟩ : BufTy).Contents (Elt F) → (⟨S1000x128, .f32⟩ : BufTy).Contents (Elt F)) (after ops V (Proc.devRef .tc main_v172)) (after ops V (Proc.devRef .tc main_v180)) :=
  after_binary ops_writes V 282 main_v172 main_v180 main_v181 (Host.divf : (⟨S1000x128, .f32⟩ : BufTy).Contents (Elt F) → (⟨S1000x128, .f32⟩ : BufTy).Contents (Elt F) → (⟨S1000x128, .f32⟩ : BufTy).Contents (Elt F)) ⟨by decide, rfl⟩ ⟨by decide, rfl⟩ ⟨by decide, rfl⟩ rfl (by decide) (by decide) (by decide)

theorem step_main_v182 :
    after ops V (Proc.devRef .tc main_v182) = ((fun l r => Host.dotGeneral dot_S1000x128_S128x128_S1000x128_1_0_0_1_n_n none l r) : (⟨S1000x128, .f32⟩ : BufTy).Contents (Elt F) → (⟨S128x128, .f32⟩ : BufTy).Contents (Elt F) → (⟨S1000x128, .f32⟩ : BufTy).Contents (Elt F)) (after ops V (Proc.devRef .tc main_v181)) (after ops V (Proc.devRef .tc main_arg7)) :=
  after_binary ops_writes V 283 main_v181 main_arg7 main_v182 ((fun l r => Host.dotGeneral dot_S1000x128_S128x128_S1000x128_1_0_0_1_n_n none l r) : (⟨S1000x128, .f32⟩ : BufTy).Contents (Elt F) → (⟨S128x128, .f32⟩ : BufTy).Contents (Elt F) → (⟨S1000x128, .f32⟩ : BufTy).Contents (Elt F)) ⟨by decide, rfl⟩ ⟨by decide, rfl⟩ ⟨by decide, rfl⟩ rfl (by decide) (by decide) (by decide)

theorem step_main_v183 :
    after ops V (Proc.devRef .tc main_v183) = (broadcastInDim S1x128 ![1] bcast_S128_S1x128_1 : (⟨S128, .f32⟩ : BufTy).Contents (Elt F) → (⟨S1x128, .f32⟩ : BufTy).Contents (Elt F)) (after ops V (Proc.devRef .tc main_arg8)) :=
  after_unary ops_writes V 284 main_arg8 main_v183 (broadcastInDim S1x128 ![1] bcast_S128_S1x128_1 : (⟨S128, .f32⟩ : BufTy).Contents (Elt F) → (⟨S1x128, .f32⟩ : BufTy).Contents (Elt F)) ⟨by decide, rfl⟩ ⟨by decide, rfl⟩ rfl (by decide) (by decide)

theorem step_main_v184 :
    after ops V (Proc.devRef .tc main_v184) = (broadcastInDim S1000x128 ![0, 1] bcast_S1x128_S1000x128_0_1 : (⟨S1x128, .f32⟩ : BufTy).Contents (Elt F) → (⟨S1000x128, .f32⟩ : BufTy).Contents (Elt F)) (after ops V (Proc.devRef .tc main_v183)) :=
  after_unary ops_writes V 285 main_v183 main_v184 (broadcastInDim S1000x128 ![0, 1] bcast_S1x128_S1000x128_0_1 : (⟨S1x128, .f32⟩ : BufTy).Contents (Elt F) → (⟨S1000x128, .f32⟩ : BufTy).Contents (Elt F)) ⟨by decide, rfl⟩ ⟨by decide, rfl⟩ rfl (by decide) (by decide)

theorem step_main_v185 :
    after ops V (Proc.devRef .tc main_v185) = (addf : (⟨S1000x128, .f32⟩ : BufTy).Contents (Elt F) → (⟨S1000x128, .f32⟩ : BufTy).Contents (Elt F) → (⟨S1000x128, .f32⟩ : BufTy).Contents (Elt F)) (after ops V (Proc.devRef .tc main_v182)) (after ops V (Proc.devRef .tc main_v184)) :=
  after_binary ops_writes V 286 main_v182 main_v184 main_v185 (addf : (⟨S1000x128, .f32⟩ : BufTy).Contents (Elt F) → (⟨S1000x128, .f32⟩ : BufTy).Contents (Elt F) → (⟨S1000x128, .f32⟩ : BufTy).Contents (Elt F)) ⟨by decide, rfl⟩ ⟨by decide, rfl⟩ ⟨by decide, rfl⟩ rfl (by decide) (by decide) (by decide)

theorem step_main_call6_cst :
    after ops V (Proc.devRef .tc main_call6_cst) = ((constant S_ .f32 0x00000000#32) : (⟨S_, .f32⟩ : BufTy).Contents (Elt F)) :=
  after_nullary ops_writes V 287 main_call6_cst ((constant S_ .f32 0x00000000#32) : (⟨S_, .f32⟩ : BufTy).Contents (Elt F)) ⟨by decide, rfl⟩ rfl (by decide)

theorem step_main_call6_v0 :
    after ops V (Proc.devRef .tc main_call6_v0) = ((broadcastInDim S1000x128 ![] bcast_S_S1000x128) : (⟨S_, .f32⟩ : BufTy).Contents (Elt F) → (⟨S1000x128, .f32⟩ : BufTy).Contents (Elt F)) (after ops V (Proc.devRef .tc main_call6_cst)) :=
  after_unary ops_writes V 288 main_call6_cst main_call6_v0 ((broadcastInDim S1000x128 ![] bcast_S_S1000x128) : (⟨S_, .f32⟩ : BufTy).Contents (Elt F) → (⟨S1000x128, .f32⟩ : BufTy).Contents (Elt F)) ⟨by decide, rfl⟩ ⟨by decide, rfl⟩ rfl (by decide) (by decide)

theorem step_main_v186 :
    after ops V (Proc.devRef .tc main_v186) = (maximumf : (⟨S1000x128, .f32⟩ : BufTy).Contents (Elt F) → (⟨S1000x128, .f32⟩ : BufTy).Contents (Elt F) → (⟨S1000x128, .f32⟩ : BufTy).Contents (Elt F)) (after ops V (Proc.devRef .tc main_v185)) (after ops V (Proc.devRef .tc main_call6_v0)) :=
  after_binary ops_writes V 289 main_v185 main_call6_v0 main_v186 (maximumf : (⟨S1000x128, .f32⟩ : BufTy).Contents (Elt F) → (⟨S1000x128, .f32⟩ : BufTy).Contents (Elt F) → (⟨S1000x128, .f32⟩ : BufTy).Contents (Elt F)) ⟨by decide, rfl⟩ ⟨by decide, rfl⟩ ⟨by decide, rfl⟩ rfl (by decide) (by decide) (by decide)

theorem step_main_v187 :
    after ops V (Proc.devRef .tc main_v187) = ((fun l r => Host.dotGeneral dot_S1000x128_S128x6_S1000x6_1_0_0_1_n_n none l r) : (⟨S1000x128, .f32⟩ : BufTy).Contents (Elt F) → (⟨S128x6, .f32⟩ : BufTy).Contents (Elt F) → (⟨S1000x6, .f32⟩ : BufTy).Contents (Elt F)) (after ops V (Proc.devRef .tc main_v186)) (after ops V (Proc.devRef .tc main_arg9)) :=
  after_binary ops_writes V 290 main_v186 main_arg9 main_v187 ((fun l r => Host.dotGeneral dot_S1000x128_S128x6_S1000x6_1_0_0_1_n_n none l r) : (⟨S1000x128, .f32⟩ : BufTy).Contents (Elt F) → (⟨S128x6, .f32⟩ : BufTy).Contents (Elt F) → (⟨S1000x6, .f32⟩ : BufTy).Contents (Elt F)) ⟨by decide, rfl⟩ ⟨by decide, rfl⟩ ⟨by decide, rfl⟩ rfl (by decide) (by decide) (by decide)

theorem step_main_v188 :
    after ops V (Proc.devRef .tc main_v188) = (broadcastInDim S1x6 ![1] bcast_S6_S1x6_1 : (⟨S6, .f32⟩ : BufTy).Contents (Elt F) → (⟨S1x6, .f32⟩ : BufTy).Contents (Elt F)) (after ops V (Proc.devRef .tc main_arg10)) :=
  after_unary ops_writes V 291 main_arg10 main_v188 (broadcastInDim S1x6 ![1] bcast_S6_S1x6_1 : (⟨S6, .f32⟩ : BufTy).Contents (Elt F) → (⟨S1x6, .f32⟩ : BufTy).Contents (Elt F)) ⟨by decide, rfl⟩ ⟨by decide, rfl⟩ rfl (by decide) (by decide)

theorem step_main_v189 :
    after ops V (Proc.devRef .tc main_v189) = (broadcastInDim S1000x6 ![0, 1] bcast_S1x6_S1000x6_0_1 : (⟨S1x6, .f32⟩ : BufTy).Contents (Elt F) → (⟨S1000x6, .f32⟩ : BufTy).Contents (Elt F)) (after ops V (Proc.devRef .tc main_v188)) :=
  after_unary ops_writes V 292 main_v188 main_v189 (broadcastInDim S1000x6 ![0, 1] bcast_S1x6_S1000x6_0_1 : (⟨S1x6, .f32⟩ : BufTy).Contents (Elt F) → (⟨S1000x6, .f32⟩ : BufTy).Contents (Elt F)) ⟨by decide, rfl⟩ ⟨by decide, rfl⟩ rfl (by decide) (by decide)

theorem step_main_v190 :
    after ops V (Proc.devRef .tc main_v190) = (addf : (⟨S1000x6, .f32⟩ : BufTy).Contents (Elt F) → (⟨S1000x6, .f32⟩ : BufTy).Contents (Elt F) → (⟨S1000x6, .f32⟩ : BufTy).Contents (Elt F)) (after ops V (Proc.devRef .tc main_v187)) (after ops V (Proc.devRef .tc main_v189)) :=
  after_binary ops_writes V 293 main_v187 main_v189 main_v190 (addf : (⟨S1000x6, .f32⟩ : BufTy).Contents (Elt F) → (⟨S1000x6, .f32⟩ : BufTy).Contents (Elt F) → (⟨S1000x6, .f32⟩ : BufTy).Contents (Elt F)) ⟨by decide, rfl⟩ ⟨by decide, rfl⟩ ⟨by decide, rfl⟩ rfl (by decide) (by decide) (by decide)

end Cert.ReferenceIdeal.RefValue

end
-- ==== Proof.RefStages.lean ====
/-
  The reference's host operations, group by group, as the model's functions — at the ideal instance, over variables.

  Each lemma takes the operands of a group of operations as variables and states that the group's composed term is
  one of the pure functions of Model.lean: a row of the edge array laid out as an index column (`edgeCol`), the wrap
  of negative indices (`wrapCol`), the inverse square roots of the degrees, a slice of the stacked weights or of a
  stacked row parameter, a matrix product, the weighted aggregation of a layer, the normalisation statistics, the
  normalised and clipped output, the pooling by graph, and the head.  The shape facts and dimension numbers are the
  reference program's own records.
-/
import proofs.«168746_j56882546868465_2_alg».proof.Proof.Gen.ReferenceIdeal
import proofs.«168746_j56882546868465_2_alg».proof.Proof.Model
import proofs.«168746_j56882546868465_2_alg».proof.Proof.HostGlue
import proofs.«168746_j56882546868465_2_alg».proof.Proof.LibColRow
import Idealize.ShloMosaic.Lib.IdealHost
import Idealize.ShloMosaic.Lib.ValueLayout

noncomputable section

open scoped BigOperators

namespace Cert.ReferenceIdeal.RefStages

open Cert.ReferenceIdeal Cert.ReferenceIdeal.Gen Cert.GCN Idealize.ShloMosaic Idealize.ShloMosaic.ValueIdx
  Cert.Proof.LibRowIndex Cert.LibColRow

/-- The host's inverse square root at an index. -/
theorem hostRsqrt_apply {s : Shape} {φ : FTy} (v : FVec Ideal s φ) (i : s.Idx) : Host.rsqrt v i = Ideal.rsqrt (v i) := rfl

/-! ## Layout: a column or a row broadcast over a matrix -/

/-- A column `[a, 1]` broadcast to `[a, b]` along both axes reads, at `(p, c)`, the column's entry of row `p`. -/
theorem bcast_col_mat_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- A row `[1, b]` broadcast to `[a, b]` along both axes reads, at `(p, c)`, the row's entry of column `c`. -/
theorem bcast_row_mat_apply {α : Type} {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

/-! ## The gather of a vector's entries -/

/-- The dimension numbers of a gather of entries of a vector `[N]` at a column of start indices `[E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the vector's entry `gatherRow … e`: the start index read signed and clamped. -/
theorem vecGatherDims_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec (⟨2, ![E, 1]⟩ : Shape) w) (e : Fin E) :
    Host.gather (vecGatherDims N E wf) x idx (ix1 e) = x (ix1 (gatherRow N hN idx e)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl

/-- The same for any record with these dimension numbers. -/
theorem vecGather_apply {α : Type} {N E w : Nat} (hN : 0 < N)
    (d : GatherDims (⟨1, ![N]⟩ : Shape) (⟨2, ![E, 1]⟩ : Shape) (⟨1, ![E]⟩ : Shape))
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec (⟨2, ![E, 1]⟩ : Shape) w) (e : Fin E) :
    Host.gather d x idx (ix1 e) = x (ix1 (gatherRow N hN idx e)) := by
  obtain ⟨od, cd, ob, sb, sm, iv, ss, wf⟩ := d
  simp only at h1 h2 h3 h4 h5 h6 h7
  subst h1 h2 h3 h4 h5 h6 h7
  exact vecGatherDims_apply hN wf x idx e

/-! ## The edge array's rows as index columns, and the wrap -/

/-- Row `r` of the edge array, cut out, flattened and laid out as a column, is `edgeCol ei r`. -/
theorem edgeCol_stage (ei : IVec S2x800000 32) (r : Fin 2) (off : Fin S2x800000.rank → Nat)
    (hs : S2x800000.Slices off S1x800000) (h0 : off 0 = r.val) (h1 : off 1 = 0) :
    broadcastInDim S800000x1 ![0] bcast_S800000_S800000x1_0
        (shapeCast S800000 (extractStridedSlice S1x800000 off ei hs) shapeCasts_S1x800000_S800000)
      = edgeCol ei r := by
  funext j
  obtain ⟨e, u, rfl⟩ : ∃ (e : Fin 800000) (u : Fin 1), j = ix2 e u := ⟨j 0, j 1, eq_ix2 j⟩
  rw [broadcastInDim_col_apply, shapeCast_1a_a_apply]
  refine (extractStridedSlice_apply off ei hs (ix2 (0 : Fin 1) e) (ix2 r e) fun ax => ?_).trans rfl
  match ax with
  | ⟨0, _⟩ => show r.val = off 0 + 0; omega
  | ⟨1, _⟩ => show e.val = off 1 + e.val; omega

/-- The flattened row with its negative entries wrapped, laid out as a column, is the wrap of the column. -/
theorem wrapCol_stage (v : IVec S800000 32) :
    broadcastInDim S800000x1 ![0] bcast_S800000_S800000x1_0
        (select (cmpi .slt v (broadcastInDim S800000 ![] bcast_S_S800000 (constantI S_ 32 0#32)))
          (addi v (broadcastInDim S800000 ![] bcast_S_S800000 (constantI S_ 32 50000#32))) v)
      = wrapCol (broadcastInDim S800000x1 ![0] bcast_S800000_S800000x1_0 v) := by
  funext j
  obtain ⟨e, u, rfl⟩ : ∃ (e : Fin 800000) (u : Fin 1), j = ix2 e u := ⟨j 0, j 1, eq_ix2 j⟩
  unfold wrapCol
  rw [broadcastInDim_col_apply, broadcastInDim_col_apply]
  rfl

/-! ## The degrees -/

/-- The inverse square roots of the degrees, as a vector: entry `n` is the `n`-th entry of the column `disColOf`. -/
def disVec (dstCol : IVec (⟨2, ![800000, 1]⟩ : Shape) 32) : (⟨1, ![50000]⟩ : Shape).Idx → EReal :=
  fun i => Ideal.rsqrt (segSumVec dstCol (fun _ => (1 : EReal)) i + 1)

theorem disColOf_eq (dstCol : IVec (⟨2, ![800000, 1]⟩ : Shape) 32) :
    disColOf dstCol = fun i => disVec dstCol (ix1 (rowOf i)) := rfl

/-- Ones scattered into zeros along the target column, plus one, inverse square root: the degrees' factors. -/
theorem dis_stage (dstCol : IVec S800000x1 32) :
    (Host.rsqrt (addf
        (Host.scatterAdd scatter_S50000_S800000x1_S800000_n_0_0_1
          (broadcastInDim S50000 ![] bcast_S_S50000 (constant S_ .f32 0x00000000#32)) dstCol
          (broadcastInDim S800000 ![] bcast_S_S800000 (constant S_ .f32 0x3F800000#32)))
        (broadcastInDim S50000 ![] bcast_S_S50000 (constant S_ .f32 0x3F800000#32))) : FVec Ideal S50000 .f32)
      = disVec dstCol := by
  have hz : ∀ k, (broadcastInDim S50000 ![] bcast_S_S50000 (constant (F := Ideal) S_ .f32 0x00000000#32)
      : FVec Ideal S50000 .f32) k = 0 := fun k => bcast_zero_apply _ k
  have hones : (broadcastInDim S800000 ![] bcast_S_S800000 (constant (F := Ideal) S_ .f32 0x3F800000#32)
      : FVec Ideal S800000 .f32) = fun _ => (1 : EReal) :=
    funext fun k => (broadcastInDim_scalar_apply _ _ k).trans ((constant_apply _ _).trans Ideal.ofBits_one_f32)
  funext i
  rw [hostRsqrt_apply, addf_apply, broadcastInDim_scalar_apply, constant_apply, Ideal.ofBits_one_f32,
    scatterAdd_zeros_eq_segSumVec scatter_S50000_S800000x1_S800000_n_0_0_1 rfl rfl rfl rfl _ hz, hones]
  rfl

/-! ## Slices of the stacked parameters -/

/-- Slice `l` of the stacked weights, its unit axis dropped, is `wSlice cw l`. -/
theorem wSlice_stage (cw : FVec Ideal S3x128x128 .f32) (l : Fin 3) (off : Fin S3x128x128.rank → Nat)
    (hs : S3x128x128.Slices off S1x128x128) (h0 : off 0 = l.val) (h1 : off 1 = 0) (h2 : off 2 = 0) :
    (shapeCast S128x128 (extractStridedSlice S1x128x128 off cw hs) shapeCasts_S1x128x128_S128x128
      : FVec Ideal S128x128 .f32) = wSlice cw l := by
  funext i
  obtain ⟨a, b, rfl⟩ : ∃ (a : Fin 128) (b : Fin 128), i = ix2 a b := ⟨i 0, i 1, eq_ix2 i⟩
  rw [shapeCast_1ab_ab_apply]
  refine (extractStridedSlice_apply off cw hs (ix3 (0 : Fin 1) a b) (ix3 l a b) fun ax => ?_).trans rfl
  match ax with
  | ⟨0, _⟩ => show l.val = off 0 + 0; omega
  | ⟨1, _⟩ => show a.val = off 1 + a.val; omega
  | ⟨2, _⟩ => show b.val = off 2 + b.val; omega

/-- Row `l` of a stacked row parameter, cut out, flattened and laid out as a row, is `rowSlice a l`. -/
theorem rowSlice_stage (p : FVec Ideal S3x128 .f32) (l : Fin 3) (off : Fin S3x128.rank → Nat)
    (hs : S3x128.Slices off S1x128) (h0 : off 0 = l.val) (h1 : off 1 = 0) :
    (broadcastInDim S1x128 ![1] bcast_S128_S1x128_1
        (shapeCast S128 (extractStridedSlice S1x128 off p hs) shapeCasts_S1x128_S128) : FVec Ideal S1x128 .f32)
      = rowSlice p l := by
  funext j
  obtain ⟨u, q, rfl⟩ : ∃ (u : Fin 1) (q : Fin 128), j = ix2 u q := ⟨j 0, j 1, eq_ix2 j⟩
  rw [broadcastInDim_row_apply, shapeCast_1a_a_apply]
  refine (extractStridedSlice_apply off p hs (ix2 (0 : Fin 1) q) (ix2 l q) fun ax => ?_).trans rfl
  match ax with
  | ⟨0, _⟩ => show l.val = off 0 + 0; omega
  | ⟨1, _⟩ => show q.val = off 1 + q.val; omega

/-- A vector laid out as a row is `rowOfVec`. -/
theorem rowOfVec_stage {k : ℕ} (v : FVec Ideal ⟨1, ![k]⟩ .f32)
    (hb : (⟨1, ![k]⟩ : Shape).BroadcastsInDim ⟨2, ![1, k]⟩ ![1]) :
    (broadcastInDim ⟨2, ![1, k]⟩ ![1] hb v : FVec Ideal ⟨2, ![1, k]⟩ .f32) = rowOfVec v := by
  funext j
  obtain ⟨u, q, rfl⟩ : ∃ (u : Fin 1) (q : Fin k), j = ix2 u q := ⟨j 0, j 1, eq_ix2 j⟩
  rw [broadcastInDim_row_apply]
  rfl

/-! ## The matrix products -/

section Dot
variable {n k m : ℕ} (d : DotDims (⟨2, ![n, k]⟩ : Shape) (⟨2, ![k, m]⟩ : Shape) (⟨2, ![n, m]⟩ : Shape))

/-- The plain dimension numbers `[n, k] × [k, m]` as a literal record. -/
abbrev plainDims (n k m : ℕ)
    (wf : DotDims.WF (⟨2, ![n, k]⟩ : Shape) (⟨2, ![k, m]⟩ : Shape) (⟨2, ![n, m]⟩ : Shape) [1] [0] [0] [1] [] []) :
    DotDims (⟨2, ![n, k]⟩ : Shape) (⟨2, ![k, m]⟩ : Shape) (⟨2, ![n, m]⟩ : Shape) where
  lhsContracting := [1]
  rhsContracting := [0]
  lhsNonContracting := [0]
  rhsNonContracting := [1]
  lhsBatch := []
  rhsBatch := []
  wf := wf

theorem plain_dot_eq_mm (wf) (x : FVec Ideal (⟨2, ![n, k]⟩ : Shape) .f32) (w : FVec Ideal (⟨2, ![k, m]⟩ : Shape) .f32) :
    (Host.dotGeneral (plainDims n k m wf) none x w : FVec Ideal (⟨2, ![n, m]⟩ : Shape) .f32) = mm x w := by
  funext i
  simp only [Host.dotGeneral]
  rw [Ideal.dotGeneral_apply, ← Equiv.sum_comp (contrEquiv1 (plainDims n k m wf) k rfl rfl).symm]
  unfold mm
  refine Finset.sum_congr rfl fun q _ => ?_
  have hq := contrEquiv1_symm_val (plainDims n k m wf) k rfl rfl q
  have el : (plainDims n k m wf).lhsIdx i ((contrEquiv1 (plainDims n k m wf) k rfl rfl).symm q) = ix2 (rowOf i) q :=
    funext fun a => Fin.ext (by
      match a with
      | ⟨0, _⟩ =>
        show ((plainDims n k m wf).lhsIdx i _ 0).val = (i 0).val
        unfold DotDims.lhsIdx
        rw [dif_neg (show ¬(0 : Fin 2) ∈ (plainDims n k m wf).lhsBatch from List.not_mem_nil),
          dif_pos (show (0 : Fin 2) ∈ (plainDims n k m wf).lhsNonContracting from List.mem_singleton.mpr rfl)]
        rfl
      | ⟨1, _⟩ => exact ((plainDims n k m wf).lhsIdx_val_of_single (cl := 1) rfl i _).trans hq)
  have er : (plainDims n k m wf).rhsIdx i ((contrEquiv1 (plainDims n k m wf) k rfl rfl).symm q) = ix2 q (colOf i) :=
    funext fun a => Fin.ext (by
      match a with
      | ⟨0, _⟩ => exact ((plainDims n k m wf).rhsIdx_val_of_single (cr := 0) rfl i _).trans hq
      | ⟨1, _⟩ =>
        show ((plainDims n k m wf).rhsIdx i _ 1).val = (i 1).val
        unfold DotDims.rhsIdx
        rw [dif_neg (show ¬(1 : Fin 2) ∈ (plainDims n k m wf).rhsBatch from List.not_mem_nil),
          dif_pos (show (1 : Fin 2) ∈ (plainDims n k m wf).rhsNonContracting from List.mem_singleton.mpr rfl)]
        rfl)
  rw [el, er]

/-- A `dot_general` with the plain dimension numbers is the matrix product. -/
theorem dot_eq_mm (h1 : d.lhsContracting = [1]) (h2 : d.rhsContracting = [0]) (h3 : d.lhsNonContracting = [0])
    (h4 : d.rhsNonContracting = [1]) (h5 : d.lhsBatch = []) (h6 : d.rhsBatch = [])
    (x : FVec Ideal (⟨2, ![n, k]⟩ : Shape) .f32) (w : FVec Ideal (⟨2, ![k, m]⟩ : Shape) .f32) :
    (Host.dotGeneral d none x w : FVec Ideal (⟨2, ![n, m]⟩ : Shape) .f32) = mm x w := by
  obtain ⟨lc, rc, ln, rn, lb, rb, wf⟩ := d
  simp only at h1 h2 h3 h4 h5 h6
  subst h1 h2 h3 h4 h5 h6
  exact plain_dot_eq_mm wf x w

end Dot

/-! ## The node count, and the count `_var` divides by -/

/-- The f32 word `0x47435000` denotes fifty thousand. -/
theorem nNodes_eq : nNodes = ((50000 : ℝ) : EReal) := by
  unfold nNodes
  simp [Ideal.ofBits, Ideal.ieee, -EReal.coe_mul]; norm_num

theorem nNodes_pos : (0 : EReal) < nNodes := by
  rw [nNodes_eq]; exact EReal.coe_pos.mpr (by norm_num)

/-- Fifty thousand minus the conversion of the integer zero is fifty thousand. -/
theorem count_minus_zero :
    (subf (constant (F := Ideal) S_ .f32 0x47435000#32) (sitofp (F := Ideal) .f32 (constantI S_ 32 0#32)) : FVec Ideal S_ .f32) ix0 = nNodes := by
  rw [subf_apply, constant_apply, sitofp_apply, constantI_apply]
  show nNodes - (((0#32 : BitVec 32).toInt : ℝ) : EReal) = nNodes
  rw [show (0#32 : BitVec 32).toInt = 0 by decide]
  simp

/-- It is positive: the comparison `_var` selects on holds. -/
theorem count_gt_zero :
    (cmpf .ogt (subf (constant (F := Ideal) S_ .f32 0x47435000#32) (sitofp (F := Ideal) .f32 (constantI S_ 32 0#32)))
      (constant (F := Ideal) S_ .f32 0x00000000#32) : IVec S_ 1) ix0 = 1#1 := by
  rw [cmpf_apply, count_minus_zero, constant_apply, Ideal.ofBits_zero_f32]
  show BitVec.ofBool (decide ((0 : EReal) < nNodes)) = 1#1
  rw [decide_eq_true nNodes_pos]
  rfl

/-! ## The normalisation statistics -/

/-- The sum of a column, as the host reduces it from zero. -/
theorem colSum_read (y : FVec Ideal S50000x128 .f32) (q : Fin 128) :
    (Host.reduceAdd y (constant S_ .f32 0x00000000#32) reducesTo_S50000x128_S128_d0 h_S_ : FVec Ideal S128 .f32) (ix1 q)
      = ∑ r : Fin 50000, y (ix2 r q) := by
  rw [hostReduceAdd_apply, constant_apply, Ideal.ofBits_zero_f32,
    Ideal.hostReduceAdd_single reducesTo_S50000x128_S128_d0 (by decide), zero_add]
  refine Finset.sum_congr rfl fun k _ => ?_
  exact congrArg y (funext fun a => Fin.ext (by match a with | ⟨0, _⟩ => rfl | ⟨1, _⟩ => rfl))

/-- The mean row as @main computes it: the column sums divided by the count, then laid out as a row. -/
theorem meanRow_stage (y : FVec Ideal S50000x128 .f32) :
    (broadcastInDim S1x128 ![1] bcast_S128_S1x128_1
      (Host.divf (Host.reduceAdd y (constant S_ .f32 0x00000000#32) reducesTo_S50000x128_S128_d0 h_S_)
        (broadcastInDim S128 ![] bcast_S_S128 (constant S_ .f32 0x47435000#32))) : FVec Ideal S1x128 .f32)
      = meanRow nNodes y := by
  funext j
  obtain ⟨u, q, rfl⟩ : ∃ (u : Fin 1) (q : Fin 128), j = ix2 u q := ⟨j 0, j 1, eq_ix2 j⟩
  rw [broadcastInDim_row_apply, hostDivf_apply, colSum_read, broadcastInDim_scalar_apply, constant_apply]
  rfl

/-- The mean row as `_var` computes it: the column sums laid out as a row, divided by the count. -/
theorem meanRow_stage' (y : FVec Ideal S50000x128 .f32) :
    (Host.divf
      (broadcastInDim S1x128 ![1] bcast_S128_S1x128_1
        (Host.reduceAdd y (constant S_ .f32 0x00000000#32) reducesTo_S50000x128_S128_d0 h_S_))
      (broadcastInDim S1x128 ![] bcast_S_S1x128 (constant S_ .f32 0x47435000#32)) : FVec Ideal S1x128 .f32)
      = meanRow nNodes y := by
  funext j
  obtain ⟨u, q, rfl⟩ : ∃ (u : Fin 1) (q : Fin 128), j = ix2 u q := ⟨j 0, j 1, eq_ix2 j⟩
  rw [hostDivf_apply, broadcastInDim_row_apply, colSum_read, broadcastInDim_scalar_apply, constant_apply]
  rfl

/-- The squared deviations from a row. -/
theorem sqDev_stage (y : FVec Ideal S50000x128 .f32) (mu : FVec Ideal S1x128 .f32) :
    (mulf (subf y (broadcastInDim S50000x128 ![0, 1] bcast_S1x128_S50000x128_0_1 mu))
      (subf y (broadcastInDim S50000x128 ![0, 1] bcast_S1x128_S50000x128_0_1 mu)) : FVec Ideal S50000x128 .f32)
      = sqDev y mu := by
  funext i
  obtain ⟨n, f, rfl⟩ : ∃ (n : Fin 50000) (f : Fin 128), i = ix2 n f := ⟨i 0, i 1, eq_ix2 i⟩
  rw [mulf_apply, subf_apply, bcast_row_mat_apply]
  rfl

/-- The variance vector as `_var` computes it (the selection taking the quotient), entry by entry. -/
theorem var_stage (y : FVec Ideal S50000x128 .f32) (q : Fin 128) :
    ((fun p a b => select (broadcastInDim S128 ![] bcast_S_S128 p) a b)
      (cmpf .ogt (subf (constant (F := Ideal) S_ .f32 0x47435000#32) (sitofp (F := Ideal) .f32 (constantI S_ 32 0#32)))
        (constant (F := Ideal) S_ .f32 0x00000000#32))
      (Host.divf
        (Host.reduceAdd (sqDev y (meanRow nNodes y)) (constant S_ .f32 0x00000000#32) reducesTo_S50000x128_S128_d0 h_S_)
        (broadcastInDim S128 ![] bcast_S_S128
          (subf (constant S_ .f32 0x47435000#32) (sitofp .f32 (constantI S_ 32 0#32)))))
      (broadcastInDim S128 ![] bcast_S_S128 (id (constant S_ .f32 0x7FC00000#32))) : FVec Ideal S128 .f32) (ix1 q)
      = varRow nNodes y (ix2 (0 : Fin 1) q) := by
  beta_reduce
  rw [select_apply, broadcastInDim_scalar_apply, count_gt_zero, select_one, hostDivf_apply, colSum_read,
    broadcastInDim_scalar_apply, count_minus_zero]
  rfl

/-! ## A layer's output -/

/-- Centre by the mean row, scale by the inverse square root of the variance plus epsilon, scale, shift, clip. -/
theorem bn_stage (y : FVec Ideal S50000x128 .f32) (g b : FVec Ideal S1x128 .f32) (var : FVec Ideal S128 .f32)
    (hvar : ∀ q : Fin 128, var (ix1 q) = varRow nNodes y (ix2 (0 : Fin 1) q)) :
    (maximumf
      (addf
        (mulf
          (mulf (subf y (broadcastInDim S50000x128 ![0, 1] bcast_S1x128_S50000x128_0_1 (meanRow nNodes y)))
            (broadcastInDim S50000x128 ![0, 1] bcast_S1x128_S50000x128_0_1
              (broadcastInDim S1x128 ![1] bcast_S128_S1x128_1
                (Host.rsqrt (addf var (broadcastInDim S128 ![] bcast_S_S128 (constant S_ .f32 0x3727C5AC#32)))))))
          (broadcastInDim S50000x128 ![0, 1] bcast_S1x128_S50000x128_0_1 g))
        (broadcastInDim S50000x128 ![0, 1] bcast_S1x128_S50000x128_0_1 b))
      (broadcastInDim S50000x128 ![] bcast_S_S50000x128 (constant S_ .f32 0x00000000#32)) : FVec Ideal S50000x128 .f32)
      = bnRelu nNodes y g b := by
  funext i
  obtain ⟨n, f, rfl⟩ : ∃ (n : Fin 50000) (f : Fin 128), i = ix2 n f := ⟨i 0, i 1, eq_ix2 i⟩
  rw [maximumf_apply, addf_apply, mulf_apply, mulf_apply, subf_apply,
    bcast_row_mat_apply, bcast_row_mat_apply, bcast_row_mat_apply, bcast_row_mat_apply,
    broadcastInDim_row_apply, hostRsqrt_apply, addf_apply, broadcastInDim_scalar_apply, constant_apply,
    broadcastInDim_scalar_apply, constant_apply, hvar, Ideal.ofBits_zero_f32]
  rfl

/-! ## A layer's aggregation -/

/-- The gathered source rows weighted by `dis (src e) · dis (dst e)` and summed into the targets, plus the self loop
    `h · (dis · dis)`, plus the bias row: the weighted aggregation over the graph these columns make. -/
theorem agg_stage (disv : FVec Ideal S50000 .f32) (srcCol dstGCol dstSCol : IVec S800000x1 32)
    (h : FVec Ideal S50000x128 .f32) (cb : FVec Ideal S1x128 .f32) :
    (addf
      (addf
        (Host.scatterAdd scatter_S50000x128_S800000x1_S800000x128_1_0_0_1
          (broadcastInDim S50000x128 ![] bcast_S_S50000x128 (constant S_ .f32 0x00000000#32)) dstSCol
          (mulf (Host.gather gather_S50000x128_S800000x1_S800000x128_1_0_n_n_0_1_1128 h srcCol)
            (broadcastInDim S800000x128 ![0, 1] bcast_S800000x1_S800000x128_0_1
              (broadcastInDim S800000x1 ![0] bcast_S800000_S800000x1_0
                (mulf (Host.gather gather_S50000_S800000x1_S800000_n_0_n_n_0_1_1 disv srcCol)
                  (Host.gather gather_S50000_S800000x1_S800000_n_0_n_n_0_1_1 disv dstGCol))))))
        (mulf h
          (broadcastInDim S50000x128 ![0, 1] bcast_S50000x1_S50000x128_0_1
            (broadcastInDim S50000x1 ![0] bcast_S50000_S50000x1_0 (mulf disv disv)))))
      (broadcastInDim S50000x128 ![0, 1] bcast_S1x128_S50000x128_0_1 cb) : FVec Ideal S50000x128 .f32)
      = aggWeighted ⟨srcCol, dstGCol, dstSCol, fun i => disv (ix1 (rowOf i))⟩ h cb := by
  have hz : ∀ k, (broadcastInDim S50000x128 ![] bcast_S_S50000x128 (constant (F := Ideal) S_ .f32 0x00000000#32)
      : FVec Ideal S50000x128 .f32) k = 0 := fun k => bcast_zero_apply _ k
  have hU : (mulf (Host.gather gather_S50000x128_S800000x1_S800000x128_1_0_n_n_0_1_1128 h srcCol)
      (broadcastInDim S800000x128 ![0, 1] bcast_S800000x1_S800000x128_0_1
        (broadcastInDim S800000x1 ![0] bcast_S800000_S800000x1_0
          (mulf (Host.gather gather_S50000_S800000x1_S800000_n_0_n_n_0_1_1 disv srcCol)
            (Host.gather gather_S50000_S800000x1_S800000_n_0_n_n_0_1_1 disv dstGCol)))) : FVec Ideal S800000x128 .f32)
      = fun j => gatherRows (by decide : 0 < 50000) srcCol h j
          * (disv (ix1 (gatherRow 50000 (by decide) srcCol (rowOf j)))
            * disv (ix1 (gatherRow 50000 (by decide) dstGCol (rowOf j)))) := by
    funext j
    obtain ⟨e, g, rfl⟩ : ∃ (e : Fin 800000) (g : Fin 128), j = ix2 e g := ⟨j 0, j 1, eq_ix2 j⟩
    rw [mulf_apply, gather_eq_gatherRows (by decide : 0 < 50000) _ rfl rfl rfl rfl rfl rfl rfl, bcast_col_mat_apply,
      broadcastInDim_col_apply, mulf_apply,
      vecGather_apply (by decide : 0 < 50000) _ rfl rfl rfl rfl rfl rfl rfl disv srcCol,
      vecGather_apply (by decide : 0 < 50000) _ rfl rfl rfl rfl rfl rfl rfl disv dstGCol]
  funext i
  obtain ⟨n, f, rfl⟩ : ∃ (n : Fin 50000) (f : Fin 128), i = ix2 n f := ⟨i 0, i 1, eq_ix2 i⟩
  rw [addf_apply, addf_apply, mulf_apply, bcast_col_mat_apply, broadcastInDim_col_apply, mulf_apply, bcast_row_mat_apply,
    scatterAdd_zeros_eq_segSum scatter_S50000x128_S800000x1_S800000x128_1_0_0_1 rfl rfl rfl rfl _ hz, hU]
  rfl

/-- The variance vector as `_var` computes it from the array itself, entry by entry. -/
theorem var_stage_full (y : FVec Ideal S50000x128 .f32) (q : Fin 128) :
    ((fun p a b => select (broadcastInDim S128 ![] bcast_S_S128 p) a b)
      (cmpf .ogt (subf (constant (F := Ideal) S_ .f32 0x47435000#32) (sitofp (F := Ideal) .f32 (constantI S_ 32 0#32)))
        (constant (F := Ideal) S_ .f32 0x00000000#32))
      (Host.divf
        (Host.reduceAdd
          (mulf
            (subf y (broadcastInDim S50000x128 ![0, 1] bcast_S1x128_S50000x128_0_1
              (Host.divf
                (broadcastInDim S1x128 ![1] bcast_S128_S1x128_1
                  (Host.reduceAdd y (constant S_ .f32 0x00000000#32) reducesTo_S50000x128_S128_d0 h_S_))
                (broadcastInDim S1x128 ![] bcast_S_S1x128 (constant S_ .f32 0x47435000#32)))))
            (subf y (broadcastInDim S50000x128 ![0, 1] bcast_S1x128_S50000x128_0_1
              (Host.divf
                (broadcastInDim S1x128 ![1] bcast_S128_S1x128_1
                  (Host.reduceAdd y (constant S_ .f32 0x00000000#32) reducesTo_S50000x128_S128_d0 h_S_))
                (broadcastInDim S1x128 ![] bcast_S_S1x128 (constant S_ .f32 0x47435000#32))))))
          (constant S_ .f32 0x00000000#32) reducesTo_S50000x128_S128_d0 h_S_)
        (broadcastInDim S128 ![] bcast_S_S128
          (subf (constant S_ .f32 0x47435000#32) (sitofp .f32 (constantI S_ 32 0#32)))))
      (broadcastInDim S128 ![] bcast_S_S128 (id (constant S_ .f32 0x7FC00000#32))) : FVec Ideal S128 .f32) (ix1 q)
      = varRow nNodes y (ix2 (0 : Fin 1) q) := by
  rw [meanRow_stage', sqDev_stage]
  exact var_stage y q

/-! ## The pooling by graph -/

/-- The batch vector laid out as a column is `batchCol`. -/
theorem batchCol_stage (bv : IVec S50000 32) :
    broadcastInDim S50000x1 ![0] bcast_S50000_S50000x1_0 bv = batchCol bv := by
  funext j
  obtain ⟨n, u, rfl⟩ : ∃ (n : Fin 50000) (u : Fin 1), j = ix2 n u := ⟨j 0, j 1, eq_ix2 j⟩
  rw [broadcastInDim_col_apply]
  rfl

/-- The node rows summed by graph, divided by the node counts clipped below at one. -/
theorem pooled_stage (bcol : IVec S50000x1 32) (x : FVec Ideal S50000x128 .f32) :
    (Host.divf
      (Host.scatterAdd scatter_S1000x128_S50000x1_S50000x128_1_0_0_1
        (broadcastInDim S1000x128 ![] bcast_S_S1000x128 (constant S_ .f32 0x00000000#32)) bcol x)
      (broadcastInDim S1000x128 ![0, 1] bcast_S1000x1_S1000x128_0_1
        (broadcastInDim S1000x1 ![0] bcast_S1000_S1000x1_0
          (maximumf
            (Host.scatterAdd scatter_S1000_S50000x1_S50000_n_0_0_1
              (broadcastInDim S1000 ![] bcast_S_S1000 (constant S_ .f32 0x00000000#32)) bcol
              (broadcastInDim S50000 ![] bcast_S_S50000 (constant S_ .f32 0x3F800000#32)))
            (broadcastInDim S1000 ![] bcast_S_S1000 (constant S_ .f32 0x3F800000#32))))) : FVec Ideal S1000x128 .f32)
      = pooledOf bcol x := by
  have hz2 : ∀ k, (broadcastInDim S1000x128 ![] bcast_S_S1000x128 (constant (F := Ideal) S_ .f32 0x00000000#32)
      : FVec Ideal S1000x128 .f32) k = 0 := fun k => bcast_zero_apply _ k
  have hz1 : ∀ k, (broadcastInDim S1000 ![] bcast_S_S1000 (constant (F := Ideal) S_ .f32 0x00000000#32)
      : FVec Ideal S1000 .f32) k = 0 := fun k => bcast_zero_apply _ k
  have hones : (broadcastInDim S50000 ![] bcast_S_S50000 (constant (F := Ideal) S_ .f32 0x3F800000#32)
      : FVec Ideal S50000 .f32) = fun _ => (1 : EReal) :=
    funext fun k => (broadcastInDim_scalar_apply _ _ k).trans ((constant_apply _ _).trans Ideal.ofBits_one_f32)
  funext i
  obtain ⟨gph, f, rfl⟩ : ∃ (gph : Fin 1000) (f : Fin 128), i = ix2 gph f := ⟨i 0, i 1, eq_ix2 i⟩
  rw [hostDivf_apply, bcast_col_mat_apply, broadcastInDim_col_apply, maximumf_apply, broadcastInDim_scalar_apply,
    constant_apply, Ideal.ofBits_one_f32,
    scatterAdd_zeros_eq_segSum scatter_S1000x128_S50000x1_S50000x128_1_0_0_1 rfl rfl rfl rfl _ hz2,
    scatterAdd_zeros_eq_segSumVec scatter_S1000_S50000x1_S50000_n_0_0_1 rfl rfl rfl rfl _ hz1, hones]
  rfl

/-! ## The head -/

/-- A vector laid out as a row and added to every row. -/
theorem addRow_stage {a k : ℕ} (y : FVec Ideal ⟨2, ![a, k]⟩ .f32) (v : FVec Ideal ⟨1, ![k]⟩ .f32)
    (hr : (⟨1, ![k]⟩ : Shape).BroadcastsInDim ⟨2, ![1, k]⟩ ![1])
    (hm : (⟨2, ![1, k]⟩ : Shape).BroadcastsInDim ⟨2, ![a, k]⟩ ![0, 1]) :
    (addf y (broadcastInDim ⟨2, ![a, k]⟩ ![0, 1] hm (broadcastInDim ⟨2, ![1, k]⟩ ![1] hr v)) : FVec Ideal ⟨2, ![a, k]⟩ .f32)
      = addRow y (rowOfVec v) := by
  funext i
  obtain ⟨p, q, rfl⟩ : ∃ (p : Fin a) (q : Fin k), i = ix2 p q := ⟨i 0, i 1, eq_ix2 i⟩
  rw [addf_apply, bcast_row_mat_apply, broadcastInDim_row_apply]
  rfl

/-- The maximum with the zero splat is the clip at zero. -/
theorem relu_stage {s : Shape} (y : FVec Ideal s .f32) (hb : (⟨0, ![]⟩ : Shape).BroadcastsInDim s ![]) :
    (maximumf y (broadcastInDim s ![] hb (constant S_ .f32 0x00000000#32)) : FVec Ideal s .f32) = relu y := by
  funext i
  rw [maximumf_apply, broadcastInDim_scalar_apply, constant_apply, Ideal.ofBits_zero_f32]
  rfl

/-- The two products with their bias rows, the clip between them. -/
theorem head_stage (p : FVec Ideal S1000x128 .f32) (w1 : FVec Ideal S128x128 .f32) (b1 : FVec Ideal S128 .f32)
    (w2 : FVec Ideal S128x6 .f32) (b2 : FVec Ideal S6 .f32) :
    (addf
      (Host.dotGeneral dot_S1000x128_S128x6_S1000x6_1_0_0_1_n_n none
        (maximumf
          (addf (Host.dotGeneral dot_S1000x128_S128x128_S1000x128_1_0_0_1_n_n none p w1)
            (broadcastInDim S1000x128 ![0, 1] bcast_S1x128_S1000x128_0_1
              (broadcastInDim S1x128 ![1] bcast_S128_S1x128_1 b1)))
          (broadcastInDim S1000x128 ![] bcast_S_S1000x128 (constant S_ .f32 0x00000000#32)))
        w2)
      (broadcastInDim S1000x6 ![0, 1] bcast_S1x6_S1000x6_0_1 (broadcastInDim S1x6 ![1] bcast_S6_S1x6_1 b2))
      : FVec Ideal S1000x6 .f32)
      = head p w1 (rowOfVec b1) w2 (rowOfVec b2) := by
  rw [dot_eq_mm dot_S1000x128_S128x128_S1000x128_1_0_0_1_n_n rfl rfl rfl rfl rfl rfl,
    addRow_stage (a := 1000) (k := 128), relu_stage,
    dot_eq_mm dot_S1000x128_S128x6_S1000x6_1_0_0_1_n_n rfl rfl rfl rfl rfl rfl, addRow_stage (a := 1000) (k := 6)]
  rfl

end Cert.ReferenceIdeal.RefStages

end
-- ==== Proof.RefRead.lean ====
/-
  The reference's result as the network of Model.lean.

  With `𝔸 b` the contents the reference's line leaves in buffer `b` from the launch memory `m` of device `c`, and
  `𝕞 a` the launch contents of an argument, the equations below walk the program: the two rows of the edge array as
  index columns (raw, and with negative entries wrapped), the inverse square roots of the degrees, and for each of the
  three layers the weights' slice, the matrix product, the weighted aggregation, the mean row, the variance vector
  (the call of `_var`), and the normalised, scaled, shifted and clipped output; then the pooling by graph and the
  head.  Each equation rewrites the buffer by the operations that produce it (one equation per operation) down to
  buffers already read, and closes with the corresponding statement about host operations over variables.  The last
  theorem composes them: the result buffer holds `netW` of the eleven arguments.
-/
import proofs.«168746_j56882546868465_2_alg».proof.Proof.RefSteps
import proofs.«168746_j56882546868465_2_alg».proof.Proof.RefStages

noncomputable section

namespace Cert.ReferenceIdeal.RefRead

open Cert.ReferenceIdeal Cert.ReferenceIdeal.Gen Cert.ReferenceIdeal.RefValue Cert.ReferenceIdeal.RefStages Cert.GCN
  Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

set_option quotPrecheck false in
local notation "𝔸" b:max => StableHlo.after (ops (F := Ideal)) (launchContents m c) (Proc.devRef .tc b)
set_option quotPrecheck false in
local notation "𝕞" a:max => m ((c.tc : Thread nD τ).loc a)

/-! ## The edge array's rows -/

theorem col_dst :
    (broadcastInDim S800000x1 ![0] bcast_S800000_S800000x1_0 (𝔸 main_v3) : IVec S800000x1 32) = edgeCol (𝕞 main_arg1) 1 := by
  rw [step_main_v3, step_main_v2, kept m c (r := main_arg1) (by decide)]
  exact edgeCol_stage _ 1 _ _ rfl rfl

theorem col_src :
    (broadcastInDim S800000x1 ![0] bcast_S800000_S800000x1_0 (𝔸 main_v1) : IVec S800000x1 32) = edgeCol (𝕞 main_arg1) 0 := by
  rw [step_main_v1, step_main_v0, kept m c (r := main_arg1) (by decide)]
  exact edgeCol_stage _ 0 _ _ rfl rfl

theorem R_main_v6 :
    ((𝔸 main_v6) : IVec S800000x1 32) = edgeCol (𝕞 main_arg1) 1 := by
  rw [step_main_v6]
  exact col_dst m c

theorem R_main_v42 :
    ((𝔸 main_v42) : IVec S800000x1 32) = edgeCol (𝕞 main_arg1) 1 := by
  rw [step_main_v42]
  exact col_dst m c

theorem R_main_v89 :
    ((𝔸 main_v89) : IVec S800000x1 32) = edgeCol (𝕞 main_arg1) 1 := by
  rw [step_main_v89]
  exact col_dst m c

theorem R_main_v136 :
    ((𝔸 main_v136) : IVec S800000x1 32) = edgeCol (𝕞 main_arg1) 1 := by
  rw [step_main_v136]
  exact col_dst m c

theorem R_main_v23 :
    ((𝔸 main_v23) : IVec S800000x1 32) = wrapCol (edgeCol (𝕞 main_arg1) 1) := by
  rw [step_main_v23, step_main_v22, step_main_v21, step_main_v20, step_main_c_4, step_main_v19,
    step_main_v18, step_main_c_3]
  exact (wrapCol_stage _).trans (congrArg wrapCol (col_dst m c))

theorem R_main_v16 :
    ((𝔸 main_v16) : IVec S800000x1 32) = wrapCol (edgeCol (𝕞 main_arg1) 0) := by
  rw [step_main_v16, step_main_v15, step_main_v14, step_main_v13, step_main_c_2, step_main_v12,
    step_main_v11, step_main_c]
  exact (wrapCol_stage _).trans (congrArg wrapCol (col_src m c))

theorem R_main_v37 :
    ((𝔸 main_v37) : IVec S800000x1 32) = wrapCol (edgeCol (𝕞 main_arg1) 0) := by
  rw [step_main_v37, step_main_v36, step_main_v35, step_main_v34, step_main_c_6, step_main_v33,
    step_main_v32, step_main_c_5]
  exact (wrapCol_stage _).trans (congrArg wrapCol (col_src m c))

theorem R_main_v84 :
    ((𝔸 main_v84) : IVec S800000x1 32) = wrapCol (edgeCol (𝕞 main_arg1) 0) := by
  rw [step_main_v84, step_main_v83, step_main_v82, step_main_v81, step_main_c_13, step_main_v80,
    step_main_v79, step_main_c_12]
  exact (wrapCol_stage _).trans (congrArg wrapCol (col_src m c))

theorem R_main_v131 :
    ((𝔸 main_v131) : IVec S800000x1 32) = wrapCol (edgeCol (𝕞 main_arg1) 0) := by
  rw [step_main_v131, step_main_v130, step_main_v129, step_main_v128, step_main_c_20, step_main_v127,
    step_main_v126, step_main_c_19]
  exact (wrapCol_stage _).trans (congrArg wrapCol (col_src m c))

/-! ## The degrees -/

theorem R_main_v10 :
    ((𝔸 main_v10) : FVec Ideal S50000 .f32) = disVec (edgeCol (𝕞 main_arg1) 1) := by
  rw [step_main_v10, step_main_v9, step_main_v8, step_main_cst_1, step_main_v7, step_main_v5,
    step_main_cst_0, step_main_v4, step_main_cst, R_main_v6]
  exact dis_stage _

/-! ## Layer 0 -/

theorem R_w0 :
    ((𝔸 main_v30) : FVec Ideal S128x128 .f32) = wSlice (𝕞 main_arg3) 0 := by
  rw [step_main_v30, step_main_v29, kept m c (r := main_arg3) (by decide)]
  exact wSlice_stage _ 0 _ _ rfl rfl rfl

theorem R_h0 :
    ((𝔸 main_v31) : FVec Ideal S50000x128 .f32) = mm (𝕞 main_arg0) (wSlice (𝕞 main_arg3) 0) := by
  rw [step_main_v31, R_w0, kept m c (r := main_arg0) (by decide)]
  exact dot_eq_mm _ rfl rfl rfl rfl rfl rfl _ _

theorem R_cb0 :
    ((𝔸 main_v49) : FVec Ideal S1x128 .f32) = rowSlice (𝕞 main_arg4) 0 := by
  rw [step_main_v49, step_main_v48, step_main_v47, kept m c (r := main_arg4) (by decide)]
  exact rowSlice_stage _ 0 _ _ rfl rfl

theorem R_g0 :
    ((𝔸 main_v67) : FVec Ideal S1x128 .f32) = rowSlice (𝕞 main_arg5) 0 := by
  rw [step_main_v67, step_main_v66, step_main_v65, kept m c (r := main_arg5) (by decide)]
  exact rowSlice_stage _ 0 _ _ rfl rfl

theorem R_b0 :
    ((𝔸 main_v72) : FVec Ideal S1x128 .f32) = rowSlice (𝕞 main_arg6) 0 := by
  rw [step_main_v72, step_main_v71, step_main_v70, kept m c (r := main_arg6) (by decide)]
  exact rowSlice_stage _ 0 _ _ rfl rfl

theorem R_agg0 :
    ((𝔸 main_v51) : FVec Ideal S50000x128 .f32) = aggWeighted (graphOf (𝕞 main_arg1)) (𝔸 main_v31) (rowSlice (𝕞 main_arg4) 0) := by
  rw [step_main_v51, step_main_v50, step_main_v46, step_main_v45, step_main_v44, step_main_v43,
    step_main_v41, step_main_cst_7, step_main_v40, step_main_v39, step_main_v38, step_main_v28,
    step_main_v27, step_main_v26, step_main_v25, step_main_v24, step_main_v17, R_main_v37, R_main_v16,
    R_main_v23, R_main_v42, R_main_v10, R_cb0]
  exact agg_stage _ _ _ _ _ _

theorem R_mean0 :
    ((𝔸 main_v56) : FVec Ideal S1x128 .f32) = meanRow nNodes (𝔸 main_v51) := by
  rw [step_main_v56, step_main_v54, step_main_v53, step_main_cst_9, step_main_v52, step_main_cst_8]
  exact meanRow_stage _

theorem R_var0 (q : Fin 128) :
    ((𝔸 main_v55) : FVec Ideal S128 .f32) (ix1 q) = varRow nNodes (𝔸 main_v51) (ix2 (0 : Fin 1) q) := by
  rw [step_main_v55, step_main_call0_call0_v1, step_main_call0_call0_v0, step_main_call0_cst_4,
    step_main_call0_v12, step_main_call0_cst_3, step_main_call0_v11, step_main_call0_v10,
    step_main_call0_v9, step_main_call0_cst_2, step_main_call0_v8, step_main_call0_cst_1,
    step_main_call0_v7, step_main_call0_v6, step_main_call0_v5, step_main_call0_v4, step_main_call0_v3,
    step_main_call0_v2, step_main_call0_cst_0, step_main_call0_v1, step_main_call0_v0,
    step_main_call0_cst, step_main_c_10]
  exact var_stage_full _ q

theorem R_out0 :
    ((𝔸 main_v75) : FVec Ideal S50000x128 .f32) = bnRelu nNodes (𝔸 main_v51) (rowSlice (𝕞 main_arg5) 0) (rowSlice (𝕞 main_arg6) 0) := by
  rw [step_main_v75, step_main_call1_v0, step_main_call1_cst, step_main_v74, step_main_v73, step_main_v69,
    step_main_v68, step_main_v64, step_main_v63, step_main_v62, step_main_v61, step_main_v60,
    step_main_v59, step_main_cst_11, step_main_v58, step_main_v57, R_mean0, R_g0, R_b0]
  exact bn_stage _ _ _ _ (R_var0 m c)

theorem R_layer0 :
    ((𝔸 main_v75) : FVec Ideal S50000x128 .f32)
      = layerW (graphOf (𝕞 main_arg1)) (𝕞 main_arg0) (wSlice (𝕞 main_arg3) 0) (rowSlice (𝕞 main_arg4) 0) (rowSlice (𝕞 main_arg5) 0) (rowSlice (𝕞 main_arg6) 0) := by
  rw [R_out0, R_agg0, R_h0]
  rfl

/-! ## Layer 1 -/

theorem R_w1 :
    ((𝔸 main_v77) : FVec Ideal S128x128 .f32) = wSlice (𝕞 main_arg3) 1 := by
  rw [step_main_v77, step_main_v76, kept m c (r := main_arg3) (by decide)]
  exact wSlice_stage _ 1 _ _ rfl rfl rfl

theorem R_h1 :
    ((𝔸 main_v78) : FVec Ideal S50000x128 .f32) = mm (𝔸 main_v75) (wSlice (𝕞 main_arg3) 1) := by
  rw [step_main_v78, R_w1]
  exact dot_eq_mm _ rfl rfl rfl rfl rfl rfl _ _

theorem R_cb1 :
    ((𝔸 main_v96) : FVec Ideal S1x128 .f32) = rowSlice (𝕞 main_arg4) 1 := by
  rw [step_main_v96, step_main_v95, step_main_v94, kept m c (r := main_arg4) (by decide)]
  exact rowSlice_stage _ 1 _ _ rfl rfl

theorem R_g1 :
    ((𝔸 main_v114) : FVec Ideal S1x128 .f32) = rowSlice (𝕞 main_arg5) 1 := by
  rw [step_main_v114, step_main_v113, step_main_v112, kept m c (r := main_arg5) (by decide)]
  exact rowSlice_stage _ 1 _ _ rfl rfl

theorem R_b1 :
    ((𝔸 main_v119) : FVec Ideal S1x128 .f32) = rowSlice (𝕞 main_arg6) 1 := by
  rw [step_main_v119, step_main_v118, step_main_v117, kept m c (r := main_arg6) (by decide)]
  exact rowSlice_stage _ 1 _ _ rfl rfl

theorem R_agg1 :
    ((𝔸 main_v98) : FVec Ideal S50000x128 .f32) = aggWeighted (graphOf (𝕞 main_arg1)) (𝔸 main_v78) (rowSlice (𝕞 main_arg4) 1) := by
  rw [step_main_v98, step_main_v97, step_main_v93, step_main_v92, step_main_v91, step_main_v90,
    step_main_v88, step_main_cst_14, step_main_v87, step_main_v86, step_main_v85, step_main_v28,
    step_main_v27, step_main_v26, step_main_v25, step_main_v24, step_main_v17, R_main_v84, R_main_v16,
    R_main_v23, R_main_v89, R_main_v10, R_cb1]
  exact agg_stage _ _ _ _ _ _

theorem R_mean1 :
    ((𝔸 main_v103) : FVec Ideal S1x128 .f32) = meanRow nNodes (𝔸 main_v98) := by
  rw [step_main_v103, step_main_v101, step_main_v100, step_main_cst_16, step_main_v99, step_main_cst_15]
  exact meanRow_stage _

theorem R_var1 (q : Fin 128) :
    ((𝔸 main_v102) : FVec Ideal S128 .f32) (ix1 q) = varRow nNodes (𝔸 main_v98) (ix2 (0 : Fin 1) q) := by
  rw [step_main_v102, step_main_call2_call0_v1, step_main_call2_call0_v0, step_main_call2_cst_4,
    step_main_call2_v12, step_main_call2_cst_3, step_main_call2_v11, step_main_call2_v10,
    step_main_call2_v9, step_main_call2_cst_2, step_main_call2_v8, step_main_call2_cst_1,
    step_main_call2_v7, step_main_call2_v6, step_main_call2_v5, step_main_call2_v4, step_main_call2_v3,
    step_main_call2_v2, step_main_call2_cst_0, step_main_call2_v1, step_main_call2_v0,
    step_main_call2_cst, step_main_c_17]
  exact var_stage_full _ q

theorem R_out1 :
    ((𝔸 main_v122) : FVec Ideal S50000x128 .f32) = bnRelu nNodes (𝔸 main_v98) (rowSlice (𝕞 main_arg5) 1) (rowSlice (𝕞 main_arg6) 1) := by
  rw [step_main_v122, step_main_call3_v0, step_main_call3_cst, step_main_v121, step_main_v120,
    step_main_v116, step_main_v115, step_main_v111, step_main_v110, step_main_v109, step_main_v108,
    step_main_v107, step_main_v106, step_main_cst_18, step_main_v105, step_main_v104, R_mean1, R_g1,
    R_b1]
  exact bn_stage _ _ _ _ (R_var1 m c)

theorem R_layer1 :
    ((𝔸 main_v122) : FVec Ideal S50000x128 .f32)
      = layerW (graphOf (𝕞 main_arg1)) (𝔸 main_v75) (wSlice (𝕞 main_arg3) 1) (rowSlice (𝕞 main_arg4) 1) (rowSlice (𝕞 main_arg5) 1) (rowSlice (𝕞 main_arg6) 1) := by
  rw [R_out1, R_agg1, R_h1]
  rfl

/-! ## Layer 2 -/

theorem R_w2 :
    ((𝔸 main_v124) : FVec Ideal S128x128 .f32) = wSlice (𝕞 main_arg3) 2 := by
  rw [step_main_v124, step_main_v123, kept m c (r := main_arg3) (by decide)]
  exact wSlice_stage _ 2 _ _ rfl rfl rfl

theorem R_h2 :
    ((𝔸 main_v125) : FVec Ideal S50000x128 .f32) = mm (𝔸 main_v122) (wSlice (𝕞 main_arg3) 2) := by
  rw [step_main_v125, R_w2]
  exact dot_eq_mm _ rfl rfl rfl rfl rfl rfl _ _

theorem R_cb2 :
    ((𝔸 main_v143) : FVec Ideal S1x128 .f32) = rowSlice (𝕞 main_arg4) 2 := by
  rw [step_main_v143, step_main_v142, step_main_v141, kept m c (r := main_arg4) (by decide)]
  exact rowSlice_stage _ 2 _ _ rfl rfl

theorem R_g2 :
    ((𝔸 main_v161) : FVec Ideal S1x128 .f32) = rowSlice (𝕞 main_arg5) 2 := by
  rw [step_main_v161, step_main_v160, step_main_v159, kept m c (r := main_arg5) (by decide)]
  exact rowSlice_stage _ 2 _ _ rfl rfl

theorem R_b2 :
    ((𝔸 main_v166) : FVec Ideal S1x128 .f32) = rowSlice (𝕞 main_arg6) 2 := by
  rw [step_main_v166, step_main_v165, step_main_v164, kept m c (r := main_arg6) (by decide)]
  exact rowSlice_stage _ 2 _ _ rfl rfl

theorem R_agg2 :
    ((𝔸 main_v145) : FVec Ideal S50000x128 .f32) = aggWeighted (graphOf (𝕞 main_arg1)) (𝔸 main_v125) (rowSlice (𝕞 main_arg4) 2) := by
  rw [step_main_v145, step_main_v144, step_main_v140, step_main_v139, step_main_v138, step_main_v137,
    step_main_v135, step_main_cst_21, step_main_v134, step_main_v133, step_main_v132, step_main_v28,
    step_main_v27, step_main_v26, step_main_v25, step_main_v24, step_main_v17, R_main_v131, R_main_v16,
    R_main_v23, R_main_v136, R_main_v10, R_cb2]
  exact agg_stage _ _ _ _ _ _

theorem R_mean2 :
    ((𝔸 main_v150) : FVec Ideal S1x128 .f32) = meanRow nNodes (𝔸 main_v145) := by
  rw [step_main_v150, step_main_v148, step_main_v147, step_main_cst_23, step_main_v146, step_main_cst_22]
  exact meanRow_stage _

theorem R_var2 (q : Fin 128) :
    ((𝔸 main_v149) : FVec Ideal S128 .f32) (ix1 q) = varRow nNodes (𝔸 main_v145) (ix2 (0 : Fin 1) q) := by
  rw [step_main_v149, step_main_call4_call0_v1, step_main_call4_call0_v0, step_main_call4_cst_4,
    step_main_call4_v12, step_main_call4_cst_3, step_main_call4_v11, step_main_call4_v10,
    step_main_call4_v9, step_main_call4_cst_2, step_main_call4_v8, step_main_call4_cst_1,
    step_main_call4_v7, step_main_call4_v6, step_main_call4_v5, step_main_call4_v4, step_main_call4_v3,
    step_main_call4_v2, step_main_call4_cst_0, step_main_call4_v1, step_main_call4_v0,
    step_main_call4_cst, step_main_c_24]
  exact var_stage_full _ q

theorem R_out2 :
    ((𝔸 main_v169) : FVec Ideal S50000x128 .f32) = bnRelu nNodes (𝔸 main_v145) (rowSlice (𝕞 main_arg5) 2) (rowSlice (𝕞 main_arg6) 2) := by
  rw [step_main_v169, step_main_call5_v0, step_main_call5_cst, step_main_v168, step_main_v167,
    step_main_v163, step_main_v162, step_main_v158, step_main_v157, step_main_v156, step_main_v155,
    step_main_v154, step_main_v153, step_main_cst_25, step_main_v152, step_main_v151, R_mean2, R_g2,
    R_b2]
  exact bn_stage _ _ _ _ (R_var2 m c)

theorem R_layer2 :
    ((𝔸 main_v169) : FVec Ideal S50000x128 .f32)
      = layerW (graphOf (𝕞 main_arg1)) (𝔸 main_v122) (wSlice (𝕞 main_arg3) 2) (rowSlice (𝕞 main_arg4) 2) (rowSlice (𝕞 main_arg5) 2) (rowSlice (𝕞 main_arg6) 2) := by
  rw [R_out2, R_agg2, R_h2]
  rfl

/-! ## The pooling and the head -/

theorem R_pool :
    ((𝔸 main_v181) : FVec Ideal S1000x128 .f32) = pooledOf (batchCol (𝕞 main_arg2)) (𝔸 main_v169) := by
  rw [step_main_v181, step_main_v180, step_main_v179, step_main_v178, step_main_v177, step_main_cst_29,
    step_main_v176, step_main_v175, step_main_v174, step_main_cst_28, step_main_v173, step_main_cst_27,
    step_main_v172, step_main_v171, step_main_v170, step_main_cst_26,
    kept m c (r := main_arg2) (by decide), batchCol_stage]
  exact pooled_stage _ _

theorem R_head :
    ((𝔸 main_v190) : FVec Ideal S1000x6 .f32)
      = head (𝔸 main_v181) (𝕞 main_arg7) (rowOfVec (𝕞 main_arg8)) (𝕞 main_arg9) (rowOfVec (𝕞 main_arg10)) := by
  rw [step_main_v190, step_main_v189, step_main_v188, step_main_v187, step_main_v186, step_main_call6_v0,
    step_main_call6_cst, step_main_v185, step_main_v184, step_main_v183, step_main_v182,
    kept m c (r := main_arg7) (by decide), kept m c (r := main_arg8) (by decide),
    kept m c (r := main_arg9) (by decide), kept m c (r := main_arg10) (by decide)]
  exact head_stage _ _ _ _ _

/-- The reference's result: the network with the weighted aggregation, of the eleven arguments as launched. -/
theorem read_result :
    ((𝔸 main_v190) : S1000x6.Idx → EReal)
      = netW (𝕞 main_arg0) (𝕞 main_arg1) (𝕞 main_arg2) (𝕞 main_arg3) (𝕞 main_arg4) (𝕞 main_arg5)
          (𝕞 main_arg6) (𝕞 main_arg7) (𝕞 main_arg8) (𝕞 main_arg9) (𝕞 main_arg10) := by
  rw [R_head, R_pool, R_layer2, R_layer1, R_layer0]
  rfl

/-- The reference's run at the ideal instance: every weakly fair execution terminates with the result at `netW` of the
    launched arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v190) : S1000x6.Idx → EReal)
          = netW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c main_v190).trans (read_result m c),
     (h c main_arg0).trans (kept m c (by decide)),
     (h c main_arg1).trans (kept m c (by decide)),
     (h c main_arg2).trans (kept m c (by decide)),
     (h c main_arg3).trans (kept m c (by decide)),
     (h c main_arg4).trans (kept m c (by decide)),
     (h c main_arg5).trans (kept m c (by decide)),
     (h c main_arg6).trans (kept m c (by decide)),
     (h c main_arg7).trans (kept m c (by decide)),
     (h c main_arg8).trans (kept m c (by decide)),
     (h c main_arg9).trans (kept m c (by decide)),
     (h c main_arg10).trans (kept m c (by decide))⟩)
    (run_after m ρ)

end Cert.ReferenceIdeal.RefRead

end
-- ==== Proof.AggAlgebra.lean ====
/-
  The two aggregation forms agree.

  Let `d = dis n` be finite and non-negative.  On the extended reals a finite non-negative factor distributes over
  every sum (whatever the summands: infinities included), so
      d · ((0 + ∑ₑ h(sₑ) · dis(sₑ)) + d · h(n)) = (0 + ∑ₑ h(sₑ) · (dis(sₑ) · d)) + h(n) · (d · d),
  the sums over the edges `e` whose target is `n`.  For such an edge the target's own factor, read through the
  clamped gather, is `d` again — that is the one fact about the index columns the statement needs (`hhit`).
  Commutativity and associativity of the product do the rest; no finiteness of `h` is used.
-/
import proofs.«168746_j56882546868465_2_alg».proof.Proof.Model

noncomputable section

open scoped BigOperators

namespace Cert.GCN

open Idealize.ShloMosaic Idealize.ShloMosaic.ValueIdx Cert.Proof.LibRowIndex

/-- A finite non-negative factor distributes over a finite sum of extended reals. -/
theorem mul_sum_of_nonneg_of_ne_top {ι : Type*} (s : Finset ι) (f : ι → EReal) {d : EReal} (h0 : 0 ≤ d) (ht : d ≠ ⊤) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top h0 ht, ih]

/-- The factored aggregation is the weighted one, as soon as every `dis` entry is finite and non-negative and an
    edge that the scatter sends to row `n` reads row `n` of `dis` through the target gather. -/
theorem aggFactored_eq_aggWeighted (G : Graph)
    (hd0 : ∀ i, 0 ≤ G.dis i) (hdt : ∀ i, G.dis i ≠ ⊤)
    (hhit : ∀ (e : Fin 800000) (n : Fin 50000), (G.dstS (ix2 e ⟨0, Nat.one_pos⟩)).toInt = (n.val : Int) →
      gatherRow 50000 (by decide) G.dstG e = n)
    (h : (⟨2, ![50000, 128]⟩ : Shape).Idx → EReal) (cb : (⟨2, ![1, 128]⟩ : Shape).Idx → EReal) :
    aggFactored G h cb = aggWeighted G h cb := by
  funext i
  unfold aggFactored aggWeighted combine segSum gatherRows scaleRows
  have h0 := hd0 (ix2 (rowOf i) 0)
  have ht := hdt (ix2 (rowOf i) 0)
  generalize hdd : G.dis (ix2 (rowOf i) 0) = d at h0 ht
  simp only [rowOf_ix2, colOf_ix2]
  rw [EReal.left_distrib_of_nonneg_of_ne_top h0 ht, EReal.left_distrib_of_nonneg_of_ne_top h0 ht, mul_zero,
    mul_sum_of_nonneg_of_ne_top _ _ h0 ht]
  refine congrArg₂ (· + ·) (congrArg₂ (· + ·) (congrArg (0 + ·) (Finset.sum_congr rfl fun e he => ?_)) ?_) rfl
  · have hrow := hhit e (rowOf i) (Finset.mem_filter.mp he).2
    rw [hrow, hdd, mul_comm d, mul_assoc]
  · rw [← mul_assoc, mul_comm]

end Cert.GCN

end
-- ==== Proof.NetAlgebra.lean ====
/-
  The two networks are one function.

  Layer by layer the only difference is the aggregation, and the two aggregations agree on the graph of any edge
  array: its `dis` is finite and non-negative, and a target word that names a row reads that row.
-/
import proofs.«168746_j56882546868465_2_alg».proof.Proof.AggAlgebra
import proofs.«168746_j56882546868465_2_alg».proof.Proof.GraphFacts

noncomputable section

namespace Cert.GCN

open Idealize.ShloMosaic Idealize.ShloMosaic.ValueIdx

theorem layerF_eq_layerW (ei : (⟨2, ![2, 800000]⟩ : Shape).Idx → BitVec 32) :
    layerF (graphOf ei) = layerW (graphOf ei) := by
  funext x w cb g b
  unfold layerF layerW
  rw [aggFactored_eq_aggWeighted (graphOf ei) (fun i => (graphOf_dis_nonneg ei i).1) (fun i => (graphOf_dis_nonneg ei i).2)
    (graphOf_hit ei)]

theorem netF_eq_netW (x : (⟨2, ![50000, 128]⟩ : Shape).Idx → EReal) (ei : (⟨2, ![2, 800000]⟩ : Shape).Idx → BitVec 32)
    (batch : (⟨1, ![50000]⟩ : Shape).Idx → BitVec 32) (cw : (⟨3, ![3, 128, 128]⟩ : Shape).Idx → EReal)
    (cb g b : (⟨2, ![3, 128]⟩ : Shape).Idx → EReal) (w1 : (⟨2, ![128, 128]⟩ : Shape).Idx → EReal)
    (b1 : (⟨1, ![128]⟩ : Shape).Idx → EReal) (w2 : (⟨2, ![128, 6]⟩ : Shape).Idx → EReal) (b2 : (⟨1, ![6]⟩ : Shape).Idx → EReal) :
    netF x ei batch cw cb g b w1 b1 w2 b2 = netW x ei batch cw cb g b w1 b1 w2 b2 := by
  unfold netF netW
  rw [layerF_eq_layerW]

end Cert.GCN

end
-- ==== Proof.lean ====
/-
  Both programs compute one three-layer graph convolution network on the extended reals.

  A layer multiplies the node features by a weight matrix, aggregates the products along the edges with the
  symmetric weights `dis (src) · dis (dst)` (`dis n` the inverse square root of one plus the number of edges into
  `n`) plus a self loop, adds a bias, normalises every column by its mean and variance over the nodes, scales,
  shifts and clips at zero; mean pooling per graph and a two-layer head follow.  The reference weights every edge
  inside the sum.  The kernel program scales the products by `dis` before the gather and by `dis` again after the
  sum, tile by tile, accumulates the column statistics across tiles, and fuses each normalisation with the next
  matrix product.  Since `dis` is a finite non-negative real it distributes over the sums of extended reals, and a
  target index that names a row reads that row of `dis`; sums over tiles regroup freely.  So both results are
  `netF = netW` of the arguments (Proof/NetAlgebra.lean), the kernel's by reading its 22 segments in turn
  (Proof/Chain*.lean over the region values Proof/Region*.lean), the reference's by reading its operations in
  turn (Proof/RefRead.lean).  The three frames are the runs with the result dropped; the idealization rewrote
  nothing, so `preserves` is trivial.
-/
import proofs.«168746_j56882546868465_2_alg».proof.Defs
import proofs.«168746_j56882546868465_2_alg».proof.Proof.Gen.Kernel
import proofs.«168746_j56882546868465_2_alg».proof.Proof.Gen.Kernel.Skeleton
import proofs.«168746_j56882546868465_2_alg».proof.Proof.Gen.Kernel.Launch
import proofs.«168746_j56882546868465_2_alg».proof.Proof.Gen.Kernel.Points
import proofs.«168746_j56882546868465_2_alg».proof.Proof.Gen.Kernel.Frame
import proofs.«168746_j56882546868465_2_alg».proof.Proof.Gen.KernelIdeal
import proofs.«168746_j56882546868465_2_alg».proof.Proof.Gen.KernelIdeal.Skeleton
import proofs.«168746_j56882546868465_2_alg».proof.Proof.Gen.KernelIdeal.Launch
import proofs.«168746_j56882546868465_2_alg».proof.Proof.Gen.KernelIdeal.Points
import proofs.«168746_j56882546868465_2_alg».proof.Proof.Gen.KernelIdeal.Frame
import proofs.«168746_j56882546868465_2_alg».proof.Proof.Gen.ReferenceIdeal
import proofs.«168746_j56882546868465_2_alg».proof.Proof.Gen.Pre_finite_inputs
import proofs.«168746_j56882546868465_2_alg».proof.Proof.KernelRun
import proofs.«168746_j56882546868465_2_alg».proof.Proof.ChainTail
import proofs.«168746_j56882546868465_2_alg».proof.Proof.RefRun
import proofs.«168746_j56882546868465_2_alg».proof.Proof.RefRead
import proofs.«168746_j56882546868465_2_alg».proof.Proof.NetAlgebra
import Idealize.ShloMosaic.Adequacy
import Idealize.ShloMosaic.Init

set_option maxRecDepth 16384

noncomputable section

namespace Cert.Proof

open Idealize.ShloMosaic Idealize.SL.Sem Cert.GCN

/-- The word-level kernel program runs and leaves its arguments alone. -/
theorem frame_p : Cert.frame_Kernel := fun m ρ _ => Cert.Kernel.Gen.frame m ρ
/-- So does the idealized kernel program. -/
theorem frame_pi : Cert.frame_KernelIdeal := fun m ρ _ => Cert.KernelIdeal.Gen.frame m ρ
/-- So does the idealized reference: no operation writes an argument. -/
theorem frame_ri : Cert.frame_ReferenceIdeal := fun m ρ _ => Cert.ReferenceIdeal.RefValue.frame (F := Ideal) m ρ

/-- The idealization rewrote no operation. -/
theorem preserves : Cert.preserves_Kernel_KernelIdeal := trivial

/-- From memories agreeing on the arguments both programs end at the same network of the arguments: the kernel
    program at the one with the factored aggregation, the reference at the one with the weighted aggregation, and
    the two are one function. -/
theorem algebraic : Cert.algebraic_KernelIdeal_ReferenceIdeal := by
  intro m ρ m' ρ' _ hagree
  refine ⟨fun c => netF
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run (Cert.KernelIdeal.defs (F := Ideal)) _ _).mono
      (fun r h c => ⟨(h c).1.trans (Cert.KernelIdeal.Chain.W22_v111 m ρ c), (h c).2⟩)
      (Cert.KernelIdeal.RunValue.run_result (F := Ideal) m ρ)
  · refine (θ_run (Cert.ReferenceIdeal.defs (F := Ideal)) _ _).mono (fun r h c => ⟨(h c).1.trans ?_, (h c).2⟩)
      (Cert.ReferenceIdeal.RefRead.run m' ρ')
    obtain ⟨h0, h1, h2, h3, h4, h5, h6, h7, h8, h9, h10⟩ := hagree c
    rw [h0, h1, h2, h3, h4, h5, h6, h7, h8, h9, h10]
    exact (netF_eq_netW _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
